-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 99999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S100000x128 : Shape := ⟨2, ![100000, 128]⟩
abbrev S10000x128 : Shape := ⟨2, ![10000, 128]⟩
abbrev S32x200x128 : Shape := ⟨3, ![32, 200, 128]⟩
abbrev S819200x128 : Shape := ⟨2, ![819200, 128]⟩
abbrev S200x128 : Shape := ⟨2, ![200, 128]⟩
abbrev S4x128x128 : Shape := ⟨3, ![4, 128, 128]⟩
abbrev S4 : Shape := ⟨1, ![4]⟩
abbrev S_ : Shape := ⟨0, ![]⟩
abbrev S1x200x128 : Shape := ⟨3, ![1, 200, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S4096x200x128 : Shape := ⟨3, ![4096, 200, 128]⟩

abbrev nBuf : Table → Nat
  | .hbm => 6
  | .local .tc .vmem => 4
  | .local .scVector .vmem => 2
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S100000x128, .f32⟩
  | .hbm, ⟨3, _⟩ => ⟨S32x200x128, .i32⟩
  | .hbm, ⟨4, _⟩ => ⟨S819200x128, .f32⟩
  | .hbm, ⟨5, _⟩ => ⟨S4096x200x128, .f32⟩
  | .local .tc .vmem, ⟨0, _⟩ => ⟨S10000x128, .f32⟩
  | .local .tc .vmem, ⟨1, _⟩ => ⟨S10000x128, .f32⟩
  | .local .tc .vmem, ⟨2, _⟩ => ⟨S10000x128, .f32⟩
  | .local .tc .vmem, ⟨3, _⟩ => ⟨S10000x128, .f32⟩
  | .local .scVector .vmem, ⟨0, _⟩ => ⟨S200x128, .i32⟩
  | .local .scVector .vmem, ⟨1, _⟩ => ⟨S4x128x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_254_r0 : BitVec 32 := 0#32
  let c0_i32_255_r0 : BitVec 32 := 0#32
  ![v1.toNat, 0, 0]
def k1_off2 (i : grid1.Coords) (c0_i32_30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v31 : BitVec 32 := Scalar.addi v2 c0_i32_30
  let c0_i32_35 : BitVec 32 := 0#32
  ![v31.toNat, 0]
def k1_off2_at (r : Fin 8) : BitVec 32 :=
  if r.val < 4 then
    if r.val < 2 then
      if r.val < 1 then
        0#32
      else
        128#32
    else
      if r.val < 3 then
        256#32
      else
        384#32
  else
    if r.val < 6 then
      if r.val < 5 then
        25088#32
      else
        25216#32
    else
      if r.val < 7 then
        25344#32
      else
        25472#32
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_66 : BitVec 32 := 0#32
  ![v2.toNat, 0]
@[reducible] def k1_t1_loop : Scf.Loop 32 :=
  let c1_i32_125 : BitVec 32 := 1#32
  let c48_i32 : BitVec 32 := 48#32
  let v125 : BitVec 32 := Scalar.addi c1_i32_125 c48_i32
  let c1_i32_126 : BitVec 32 := 1#32
  ⟨c1_i32_125, v125, c1_i32_126⟩
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_259 : BitVec 32 := 0#32
  ![v2.toNat, 0]
def k1_off5 (k1_t1 : Fin k1_t1_loop.trips) (c0_i32_263 : BitVec 32) : Fin 2 → Nat :=
  let c1_i32_125 : BitVec 32 := 1#32
  let c1_i32_126 : BitVec 32 := 1#32
  let arg9 : BitVec 32 := Scf.iv c1_i32_125 c1_i32_126 k1_t1
  let c4_i32_254 : BitVec 32 := 4#32
  let v252 : BitVec 32 := Scalar.muli arg9 c4_i32_254
  let v261 : BitVec 32 := Scalar.addi v252 c0_i32_263
  let c2_i32_264 : BitVec 32 := 2#32
  let v262 : BitVec 32 := Scalar.addi v261 c2_i32_264
  let c0_i32_269 : BitVec 32 := 0#32
  ![v262.toNat, 0]
def k1_off6 (i : grid1.Coords) (k1_t1 : Fin k1_t1_loop.trips) (c0_i32_280 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c1_i32_125 : BitVec 32 := 1#32
  let c1_i32_126 : BitVec 32 := 1#32
  let arg9 : BitVec 32 := Scf.iv c1_i32_125 c1_i32_126 k1_t1
  let c4_i32_254 : BitVec 32 := 4#32
  let v252 : BitVec 32 := Scalar.muli arg9 c4_i32_254
  let v277 : BitVec 32 := Scalar.addi v252 c0_i32_280
  let c128_i32_281 : BitVec 32 := 128#32
  let v278 : BitVec 32 := Scalar.muli v277 c128_i32_281
  let v279 : BitVec 32 := Scalar.addi v2 v278
  let c0_i32_286 : BitVec 32 := 0#32
  ![v279.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S10000x128_S10000x128_0_0 : ∀ a, (![0, 0] : Fin 2 → Nat) a + S10000x128.size a ≤ S10000x128.size a
  h_S10000x128 : 0 < S10000x128.numel
  shapeCasts_S4096x200_S32x200x128 : S4096x200.ShapeCasts S32x200x128
  squeezes_S1x200x128_S200x128 : S1x200x128.Squeezes S200x128
  inb_S4x128x128_S1x128x128_0_0_0 : ∀ a, (![0, 0, 0] : Fin 3 → Nat) a + S1x128x128.size a ≤ S4x128x128.size a
  squeezes_S1x128x128_S128x128 : S1x128x128.Squeezes S128x128
  inb_S200x128_S1x128_0_0 : ∀ a, (![0, 0] : Fin 2 → Nat) a + S1x128.size a ≤ S200x128.size a
  squeezes_S1x128_S128 : S1x128.Squeezes S128
  inb_S100000x128_S100000x128_0_0 : ∀ a, (![0, 0] : Fin 2 → Nat) a + S100000x128.size a ≤ S100000x128.size a
  inb_S4_S1_0 : ∀ a, (![0] : Fin 1 → Nat) a + S1.size a ≤ S4.size a
  squeezes_S1_S_ : S1.Squeezes S_
  gathers_S100000x128_S128x128 : S100000x128.Gathers 0 S128x128
  inb_S4x128x128_S1x128x128_1_0_0 : ∀ a, (![1, 0, 0] : Fin 3 → Nat) a + S1x128x128.size a ≤ S4x128x128.size a
  inb_S200x128_S1x128_1_0 : ∀ a, (![1, 0] : Fin 2 → Nat) a + S1x128.size a ≤ S200x128.size a
  inb_S4_S1_1 : ∀ a, (![1] : Fin 1 → Nat) a + S1.size a ≤ S4.size a
  inb_S4x128x128_S1x128x128_2_0_0 : ∀ a, (![2, 0, 0] : Fin 3 → Nat) a + S1x128x128.size a ≤ S4x128x128.size a
  inb_S200x128_S1x128_2_0 : ∀ a, (![2, 0] : Fin 2 → Nat) a + S1x128.size a ≤ S200x128.size a
  inb_S4_S1_2 : ∀ a, (![2] : Fin 1 → Nat) a + S1.size a ≤ S4.size a
  inb_S4x128x128_S1x128x128_3_0_0 : ∀ a, (![3, 0, 0] : Fin 3 → Nat) a + S1x128x128.size a ≤ S4x128x128.size a
  inb_S200x128_S1x128_3_0 : ∀ a, (![3, 0] : Fin 2 → Nat) a + S1x128.size a ≤ S200x128.size a
  inb_S4_S1_3 : ∀ a, (![3] : Fin 1 → Nat) a + S1.size a ≤ S4.size a
  inb_S200x128_S1x128_4_0 : ∀ a, (![4, 0] : Fin 2 → Nat) a + S1x128.size a ≤ S200x128.size a
  inb_S200x128_S1x128_5_0 : ∀ a, (![5, 0] : Fin 2 → Nat) a + S1x128.size a ≤ S200x128.size a
  inb_S200x128_S1x128_198_0 : ∀ a, (![198, 0] : Fin 2 → Nat) a + S1x128.size a ≤ S200x128.size a
  inb_S200x128_S1x128_199_0 : ∀ a, (![199, 0] : Fin 2 → Nat) a + S1x128.size a ≤ S200x128.size a
  shapeCasts_S819200x128_S4096x200x128 : S819200x128.ShapeCasts S4096x200x128
  hcc1_scratch2 : 4 + S4.numel ≤ 13
  hcc1_scratch3 : 8 + S4.numel ≤ 13
  hcc1_scoped0 : 12 + S_.numel ≤ 13
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hcore1 : grid1.bound 0 ≤ τ.nSC
  hsub1 : grid1.bound 1 ≤ τ.nSub
  k1_off1_inb : ∀ i : grid1.Coords, ∀ a, (k1_off1 i) a + S1x200x128.size a ≤ S32x200x128.size a
  k1_off2_inb : ∀ i : grid1.Coords, ∀ (r : Fin 8), ∀ a, (k1_off2 i (k1_off2_at r)) a + S128x128.size a ≤ S819200x128.size a
  k1_off3_inb : ∀ i : grid1.Coords, ∀ a, (k1_off3 i) a + S128x128.size a ≤ S819200x128.size a
  k1_t1_ok : k1_t1_loop.OK
  k1_off4_inb : ∀ i : grid1.Coords, ∀ a, (k1_off4 i) a + S128x128.size a ≤ S819200x128.size a
  k1_off5_inb : ∀ k1_t1 : Fin k1_t1_loop.trips, ∀ (r : Fin 4), ∀ a, (k1_off5 k1_t1 (BitVec.ofNat 32 r.val)) a + S1x128.size a ≤ S200x128.size a
  k1_off6_inb : ∀ (i : grid1.Coords) (k1_t1 : Fin k1_t1_loop.trips), ∀ (r : Fin 4), ∀ a, (k1_off6 i k1_t1 (BitVec.ofNat 32 r.val)) a + S128x128.size a ≤ S819200x128.size a

variable [Facts₀]

abbrev cc1_scratch2 : DmaSems sig S4 := SemArray.consecutive 4 S4 hcc1_scratch2
abbrev cc1_scratch3 : DmaSems sig S4 := SemArray.consecutive 8 S4 hcc1_scratch3
abbrev cc1_scoped0 : DmaSems sig S_ := SemArray.consecutive 12 S_ hcc1_scoped0

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x200 : Shape := ⟨2, ![4096, 200]⟩
abbrev S100000x128 : Shape := ⟨2, ![100000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | .hbm, ⟨25, _⟩ => ⟨S_, .f32⟩
  | .hbm, ⟨26, _⟩ => ⟨S4096x200x128, .f32⟩
  | .hbm, ⟨27, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S100000x128_S4096x200x1_S4096x200x128_2_0_n_n_0_2_1128_wf : GatherDims.WF S100000x128 S4096x200x1 S4096x200x128 [2] [0] [] [0] [] 2 ![1, 128]

variable [Facts₀]

def gather_S100000x128_S4096x200x1_S4096x200x128_2_0_n_n_0_2_1128 : GatherDims S100000x128 S4096x200x1 S4096x200x128 where
  offsetDims := [2]
  collapsedSliceDims := [0]
  operandBatchingDims := []
  startIndicesBatchingDims := []
  startIndexMap := [0]
  indexVectorDim := 2
  sliceSizes := ![1, 128]
  wf := gather_S100000x128_S4096x200x1_S4096x200x128_2_0_n_n_0_2_1128_wf

class Facts : Prop extends Facts₀ where

variable [Facts]
-- ==== Proof.PreRange.lean ====
/-
  The range of the integer argument, read off the precondition.

  The precondition is one bit: "every entry of the table is finite" and "every token t has 0 ≤ t and t ≤ 99999, both
  read as signed 32-bit numbers".  The second half is a conjunction over all 4096 × 200 entries, folded by `and` from 1;
  it is 1 only if the two comparisons are 1 at every entry.  A word that is nonnegative and at most 99999 when read signed
  has its top bit clear, so its unsigned value is the same number, and that number is below 100000.  The statement is
  generic in the float instance: the token half of the precondition never looks at a float.
-/
import proofs.«217237_g17617955848579_cont_7to1_1664_16_alg».proof.Pre_input_domain
import proofs.«217237_g17617955848579_cont_7to1_1664_16_alg».proof.Proof.Gen.Pre_input_domain
import Idealize.ShloMosaic.Lib.ReduceAll

namespace Cert.Proof.Ref

open Idealize.ShloMosaic

/-- A 32-bit word that lies between 0 and 99999 as a signed number is below 100000 as an unsigned one. -/
theorem toNat_lt_of_signed_range (w : BitVec 32) (h0 : IntOp.cmpi .sge w 0#32 = 1#1)
    (h1 : IntOp.cmpi .sle w 99999#32 = 1#1) : w.toNat < 100000 := by
  rw [IntOp.cmpi_sge, show (0#32 : BitVec 32).toInt = 0 from by decide] at h0
  rw [IntOp.cmpi_sle, show (99999#32 : BitVec 32).toInt = 99999 from by decide] at h1
  have hlt := w.isLt
  rw [BitVec.toInt_eq_toNat_cond] at h0 h1
  split at h0 <;> split at h1 <;> omega

/-- Under the precondition every token, read unsigned, is a row number of the table. -/
theorem tok_lt {F : FTy → Type} [FloatOps F] (tok : IVec Cert.Pre_input_domain.S4096x200 32)
    (lut : FVec F Cert.Pre_input_domain.S100000x128 .f32)
    (h : Cert.Pre_input_domain.fn (F := F) tok lut = fun _ => 1#1) : ∀ j, (tok j).toNat < 100000 := by
  intro j
  haveI : Subsingleton Cert.Pre_input_domain.S_.Idx := ⟨fun a b => funext fun d => d.elim0⟩
  have e := congrFun h (fun d => d.elim0)
  dsimp only [Cert.Pre_input_domain.fn] at e
  -- the whole predicate is the `and` of the finiteness half and the range half
  have e2 := (IntOp.andi_eq_one.1 e).2
  -- the range half is a fold by `and` over every entry: each entry's bit is 1
  have e3 := Host.reduce_andi_all _ _ _ _ _ e2 j
  -- an entry's bit is the `and` of its two comparisons
  obtain ⟨h0, h1⟩ := IntOp.andi_eq_one.1 e3
  exact toNat_lt_of_signed_range _ h0 h1

end Cert.Proof.Ref
-- ==== Proof.RefRun.lean ====
/-
  The reference program run from start to end.

  The reference is a straight line of 26 tensor operations: the 23 of the table lookup (a negative token wrapped by adding
  the table's height; a mask saying which tokens name a row; the row gather; rows of masked-out tokens replaced by NaN)
  followed by the scale constant, its broadcast and the product.  Written as a list, the program is that list run in
  order, so every buffer ends at the list's fold over the launch contents.  The fold at the result buffer is stated as a
  chain of named pure stages of the two arguments (`wrapped`, `rowIdx`, `inRange`, `gathered`, `taken`, `refOut`); the
  arguments' own buffers are written by no operation and keep their contents.  Everything here is generic in the float
  instance.
-/
import proofs.«217237_g17617955848579_cont_7to1_1664_16_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem
open Idealize.ShloMosaic.StableHlo

variable {F : FTy → Type} [FloatOps F]

/-! ## The stages, as pure functions of the arguments -/

/-- The token with a negative value wrapped: `t + 100000` where `t < 0` (signed), else `t`. -/
def wrapped (tok : IVec S4096x200 32) : IVec S4096x200 32 :=
  select (cmpi .slt tok (broadcastInDim S4096x200 ![] bcast_S_S4096x200 (constantI S_ 32 0#32)))
    (addi tok (broadcastInDim S4096x200 ![] bcast_S_S4096x200 (constantI S_ 32 100000#32))) tok

/-- The wrapped tokens as the gather's index array: a trailing axis of extent one. -/
def rowIdx (tok : IVec S4096x200 32) : IVec S4096x200x1 32 :=
  broadcastInDim S4096x200x1 ![0, 1] bcast_S4096x200_S4096x200x1_0_1 (wrapped tok)

/-- The mask: 1 where the wrapped token lies in `[0, 99999]` (signed), the conjunction over the trailing unit axis. -/
def inRange (tok : IVec S4096x200 32) : IVec S4096x200 1 :=
  Host.reduce IntOp.andi
    (andi (cmpi .sge (rowIdx tok) (broadcastInDim S4096x200x1 ![] bcast_S_S4096x200x1 (constantI S_ 32 0#32)))
      (cmpi .sle (rowIdx tok) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

/-- The rows of the table the index array names. -/
def gathered (tok : IVec S4096x200 32) (lut : FVec F S100000x128 .f32) : FVec F S4096x200x128 .f32 :=
  Host.gather gather_S100000x128_S4096x200x1_S4096x200x128_2_0_n_n_0_2_1128 lut (rowIdx tok)

/-- The lookup's result: the gathered row where the mask is 1, NaN elsewhere. -/
def taken (tok : IVec S4096x200 32) (lut : FVec F S100000x128 .f32) : FVec F S4096x200x128 .f32 :=
  select (broadcastInDim S4096x200x128 ![0, 1] bcast_S4096x200_S4096x200x128_0_1 (inRange tok)) (gathered tok lut)
    (broadcastInDim S4096x200x128 ![] bcast_S_S4096x200x128 (constant S_ .f32 0x7FC00000#32))

/-- The program's result: the lookup times the broadcast scale constant. -/
def refOut (tok : IVec S4096x200 32) (lut : FVec F S100000x128 .f32) : FVec F S4096x200x128 .f32 :=
  mulf (taken tok lut) (broadcastInDim S4096x200x128 ![] bcast_S_S4096x200x128 (constant S_ .f32 0x413504F3#32))

/-! ## The program as a list of operations -/

/-- The 26 operations in order, the two outlined functions unfolded at their calls: the lookup's 23 (the wrap's select
    is the inner function's one operation) into the call's own buffers, then the constant, its broadcast, the product. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 100000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 99999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S100000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select,
    nullary main_cst (constant S_ .f32 0x413504F3#32),
    unary main_cst main_v1 (broadcastInDim S4096x200x128 ![] bcast_S_S4096x200x128 : (⟨S_, .f32⟩ : BufTy).Contents (Elt F) → (⟨S4096x200x128, .f32⟩ : BufTy).Contents (Elt F)),
    binary main_v0 main_v1 main_v2 (mulf : (⟨S4096x200x128, .f32⟩ : BufTy).Contents (Elt F) → (⟨S4096x200x128, .f32⟩ : BufTy).Contents (Elt F) → (⟨S4096x200x128, .f32⟩ : BufTy).Contents (Elt F)) ]

set_option maxRecDepth 1024 in
/-- The program is that straight line: the two functions unfolded at their calls, and sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub ..⟩

/-! ## What the buffers hold after the line -/

attribute [local irreducible] Host.reduce Host.gather in
set_option maxRecDepth 8192 in
/-- The result buffer after the line is the staged term of the two argument buffers: the fold unrolled, each operation
    read at the buffer it writes.  The reduction and the gather are kept closed: the equation never looks inside. -/
theorem out_eq (V : Valuation τ sig (Elt F)) :
    after ops V (main_v2 : DevRef τ sig) = refOut (V (main_arg0 : DevRef τ sig)) (V (main_arg1 : DevRef τ sig)) := by
  unfold refOut taken gathered inRange rowIdx wrapped
  after_results_simp
  rfl

/-- No operation writes the token buffer. -/
theorem arg0_eq (V : Valuation τ sig (Elt F)) : after ops V (main_arg0 : DevRef τ sig) = V (main_arg0 : DevRef τ sig) := by
  after_results_simp

/-- No operation writes the table buffer. -/
theorem arg1_eq (V : Valuation τ sig (Elt F)) : after ops V (main_arg1 : DevRef τ sig) = V (main_arg1 : DevRef τ sig) := by
  after_results_simp

/-- Every weakly fair execution of the reference terminates, the result buffer at `refOut` of the launch contents of
    the arguments, and the arguments unchanged. -/
theorem run_staged (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.Spec.lean ====
/-
  The function both programs compute, stated once over the argument arrays.

  `tokens` is an integer array of shape [4096, 200] and `lut` a float table of shape [100000, 128].  The result has shape
  [4096, 200, 128]: entry (a, b, k) is entry (row, k) of the table times the constant `√128` rounded to f32 (the word
  `0x413504F3`), where `row` is the row number `tokens[a, b]` names.  A row number outside the table is clamped to the
  last row so that the function is total; under the certificate's precondition `0 ≤ tokens ≤ 99999` nothing is clamped.
  The same word stands for the constant on both sides, so it is never evaluated.
-/
import Idealize.ShloMosaic.PureOps.Ideal
import Idealize.ShloMosaic.Lib.ValueIdx

noncomputable section

namespace Cert.Proof.Spec

open Idealize.ShloMosaic Idealize.ShloMosaic.ValueIdx

abbrev STok : Shape := ⟨2, ![4096, 200]⟩
abbrev SLut : Shape := ⟨2, ![100000, 128]⟩
abbrev SOut : Shape := ⟨3, ![4096, 200, 128]⟩

variable {F : FTy → Type} [FloatOps F]

/-- The table row a token word names: its unsigned value, clamped to the last row. -/
def rowOf (w : BitVec 32) : Fin 100000 := ⟨min w.toNat 99999, by omega⟩

theorem rowOf_val_of_lt {w : BitVec 32} (h : w.toNat < 100000) : (rowOf w).val = w.toNat := by
  show min w.toNat 99999 = w.toNat
  omega

/-- The scale both programs multiply by: the f32 word of `128 ** 0.5`. -/
def scaleC : F .f32 := FloatOps.ofBits .f32 0x413504F3#32

/-- The scaled table: every entry of `lut` times the constant. -/
def scaled (lut : FVec F SLut .f32) : FVec F SLut .f32 := fun j => FloatOps.mulf (lut j) scaleC

/-- The result: entry (a, b, k) is the scaled table at (row tokens[a, b], k). -/
def G (tok : IVec STok 32) (lut : FVec F SLut .f32) : FVec F SOut .f32 :=
  fun i => FloatOps.mulf (lut (ix2 (rowOf (tok (ix2 (i 0) (i 1)))) (i 2))) scaleC

theorem G_eq_scaled (tok : IVec STok 32) (lut : FVec F SLut .f32) (i : SOut.Idx) :
    G tok lut i = scaled lut (ix2 (rowOf (tok (ix2 (i 0) (i 1)))) (i 2)) := rfl

end Cert.Proof.Spec

end
-- ==== Proof.RefValue.lean ====
/-
  The reference's result, read at an index, is the specification.

  Under the range fact "every token, read unsigned, is below 100000" each stage of the lookup simplifies.  A token in
  range has its top bit clear, so it is not negative: the wrap keeps it.  The same token passes both comparisons of the
  mask, and a conjunction of ones folded from 1 is 1: the mask is 1 everywhere.  The gather reads, for result entry
  (a, b, k), the table at (r, k) where r is the start index `rowIdx[a, b, 0]` read signed and clamped into [0, 99999] —
  the operand's axis 0 is the one the start index addresses and is collapsed, axis 1 is carried by the result's axis 2 —
  and a signed reading of a word with its top bit clear is its unsigned value.  The select on a mask of ones keeps the
  gathered value, and the product with the broadcast constant is the specification's product with the same word.
  Everything is generic in the float instance: no float is ever evaluated.
-/
import proofs.«217237_g17617955848579_cont_7to1_1664_16_alg».proof.Proof.RefRun
import proofs.«217237_g17617955848579_cont_7to1_1664_16_alg».proof.Proof.Spec
import Idealize.ShloMosaic.Lib.ValueIdx
import Idealize.ShloMosaic.PureOps.Reduce

noncomputable section

namespace Cert.Proof.Ref

open Cert.ReferenceIdeal Cert.ReferenceIdeal.Gen Idealize.ShloMosaic Idealize.ShloMosaic.ValueIdx

variable {F : FTy → Type} [FloatOps F]

/-! ## Words in range -/

/-- A word below 100000 unsigned reads the same number signed. -/
theorem toInt_of_lt {w : BitVec 32} (h : w.toNat < 100000) : w.toInt = (w.toNat : Int) :=
  BitVec.toInt_eq_toNat_of_lt (by omega)

/-- A word in range is not negative: the signed test `w < 0` answers 0. -/
theorem slt_zero_of_lt {w : BitVec 32} (h : w.toNat < 100000) : IntOp.cmpi .slt w 0#32 = 0#1 := by
  apply eq_zero_of_ne_one
  rw [IntOp.cmpi_slt, toInt_of_lt h, show (0#32 : BitVec 32).toInt = 0 from by decide]
  omega

/-- A word in range passes the signed test `w ≥ 0`. -/
theorem sge_zero_of_lt {w : BitVec 32} (h : w.toNat < 100000) : IntOp.cmpi .sge w 0#32 = 1#1 := by
  rw [IntOp.cmpi_sge, toInt_of_lt h, show (0#32 : BitVec 32).toInt = 0 from by decide]
  omega

/-- A word in range passes the signed test `w ≤ 99999`. -/
theorem sle_max_of_lt {w : BitVec 32} (h : w.toNat < 100000) : IntOp.cmpi .sle w 99999#32 = 1#1 := by
  rw [IntOp.cmpi_sle, toInt_of_lt h, show (99999#32 : BitVec 32).toInt = 99999 from by decide]
  omega

/-- The gather's clamp of a word in range is the specification's row number. -/
theorem clamp_eq_rowOf {w : BitVec 32} (h : w.toNat < 100000) : min w.toInt.toNat 99999 = (Spec.rowOf w).val := by
  rw [toInt_of_lt h, Int.toNat_natCast]
  rfl

/-! ## A conjunction of ones -/

/-- A left fold by `and` from 1 over ones is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l fun n hn => h n (List.mem_cons_of_mem _ hn)

/-- A reduction by `and` from the constant 1 of an array of ones is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x _ fun n _ => hx n

/-! ## The stages at an index -/

/-- The index array at (a, b, 0) is the wrapped token at (a, b). -/
theorem rowIdx_apply (tok : IVec S4096x200 32) (k : S4096x200x1.Idx) : rowIdx tok k = wrapped tok (ix2 (k 0) (k 1)) := by
  show wrapped tok _ = wrapped tok _
  congr 1
  funext a
  match a with
  | ⟨0, _⟩ => rfl
  | ⟨1, _⟩ => rfl

/-- A token in range is not wrapped. -/
theorem wrapped_apply (tok : IVec S4096x200 32) (hlt : ∀ j, (tok j).toNat < 100000) (j : S4096x200.Idx) :
    wrapped tok j = tok j := by
  show Scalar.select (IntOp.cmpi .slt (tok j) 0#32) _ (tok j) = tok j
  rw [slt_zero_of_lt (hlt j), select_zero]

/-- With every token in range the mask is 1 everywhere. -/
theorem inRange_apply (tok : IVec S4096x200 32) (hlt : ∀ j, (tok j).toNat < 100000) (j : S4096x200.Idx) :
    inRange tok j = 1#1 := by
  refine reduce_andi_ones _ _ _ _ (fun k => ?_) (fun _ => rfl) j
  show IntOp.andi (IntOp.cmpi .sge (rowIdx tok k) 0#32) (IntOp.cmpi .sle (rowIdx tok k) 99999#32) = 1#1
  rw [rowIdx_apply, wrapped_apply tok hlt, sge_zero_of_lt (hlt _), sle_max_of_lt (hlt _)]
  decide

/-- The record of the lookup's gather: operand [100000, 128], start indices [4096, 200, 1], result [4096, 200, 128]. -/
abbrev rowGather : GatherDims S100000x128 S4096x200x1 S4096x200x128 :=
  gather_S100000x128_S4096x200x1_S4096x200x128_2_0_n_n_0_2_1128

/-- THE GATHER READ AT (a, b, k): the table at (r, k), r the start index at (a, b, 0) read signed and clamped into
    [0, 99999].  On the operand's axis 0 the index is the clamped start alone (no batching axis; the axis is collapsed, so
    no offset); on axis 1 the start is 0 (the start index names axis 0 only) and the offset is the result's coordinate
    on its one offset axis, 2. -/
theorem gather_apply {α : Type} (x : S100000x128.Idx → α) (idx : IVec S4096x200x1 32) (i : S4096x200x128.Idx) :
    Host.gather rowGather x idx i
      = x (ix2 (⟨min (idx (ix3 (i 0) (i 1) (0 : Fin 1))).toInt.toNat 99999, by omega⟩ : Fin 100000) (i 2)) := by
  unfold Host.gather
  congr 1
  funext a
  refine Fin.ext ?_
  match a with
  | ⟨0, _⟩ =>
    show rowGather.start i idx 0 + rowGather.batchCoord i 0 + rowGather.offCoord i 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowGather.startIndexMap from List.mem_singleton.mpr rfl)]
    have hsi : rowGather.siIdx i ⟨List.idxOf (0 : Fin 2) rowGather.startIndexMap,
        List.idxOf_lt_length_iff.2 (List.mem_singleton.mpr rfl)⟩ = ix3 (i 0) (i 1) (0 : Fin 1) := by
      funext b; refine Fin.ext ?_
      match b with
      | ⟨0, _⟩ => rfl
      | ⟨1, _⟩ => rfl
      | ⟨2, _⟩ => rfl
    rw [hsi]
    rfl
  | ⟨1, _⟩ =>
    show rowGather.start i idx 1 + rowGather.batchCoord i 1 + rowGather.offCoord i 1 = (i 2).val
    rw [GatherDims.batchCoord_eq_zero _ _ _ List.not_mem_nil]
    have hs : rowGather.start i idx 1 = 0 := by
      unfold GatherDims.start
      rw [dif_neg (show (1 : Fin 2) ∉ rowGather.startIndexMap from by decide)]
    have ho : rowGather.offCoord i 1 = (i 2).val := by
      unfold GatherDims.offCoord
      rw [dif_pos (show (1 : Fin 2) ∈ rowGather.sKept from by decide)]
      rfl
    rw [hs, ho, Nat.zero_add]

/-- With every token in range the gather reads the table's row the token names. -/
theorem gathered_apply (tok : IVec S4096x200 32) (lut : FVec F S100000x128 .f32) (hlt : ∀ j, (tok j).toNat < 100000)
    (i : S4096x200x128.Idx) : gathered tok lut i = lut (ix2 (Spec.rowOf (tok (ix2 (i 0) (i 1)))) (i 2)) := by
  show Host.gather rowGather lut (rowIdx tok) i = _
  rw [gather_apply]
  congr 1
  have e : rowIdx tok (ix3 (i 0) (i 1) (0 : Fin 1)) = tok (ix2 (i 0) (i 1)) := by
    rw [rowIdx_apply, wrapped_apply tok hlt]
  refine congrArg (fun r : Fin 100000 => ix2 r (i 2)) (Fin.ext ?_)
  show min (rowIdx tok (ix3 (i 0) (i 1) (0 : Fin 1))).toInt.toNat 99999 = _
  rw [e]
  exact clamp_eq_rowOf (hlt _)

/-- A broadcast of an array of ones is 1 at every index: a broadcast only re-indexes. -/
theorem broadcastInDim_ones {s t : Shape} (dims : Fin s.rank → Fin t.rank) (h : s.BroadcastsInDim t dims)
    (x : s.Idx → BitVec 1) (hx : ∀ j, x j = 1#1) (i : t.Idx) : broadcastInDim t dims h x i = 1#1 := hx _

/-- With every token in range the lookup keeps the gathered value. -/
theorem taken_apply (tok : IVec S4096x200 32) (lut : FVec F S100000x128 .f32) (hlt : ∀ j, (tok j).toNat < 100000)
    (i : S4096x200x128.Idx) : taken tok lut i = lut (ix2 (Spec.rowOf (tok (ix2 (i 0) (i 1)))) (i 2)) := by
  unfold taken
  rw [select_apply, broadcastInDim_ones _ _ (inRange tok) (inRange_apply tok hlt) i, select_one,
    gathered_apply tok lut hlt]

/-- THE REFERENCE IS THE SPECIFICATION: with every token in range its result is the table's named row times the constant. -/
theorem refOut_eq_G (tok : IVec S4096x200 32) (lut : FVec F S100000x128 .f32) (hlt : ∀ j, (tok j).toNat < 100000) :
    refOut tok lut = Spec.G tok lut := by
  funext i
  show FloatOps.mulf (taken tok lut i) (FloatOps.ofBits .f32 0x413504F3#32) = _
  rw [taken_apply tok lut hlt]
  rfl

end Cert.Proof.Ref

end
-- ==== Proof.RefSpec.lean ====
/-
  The reference under the certificate's precondition.

  The precondition bounds every token by 0 and 99999 (signed), so every token, read unsigned, names a row of the table;
  under that fact the reference's staged result is the specification `Spec.G` of the two arguments.  Its run therefore
  ends with the result buffer at `Spec.G` of the launch contents of the arguments and with the arguments unchanged; the
  frame is that run with the value forgotten.
-/
import proofs.«217237_g17617955848579_cont_7to1_1664_16_alg».proof.Defs
import proofs.«217237_g17617955848579_cont_7to1_1664_16_alg».proof.Proof.Gen.ReferenceIdeal
import proofs.«217237_g17617955848579_cont_7to1_1664_16_alg».proof.Proof.Gen.Pre_input_domain
import proofs.«217237_g17617955848579_cont_7to1_1664_16_alg».proof.Proof.PreRange
import proofs.«217237_g17617955848579_cont_7to1_1664_16_alg».proof.Proof.RefValue

noncomputable section

namespace Cert.Proof.Ref

open Idealize.ShloMosaic Idealize.SL.Sem

/-- Under the precondition every weakly fair execution of the reference terminates with the result buffer at the
    specification of the arguments' launch contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v2)
            = Cert.Proof.Spec.G (F := Ideal) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (refOut_eq_G _ _ (tok_lt _ _ (hpre c))), (h c).2⟩)
    (run_staged (F := Ideal) m ρ)

/-- The reference's frame: it terminates without a fault and its arguments end unchanged. -/
theorem frame : Cert.frame_ReferenceIdeal (hReferenceIdeal := Cert.ReferenceIdeal.Gen.facts)
    (hPre_input_domain := Cert.Pre_input_domain.Gen.facts) :=
  fun m ρ hpre => (θ_run (Cert.ReferenceIdeal.defs (F := Ideal)) _ _).mono (fun _ h c => (h c).2) (run m ρ hpre)

end Cert.Proof.Ref

end
-- ==== Proof.RefAgree.lean ====
/-
  The precondition transfers between memories that agree on the arguments.

  The precondition is a predicate of the two argument arrays alone (tokens in range, table finite).  The idealized kernel
  and the reference are compared from memories that hold the same two arrays, so the precondition assumed of the
  kernel's memory holds of the reference's.
-/
import proofs.«217237_g17617955848579_cont_7to1_1664_16_alg».proof.Defs
import proofs.«217237_g17617955848579_cont_7to1_1664_16_alg».proof.Proof.Gen.Pre_input_domain

noncomputable section

namespace Cert.Proof.Ref

open Idealize.ShloMosaic Idealize.SL.Sem

/-- Memories that agree on the argument arrays satisfy the precondition together. -/
theorem pre_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.Pre_ReferenceIdeal m' := fun c => by
  show Cert.Pre_input_domain.fn (F := Ideal) _ _ = _
  rw [(hagree c).1, (hagree c).2]
  exact hpre c

end Cert.Proof.Ref

end
-- ==== Proof.KICommon.lean ====
/-
  The gather kernel's program as the launch theorem sees it, and the names the tile's proof and the launch share.

  The device's TensorCore scales the table (`main_v0 = lut · c`), reshapes the tokens to one row of 200 × 128 words per tile
  (`main_v1`) and calls the SparseCores; tile `(c, s)` of the call has number `wid = 2 s + c`, reads row `wid` of
  `main_v1` and every row of `main_v0` its words name, and writes rows `[25600 · wid, 25600 · wid + 25600)` of `main_v2`:
  row `25600 · wid + 128 · j + k` of `main_v2` is row `main_v1[wid, j, k]` of `main_v0` (`outF`).
-/
import proofs.«217237_g17617955848579_cont_7to1_1664_16_alg».proof.KernelIdeal
import proofs.«217237_g17617955848579_cont_7to1_1664_16_alg».proof.Proof.Gen.KernelIdeal
import proofs.«217237_g17617955848579_cont_7to1_1664_16_alg».proof.Proof.Gen.KernelIdeal.Skeleton
import proofs.«217237_g17617955848579_cont_7to1_1664_16_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the region's staging cells' rounds, the transfers' counters -/

abbrev UH : Type := URounds (GSem nD τ sig) ℕ
/-- The TensorCore region's staging cells have rounds of their own. -/
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev tokLoc (d : Dev nD) : Loc nD τ sig := (SparseCore.T d).loc main_arg0
abbrev lutLoc (d : Dev nD) : Loc nD τ sig := (SparseCore.T d).loc main_arg1
abbrev tabLoc (d : Dev nD) : Loc nD τ sig := (SparseCore.T d).loc main_v0
abbrev idxLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

/-- The arrays as a tile names them, and a tile's two scratch buffers: the fetched words, the four row slots. -/
abbrev iV : Memref sig .scVector .hbm S32x200x128 .i32 := Memref.whole main_v1_scv
abbrev tV : Memref sig .scVector .hbm S100000x128 .f32 := Memref.whole main_v0_scv
abbrev oV : Memref sig .scVector .hbm S819200x128 .f32 := Memref.whole main_v2_scv
abbrev sI : Memref sig .scVector .vmem S200x128 .i32 := Memref.whole cc1_scratch0
abbrev sB : Memref sig .scVector .vmem S4x128x128 .f32 := Memref.whole cc1_scratch1

/-- Tile `(c, s)` has number `2 s + c`. -/
def wid (c : Fin 2) (s : Fin 16) : Fin 32 := ⟨2 * s.val + c.val, by omega⟩

theorem idiv : 32 ∣ S32x200x128.size 0 := ⟨1, rfl⟩
theorem odiv : 32 ∣ S819200x128.size 0 := ⟨25600, rfl⟩
/-- Row `w` of the reshaped tokens; the 25600 rows of the output tile `w` writes. -/
abbrev irow (w : Fin 32) : Rect S32x200x128 := Rect.part (s := S32x200x128) (a₀ := 0) idiv w
abbrev orow (w : Fin 32) : Rect S819200x128 := Rect.part (s := S819200x128) (a₀ := 0) odiv w
abbrev iRowSet (w : Fin 32) : Finset S32x200x128.Idx := ((iV).view.slice (irow w)).set
abbrev oRowSet (w : Fin 32) : Finset S819200x128.Idx := ((oV).view.slice (orow w)).set

/-- What the tiles leave in the output: row `p` is the table row that word `p` of the reshaped tokens (read row-major) names. -/
def outF (fi : IVec S32x200x128 32) (ft : FVec F S100000x128 .f32) : FVec F S819200x128 .f32 :=
  fun y => ft (ix2 (Spec.rowOf (fi (ix3 (⟨(y 0).val / 25600, by have h : (y 0).val < 819200 := (y 0).isLt; omega⟩ : Fin 32)
    (⟨(y 0).val % 25600 / 128, by omega⟩ : Fin 200) (⟨(y 0).val % 128, by omega⟩ : Fin 128)))) (y 1))

end Cert.Proof.KI

end
-- ==== Proof.KILaunchPay.lean ====
/-
  What the SparseCore call's handshakes carry.

  The call reads the reshaped tokens `main_v1` (32 rows of 200 × 128 words, one per tile), the scaled table `main_v0`
  and writes `main_v2` (32 blocks of 25600 rows, one per tile). Tile `(c, i)` — SparseCore `c`, subcore `i`, number
  `w = 2 i + c` — is handed row `w` of the tokens and block `w` of the output outright, and a READ SHARE of the whole
  table: the full share is halved once per SparseCore and each half four more times, one leaf per tile, so that all 32
  tiles read the table at once. A tile hands the same back with its block filled: row `25600 w + p` of the output is
  the table row that word `p` of the tile's token row names (`outF`). A SparseCore is handed its sixteen tiles' rows
  and blocks and its half of the table, and hands them back likewise.
-/
import proofs.«217237_g17617955848579_cont_7to1_1664_16_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## Read shares: a share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s share of the table: a half. Tile `i` of it: a sixteenth of that half. -/
abbrev coreQ (c : Fin 2) : PosShare TreeShare := leaf 1 fullShare c
abbrev tileQ (c : Fin 2) (i : Fin 16) : PosShare TreeShare := leaf 4 (coreQ c) i

variable [FloatOps F]

variable (m : (ℓ : Loc nD τ sig) → Buf (Elt F) ℓ)

/-! ## The arrays' contents as functions of the launch memory -/

/-- The tokens as the call reads them: the same words in row-major order, a row of 200 × 128 per tile. -/
def idxF (d : Dev nD) : IVec S32x200x128 32 := shapeCast S32x200x128 (m (tokLoc d)) shapeCasts_S4096x200_S32x200x128
/-- The scaled table. -/
def tabF (d : Dev nD) : FVec F S100000x128 .f32 := Spec.scaled (F := F) (m (lutLoc d))
/-- What the tiles leave in the output. -/
def resF (d : Dev nD) : FVec F S819200x128 .f32 := outF (idxF m d) (tabF m d)

/-- What the proof asks of the launch memory: every token names a row of the table. -/
def PreOK : Prop := ∀ (d : Dev nD) (j : S4096x200.Idx), (m (tokLoc d) j).toNat < 100000

/-- Then so does every word of the reshaped tokens: a reshape only re-addresses. -/
theorem idxF_lt (hpre : PreOK m) (d : Dev nD) (j : S32x200x128.Idx) : (idxF m d j).toNat < 100000 := hpre d _

/-! ## What the handshakes carry -/

abbrev idxRow (d : Dev nD) (w : Fin 32) : sProp 𝕄 := idxLoc d ↦[iRowSet w]{fullShare} idxF m d
abbrev tabSh (d : Dev nD) (q : PosShare TreeShare) : sProp 𝕄 := tabLoc d ↦{q} tabF m d
abbrev outRow (d : Dev nD) (w : Fin 32) (f : Buf (Elt F) (outLoc d)) : sProp 𝕄 := outLoc d ↦[oRowSet w]{fullShare} f

/-- A tile's task takes its row of the tokens, its share of the table, its block of the output as launched; -/
def goA (d : Dev nD) (c : Fin 2) (i : Fin 16) : sProp 𝕄 :=
  iprop(idxRow m d (wid c i) ∗ tabSh m d (tileQ c i) ∗ outRow d (wid c i) (m (outLoc d)))
/-- and brings them back, the block filled. -/
def tdA (d : Dev nD) (c : Fin 2) (i : Fin 16) : sProp 𝕄 :=
  iprop(idxRow m d (wid c i) ∗ tabSh m d (tileQ c i) ∗ outRow d (wid c i) (resF m d))
/-- A SparseCore takes its sixteen tiles' rows and blocks and its half of the table; -/
def stA (d : Dev nD) (c : Fin 2) : sProp 𝕄 :=
  iprop((bigSep Finset.univ fun i : Fin 16 => idxRow m d (wid c i)) ∗ tabSh m d (coreQ c)
    ∗ bigSep Finset.univ fun i : Fin 16 => outRow d (wid c i) (m (outLoc d)))
/-- and brings them back, the blocks filled. -/
def dnA (d : Dev nD) (c : Fin 2) : sProp 𝕄 :=
  iprop((bigSep Finset.univ fun i : Fin 16 => idxRow m d (wid c i)) ∗ tabSh m d (coreQ c)
    ∗ bigSep Finset.univ fun i : Fin 16 => outRow d (wid c i) (resF m d))

instance goA_storable (d : Dev nD) (c : Fin 2) (i : Fin 16) : BI.Storable (upEmb : UEmb _ 𝕄) (goA m d c i) := by unfold goA; infer_instance
instance tdA_storable (d : Dev nD) (c : Fin 2) (i : Fin 16) : BI.Storable (upEmb : UEmb _ 𝕄) (tdA m d c i) := by unfold tdA; infer_instance
instance stA_storable (d : Dev nD) (c : Fin 2) : BI.Storable (upEmb : UEmb _ 𝕄) (stA m d c) := by unfold stA; infer_instance
instance dnA_storable (d : Dev nD) (c : Fin 2) : BI.Storable (upEmb : UEmb _ 𝕄) (dnA m d c) := by unfold dnA; infer_instance

def P : (K (F := F)).Pay (nD := nD) (Val := Elt F) (Name := ℕ) (U := UU) where
  st := fun q d c => match q with | 0 => stA m d (Fin.cast nCore_zero c)
  dn := fun q d c => match q with | 0 => dnA m d (Fin.cast nCore_zero c)
  go := fun q d c i => match q with | 0 => goA m d (Fin.cast nCore_zero c) (Fin.cast nSub_zero i)
  td := fun q d c i => match q with | 0 => tdA m d (Fin.cast nCore_zero c) (Fin.cast nSub_zero i)
  x := fun _ _ => iprop(emp)

instance P_storable : (P (F := F) m).IsStorable where
  st q d c := match q with | 0 => (inferInstance : BI.Storable (upEmb : UEmb _ 𝕄) (stA m d (Fin.cast nCore_zero c)))
  dn q d c := match q with | 0 => (inferInstance : BI.Storable (upEmb : UEmb _ 𝕄) (dnA m d (Fin.cast nCore_zero c)))
  go q d c i := match q with | 0 => (inferInstance : BI.Storable (upEmb : UEmb _ 𝕄) (goA m d (Fin.cast nCore_zero c) (Fin.cast nSub_zero i)))
  td q d c i := match q with | 0 => (inferInstance : BI.Storable (upEmb : UEmb _ 𝕄) (tdA m d (Fin.cast nCore_zero c) (Fin.cast nSub_zero i)))

theorem P_st (d : Dev nD) (c : Fin ((K (F := F)).nCore 0)) : (P m).st 0 d c = stA m d (Fin.cast nCore_zero c) := rfl
theorem P_dn (d : Dev nD) (c : Fin ((K (F := F)).nCore 0)) : (P m).dn 0 d c = dnA m d (Fin.cast nCore_zero c) := rfl
theorem P_go (d : Dev nD) (c : Fin ((K (F := F)).nCore 0)) (i : Fin ((K (F := F)).nSub 0)) :
    (P m).go 0 d c i = goA m d (Fin.cast nCore_zero c) (Fin.cast nSub_zero i) := rfl
theorem P_td (d : Dev nD) (c : Fin ((K (F := F)).nCore 0)) (i : Fin ((K (F := F)).nSub 0)) :
    (P m).td 0 d c i = tdA m d (Fin.cast nCore_zero c) (Fin.cast nSub_zero i) := rfl
theorem P_x (q : Fin 1) (thr : Thread nD τ) : (P m).x q thr = iprop(emp) := rfl
theorem P_ox : (P m).ox = fun _ _ => 0 := rfl

end Cert.Proof.KI

end
-- ==== Proof.KILaunchRegion.lean ====
/-
  The scale region: @main's first line on the TensorCore.

  The TensorCore walks the table `lut` (100000 rows of 128 floats) in ten blocks of 10000 rows. At each block it
  loads the block, multiplies every entry by the constant `c` (the f32 word `0x413504F3`) and stores the product
  into the same block of `main_v0`. The blocks tile the table — row `r` lies in block `r / 10000` — so when the
  region ends `main_v0` holds the scaled table, entry by entry `lut[r, k] · c` (`Spec.scaled`), and `lut` is as it
  was. While the region runs the TensorCore still owes the SparseCores their start signals; those debts sit at the
  call's index, strictly above the level of the region's own waits on its staging semaphores, so every such wait is
  allowed, and the debts come out of the region unchanged.
-/
import proofs.«217237_g17617955848579_cont_7to1_1664_16_alg».proof.Proof.KICommon
import proofs.«217237_g17617955848579_cont_7to1_1664_16_alg».proof.Proof.Gen.KernelIdeal.Launch
import proofs.«217237_g17617955848579_cont_7to1_1664_16_alg».proof.Proof.Gen.KernelIdeal.Points
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

/-- The staging cells' rounds sit in the middle component of the certificate's algebra. -/
abbrev EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by unfold EP embR; infer_instance

variable [FloatOps F]

abbrev adm : (p : Fin 1) → (pcfgs (F := F) p).Adm := fun p => (cfgs p).toPCfg_adm

variable (m : (ℓ : Loc nD τ sig) → Buf (Elt F) ℓ)

/-- The TensorCore's buffers when the scale region is entered: as launched. -/
abbrev Vm (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vm m c (Pipeline.arrRef spec0 w))

abbrev r0 : Rect S10000x128 := Rect.unit (s := S10000x128) ![0, 0] S10000x128.size inb_S10000x128_S10000x128_0_0

/-- What the body leaves in the output window's buffer: its one store, of the scaled input block. -/
def out1 (x0 : Vec F S10000x128 .f32) : Vec F S10000x128 .f32 :=
  View.canon [⟨r0, k0_pay1 (View.ld x0 r0)⟩]

theorem cover1 (p0 : Vec F S10000x128 .f32) (y : S10000x128.Idx) :
    ∃ pc ∈ ([⟨r0, p0⟩] : List (View.Piece (Elt F) S10000x128 .f32)), y ∈ pc.1.set :=
  View.cover_of_tiled [⟨r0, p0⟩] S10000x128.size (by rfl) y

set_option maxHeartbeats 1000000 in
theorem sound_kernel (c : Dev nD) (E : Set ℕ) (i : grid0.Coords) (arg1 : Memref sig .tc .vmem S10000x128 .f32) (harg1 : arg1.IsWhole) (arg2 : Memref sig .tc .vmem S10000x128 .f32) (harg2 : arg2.IsWhole)
    (x0 : Vec F S10000x128 .f32) (Kc : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ Kc ⟨⟩))
      ⊢ wp frame (wpE (defs₀ (F := F)) Variants.none c none) E (cc0__scale_body i arg1 harg1 arg2 harg2) Kc := by
  simp only [cc0__scale_body_eq_skeleton]; unfold cc0__scale_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover1 _)

/-! ## The scale region's proof data -/

/-- The pairs the TensorCore's waits may have recorded before the SparseCore call: those at level zero. -/
def rec0 (c : Dev nD) : Set (SemLoc sig × HIx 1) := {p | (K (F := F)).lev ((T c : Thread nD τ), p.1) p.2 ≤ 0}

/-- The proof data of the scale region on core `c`: the arrays as launched; after the body at point `t` the input's
    buffer at its block and the output's at the scaled block; nothing of the body's own between points; what the
    TensorCore owes the SparseCores (their start signals) owed throughout. -/
def dat0 (_ : Fin 1) (c : Dev nD) : Dat τ (Elt F) (HIx 1) ℕ UU ℕ cfg0 c where
  A w := Vm m c (Pipeline.arrRef spec0 w)
  after w t := match w with
    | ⟨0, _⟩ => iblk m c 0 t
    | ⟨1, _⟩ => out1 (iblk m c 0 t)
  Φ _ := Pipeline.scopedRest (Ix := HIx 1) (Name := ℕ) (U := UU) (Lvl := ℕ) (Val := Elt F) spec0 c
  q _ := fullShare
  owed _ := (K (F := F)).Otc c 0
  recorded _ := rec0 (F := F) c

theorem A_eq (c : Dev nD) (w : Fin cfg0.W) : (dat0 m 0 c).A w = Vm m c (Pipeline.arrRef spec0 w) := by
  dsimp only [dat0]
theorem after0_0 (c : Dev nD) (t : Fin cfg0.N) : (dat0 m 0 c).after 0 t = iblk m c 0 t := by dsimp only [dat0]
theorem after0_1 (c : Dev nD) (t : Fin cfg0.N) : (dat0 m 0 c).after 1 t = out1 (iblk m c 0 t) := by dsimp only [dat0]

/-- The input's current staging buffer holds its block at every point. -/
theorem before0_0 (c : Dev nD) (t : Fin cfg0.N) (d) : (dat0 m 0 c).before 0 t d = iblk m c 0 t :=
  ((dat0 m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dat0 m 0 c).Φ t.castSucc ∗ (dat0 m 0 c).owesAt none t.castSucc
    ∗ (∃ d, owns (c : Thread nD τ) (st0_0 t) fullShare ((dat0 m 0 c).before 0 t d))
    ∗ (∃ d, owns (c : Thread nD τ) (st0_1 t) fullShare ((dat0 m 0 c).before 1 t d)))

def bodyPost (c : Dev nD) (t : Fin cfg0.N) : sProp 𝕄 :=
  iprop((dat0 m 0 c).Φ t.succ ∗ (dat0 m 0 c).owesAt none t.succ
    ∗ owns (c : Thread nD τ) (st0_0 t) fullShare ((dat0 m 0 c).after 0 t)
    ∗ owns (c : Thread nD τ) (st0_1 t) fullShare ((dat0 m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dat0 m 0 c).Φ t.succ = (dat0 m 0 c).Φ t.castSucc from rfl,
    show (dat0 m 0 c).owesAt none t.succ = (dat0 m 0 c).owesAt none t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dat0 (F := F) m 0 c) (defs₀ (F := F)) Variants.none none Set.univ := fun t => by
  rw [bigSep_W0, bigSep_W0]
  exact sound_body m c t

/-- Before the call the TensorCore owes nothing at a kernel's own index. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The region's waits on its staging cells sit below everything the TensorCore owes: its debts are the start
    signals, at the call's index. -/
theorem hwaits0 (c : Dev nD) :
    (levAts (K (F := F)).L (K (F := F)).lev : sProp 𝕄) ⊢ Pipeline.cellsWaits (Pipeline.pin (pcfgs (F := F)) adm) (dat0 m) none 0 c :=
  Pipeline.cellsWaits_intro (Pipeline.pin (pcfgs (F := F)) adm) (dat0 m) none 0 c fun w s t =>
    (K (F := F)).mayWait_none (thr := (T c : Thread nD τ)) _ (fun g => Otc_none c 0 g)

/-! ## What the region leaves in `main_v0`: the scaled table -/

theorem hz : (![0, 0] : Fin 2 → Nat) = fun _ => 0 := funext fun a => by fin_cases a <;> rfl

theorem pay_eq (x0 : Vec F S10000x128 .f32) : k0_pay1 x0 = mulf x0 (broadcast S10000x128 (Scalar.ofBits .f32 0x413504F3#32)) := rfl

/-- The two windows move together, one block of 10000 rows per point, and the points are the ten blocks. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 9 ∧ win0_1.index t (1 : Fin 2) = 0 :=
  (by decide +kernel : ∀ t : Fin grid0.N, _)

theorem idx_onto : ∀ (q0 : Fin 10), ∃ t : Fin cfg0.N, win0_1.index t = ![q0.val, 0] :=
  (by decide +kernel : ∀ (q0 : Fin 10), ∃ t : Fin grid0.N, win0_1.index t = ![q0.val, 0])

/-- What point `t` writes back is block `t` of the scaled table. -/
theorem flushed1_eq (c : Dev nD) (t : Fin cfg0.N) :
    (dat0 m 0 c).flushed 1 t = ((cfg0.win 1).blk t).view.read (Elt F) (Spec.scaled (F := F) (Vm m c main_arg1)) := by
  show (cfg0.win 1).cut (grid0.coords t) ((dat0 m 0 c).after 1 t) = _
  rw [after0_1]
  unfold out1
  rw [View.canon_unit_zero hz]
  simp only [View.ld_unit_zero (S := S10000x128) hz]
  rw [pay_eq]
  obtain ⟨e0, e1, e2, e3⟩ := idx_facts t
  funext j
  show FloatOps.mulf (Vm m c main_arg1 (((cfg0.win 0).blk t).view.emb j)) _ = FloatOps.mulf (Vm m c main_arg1 (((cfg0.win 1).blk t).view.emb j)) Spec.scaleC
  have h0 : ((cfg0.win 0).blk t).view.emb j = ((cfg0.win 1).blk t).view.emb j := by
    funext a; apply Fin.ext
    match a with
    | ⟨0, _⟩ => show win0_0.index t (0 : Fin 2) * 10000 + 1 * (j 0).val = win0_1.index t (0 : Fin 2) * 10000 + 1 * (j 0).val; omega
    | ⟨1, _⟩ => show win0_0.index t (1 : Fin 2) * 128 + 1 * (j 1).val = win0_1.index t (1 : Fin 2) * 128 + 1 * (j 1).val; omega
  rw [h0]
  rfl

theorem mem_blk1 (t : Fin cfg0.N) (i : S100000x128.Idx) :
    i ∈ ((cfg0.win 1).blk t).view.set ↔ ∀ a : Fin 2, win0_1.index t a * S10000x128.size a ≤ (i a).val ∧ (i a).val < win0_1.index t a * S10000x128.size a + S10000x128.size a := by
  show i ∈ ((View.whole main_v0).slice (win0_1.rect t)).set ↔ _
  rw [View.set_slice_whole, Rect.mem_set_unit]
  exact Iff.rfl

/-- The ten blocks of 10000 rows tile the table: row `r` is in block `r / 10000`. -/
theorem cover1_arr (i : S100000x128.Idx) : ∃ t : Fin cfg0.N, (cfg0.win 1).flush t = true ∧ i ∈ ((cfg0.win 1).blk t).view.set := by
  have hi0 : (i 0).val < 100000 := (i 0).isLt
  have hi1 : (i 1).val < 128 := (i 1).isLt
  obtain ⟨t, ht⟩ := idx_onto ⟨(i 0).val / 10000, by omega⟩
  have q0 : win0_1.index t (0 : Fin 2) = (i 0).val / 10000 := congrFun ht 0
  have q1 : win0_1.index t (1 : Fin 2) = 0 := congrFun ht 1
  refine ⟨t, flush0_1 t, ?_⟩
  rw [mem_blk1]
  intro a
  match a with
  | ⟨0, _⟩ => show win0_1.index t (0 : Fin 2) * 10000 ≤ (i 0).val ∧ (i 0).val < win0_1.index t (0 : Fin 2) * 10000 + 10000; omega
  | ⟨1, _⟩ => show win0_1.index t (1 : Fin 2) * 128 ≤ (i 1).val ∧ (i 1).val < win0_1.index t (1 : Fin 2) * 128 + 128; omega

/-- After the region `main_v0` holds the scaled table, -/
theorem final1 (c : Dev nD) : (dat0 m 0 c).arrAt 1 cfg0.N = Spec.scaled (F := F) (m ((c : Thread nD τ).loc main_arg1)) :=
  (dat0 m 0 c).arrAt_eq_of_cover 1 (Spec.scaled (F := F) (Vm m c main_arg1)) (fun t _ => flushed1_eq m c t) cover1_arr

/-- and the table itself is as it was. -/
theorem final0 (c : Dev nD) : (dat0 m 0 c).arrAt 0 cfg0.N = m ((c : Thread nD τ).loc main_arg1) :=
  ((dat0 m 0 c).arrAt_in 0 rfl _).trans (A_eq m c 0)

/-! ## The region as a segment of @main on the TensorCore -/

/-- What the TensorCore owes before the SparseCore call, with its recorded pairs at level zero. -/
abbrev owesTc (c : Dev nD) : sProp 𝕄 :=
  iprop(∃ W, ⌜(K (F := F)).WBelow (T c) W (8 * 0)⌝ ∗ owes (T c : Thread nD τ) ((K (F := F)).Otc c 0) W)

/-- The buffers the region does not touch. -/
abbrev restBufs (c : Dev nD) : sProp 𝕄 :=
  Pipeline.unscopedRest (Ix := HIx 1) (Name := ℕ) (U := UU) (Lvl := ℕ) spec0 c (Vm m c)

/-- What the region leaves: the table as it was, the scaled table in `main_v0`, the rest untouched, the same debts. -/
abbrev regPost (c : Dev nD) : sProp 𝕄 :=
  iprop((lutLoc c ↦{fullShare} m (lutLoc c)) ∗ (tabLoc c ↦{fullShare} Spec.scaled (F := F) (m (lutLoc c))) ∗ restBufs m c ∗ owesTc (F := F) c)

set_option backward.isDefEq.respectTransparency.types false in
def reg0 : Pipeline.RegionSeg (pcfgs (F := F)) adm (dat0 m) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (body_obligation m c).loose
  hwaits c := hwaits0 m c
  pre c := iprop(unscopedBufs c (Vm m c) ∗ owesTc (F := F) c)
  post c := regPost m c
  X c := iprop(emp)
  Y c := iprop(emp)
  Z c := restBufs m c
  hentry c := by
    have hsplit := Pipeline.arrays_of_unscopedBufs (pcfgs (F := F)) adm (dat0 m) launch0.win launch0.arr_whole c
      ((dat0 m 0 c).share_full fun _ => rfl) (Vm m c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (show _ ≤ 0 from hW p (Finset.mem_coe.mp hp))
      iexact HO
    isplitr; · iempintro
    iexact Hr
  hin c := by
    rw [show (dat0 m 0 c).Φ 0 = Pipeline.scopedRest (Ix := HIx 1) (Name := ℕ) (U := UU) (Lvl := ℕ) (Val := Elt F) spec0 c from rfl]
    iintro ⟨-, -, Hr⟩
    iexact Hr
  hout c := by
    rw [show (dat0 m 0 c).Φ (Fin.last cfg0.N) = Pipeline.scopedRest (Ix := HIx 1) (Name := ℕ) (U := UU) (Lvl := ℕ) (Val := Elt F) spec0 c from rfl,
      Pipeline.ownSems0_none]
    iintro Hr
    isplitr; · iempintro
    isplitr; · iempintro
    iexact Hr
  hexit c := by
    rw [Pipeline.arrays_eq (Pipeline.pin (pcfgs (F := F)) adm) (dat0 m) 0 c launch0.arr_whole ((dat0 m 0 c).share_full fun _ => rfl), bigSep_W0]
    iintro ⟨⟨H0, H1⟩, HO, -, HZ⟩
    imodintro
    isplitl [H0]; · iapply (Entails.of_eq (congrArg (fun f => (lutLoc c ↦{fullShare} f : sProp 𝕄)) (final0 m c))); iexact H0
    isplitl [H1]; · iapply (Entails.of_eq (congrArg (fun f => (tabLoc c ↦{fullShare} f : sProp 𝕄)) (final1 m c))); iexact H1
    isplitl [HZ]; · iexact HZ
    unfold Pipeline.Dat.owesAt Pipeline.owesWithin
    icases HO with ⟨%W, %hW, HO⟩; iexists W; isplitr
    · ipureintro; intro p hp
      rcases hW (Finset.mem_coe.mpr hp) with h | ⟨w, s, rfl⟩
      · exact h
      · exact le_of_eq (SparseCore.Cfg.lev_none _ _)
    iexact HO

/-- The scale region on device `d`'s TensorCore under the program's own body table: from the region boundary, the
    arrays as launched, the TensorCore's debts, and the staging cells' rounds as the launch funded them, to the boundary
    and what the region leaves. -/
theorem wp_scale₀ [∀ e, Nonempty (Elt F e)] (d : Dev nD) (Φ : PUnit → sProp 𝕄) :
    iprop(levAts (K (F := F)).L (K (F := F)).lev ∗ boundary (T d : Thread nD τ) ∗ unscopedBufs d (Vm m d) ∗ owesTc (F := F) d
        ∗ Pipeline.cellsGhost (Pipeline.pin (pcfgs (F := F)) adm) EP 0 d ∗ Pipeline.toksInit (Pipeline.pin (pcfgs (F := F)) adm) EP 0 d
        ∗ (iprop(boundary (T d : Thread nD τ) ∗ regPost m d) -∗ Φ ⟨⟩))
      ⊢ wp frame (wpE (D (F := F)) 𝒱 (T d) none) Set.univ
          (Prog.op (.customCall (Pipeline.entry (0 : Fin 1)) ()) .ret) Φ := by
  iintro ⟨#Hlev, Hb, Hub, HO, Hg, Ht, Hk⟩
  iapply (Pipeline.RegionSeg.wp (pcfgs (F := F)) adm (dat0 m) none cellOf_inj EP defs₀ 𝒱₀ (K (F := F)).L (K (F := F)).lev (reg0 m) d none
    (fun _ h => nomatch h) (fun _ => .ret ⟨⟩) Φ)
  isplitl [Hk]
  · iintro H
    rw [wp_ret]
    imodintro
    iapply Hk; iexact H
  isplitl [Hb]; · iexact Hb
  isplitl [Hub HO]
  · iapply (Entails.of_eq (show (iprop(unscopedBufs d (Vm m d) ∗ owesTc (F := F) d) : sProp 𝕄) = (reg0 m).pre d from rfl))
    isplitl [Hub]; · iexact Hub
    iexact HO
  isplitr; · iexact Hlev
  isplitl [Hg]; · iexact Hg
  iexact Ht

/-- The same as @main's first line states it, under the launch's extended body table. -/
theorem wp_scale [∀ e, Nonempty (Elt F e)] (d : Dev nD) (Φ : PUnit → sProp 𝕄) :
    iprop(levAts (K (F := F)).L (K (F := F)).lev ∗ boundary (T d : Thread nD τ) ∗ unscopedBufs d (Vm m d) ∗ owesTc (F := F) d
        ∗ Pipeline.cellsGhost (Pipeline.pin (pcfgs (F := F)) adm) EP 0 d ∗ Pipeline.toksInit (Pipeline.pin (pcfgs (F := F)) adm) EP 0 d
        ∗ (iprop(boundary (T d : Thread nD τ) ∗ regPost m d) -∗ Φ ⟨⟩))
      ⊢ wp frame (wpE ((K (F := F)).defs (D (F := F))) 𝒱 (T d) none) Set.univ
          (Prog.lift (.customCall (SparseCore.inner (Pipeline.entry 0)) ())) Φ :=
  (wp_scale₀ m d Φ).trans ((K (F := F)).wp_liftProg (D (F := F)) 𝒱 (T d) Set.univ none
    (Prog.op (.customCall (Pipeline.entry (0 : Fin 1)) ()) .ret) Φ)

end Cert.Proof.KI

end
-- ==== Proof.KILaunchValue.lean ====
/-
  Reshapes read at an index, and the result as the specification.

  A reshape keeps the row-major order of the elements. The tokens `[4096, 200]` read as `[32, 200, 128]` put token
  `(p, q)` at `(a, b, c)` with `25600 a + 128 b + c = 200 p + q`; the output `[819200, 128]` read as `[4096, 200, 128]`
  puts row `200 a + b` at `(a, b, ·)`. Row `r` of the output is the scaled-table row that word `r` of the reshaped tokens
  names, and word `r = 200 a + b` of the reshaped tokens is token `(a, b)`: so entry `(a, b, k)` of the result is the scaled
  table at (row `tokens[a, b]`, `k`), which is the specification `G`.
-/
import proofs.«217237_g17617955848579_cont_7to1_1664_16_alg».proof.Proof.KICommon
import Idealize.ShloMosaic.Lib.Pipeline.Value

noncomputable section

namespace Cert.Proof.KI

open Cert.KernelIdeal
open Idealize.ShloMosaic
open Idealize.ShloMosaic.ValueIdx

variable {F : FTy → Type} [FloatOps F]

/-- A reshape only re-addresses: every word of the reshaped tokens is a word of the tokens. -/
theorem reshaped_word (tok : IVec S4096x200 32) (h : S4096x200.ShapeCasts S32x200x128) (j : S32x200x128.Idx) :
    shapeCast S32x200x128 tok h j = tok (Shape.reshapeEquiv h j) := rfl

theorem reshaped_lt (tok : IVec S4096x200 32) (h : S4096x200.ShapeCasts S32x200x128) (hpre : ∀ k, (tok k).toNat < 100000)
    (j : S32x200x128.Idx) : (shapeCast S32x200x128 tok h j).toNat < 100000 := hpre _

/-- Word `(a, b, c)` of the reshaped tokens, where `a · 25600 + b · 128 + c = p · 200 + q`, is token `(p, q)`. -/
theorem reshaped_at (tok : IVec S4096x200 32) (h : S4096x200.ShapeCasts S32x200x128)
    (a : Fin 32) (b : Fin 200) (c : Fin 128) (p : Fin 4096) (q : Fin 200) (e : a.val * 25600 + b.val * 128 + c.val = p.val * 200 + q.val) :
    shapeCast S32x200x128 tok h (ix3 a b c) = tok (ix2 p q) := by
  refine shapeCast_apply tok h (ix3 a b c) (ix2 p q) ?_
  rw [Shape.rowMajor_val_two, Shape.rowMajor_val_three]
  show p.val * 200 + q.val = (a.val * 200 + b.val) * 128 + c.val
  omega

/-- The result: the rows the tiles wrote, read as `[4096, 200, 128]`, are the specification's. -/
theorem res_eq (tok : IVec S4096x200 32) (lut : FVec F S100000x128 .f32)
    (h1 : S4096x200.ShapeCasts S32x200x128) (h2 : S819200x128.ShapeCasts S4096x200x128) :
    shapeCast S4096x200x128 (outF (shapeCast S32x200x128 tok h1) (Spec.scaled (F := F) lut)) h2 = Spec.G (F := F) tok lut := by
  funext i
  have hi0 : (i 0).val < 4096 := (i 0).isLt
  have hi1 : (i 1).val < 200 := (i 1).isLt
  have hi2 : (i 2).val < 128 := (i 2).isLt
  let r : Fin 819200 := ⟨(i 0).val * 200 + (i 1).val, by omega⟩
  let k2 : Fin 128 := ⟨(i 2).val, hi2⟩
  have hk : shapeCast S4096x200x128 (outF (shapeCast S32x200x128 tok h1) (Spec.scaled (F := F) lut)) h2 i
      = outF (shapeCast S32x200x128 tok h1) (Spec.scaled (F := F) lut) (ix2 r k2) := by
    refine shapeCast_apply _ h2 i (ix2 r k2) ?_
    rw [Shape.rowMajor_val_two, Shape.rowMajor_val_three]
    show ((i 0).val * 200 + (i 1).val) * 128 + (i 2).val = ((i 0).val * 200 + (i 1).val) * 128 + (i 2).val
    rfl
  rw [hk]
  unfold outF
  have hw : shapeCast S32x200x128 tok h1 (ix3 (⟨r.val / 25600, by have := r.isLt; omega⟩ : Fin 32) (⟨r.val % 25600 / 128, by omega⟩ : Fin 200) (⟨r.val % 128, by omega⟩ : Fin 128))
      = tok (ix2 (⟨(i 0).val, hi0⟩ : Fin 4096) (⟨(i 1).val, hi1⟩ : Fin 200)) :=
    reshaped_at tok h1 _ _ _ _ _ (by show r.val / 25600 * 25600 + r.val % 25600 / 128 * 128 + r.val % 128 = (i 0).val * 200 + (i 1).val; show ((i 0).val * 200 + (i 1).val) / 25600 * 25600 + ((i 0).val * 200 + (i 1).val) % 25600 / 128 * 128 + ((i 0).val * 200 + (i 1).val) % 128 = (i 0).val * 200 + (i 1).val; omega)
  show Spec.scaled (F := F) lut (ix2 (Spec.rowOf (shapeCast S32x200x128 tok h1 (ix3 (⟨r.val / 25600, _⟩ : Fin 32) (⟨r.val % 25600 / 128, _⟩ : Fin 200) (⟨r.val % 128, _⟩ : Fin 128)))) k2) = _
  rw [hw]
  rfl

end Cert.Proof.KI

end
-- ==== Proof.KILaunch.lean ====
/-
  The launch side of the gather program.

  @main on the TensorCore is four lines. The scale region leaves `main_v0 = lut · c`. A reshape reads the tokens as
  32 rows of 200 × 128 words (`main_v1`). The SparseCore call hands each of the two SparseCores its sixteen tiles'
  token rows and output blocks and half of the scaled table; a SparseCore deals each tile its row, its block and a
  sixteenth of that half, and gathers them back with the blocks filled, so the call returns `main_v2` at `outF`: row `r`
  is the scaled-table row that word `r` of the reshaped tokens names. A last reshape reads `main_v2` as
  `[4096, 200, 128]`: the result, which is the specification's `G` of the arguments. The arguments are never written.
  The launch funds two families of rounds: the handshakes between the TensorCore, the sequencers and the tiles, and
  the scale region's staging cells.
-/
import proofs.«217237_g17617955848579_cont_7to1_1664_16_alg».proof.Proof.KILaunchPay
import proofs.«217237_g17617955848579_cont_7to1_1664_16_alg».proof.Proof.KILaunchRegion
import proofs.«217237_g17617955848579_cont_7to1_1664_16_alg».proof.Proof.KILaunchValue

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)

variable {F : FTy → Type}

local notation "𝕄" => MT nD τ sig (HIx 1) (Elt F) ℕ UU ℕ

/-! ## Rows and blocks: the 32 tiles' parts, grouped by SparseCore -/

/-- Tile numbers: SparseCore `c`, subcore `i` ↦ `2 i + c`, a bijection onto the 32 tiles. -/
def widE : Fin 2 × Fin 16 ≃ Fin 32 where
  toFun p := wid p.1 p.2
  invFun w := (⟨w.val % 2, by omega⟩, ⟨w.val / 2, by omega⟩)
  left_inv := by
    rintro ⟨c, s⟩
    refine Prod.ext (Fin.ext ?_) (Fin.ext ?_)
    · show (2 * s.val + c.val) % 2 = c.val; omega
    · show (2 * s.val + c.val) / 2 = s.val; omega
  right_inv := by
    intro w
    refine Fin.ext ?_
    show 2 * (w.val / 2) + w.val % 2 = w.val; omega

theorem rows_regroup (Φ : Fin 32 → sProp 𝕄) :
    bigSep Finset.univ Φ = bigSep Finset.univ fun c : Fin 2 => bigSep Finset.univ fun i : Fin 16 => Φ (wid c i) := by
  rw [bigSep_univ_equiv widE Φ, bigSep_univ_prod]; rfl

theorem iRowSet_eq (w : Fin 32) : iRowSet w = (irow w).set := by
  show ((View.whole (main_v1_scv : Ref sig .scVector)).slice (irow w)).set = _
  rw [View.set_slice]; exact Finset.map_refl
theorem oRowSet_eq (w : Fin 32) : oRowSet w = (orow w).set := by
  show ((View.whole (main_v2_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

/-- The reshaped tokens whole are their 32 rows; the output whole is its 32 blocks. -/
theorem idx_rows (d : Dev nD) (f : Buf (Elt F) (idxLoc d)) :
    (idxLoc d ↦{fullShare} f : sProp 𝕄) = bigSep Finset.univ fun w : Fin 32 => idxLoc d ↦[iRowSet w]{fullShare} f := by
  rw [← pointsTo_biUnion Finset.univ (ℓ := idxLoc d) iRowSet irows_disjoint, irows_cover]; try rfl
theorem out_rows (d : Dev nD) (f : Buf (Elt F) (outLoc d)) :
    (outLoc d ↦{fullShare} f : sProp 𝕄) = bigSep Finset.univ fun w : Fin 32 => outLoc d ↦[oRowSet w]{fullShare} f := by
  rw [← pointsTo_biUnion Finset.univ (ℓ := outLoc d) oRowSet orows_disjoint, orows_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]
variable (m : (ℓ : Loc nD τ sig) → Buf (Elt F) ℓ)

/-- The three arrays whole, the output at `f`, are what the two SparseCores are handed (`f` as launched) and hand
    back (`f` the filled output). -/
theorem cores_eq (d : Dev nD) (f : Buf (Elt F) (outLoc d)) :
    (iprop((idxLoc d ↦{fullShare} idxF m d) ∗ (tabLoc d ↦{fullShare} tabF m d) ∗ (outLoc d ↦{fullShare} f)) : sProp 𝕄)
      = bigSep Finset.univ fun c : Fin 2 => iprop((bigSep Finset.univ fun i : Fin 16 => idxRow m d (wid c i)) ∗ tabSh m d (coreQ c)
          ∗ bigSep Finset.univ fun i : Fin 16 => outRow d (wid c i) f) := by
  rw [idx_rows, out_rows, pointsTo_leaves (ℓ := tabLoc d) Finset.univ (tabF m d) 1 fullShare,
    rows_regroup (fun w => (idxLoc d ↦[iRowSet w]{fullShare} idxF m d : sProp 𝕄)),
    rows_regroup (fun w => (outLoc d ↦[oRowSet w]{fullShare} f : sProp 𝕄)), bigSep_sep', bigSep_sep']
  rfl

theorem st_eq (d : Dev nD) : (bigSep Finset.univ fun c : Fin ((K (F := F)).nCore 0) => (P m).st 0 d c)
    = iprop((idxLoc d ↦{fullShare} idxF m d) ∗ (tabLoc d ↦{fullShare} tabF m d) ∗ (outLoc d ↦{fullShare} m (outLoc d))) := by
  rw [cores_eq m d (m (outLoc d))]
  exact bigSep_cores (F := F) (fun c => stA m d c)

theorem dn_eq (d : Dev nD) : (bigSep Finset.univ fun c : Fin ((K (F := F)).nCore 0) => (P m).dn 0 d c)
    = iprop((idxLoc d ↦{fullShare} idxF m d) ∗ (tabLoc d ↦{fullShare} tabF m d) ∗ (outLoc d ↦{fullShare} resF m d)) := by
  rw [cores_eq m d (resF m d)]
  exact bigSep_cores (F := F) (fun c => dnA m d c)

/-- A SparseCore's operands split into its sixteen tiles' and gather from theirs: rows and blocks one each, the
    table's half by halving it four more times. -/
theorem vecSplit : (K (F := F)).VecSplit' (P m) 0 := by
  intro d c
  show stA m d (Fin.cast nCore_zero c) ⊢ |={Set.univ}=> iprop(
      (bigSep Finset.univ fun i : Fin ((K (F := F)).nSub 0) => goA m d (Fin.cast nCore_zero c) (Fin.cast nSub_zero i))
      ∗ ((bigSep Finset.univ fun i : Fin ((K (F := F)).nSub 0) => tdA m d (Fin.cast nCore_zero c) (Fin.cast nSub_zero i))
          -∗ dnA m d (Fin.cast nCore_zero c)))
  generalize (Fin.cast nCore_zero c : Fin 2) = c'
  rw [bigSep_tasks (F := F) (fun i => goA m d c' i), bigSep_tasks (F := F) (fun i => tdA m d c' i)]
  unfold stA dnA goA tdA
  rw [bigSep_sep', bigSep_sep', bigSep_sep', bigSep_sep']
  unfold tabSh
  rw [pointsTo_leaves (ℓ := tabLoc d) Finset.univ (tabF m d) 4 (coreQ c')]
  iintro H; imodintro
  isplitl [H]; · iexact H
  iintro H; iexact H

/-! ## The launch element of the certificate's ghost state -/

/-- The handshakes' rounds, the scale region's staging cells' rounds, no counter yet. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from beside what the launch deals the TensorCore: the region's staging cells' rounds. -/
abbrev Gd (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (nD := nD) (τ := τ) cfgs (EP (F := F)) cellOf_inj) $$ HP with ⟨Hg, Ht⟩
  imodintro
  isplitl [HH]; · iexact HH
  isplitl [Hg Ht]
  · rw [bigSep_sep']
    isplitl [Hg]
    · iapply (Entails.of_eq (show (bigSep Finset.univ fun c : Dev nD => bigSep Finset.univ fun p : Fin 1 => Pipeline.cellsGhost (nD := nD) (τ := τ) cfgs (EP (F := F)) p c)
          = bigSep Finset.univ fun c : Dev nD => Pipeline.cellsGhost (Pipeline.pin (pcfgs (F := F)) adm) (EP (F := F)) 0 c from
        bigSep_congr fun c _ => bigSep_univ_of_subsingleton (0 : Fin 1)))
      iexact Hg
    · iapply (Entails.of_eq (show (bigSep Finset.univ fun c : Dev nD => bigSep Finset.univ fun p : Fin 1 => Pipeline.toksInit (nD := nD) (τ := τ) cfgs (EP (F := F)) p c)
          = bigSep Finset.univ fun c : Dev nD => Pipeline.toksInit (Pipeline.pin (pcfgs (F := F)) adm) (EP (F := F)) 0 c from
        bigSep_congr fun c _ => bigSep_univ_of_subsingleton (0 : Fin 1)))
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- Before the call the TensorCore's handshake state is its debts (the start signals, its recorded pairs at level zero)
    beside the rest. -/
theorem tcSt_zero (d : Dev nD) : ∃ R : sProp 𝕄, (K (F := F)).tcSt EH d 0 = iprop(owesTc (F := F) d ∗ R) := by
  unfold SparseCore.Cfg.tcSt
  exact ⟨_, rfl⟩

/-! ## @main on the TensorCore -/

variable (ρ : Dev nD → PrngReg)

abbrev a0' : DevRef τ sig := Proc.devRef .tc (main_arg0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The two reshapes of @main. -/
abbrev op1 : HloOp τ sig (Elt F) := StableHlo.reshape main_arg0 main_v1 rfl shapeCasts_S4096x200_S32x200x128
abbrev op2 : HloOp τ sig (Elt F) := StableHlo.reshape main_v2 main_v3 rfl shapeCasts_S819200x128_S4096x200x128

theorem held_pair (d : Dev nD) (a b : DevRef τ sig) (hab : a ≠ b) (W : Valuation τ sig (Elt F)) :
    (held (T d) {a, b} W : sProp 𝕄) = iprop((((d, a) : Loc nD τ sig) ↦{fullShare} W a) ∗ ((d, b) : Loc nD τ sig) ↦{fullShare} W b) := by
  unfold held
  rw [SparseCore.bigSep_insert' (by rw [Finset.mem_singleton]; exact hab), bigSep_singleton]

/-- The launch valuation; and, after the call, with the output at what the tiles left. -/
def W1 (d : Dev nD) : Valuation τ sig (Elt F) := fun b => m (d, b)
def W2 (d : Dev nD) : Valuation τ sig (Elt F) := Function.update (W1 m d) v2' (resF m d)

theorem op1_a0 (d : Dev nD) : (op1 (F := F)).result (W1 m d) a0' = m (tokLoc d) :=
  StableHlo.reshape_result_ne' _ _ _ _ (W1 m d) (r := main_arg0) (by decide)
theorem op1_v1 (d : Dev nD) : (op1 (F := F)).result (W1 m d) v1' = idxF m d :=
  StableHlo.reshape_result' _ _ _ _ (W1 m d)

/-- The result array: the output's rows read as `[4096, 200, 128]`. -/
def finF (d : Dev nD) : FVec F S4096x200x128 .f32 := shapeCast S4096x200x128 (resF m d) shapeCasts_S819200x128_S4096x200x128

theorem W2_v2 (d : Dev nD) : W2 m d v2' = resF m d := Function.update_self _ _ _
theorem W2_v3 (d : Dev nD) : W2 m d v3' = m (resLoc d) := Function.update_of_ne (show v3' ≠ v2' by decide) _ _
theorem op2_v2 (d : Dev nD) : (op2 (F := F)).result (W2 m d) v2' = resF m d :=
  (StableHlo.reshape_result_ne' _ _ _ _ (W2 m d) (r := main_v2) (by decide)).trans (W2_v2 m d)
theorem op2_v3 (d : Dev nD) : (op2 (F := F)).result (W2 m d) v3' = finF m d := by
  rw [StableHlo.reshape_result' _ _ _ _ (W2 m d)]
  show (fun i => shapeCast S4096x200x128 (W2 m d v2') shapeCasts_S819200x128_S4096x200x128 i) = _
  rw [W2_v2]; rfl

/-- What @main leaves the claim: the arguments as launched, the result at the reshaped output. -/
abbrev FIN (d : Dev nD) : sProp 𝕄 :=
  iprop((tokLoc d ↦{fullShare} m (tokLoc d)) ∗ (lutLoc d ↦{fullShare} m (lutLoc d)) ∗ (resLoc d ↦{fullShare} finF m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_zero (F := F) d
  rw [hR]
  unfold SparseCore.Cfg.tcRes
  simp only [main, wp_bind, wp_pure]
  iintro ⟨#Hctx, ⟨HO, HR⟩, ⟨Hb, Hub, -, -⟩, ⟨Hg, Ht⟩⟩
  ihave #Hlev := (SparseCore.Cfg.ctx_levAts κ) $$ Hctx
  -- the scale region
  iapply (wp_scale m d _)
  isplitr; · iexact Hlev
  isplitl [Hb]; · iexact Hb
  isplitl [Hub]; · iexact Hub
  isplitl [HO]; · iexact HO
  isplitl [Hg]; · iexact Hg
  isplitl [Ht]; · iexact Ht
  iintro ⟨Hb, Hlut, Htab, Hrest, HO⟩
  ihave Hrest' := (Entails.of_eq (unscopedRest0_eq (Ix := HIx 1) (Name := ℕ) (U := UU) (Lvl := ℕ) d (Vm m d))) $$ Hrest
  icases Hrest' with ⟨Htok, Hv1, Hv2, Hv3⟩
  -- the tokens reshaped to one row per tile
  iapply (wp_hlo_within 𝒱 (SparseCore.T d) none Set.univ (op := op1 (F := F)) (S := {a0', v1'}) (fun _ h => h) (V := W1 m d)) $$ [Hb Htok Hv1]
  · isplitl [Hb]; · iexact Hb
    rw [held_pair d a0' v1' (by decide)]
    isplitl [Htok]; · iexact Htok
    iexact Hv1
  iintro ⟨Hb, Hheld⟩
  ihave Hh := (Entails.of_eq (held_pair (F := F) d a0' v1' (by decide) _)) $$ Hheld
  rw [op1_a0, op1_v1]
  icases Hh with ⟨Htok, Hidx⟩
  rw [wp_ret]; imodintro
  -- the call: the reshaped tokens, the scaled table and the output to the two SparseCores and back
  iapply ((K (F := F)).wp_run (D (F := F)) 𝒱 (EH := EH) (P := P m) κ d 0) $$ [HO HR Hidx Htab Hv2 Hb Hlut Htok Hv3]
  isplitr; · iexact Hctx
  isplitl [HO HR]
  · iapply (Entails.of_eq hR.symm)
    isplitl [HO]; · iexact HO
    iexact HR
  isplitl [Hidx Htab Hv2]
  · rw [st_eq]
    isplitl [Hidx]; · iexact Hidx
    isplitl [Htab]; · iexact Htab
    iexact Hv2
  iintro ⟨Hst, Hdn⟩
  ihave Hdn' := (Entails.of_eq (dn_eq m d)) $$ Hdn
  icases Hdn' with ⟨-, -, Hres⟩
  -- the output's rows read as the result
  iapply (wp_hlo_within 𝒱 (SparseCore.T d) none Set.univ (op := op2 (F := F)) (S := {v2', v3'}) (fun _ h => h) (V := W2 m d)) $$ [Hb Hres Hv3]
  · isplitl [Hb]; · iexact Hb
    rw [held_pair d v2' v3' (by decide), W2_v2, W2_v3]
    isplitl [Hres]; · iexact Hres
    iexact Hv3
  iintro ⟨Hb, Hheld⟩
  ihave Hh := (Entails.of_eq (held_pair (F := F) d v2' v3' (by decide) _)) $$ Hheld
  rw [op2_v2, op2_v3]
  icases Hh with ⟨-, Hfin⟩
  rw [wp_ret]; imodintro; imodintro
  isplitl [Hst]; · iexact Hst
  isplitl [Htok]; · iexact Htok
  isplitl [Hlut]; · iexact Hlut
  iexact Hfin

/-! ## The final memory, read; the program's run -/

/-- The result array is the specification's function of the arguments. -/
theorem finF_eq (d : Dev nD) : finF m d = Spec.G (F := F) (m (tokLoc d)) (m (lutLoc d)) := by
  unfold finF resF idxF tabF
  exact res_eq (F := F) (m (tokLoc d)) (m (lutLoc d)) _ _

def fq (d : Dev nD) (s' : Phys nD τ sig (Elt F)) : Prop :=
  s'.mem.mem (resLoc d) = finF m d ∧ s'.mem.mem (tokLoc d) = m (tokLoc d) ∧ s'.mem.mem (lutLoc d) = m (lutLoc d)

set_option maxRecDepth 16384 in
theorem hfin (d : Dev nD) (s' : Phys nD τ sig (Elt F)) : iprop(FIN m d ∗ SI s') ⊢ (⌜fq m d s'⌝ : sProp 𝕄) := by
  iintro ⟨⟨Ht, Hl, Hr⟩, HSI⟩
  ihave H := (persistent_entails_right (SI_pointsTo_agree (st := s') (ℓ := tokLoc d) (I := Finset.univ) (q := fullShare) (f := m (tokLoc d)))) $$ [HSI Ht]
  · isplitl [HSI] <;> iassumption
  icases H with ⟨%h1, HSI, -⟩
  ihave H := (persistent_entails_right (SI_pointsTo_agree (st := s') (ℓ := lutLoc d) (I := Finset.univ) (q := fullShare) (f := m (lutLoc d)))) $$ [HSI Hl]
  · isplitl [HSI] <;> iassumption
  icases H with ⟨%h2, HSI, -⟩
  ihave H := (SI_pointsTo_agree (st := s') (ℓ := resLoc d) (I := Finset.univ) (q := fullShare) (f := finF m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The run's post: on every device the result is the specification's function of the arguments, and the arguments
    are as launched. -/
def QC : PUnit × MemSt nD τ sig (Elt F) → Prop := fun r => ∀ c : Dev nD,
  r.2.mem ((c.tc : Thread nD τ).loc main_v3) = Spec.G (F := F) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

theorem hQ (s' : Phys nD τ sig (Elt F)) (h : ∀ d, fq m d s') : QC m (⟨⟩, s'.mem) :=
  fun c => ⟨(h c).1.trans (finF_eq m c), (h c).2.1, (h c).2.2⟩

/-- The whole program's run, given the tile's task: every weakly fair execution of the TensorCore's @main beside the
    SparseCores' threads terminates, nothing faulting, the result the specification's and the arguments unchanged. -/
theorem run_main_of [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (hQ m)

end Cert.Proof.KI

end
-- ==== Proof.KIAssemble.lean ====
/-
  The kernel program's run under the certificate's precondition.

  The precondition bounds every token by 0 and 99999 as a signed word, so every token read unsigned names a row of the
  table: that is what the run asks of the launch memory. The run's post names the result as the specification's
  function of the arguments and keeps the arguments, so a frame is this run with the value dropped.
-/
import proofs.«217237_g17617955848579_cont_7to1_1664_16_alg».proof.Proof.KILaunch
import proofs.«217237_g17617955848579_cont_7to1_1664_16_alg».proof.Proof.PreRange
import proofs.«217237_g17617955848579_cont_7to1_1664_16_alg».proof.Proof.Gen.Pre_input_domain

noncomputable section

namespace Cert.Proof.KI

open Cert.KernelIdeal Cert.KernelIdeal.Gen
open Idealize.ShloMosaic Idealize.SL.Sem

variable {F : FTy → Type} [FloatOps F]

/-- The precondition, all ones on every device, gives what the run asks of the launch memory. -/
theorem ok_of_fn (m : (ℓ : Loc nD τ sig) → Buf (Elt F) ℓ)
    (h : ∀ c : Dev nD, Cert.Pre_input_domain.fn (F := F)
      (m ((c.tc : Thread nD τ).loc main_arg0)) (m ((c.tc : Thread nD τ).loc main_arg1)) = fun _ => 1#1) : PreOK m :=
  fun d j => Cert.Proof.Ref.tok_lt _ _ (h d) j

/-- The run under the precondition, given the tile's task. -/
theorem run_of_pre [∀ e, Nonempty (Elt F e)] (m : (ℓ : Loc nD τ sig) → Buf (Elt F) ℓ) (ρ : Dev nD → PrngReg)
    (htile : PreOK m → (K (F := F)).TileObl (D (F := F)) 𝒱 (P m) v₀ 0)
    (h : ∀ c : Dev nD, Cert.Pre_input_domain.fn (F := F)
      (m ((c.tc : Thread nD τ).loc main_arg0)) (m ((c.tc : Thread nD τ).loc main_arg1)) = fun _ => 1#1) :
    θ_run (Cert.KernelIdeal.defs (F := F)) (Cert.KernelIdeal.threads (F := F)) ⟨m, fun _ => 0, ρ⟩ (QC m) :=
  run_main_of m ρ (htile (ok_of_fn m h))

end Cert.Proof.KI

end
-- ==== Proof.KITileDefs.lean ====
/-
  One tile of the gather: its thread, its pieces of the arrays, and what each piece holds.

  Tile `L = (c, s)` has number `wid = 2 s + c`.  It copies row `wid` of the reshaped tokens into its word scratch (200 lists
  of 128 words), and for chunk `j < 200` gathers the table rows list `j` names into one of four row slots and copies the
  slot to rows `[25600 · wid + 128 j, 25600 · wid + 128 j + 128)` of the output.  Everything is held piece by piece: list
  `j` of the word scratch (`rowM j`), slot `b` of the row scratch (`slotM b`), window `j` of the tile's output block
  (`winM L j`).  Chunk `j` of the tile is `chunkVal`: entry `(x, k)` is the table at `(row of word (wid, j, x), k)`.
-/
import proofs.«217237_g17617955848579_cont_7to1_1664_16_alg».proof.Proof.KICommon

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.ShloMosaic.ValueIdx

variable {F : FTy → Type}

abbrev cV (L : grid1.Coords) : Fin τ.nSC := (L 0).castLE hcore1
abbrev jV (L : grid1.Coords) : Fin τ.nSub := (L 1).castLE hsub1
/-- The tile's thread. -/
abbrev thr (d : Dev nD) (L : grid1.Coords) : Thread nD τ := V d (cV L) (jV L)

theorem L0_lt (L : grid1.Coords) : (L 0).val < 2 := (L 0).isLt
theorem L1_lt (L : grid1.Coords) : (L 1).val < 16 := (L 1).isLt

/-- The tile's number. -/
def widL (L : grid1.Coords) : Fin 32 := ⟨2 * (L 1).val + (L 0).val, by have := L0_lt L; have := L1_lt L; omega⟩
/-- The first output row of the tile. -/
def base (L : grid1.Coords) : ℕ := 25600 * (widL L).val

theorem base_eq (L : grid1.Coords) : base L = 51200 * (L 1).val + 25600 * (L 0).val := by
  show 25600 * (2 * (L 1).val + (L 0).val) = _
  omega

/-- Row `wid` of the reshaped tokens, squeezed, as the tile slices it. -/
abbrev iRowK (L : grid1.Coords) : Memref sig .scVector .hbm S200x128 .i32 :=
  ((iV).slice (Rect.unit (s := S32x200x128) (k1_off1 L) S1x200x128.size (k1_off1_inb L)) (fun _ => rfl)).squeeze S200x128 squeezes_S1x200x128_S200x128
/-- The whole table as the tile slices it. -/
abbrev tAll : Memref sig .scVector .hbm S100000x128 .f32 :=
  (tV).slice (Rect.unit (s := S100000x128) ![0, 0] S100000x128.size inb_S100000x128_S100000x128_0_0) (fun _ => rfl)

theorem rowM_inb (j : ℕ) : ∀ a, (![min j 199, 0] : Fin 2 → Nat) a + S1x128.size a ≤ S200x128.size a := by
  intro a; fin_cases a <;> simp <;> omega
theorem slotM_inb (b : ℕ) : ∀ a, (![min b 3, 0, 0] : Fin 3 → Nat) a + S1x128x128.size a ≤ S4x128x128.size a := by
  intro a; fin_cases a <;> simp <;> omega
theorem winM_inb (L : grid1.Coords) (j : ℕ) : ∀ a, (![base L + 128 * min j 199, 0] : Fin 2 → Nat) a + S128x128.size a ≤ S819200x128.size a := by
  have h := (widL L).isLt
  intro a; fin_cases a <;> simp [base] <;> omega

/-- List `j` of the word scratch (clamped to the last list, so that it is defined for every number). -/
abbrev rowM (j : ℕ) : Memref sig .scVector .vmem S128 .i32 :=
  ((sI).slice (Rect.unit (s := S200x128) ![min j 199, 0] S1x128.size (rowM_inb j)) (fun _ => rfl)).squeeze S128 squeezes_S1x128_S128
/-- Slot `b` of the row scratch. -/
abbrev slotM (b : ℕ) : Memref sig .scVector .vmem S128x128 .f32 :=
  ((sB).slice (Rect.unit (s := S4x128x128) ![min b 3, 0, 0] S1x128x128.size (slotM_inb b)) (fun _ => rfl)).squeeze S128x128 squeezes_S1x128x128_S128x128
/-- Window `j` of the tile's output block. -/
abbrev winM (L : grid1.Coords) (j : ℕ) : Memref sig .scVector .hbm S128x128 .f32 :=
  (oV).slice (Rect.unit (s := S819200x128) ![base L + 128 * min j 199, 0] S128x128.size (winM_inb L j)) (fun _ => rfl)

/-- Two spellings of one offset give one rectangle, hence one slice. -/
theorem slice_unit_congr {κ : Kind} {sp : Space} {s : Shape} {e : EltTy} (M : Memref sig κ sp s e) {off off' : Fin s.rank → ℕ} {sz : Fin s.rank → ℕ}
    (h : ∀ a, off a + sz a ≤ s.size a) (h' : ∀ a, off' a + sz a ≤ s.size a)
    (p : ∀ a, (Rect.unit (s := s) off sz h).stride a = 1) (p' : ∀ a, (Rect.unit (s := s) off' sz h').stride a = 1) (e₀ : off = off') :
    M.slice (Rect.unit (s := s) off sz h) p = M.slice (Rect.unit (s := s) off' sz h') p' := by
  subst e₀; rfl

variable [FloatOps F]

/-- Chunk `j` of tile `L`: the table rows that list `j` of the tile's token row names. -/
def chunkVal (fi : IVec S32x200x128 32) (ft : FVec F S100000x128 .f32) (L : grid1.Coords) (j : ℕ) : FVec F S128x128 .f32 :=
  fun x => ft (ix2 (Spec.rowOf (fi (ix3 (widL L) (⟨min j 199, by omega⟩ : Fin 200) (x 0)))) (x 1))

end Cert.Proof.KI

end
-- ==== Proof.KITilePure.lean ====
/-
  The pure facts about one tile's pieces: how the scratch buffers and the tile's output block split into their pieces, which
  piece each of the program's slices is, and what a gathered slot and a copied window hold.
-/
import proofs.«217237_g17617955848579_cont_7to1_1664_16_alg».proof.Proof.KITileDefs

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

variable (d : Dev nD) (L : grid1.Coords)

/-! ## Two spellings of one rectangle

A unit-stride rectangle is its offsets and its sizes: equal offsets and equal sizes give the same rectangle, whatever the
evidence that it lies inside the shape. -/

theorem unit_congr {s : Shape} {off off' sz sz' : Fin s.rank → ℕ} (h : ∀ a, off a + sz a ≤ s.size a)
    (h' : ∀ a, off' a + sz' a ≤ s.size a) (e₀ : off = off') (e₁ : sz = sz') :
    Rect.unit (s := s) off sz h = Rect.unit (s := s) off' sz' h' := by
  subst e₀; subst e₁; rfl

/-- A trip of the loop is one of 48. -/
theorem trip_lt (k : Fin k1_t1_loop.trips) : k.val < 48 := Nat.lt_of_lt_of_eq k.isLt (by decide)

/-- The rectangle the tile slices out of the reshaped tokens is the `wid`-th of the 32 parts along the first axis: its
    offset is `(wid, 0, 0)` and its sizes are `(1, 200, 128)`. -/
theorem iRect_eq : Rect.unit (s := S32x200x128) (k1_off1 L) S1x200x128.size (k1_off1_inb L) = irow (widL L) := by
  refine unit_congr _ _ ?_ ?_
  · rw [k1_off1_eq]
    funext a
    fin_cases a <;> simp [Shape.partIx, Shape.partSize, widL]
  · funext a
    fin_cases a <;> simp [Shape.partSize]

/-- The offsets of the windows of the first and the last four chunks, in closed form: window `r` for `r < 4`, window
    `192 + r` for `4 ≤ r < 8`, each 128 rows, from the tile's first row `51200 s + 25600 c`.  A statement about 32
    tiles and 8 rows of 32-bit arithmetic, checked case by case. -/
theorem off2_eq : ∀ (i : grid1.Coords) (r : Fin 8),
    k1_off2 i (k1_off2_at r) = ![51200 * (i 1).val + 25600 * (i 0).val + 128 * (if r.val < 4 then r.val else 192 + r.val), 0] := by
  decide +kernel

/-! ## The pieces' element sets -/

/-- List `j` is row `min j 199` of the word scratch. -/
theorem rowM_set (j : ℕ) :
    ((rowM j).view.set : Finset S200x128.Idx) = (Rect.unit (s := S200x128) ![min j 199, 0] S1x128.size (rowM_inb j)).set := by
  show (((sI).view.slice (Rect.unit (s := S200x128) ![min j 199, 0] S1x128.size (rowM_inb j))).reshape S128
    squeezes_S1x128_S128.numel_eq).set = _
  rw [View.set_reshape]
  exact View.set_slice_whole _ _

/-- Slot `b` is plane `min b 3` of the row scratch. -/
theorem slotM_set (b : ℕ) :
    ((slotM b).view.set : Finset S4x128x128.Idx) = (Rect.unit (s := S4x128x128) ![min b 3, 0, 0] S1x128x128.size (slotM_inb b)).set := by
  show (((sB).view.slice (Rect.unit (s := S4x128x128) ![min b 3, 0, 0] S1x128x128.size (slotM_inb b))).reshape S128x128
    squeezes_S1x128x128_S128x128.numel_eq).set = _
  rw [View.set_reshape]
  exact View.set_slice_whole _ _

/-- Window `j` is the 128 rows from `base + 128 · min j 199` of the output. -/
theorem winM_set (j : ℕ) :
    ((winM L j).view.set : Finset S819200x128.Idx)
      = (Rect.unit (s := S819200x128) ![base L + 128 * min j 199, 0] S128x128.size (winM_inb L j)).set :=
  View.set_slice_whole _ _

/-! ## Different pieces are disjoint, and together they are the buffer -/

theorem rows_disj : ∀ j ∈ Finset.range 200, ∀ j' ∈ Finset.range 200, j ≠ j' →
    Disjoint ((rowM j).view.set : Finset S200x128.Idx) (rowM j').view.set := by
  intro j hj j' hj' hne
  have h1 := Finset.mem_range.mp hj
  have h2 := Finset.mem_range.mp hj'
  rw [rowM_set, rowM_set]
  refine Rect.unit_disjoint (0 : Fin 2) ?_
  show min j 199 + 1 ≤ min j' 199 ∨ min j' 199 + 1 ≤ min j 199
  omega

theorem rows_cover : (Finset.range 200).biUnion (β := S200x128.Idx) (fun j => (rowM j).view.set) = Finset.univ := by
  refine Finset.eq_univ_iff_forall.mpr fun i => Finset.mem_biUnion.mpr ⟨(i 0).val, Finset.mem_range.mpr (idx2_lt0 i), ?_⟩
  have h0 := idx2_lt0 i
  have h1 := idx2_lt1 i
  rw [rowM_set, Rect.mem_set_unit]
  intro a
  match a with
  | ⟨0, _⟩ => show min (i 0).val 199 ≤ (i 0).val ∧ (i 0).val < min (i 0).val 199 + 1; omega
  | ⟨1, _⟩ => show 0 ≤ (i 1).val ∧ (i 1).val < 0 + 128; omega

theorem slots_disj : ∀ b ∈ Finset.range 4, ∀ b' ∈ Finset.range 4, b ≠ b' →
    Disjoint ((slotM b).view.set : Finset S4x128x128.Idx) (slotM b').view.set := by
  intro b hb b' hb' hne
  have h1 := Finset.mem_range.mp hb
  have h2 := Finset.mem_range.mp hb'
  rw [slotM_set, slotM_set]
  refine Rect.unit_disjoint (0 : Fin 3) ?_
  show min b 3 + 1 ≤ min b' 3 ∨ min b' 3 + 1 ≤ min b 3
  omega

theorem slots_cover : (Finset.range 4).biUnion (β := S4x128x128.Idx) (fun b => (slotM b).view.set) = Finset.univ := by
  refine Finset.eq_univ_iff_forall.mpr fun i => ?_
  have h0 : (i 0).val < 4 := (i 0).isLt
  have h1 : (i 1).val < 128 := (i 1).isLt
  have h2 : (i 2).val < 128 := (i 2).isLt
  refine Finset.mem_biUnion.mpr ⟨(i 0).val, Finset.mem_range.mpr h0, ?_⟩
  rw [slotM_set, Rect.mem_set_unit]
  intro a
  match a with
  | ⟨0, _⟩ => show min (i 0).val 3 ≤ (i 0).val ∧ (i 0).val < min (i 0).val 3 + 1; omega
  | ⟨1, _⟩ => show 0 ≤ (i 1).val ∧ (i 1).val < 0 + 128; omega
  | ⟨2, _⟩ => show 0 ≤ (i 2).val ∧ (i 2).val < 0 + 128; omega

theorem wins_disj : ∀ j ∈ Finset.range 200, ∀ j' ∈ Finset.range 200, j ≠ j' →
    Disjoint ((winM L j).view.set : Finset S819200x128.Idx) (winM L j').view.set := by
  intro j hj j' hj' hne
  have h1 := Finset.mem_range.mp hj
  have h2 := Finset.mem_range.mp hj'
  rw [winM_set, winM_set]
  refine Rect.unit_disjoint (0 : Fin 2) ?_
  show base L + 128 * min j 199 + 128 ≤ base L + 128 * min j' 199 ∨ base L + 128 * min j' 199 + 128 ≤ base L + 128 * min j 199
  omega

/-- The tile's block of the output: the 25600 rows from `base`. -/
theorem oRowSet_mem (i : S819200x128.Idx) : i ∈ oRowSet (widL L) ↔ base L ≤ (i 0).val ∧ (i 0).val < base L + 25600 := by
  have h1 := idx2_lt1 i
  rw [show oRowSet (widL L) = (orow (widL L)).set from View.set_slice_whole _ _, Rect.mem_set_unit]
  constructor
  · intro h
    have h0 := h 0
    simp [Shape.partIx, Shape.partSize] at h0
    unfold base; omega
  · intro h a
    unfold base at h
    match a with
    | ⟨0, _⟩ => simp [Shape.partIx, Shape.partSize]; omega
    | ⟨1, _⟩ => simp [Shape.partIx, Shape.partSize]; omega

theorem wins_cover : (Finset.range 200).biUnion (β := S819200x128.Idx) (fun j => (winM L j).view.set) = oRowSet (widL L) := by
  ext i
  have h1 := idx2_lt1 i
  rw [oRowSet_mem, Finset.mem_biUnion]
  constructor
  · rintro ⟨j, hj, hi⟩
    have hj' := Finset.mem_range.mp hj
    rw [winM_set, Rect.mem_set_unit] at hi
    have h0 : base L + 128 * min j 199 ≤ (i 0).val ∧ (i 0).val < base L + 128 * min j 199 + 128 := hi 0
    omega
  · intro h
    refine ⟨((i 0).val - base L) / 128, Finset.mem_range.mpr (by omega), ?_⟩
    rw [winM_set, Rect.mem_set_unit]
    intro a
    match a with
    | ⟨0, _⟩ =>
      show base L + 128 * min (((i 0).val - base L) / 128) 199 ≤ (i 0).val
        ∧ (i 0).val < base L + 128 * min (((i 0).val - base L) / 128) 199 + 128
      omega
    | ⟨1, _⟩ => show 0 ≤ (i 1).val ∧ (i 1).val < 0 + 128; omega

/-! ## The pieces cover their buffers -/

/-- The word scratch is its 200 lists. -/
theorem rows_split (f : Buf (Elt F) ((sI).view.loc (thr d L))) :
    ((sI).view.loc (thr d L) ↦{fullShare} f : sProp 𝕄)
      = bigSep (Finset.range 200) fun j => ((sI).view.loc (thr d L) ↦[(rowM j).view.set]{fullShare} f : sProp 𝕄) := by
  have hc : ((Finset.range 200).biUnion fun j => (rowM j).view.set) = (Finset.univ : Finset (Idx ((sI).view.loc (thr d L)))) := rows_cover
  rw [← pointsTo_biUnion (Finset.range 200) (ℓ := (sI).view.loc (thr d L)) (fun j => (rowM j).view.set) rows_disj, hc]

/-- The row scratch is its four slots. -/
theorem slots_split (f : Buf (Elt F) ((sB).view.loc (thr d L))) :
    ((sB).view.loc (thr d L) ↦{fullShare} f : sProp 𝕄)
      = bigSep (Finset.range 4) fun b => ((sB).view.loc (thr d L) ↦[(slotM b).view.set]{fullShare} f : sProp 𝕄) := by
  have hc : ((Finset.range 4).biUnion fun b => (slotM b).view.set) = (Finset.univ : Finset (Idx ((sB).view.loc (thr d L)))) := slots_cover
  rw [← pointsTo_biUnion (Finset.range 4) (ℓ := (sB).view.loc (thr d L)) (fun b => (slotM b).view.set) slots_disj, hc]

/-- The tile's output block is its 200 windows. -/
theorem wins_split (f : Buf (Elt F) ((oV).view.loc (thr d L))) :
    ((oV).view.loc (thr d L) ↦[oRowSet (widL L)]{fullShare} f : sProp 𝕄)
      = bigSep (Finset.range 200) fun j => ((oV).view.loc (thr d L) ↦[(winM L j).view.set]{fullShare} f : sProp 𝕄) := by
  rw [← pointsTo_biUnion (Finset.range 200) (ℓ := (oV).view.loc (thr d L)) (fun j => (winM L j).view.set) (wins_disj L), wins_cover]

/-- The tile's slice of the reshaped tokens is row `wid`. -/
theorem iRowK_set : (iRowK L).view.set = iRowSet (widL L) := by
  show (((iV).view.slice (Rect.unit (s := S32x200x128) (k1_off1 L) S1x200x128.size (k1_off1_inb L))).reshape S200x128
    squeezes_S1x200x128_S200x128.numel_eq).set = ((iV).view.slice (irow (widL L))).set
  rw [View.set_reshape]
  exact iRect_eq L ▸ rfl

/-- The tile's slice of the table is the whole table. -/
theorem tAll_set : (tAll).view.set = Finset.univ := by
  show ((View.whole (main_v0_scv : Ref sig .scVector)).slice
    (Rect.unit (s := S100000x128) ![0, 0] S100000x128.size inb_S100000x128_S100000x128_0_0)).set = _
  rw [View.set_slice_whole]
  refine Finset.eq_univ_iff_forall.mpr fun y => Rect.mem_set_unit.mpr fun a => ?_
  have h0 : (![0, 0] : Fin 2 → ℕ) a = 0 := by fin_cases a <;> rfl
  rw [h0, Nat.zero_add]
  exact ⟨Nat.zero_le _, (y a).isLt⟩

/-! ## The program's slices are the pieces -/

theorem k1_trips : k1_t1_loop.trips = 48 := by decide

/-- The window trip `k` copies slot `r` to: window `4 k + r + 4`. -/
theorem winP6_eq (k : Fin k1_t1_loop.trips) (r : Fin 4) :
    (oV).slice (Rect.unit (s := S819200x128) (k1_off6 L k (BitVec.ofNat 32 r.val)) S128x128.size (k1_off6_inb L k r)) (fun _ => rfl)
      = winM L (4 * k.val + r.val + 4) := by
  have hk := trip_lt k
  have hr := r.isLt
  refine slice_unit_congr (oV) _ _ _ _ ?_
  rw [k1_off6_eq]
  exact congrArg (fun x => (![x, 0] : Fin 2 → ℕ)) (by rw [base_eq]; omega)

/-- The list trip `k` starts its `r`-th gather from: list `4 k + r + 6`. -/
theorem rowP5_eq (k : Fin k1_t1_loop.trips) (r : Fin 4) :
    ((sI).slice (Rect.unit (s := S200x128) (k1_off5 k (BitVec.ofNat 32 r.val)) S1x128.size (k1_off5_inb k r)) (fun _ => rfl)).squeeze S128 squeezes_S1x128_S128
      = rowM (4 * k.val + r.val + 6) := by
  have hk := trip_lt k
  have hr := r.isLt
  have e₀ : k1_off5 k (BitVec.ofNat 32 r.val) = ![min (4 * k.val + r.val + 6) 199, 0] := by
    rw [k1_off5_eq]
    exact congrArg (fun x => (![x, 0] : Fin 2 → ℕ)) (by omega)
  rw [slice_unit_congr (sI) (k1_off5_inb k r) (rowM_inb (4 * k.val + r.val + 6)) (fun _ => rfl) (fun _ => rfl) e₀]

/-- The windows of the first and the last four chunks. -/
theorem winP2_eq (r : Fin 8) :
    (oV).slice (Rect.unit (s := S819200x128) (k1_off2 L (k1_off2_at r)) S128x128.size (k1_off2_inb L r)) (fun _ => rfl)
      = winM L (if r.val < 4 then r.val else 192 + r.val) := by
  have hr := r.isLt
  refine slice_unit_congr (oV) _ _ _ _ ?_
  rw [off2_eq]
  refine congrArg (fun x => (![x, 0] : Fin 2 → ℕ)) ?_
  rw [base_eq]
  split <;> omega

variable [FloatOps F]

/-! ## What the pieces hold -/

/-- The word scratch after the tile's first copy: row `wid` of the reshaped tokens. -/
abbrev fIof (fi : Buf (Elt F) ((iRowK L).view.loc (thr d L))) (fs : Buf (Elt F) ((sI).view.loc (thr d L))) : Buf (Elt F) ((sI).view.loc (thr d L)) :=
  View.write (Elt F) (sI).view fs (ReadAs.same.apply ((iRowK L).view.read (Elt F) fi)) Finset.univ

/-! ### Where the pieces' indices sit in their buffers -/

omit [FloatOps F] in
/-- Index `y` of list `j` is word `(min j 199, y 0)` of the word scratch. -/
theorem rowM_emb (j : ℕ) (y : S128.Idx) :
    ((rowM j).view.emb y : S200x128.Idx) = ix2 (n0 := 200) (n1 := 128) ⟨min j 199, by omega⟩ (y 0) := by
  funext a
  apply Fin.ext
  show (![min j 199, 0] : Fin 2 → ℕ) a + 1 * ((Shape.reshapeEquiv squeezes_S1x128_S128.numel_eq y : S1x128.Idx) a).val = _
  rw [show (Shape.reshapeEquiv squeezes_S1x128_S128.numel_eq y : S1x128.Idx) = Fin.cons ⟨0, Nat.one_pos⟩ y from
    Shape.reshapeEquiv_cons_one _ y]
  match a with
  | ⟨0, _⟩ => show min j 199 + 1 * 0 = min j 199; omega
  | ⟨1, _⟩ => show 0 + 1 * (y 0).val = (y 0).val; omega

omit [FloatOps F] in
/-- Index `z` of the tile's token row is word `(wid, z 0, z 1)` of the reshaped tokens. -/
theorem iRowK_emb (z : S200x128.Idx) :
    ((iRowK L).view.emb z : S32x200x128.Idx) = ix3 (n0 := 32) (n1 := 200) (n2 := 128) (widL L) (z 0) (z 1) := by
  funext a
  apply Fin.ext
  show (k1_off1 L) a + 1 * ((Shape.reshapeEquiv squeezes_S1x200x128_S200x128.numel_eq z : S1x200x128.Idx) a).val = _
  rw [show (Shape.reshapeEquiv squeezes_S1x200x128_S200x128.numel_eq z : S1x200x128.Idx) = Fin.cons ⟨0, Nat.one_pos⟩ z from
    Shape.reshapeEquiv_cons_one _ z, k1_off1_eq]
  match a with
  | ⟨0, _⟩ => show 2 * (L 1).val + (L 0).val + 1 * 0 = 2 * (L 1).val + (L 0).val; omega
  | ⟨1, _⟩ => show 0 + 1 * (z 0).val = (z 0).val; omega
  | ⟨2, _⟩ => show 0 + 1 * (z 1).val = (z 1).val; omega

/-- A word of list `j`, once the tile's token row has been copied into the word scratch, is the token at
    `(wid, min j 199, y 0)`. -/
theorem rowM_read (j : ℕ) (fi : Buf (Elt F) ((iRowK L).view.loc (thr d L))) (fs : Buf (Elt F) ((sI).view.loc (thr d L))) (y : S128.Idx) :
    (rowM j).view.read (Elt F) (fIof d L fi fs) y = fi (ix3 (n0 := 32) (n1 := 200) (n2 := 128) (widL L) ⟨min j 199, by omega⟩ (y 0)) := by
  unfold fIof
  rw [View.write_whole_univ]
  refine ((View.read_apply _ _).trans (cast_eq _ _)).trans ?_
  refine ((View.read_apply _ _).trans (cast_eq _ _)).trans ?_
  refine congrArg fi ?_
  rw [rowM_emb, iRowK_emb]

omit [FloatOps F] in
/-- The tile's slice of the table starts at the origin: an index of it is the same index of the table. -/
theorem tAll_emb (i : S100000x128.Idx) : ((tAll).view.emb i : S100000x128.Idx) = i := by
  funext a
  apply Fin.ext
  show (![0, 0] : Fin 2 → ℕ) a + 1 * (i a).val = (i a).val
  match a with
  | ⟨0, _⟩ => show 0 + 1 * (i 0).val = (i 0).val; omega
  | ⟨1, _⟩ => show 0 + 1 * (i 1).val = (i 1).val; omega

omit [FloatOps F] in
/-- The table index a gathered entry comes from: the row its list word names, its own column. -/
theorem gidx_eq (r : Fin (S128x128.size gathers_S100000x128_S128x128.axis') → Fin (S100000x128.size gathers_S100000x128_S128x128.axis))
    (x : S128x128.Idx) :
    gathers_S100000x128_S128x128.idx r x = ix2 (n0 := 100000) (n1 := 128) (r (x 0)) (x 1) := by
  funext a
  match a with
  | ⟨0, _⟩ => exact Shape.Gathers.idx_axis gathers_S100000x128_S128x128 r x
  | ⟨1, _⟩ => exact Fin.ext (Shape.Gathers.idx_of_ne gathers_S100000x128_S128x128 r x ⟨1, by decide⟩ (by decide))

omit [FloatOps F] in
/-- In a list of 128 words the `k`-th word in row-major order is word `k`. -/
theorem rm_symm_zero (k : Fin S128.numel) : ((S128.rowMajor.symm k) 0).val = k.val := by
  have h := Shape.rowMajor_val_one (d := ![128]) (S128.rowMajor.symm k)
  rw [Equiv.apply_symm_apply] at h
  exact h.symm

/-- Every word of a list is a word of the tile's token row, so names a table row when every token does. -/
theorem lists_inb (fi : Buf (Elt F) ((iRowK L).view.loc (thr d L))) (hpre : ∀ x, (fi x).toNat < 100000)
    (fs : Buf (Elt F) ((sI).view.loc (thr d L))) (off : Fin 2 → Nat) (h : ∀ a, off a + S1x128.size a ≤ S200x128.size a) (x : S128.Idx) :
    ((((sI).slice (Rect.unit (s := S200x128) off S1x128.size h) (fun _ => rfl)).squeeze S128 squeezes_S1x128_S128).view.read (Elt F)
      (View.write (Elt F) (sI).view fs (ReadAs.same.apply ((iRowK L).view.read (Elt F) fi)) Finset.univ) x).toNat < S100000x128.size gathers_S100000x128_S128x128.axis := by
  rw [View.write_whole_univ]
  exact hpre _

/-- The gather of list `j` delivers chunk `j`. -/
theorem gather_val (j : ℕ) (fi : Buf (Elt F) ((iRowK L).view.loc (thr d L))) (ft : Buf (Elt F) ((tV).view.loc (thr d L)))
    (fs : Buf (Elt F) ((sI).view.loc (thr d L)))
    (hn : S128.numel = S128x128.size gathers_S100000x128_S128x128.axis')
    (hin : ∀ x, ((rowM j).view.read (Elt F) (fIof d L fi fs) x).toNat < S100000x128.size gathers_S100000x128_S128x128.axis) :
    SparseCore.gatherPayload gathers_S100000x128_S128x128 ((tAll).view.read (Elt F) ft) (SparseCore.rows ((rowM j).view.read (Elt F) (fIof d L fi fs)) hn hin)
      = chunkVal fi ft L j := by
  funext x
  show (tAll).view.read (Elt F) ft (gathers_S100000x128_S128x128.idx (SparseCore.rows ((rowM j).view.read (Elt F) (fIof d L fi fs)) hn hin) x)
    = ft (ix2 (Spec.rowOf (fi (ix3 (widL L) (⟨min j 199, by omega⟩ : Fin 200) (x 0)))) (x 1))
  refine ((View.read_apply _ _).trans (cast_eq _ _)).trans (congrArg ft ?_)
  rw [tAll_emb, gidx_eq]
  refine congrArg (fun q => ix2 (n0 := 100000) (n1 := 128) q (x 1)) (Fin.ext ?_)
  have hb := hin (S128.rowMajor.symm ((x 0).cast hn.symm))
  show ((rowM j).view.read (Elt F) (fIof d L fi fs) (S128.rowMajor.symm ((x 0).cast hn.symm))).toNat
    = min (fi (ix3 (widL L) (⟨min j 199, by omega⟩ : Fin 200) (x 0))).toNat 99999
  have hx : ((S128.rowMajor.symm ((x 0).cast hn.symm)) 0 : Fin 128) = x 0 := Fin.ext (rm_symm_zero _)
  rw [rowM_read, hx] at hb ⊢
  have hb' : (fi (ix3 (n0 := 32) (n1 := 200) (n2 := 128) (widL L) ⟨min j 199, by omega⟩ (x 0))).toNat < 100000 := hb
  omega

/-- A slot the gather of list `j` has landed in holds chunk `j`. -/
theorem slot_read_gather (b j : ℕ) (fi : Buf (Elt F) ((iRowK L).view.loc (thr d L))) (ft : Buf (Elt F) ((tV).view.loc (thr d L)))
    (fs : Buf (Elt F) ((sI).view.loc (thr d L))) (g : Buf (Elt F) ((sB).view.loc (thr d L)))
    (hn : S128.numel = S128x128.size gathers_S100000x128_S128x128.axis')
    (hin : ∀ x, ((rowM j).view.read (Elt F) (fIof d L fi fs) x).toNat < S100000x128.size gathers_S100000x128_S128x128.axis) :
    (slotM b).view.read (Elt F) (View.write (Elt F) (slotM b).view g
        (SparseCore.gatherPayload gathers_S100000x128_S128x128 ((tAll).view.read (Elt F) ft) (SparseCore.rows ((rowM j).view.read (Elt F) (fIof d L fi fs)) hn hin)) Finset.univ)
      = chunkVal fi ft L j := by
  rw [View.read_write_univ]
  exact gather_val d L j fi ft fs hn hin

omit [FloatOps F] in
/-- The whole rectangle places every index at itself. -/
theorem whole_emb (x : S128x128.Idx) : (Rect.whole S128x128).emb x = x := by
  exact Rect.emb_whole_apply S128x128 x

omit [FloatOps F] in
/-- Index `x` of window `j` is entry `(base + 128 · min j 199 + x 0, x 1)` of the output. -/
theorem winM_emb (j : ℕ) (x : S128x128.Idx) :
    ((winM L j).view.emb x : S819200x128.Idx)
      = ix2 (n0 := 819200) (n1 := 128) ⟨base L + 128 * min j 199 + (x 0).val, by
          have h := (widL L).isLt; have hx := idx2_lt0 x; unfold base; omega⟩ (x 1) := by
  funext a
  apply Fin.ext
  show (![base L + 128 * min j 199, 0] : Fin 2 → ℕ) a + 1 * (x a).val = _
  match a with
  | ⟨0, _⟩ => show base L + 128 * min j 199 + 1 * (x 0).val = base L + 128 * min j 199 + (x 0).val; omega
  | ⟨1, _⟩ => show 0 + 1 * (x 1).val = (x 1).val; omega

/-- A window a slot holding chunk `j` was copied to holds its rows of the output. -/
theorem win_write_val (b j : ℕ) (hj : j < 200) (fi : Buf (Elt F) ((iRowK L).view.loc (thr d L))) (ft : Buf (Elt F) ((tV).view.loc (thr d L)))
    (fd : Buf (Elt F) ((oV).view.loc (thr d L))) (g : Buf (Elt F) ((sB).view.loc (thr d L)))
    (hg : (slotM b).view.read (Elt F) g = chunkVal fi ft L j) :
    ∀ y ∈ (winM L j).view.set, (winM L j).view.writes (Elt F) fd [⟨Rect.whole S128x128, ReadAs.same.apply ((slotM b).view.read (Elt F) g)⟩] y = outF fi ft y := by
  intro y hy
  rw [show (winM L j).view.set = (Rect.unit (s := S819200x128) ![base L + 128 * min j 199, 0] S128x128.size (winM_inb L j)).set from
    View.set_slice_whole _ _, Rect.mem_set_unit] at hy
  have h0 : base L + 128 * min j 199 ≤ (y 0).val ∧ (y 0).val < base L + 128 * min j 199 + 128 := hy 0
  have h1 : (y 1).val < 128 := (y 1).isLt
  have hw := (widL L).isLt
  have hmin : min j 199 = j := by omega
  obtain ⟨x, hx0, hx1⟩ : ∃ x : S128x128.Idx, (x 0).val = (y 0).val - (base L + 128 * min j 199) ∧ (x 1).val = (y 1).val :=
    ⟨ix2 (n0 := 128) (n1 := 128) ⟨(y 0).val - (base L + 128 * min j 199), by omega⟩ ⟨(y 1).val, h1⟩, rfl, rfl⟩
  have hyx : y = ((winM L j).view.slice (Rect.whole S128x128)).emb x := by
    show y = (winM L j).view.emb ((Rect.whole S128x128).emb x)
    rw [Rect.emb_whole_apply, winM_emb]
    funext a
    match a with
    | ⟨0, _⟩ => exact Fin.ext (by show (y 0).val = base L + 128 * min j 199 + (x 0).val; omega)
    | ⟨1, _⟩ => exact Fin.ext hx1.symm
  have hL : (winM L j).view.writes (Elt F) fd [⟨Rect.whole S128x128, ReadAs.same.apply ((slotM b).view.read (Elt F) g)⟩] y = chunkVal fi ft L j x := by
    rw [View.writes_singleton, hyx]
    exact (View.write_emb_of_mem _ _ (Finset.mem_univ x)).trans ((cast_eq _ _).trans (congrFun hg x))
  rw [hL]
  unfold chunkVal outF base at *
  refine congrArg ft ?_
  have hA : (ix3 (n0 := 32) (n1 := 200) (n2 := 128) (widL L) ⟨min j 199, by omega⟩ (x 0))
      = ix3 (n0 := 32) (n1 := 200) (n2 := 128) ⟨(y 0).val / 25600, by omega⟩ ⟨(y 0).val % 25600 / 128, by omega⟩ ⟨(y 0).val % 128, by omega⟩ := by
    funext a
    match a with
    | ⟨0, _⟩ => exact Fin.ext (by show (widL L).val = (y 0).val / 25600; omega)
    | ⟨1, _⟩ => exact Fin.ext (by show min j 199 = (y 0).val % 25600 / 128; omega)
    | ⟨2, _⟩ => exact Fin.ext (by show (x 0).val = (y 0).val % 128; omega)
  have hB : (x 1 : Fin 128) = y 1 := Fin.ext hx1
  rw [hA, hB]

/-- The four slots, at any contents, are the row scratch at some contents. -/
theorem slots_join (g0 g1 g2 g3 : Buf (Elt F) ((sB).view.loc (thr d L))) :
    iprop(((sB).view.loc (thr d L) ↦[(slotM 0).view.set]{fullShare} g0) ∗ ((sB).view.loc (thr d L) ↦[(slotM 1).view.set]{fullShare} g1)
        ∗ ((sB).view.loc (thr d L) ↦[(slotM 2).view.set]{fullShare} g2) ∗ ((sB).view.loc (thr d L) ↦[(slotM 3).view.set]{fullShare} g3))
      ⊢ (iprop(∃ f, (sB).view.loc (thr d L) ↦{fullShare} f) : sProp 𝕄) := by
  have r0 : 0 ∈ Finset.range 4 := Finset.mem_range.mpr (by omega)
  have r1 : 1 ∈ Finset.range 4 := Finset.mem_range.mpr (by omega)
  have r2 : 2 ∈ Finset.range 4 := Finset.mem_range.mpr (by omega)
  have r3 : 3 ∈ Finset.range 4 := Finset.mem_range.mpr (by omega)
  have d23 : Disjoint ((slotM 2).view.set : Finset (Idx ((sB).view.loc (thr d L)))) (slotM 3).view.set :=
    slots_disj 2 r2 3 r3 (by omega)
  have d1 : Disjoint ((slotM 1).view.set : Finset (Idx ((sB).view.loc (thr d L)))) ((slotM 2).view.set ∪ (slotM 3).view.set) :=
    Finset.disjoint_union_right.mpr ⟨slots_disj 1 r1 2 r2 (by omega), slots_disj 1 r1 3 r3 (by omega)⟩
  have d0 : Disjoint ((slotM 0).view.set : Finset (Idx ((sB).view.loc (thr d L))))
      ((slotM 1).view.set ∪ ((slotM 2).view.set ∪ (slotM 3).view.set)) :=
    Finset.disjoint_union_right.mpr ⟨slots_disj 0 r0 1 r1 (by omega),
      Finset.disjoint_union_right.mpr ⟨slots_disj 0 r0 2 r2 (by omega), slots_disj 0 r0 3 r3 (by omega)⟩⟩
  have hcov : ((slotM 0).view.set ∪ ((slotM 1).view.set ∪ ((slotM 2).view.set ∪ (slotM 3).view.set))
      : Finset (Idx ((sB).view.loc (thr d L)))) = Finset.univ := by
    refine Finset.eq_univ_iff_forall.mpr fun i => ?_
    have hi : i ∈ (Finset.range 4).biUnion (β := S4x128x128.Idx) (fun b => (slotM b).view.set) := slots_cover ▸ Finset.mem_univ i
    obtain ⟨b, hb, hib⟩ := Finset.mem_biUnion.mp hi
    have hb' := Finset.mem_range.mp hb
    simp only [Finset.mem_union]
    interval_cases b
    · exact .inl hib
    · exact .inr (.inl hib)
    · exact .inr (.inr (.inl hib))
    · exact .inr (.inr (.inr hib))
  iintro ⟨H0, H1, H2, H3⟩
  ihave H23 := (pointsTo_join (ℓ := (sB).view.loc (thr d L)) (q := fullShare) (f := g2) (g := g3) d23) $$ [H2 H3]; · isplitl [H2] <;> iassumption
  ihave H123 := (pointsTo_join (ℓ := (sB).view.loc (thr d L)) (q := fullShare) (f := g1) d1) $$ [H1 H23]; · isplitl [H1] <;> iassumption
  ihave H := (pointsTo_join (ℓ := (sB).view.loc (thr d L)) (q := fullShare) (f := g0) d0) $$ [H0 H123]; · isplitl [H0] <;> iassumption
  rw [hcov]
  iexists _
  iexact H

end Cert.Proof.KI

end
-- ==== Proof.KITileInv.lean ====
/-
  What a tile holds between the trips of its loop.

  At the head of trip `k` (chunks `4k+4 … 4k+7` are copied out during it) two gathers are in flight — list `4k+4` into slot 0,
  list `4k+5` into slot 1 — and two copies out — slot 2 to window `4k+2`, slot 3 to window `4k+3`.  A gather's landing hands
  back its slot holding the chunk, its list and its read share of the table; a copy's landing hands back its window holding
  its rows of the output and its slot.  Windows below `4k+2` hold the output, windows from `4k+4` on their launch contents.
-/
import proofs.«217237_g17617955848579_cont_7to1_1664_16_alg».proof.Proof.KITilePure
import Idealize.ShloMosaic.Lib.Ring

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

/-- The tile's nine DMA semaphores, by their numbers in the pool: 4-7 one per slot for the gathers, 8-11 one per slot for the
    copies out, 12 for the first copy. -/
abbrev g0 : DmaSem sig := ⟨4, by decide⟩
abbrev g1 : DmaSem sig := ⟨5, by decide⟩
abbrev g2 : DmaSem sig := ⟨6, by decide⟩
abbrev g3 : DmaSem sig := ⟨7, by decide⟩
abbrev s0 : DmaSem sig := ⟨8, by decide⟩
abbrev s1 : DmaSem sig := ⟨9, by decide⟩
abbrev s2 : DmaSem sig := ⟨10, by decide⟩
abbrev s3 : DmaSem sig := ⟨11, by decide⟩
abbrev z0 : DmaSem sig := ⟨12, by decide⟩
abbrev gS : ℕ → DmaSem sig | 0 => g0 | 1 => g1 | 2 => g2 | _ => g3
abbrev sS : ℕ → DmaSem sig | 0 => s0 | 1 => s1 | 2 => s2 | _ => s3

/-- The slices as the program spells them: the slots, the lists at literal rows, the lists and windows of a trip, the first
    and last windows. -/
abbrev slotP0 : Memref sig .scVector .vmem S128x128 .f32 := ((sB).slice (Rect.unit (s := S4x128x128) ![0, 0, 0] S1x128x128.size inb_S4x128x128_S1x128x128_0_0_0) (fun _ => rfl)).squeeze S128x128 squeezes_S1x128x128_S128x128
abbrev slotP1 : Memref sig .scVector .vmem S128x128 .f32 := ((sB).slice (Rect.unit (s := S4x128x128) ![1, 0, 0] S1x128x128.size inb_S4x128x128_S1x128x128_1_0_0) (fun _ => rfl)).squeeze S128x128 squeezes_S1x128x128_S128x128
abbrev slotP2 : Memref sig .scVector .vmem S128x128 .f32 := ((sB).slice (Rect.unit (s := S4x128x128) ![2, 0, 0] S1x128x128.size inb_S4x128x128_S1x128x128_2_0_0) (fun _ => rfl)).squeeze S128x128 squeezes_S1x128x128_S128x128
abbrev slotP3 : Memref sig .scVector .vmem S128x128 .f32 := ((sB).slice (Rect.unit (s := S4x128x128) ![3, 0, 0] S1x128x128.size inb_S4x128x128_S1x128x128_3_0_0) (fun _ => rfl)).squeeze S128x128 squeezes_S1x128x128_S128x128
abbrev rowP (n : ℕ) (h : ∀ a, (![n, 0] : Fin 2 → Nat) a + S1x128.size a ≤ S200x128.size a) : Memref sig .scVector .vmem S128 .i32 :=
  ((sI).slice (Rect.unit (s := S200x128) ![n, 0] S1x128.size h) (fun _ => rfl)).squeeze S128 squeezes_S1x128_S128
abbrev rowP5 (k : Fin k1_t1_loop.trips) (r : Fin 4) : Memref sig .scVector .vmem S128 .i32 :=
  ((sI).slice (Rect.unit (s := S200x128) (k1_off5 k (BitVec.ofNat 32 r.val)) S1x128.size (k1_off5_inb k r)) (fun _ => rfl)).squeeze S128 squeezes_S1x128_S128
abbrev winP6 (L : grid1.Coords) (k : Fin k1_t1_loop.trips) (r : Fin 4) : Memref sig .scVector .hbm S128x128 .f32 :=
  (oV).slice (Rect.unit (s := S819200x128) (k1_off6 L k (BitVec.ofNat 32 r.val)) S128x128.size (k1_off6_inb L k r)) (fun _ => rfl)
abbrev winP2 (L : grid1.Coords) (r : Fin 8) : Memref sig .scVector .hbm S128x128 .f32 :=
  (oV).slice (Rect.unit (s := S819200x128) (k1_off2 L (k1_off2_at r)) S128x128.size (k1_off2_inb L r)) (fun _ => rfl)

variable (d : Dev nD) (L : grid1.Coords)

abbrev cell (sm : DmaSem sig) : GSem nD τ sig := (thr d L, .dma sm)

variable (q : PosShare TreeShare) (fi : Buf (Elt F) ((iRowK L).view.loc (thr d L))) (ft : Buf (Elt F) ((tV).view.loc (thr d L)))
  (fs : Buf (Elt F) ((sI).view.loc (thr d L))) (fo : Buf (Elt F) ((oV).view.loc (thr d L)))

/-- The pieces, held. -/
abbrev rowPts (j : ℕ) : sProp 𝕄 := (sI).view.loc (thr d L) ↦[(rowM j).view.set]{fullShare} fIof d L fi fs
abbrev slotPts (b : ℕ) (g : Buf (Elt F) ((sB).view.loc (thr d L))) : sProp 𝕄 := (sB).view.loc (thr d L) ↦[(slotM b).view.set]{fullShare} g
abbrev winPts (j : ℕ) (f : Buf (Elt F) ((oV).view.loc (thr d L))) : sProp 𝕄 := (oV).view.loc (thr d L) ↦[(winM L j).view.set]{fullShare} f
abbrev tokPts (b : ℕ) : sProp 𝕄 := (tV).view.loc (thr d L) ↦{Transfers.shareTokN q (4 + b)} ft
abbrev tokLent (b : ℕ) : sProp 𝕄 := (tV).view.loc (thr d L) ↦[(tAll).view.set]{Transfers.shareTokN q (4 + b)} ft

/-- What the gather of list `j` into slot `b` hands back. -/
def GD (b j : ℕ) : sProp 𝕄 :=
  iprop(((∃ g, slotPts d L b g ∗ ⌜(slotM b).view.read (Elt F) g = chunkVal fi ft L j⌝) ∗ rowPts d L fi fs j) ∗ tokLent d L q ft b)
/-- What the copy of slot `b` to window `j` hands back. -/
def SD (b j : ℕ) : sProp 𝕄 :=
  iprop(winPts d L j (outF fi ft) ∗ ∃ g, slotPts d L b g)

abbrev NC : ℕ := 524288

def GF (b j : ℕ) : sProp 𝕄 := Transfers.Flight countersEmb (thr d L) (.dma (gS b)) (default : HIx 1) NC (GD d L q fi ft fs b j)
def SF (b j : ℕ) : sProp 𝕄 := Transfers.Flight countersEmb (thr d L) (.dma (sS b)) (default : HIx 1) NC (SD d L fi ft b j)

/-- Between trips (see the head of this file): before trip `k`. -/
def Inv (O : CellTallies nD τ sig (HIx 1)) (W : Waits sig (HIx 1)) (k : ℕ) (_ : PUnit) : sProp 𝕄 :=
  iprop((Transfers.MayWaits (thr d L) (default : HIx 1) O : sProp 𝕄)
    ∗ ((iRowK L).view.loc (thr d L) ↦[(iRowK L).view.set]{fullShare} fi)
    ∗ GF d L q fi ft fs 0 (4 * k + 4) ∗ GF d L q fi ft fs 1 (4 * k + 5) ∗ SF d L fi ft 2 (4 * k + 2) ∗ SF d L fi ft 3 (4 * k + 3)
    ∗ tokPts d L q ft 2 ∗ tokPts d L q ft 3
    ∗ bigSep (Finset.Ico 0 (4 * k + 4)) (fun j => rowPts d L fi fs j) ∗ bigSep (Finset.Ico (4 * k + 6) 200) (fun j => rowPts d L fi fs j)
    ∗ bigSep (Finset.Ico 0 (4 * k + 2)) (fun j => winPts d L j (outF fi ft)) ∗ bigSep (Finset.Ico (4 * k + 4) 200) (fun j => winPts d L j fo)
    ∗ semVal (cell d L g2) 0 ∗ semVal (cell d L g3) 0 ∗ semVal (cell d L s0) 0 ∗ semVal (cell d L s1) 0 ∗ semVal (cell d L z0) 0
    ∗ ∃ W', ⌜∀ p ∈ W', p ∈ W ∨ p.2 = none⌝ ∗ owes (thr d L) O W')

/-- A resource set aside from a run. -/
def keep (P : sProp 𝕄) : sProp 𝕄 := P
theorem keep_eq (P : sProp 𝕄) : keep P = P := rfl

end Cert.Proof.KI

end
-- ==== Proof.KITileLemmas.lean ====
/-
  Small facts the tile's run uses: runs of numbers taken apart, a share as read tokens, the scratch buffers and the block as
  their pieces, the program's slices by their offsets, and that what a landed gather or copy hands back is what the
  invariant says it hands back.
-/
import proofs.«217237_g17617955848579_cont_7to1_1664_16_alg».proof.Proof.KITileInv

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid1.Coords)

/-- The first number of a run of numbers set apart, and the last. -/
theorem Ico_peel (a a' b : ℕ) (h : a < b) (ha : a' = a + 1) (A : ℕ → sProp 𝕄) :
    bigSep (Finset.Ico a b) A = iprop(A a ∗ bigSep (Finset.Ico a' b) A) := by
  subst ha; exact Idealize.ShloMosaic.Ring.bigSep_Ico_succ h A
theorem Ico_push (a b b' : ℕ) (h : a ≤ b) (hb : b' = b + 1) (A : ℕ → sProp 𝕄) :
    bigSep (Finset.Ico a b') A = iprop(A b ∗ bigSep (Finset.Ico a b) A) := by
  subst hb
  rw [Nat.Ico_succ_right_eq_insert_Ico h, bigSep_insert Finset.right_notMem_Ico]; rfl
theorem Ico_nil (a : ℕ) (A : ℕ → sProp 𝕄) : bigSep (Finset.Ico a a) A = iprop(emp) := by
  rw [Finset.Ico_self, bigSep_empty]; rfl

/-- One read token off what remains of a share. -/
theorem tok_step' (q : PosShare TreeShare) {ℓ : Loc nD τ sig} (f : Buf (Elt F) ℓ) (k k' : ℕ) (hk : k' = k + 1) :
    (ℓ ↦{Transfers.shareDrop q k} f : sProp 𝕄) ⊣⊢ iprop((ℓ ↦{Transfers.shareDrop q k'} f) ∗ ℓ ↦{Transfers.shareTokN q k} f) := by
  subst hk; exact pointsTo_share (PosShare.mem_left_op_right _)
theorem tok_step0 (q : PosShare TreeShare) {ℓ : Loc nD τ sig} (f : Buf (Elt F) ℓ) :
    (ℓ ↦{q} f : sProp 𝕄) ⊣⊢ iprop((ℓ ↦{Transfers.shareDrop q 1} f) ∗ ℓ ↦{Transfers.shareTokN q 0} f) :=
  pointsTo_share (PosShare.mem_left_op_right _)

theorem rows_open (f : Buf (Elt F) ((sI).view.loc (thr d L))) :
    ((sI).view.loc (thr d L) ↦{fullShare} f : sProp 𝕄)
      = bigSep (Finset.Ico 0 200) fun j => ((sI).view.loc (thr d L) ↦[(rowM j).view.set]{fullShare} f : sProp 𝕄) := by
  rw [rows_split d L f, Finset.range_eq_Ico]
theorem slots_open (f : Buf (Elt F) ((sB).view.loc (thr d L))) :
    ((sB).view.loc (thr d L) ↦{fullShare} f : sProp 𝕄)
      = bigSep (Finset.Ico 0 4) fun b => ((sB).view.loc (thr d L) ↦[(slotM b).view.set]{fullShare} f : sProp 𝕄) := by
  rw [slots_split d L f, Finset.range_eq_Ico]
theorem wins_open (f : Buf (Elt F) ((oV).view.loc (thr d L))) :
    ((oV).view.loc (thr d L) ↦[oRowSet (widL L)]{fullShare} f : sProp 𝕄)
      = bigSep (Finset.Ico 0 200) fun j => ((oV).view.loc (thr d L) ↦[(winM L j).view.set]{fullShare} f : sProp 𝕄) := by
  rw [wins_split d L f, Finset.range_eq_Ico]

/-- A points-to over two spellings of one set of elements. -/
theorem pts_set_congr {ℓ : Loc nD τ sig} {S S' : Finset (Idx ℓ)} (h : S = S') (f : Buf (Elt F) ℓ) :
    (ℓ ↦[S]{fullShare} f : sProp 𝕄) = ℓ ↦[S']{fullShare} f := by rw [h]
/-- The first and last windows' elements, in the two spellings. -/
theorem winP2_set (r : Fin 8) : (winP2 L r).view.set = (winM L (if r.val < 4 then r.val else 192 + r.val)).view.set :=
  eq_of_heq (congr_arg_heq (fun M : Memref sig .scVector .hbm S128x128 .f32 => M.view.set) (winP2_eq L r))
theorem winP6_set (k : Fin k1_t1_loop.trips) (r : Fin 4) : (winP6 L k r).view.set = (winM L (4 * k.val + r.val + 4)).view.set :=
  eq_of_heq (congr_arg_heq (fun M : Memref sig .scVector .hbm S128x128 .f32 => M.view.set) (winP6_eq L k r))
theorem rowP5_set (k : Fin k1_t1_loop.trips) (r : Fin 4) : (rowP5 k r).view.set = (rowM (4 * k.val + r.val + 6)).view.set :=
  eq_of_heq (congr_arg_heq (fun M : Memref sig .scVector .vmem S128 .i32 => M.view.set) (rowP5_eq k r))

/-! ## The program's slices, by their offsets -/

abbrev rowO (off : Fin 2 → ℕ) (h : ∀ a, off a + S1x128.size a ≤ S200x128.size a) : Memref sig .scVector .vmem S128 .i32 :=
  ((sI).slice (Rect.unit (s := S200x128) off S1x128.size h) (fun _ => rfl)).squeeze S128 squeezes_S1x128_S128
abbrev slotO (off : Fin 3 → ℕ) (h : ∀ a, off a + S1x128x128.size a ≤ S4x128x128.size a) : Memref sig .scVector .vmem S128x128 .f32 :=
  ((sB).slice (Rect.unit (s := S4x128x128) off S1x128x128.size h) (fun _ => rfl)).squeeze S128x128 squeezes_S1x128x128_S128x128
abbrev winO (off : Fin 2 → ℕ) (h : ∀ a, off a + S128x128.size a ≤ S819200x128.size a) : Memref sig .scVector .hbm S128x128 .f32 :=
  (oV).slice (Rect.unit (s := S819200x128) off S128x128.size h) (fun _ => rfl)

theorem off2_eq' (r : Fin 8) :
    k1_off2 L (k1_off2_at r) = ![base L + 128 * min (if r.val < 4 then r.val else 192 + r.val) 199, 0] := by
  have h : (if r.val < 4 then r.val else 192 + r.val) ≤ 199 := by have := r.isLt; split <;> omega
  rw [off2_eq, base_eq, Nat.min_eq_left h]
theorem off6_eq' (k : Fin k1_t1_loop.trips) (r : Fin 4) :
    k1_off6 L k (BitVec.ofNat 32 r.val) = ![base L + 128 * min (4 * k.val + r.val + 4) 199, 0] := by
  have hk := trip_lt k
  have hr := r.isLt
  rw [k1_off6_eq L k r, base_eq, Nat.min_eq_left (by omega)]
  rw [show 51200 * (L 1).val + 25600 * (L 0).val + 512 * k.val + 128 * r.val + 512 = 51200 * (L 1).val + 25600 * (L 0).val + 128 * (4 * k.val + r.val + 4) by omega]
theorem off5_eq' (k : Fin k1_t1_loop.trips) (r : Fin 4) :
    k1_off5 k (BitVec.ofNat 32 r.val) = ![min (4 * k.val + r.val + 6) 199, 0] := by
  have hk := trip_lt k
  have hr := r.isLt
  rw [k1_off5_eq k r, Nat.min_eq_left (by omega)]

/-- A slice at an offset that is a piece's offset has the piece's elements. -/
theorem rowO_set (j : ℕ) (off : Fin 2 → ℕ) (h : ∀ a, off a + S1x128.size a ≤ S200x128.size a) (e : off = ![min j 199, 0]) :
    (rowO off h).view.set = (rowM j).view.set := by subst e; rfl
theorem slotO_set (b : ℕ) (off : Fin 3 → ℕ) (h : ∀ a, off a + S1x128x128.size a ≤ S4x128x128.size a) (e : off = ![min b 3, 0, 0]) :
    (slotO off h).view.set = (slotM b).view.set := by subst e; rfl
theorem winO_set (j : ℕ) (off : Fin 2 → ℕ) (h : ∀ a, off a + S128x128.size a ≤ S819200x128.size a) (e : off = ![base L + 128 * min j 199, 0]) :
    (winO off h).view.set = (winM L j).view.set := by subst e; rfl

/-- A piece, held, in the program's spelling of it (location and elements both through the program's slice). -/
theorem slot_prog (b : ℕ) (off : Fin 3 → ℕ) (h : ∀ a, off a + S1x128x128.size a ≤ S4x128x128.size a) (e : off = ![min b 3, 0, 0])
    (g : Buf (Elt F) ((sB).view.loc (thr d L))) :
    (slotPts d L b g : sProp 𝕄) = ((slotO off h).view.loc (thr d L) ↦[(slotO off h).view.set]{fullShare} g) := by subst e; rfl
theorem row_prog (fi : Buf (Elt F) ((iRowK L).view.loc (thr d L))) (fs : Buf (Elt F) ((sI).view.loc (thr d L)))
    (j : ℕ) (off : Fin 2 → ℕ) (h : ∀ a, off a + S1x128.size a ≤ S200x128.size a) (e : off = ![min j 199, 0]) :
    (rowPts d L fi fs j : sProp 𝕄) = ((rowO off h).view.loc (thr d L) ↦[(rowO off h).view.set]{fullShare} fIof d L fi fs) := by subst e; rfl
theorem win_prog (j : ℕ) (off : Fin 2 → ℕ) (h : ∀ a, off a + S128x128.size a ≤ S819200x128.size a) (e : off = ![base L + 128 * min j 199, 0])
    (f : Buf (Elt F) ((oV).view.loc (thr d L))) :
    (winPts d L j f : sProp 𝕄) = ((winO off h).view.loc (thr d L) ↦[(winO off h).view.set]{fullShare} f) := by subst e; rfl

/-- A read token's lent piece is the whole token: the tile's slice of the table is the whole table. -/
theorem tok_back (q : PosShare TreeShare) (ft : Buf (Elt F) ((tV).view.loc (thr d L))) (b : ℕ) :
    (tokLent d L q ft b : sProp 𝕄) = tokPts d L q ft b := by
  unfold tokLent tokPts; rw [tAll_set]

/-- The two deliveries, unfolded. -/
theorem SD_def (fi : Buf (Elt F) ((iRowK L).view.loc (thr d L))) (ft : Buf (Elt F) ((tV).view.loc (thr d L))) (b j : ℕ) :
    (SD d L fi ft b j : sProp 𝕄) = iprop(winPts d L j (outF fi ft) ∗ ∃ g, slotPts d L b g) := rfl
theorem GD_def (q : PosShare TreeShare) (fi : Buf (Elt F) ((iRowK L).view.loc (thr d L))) (ft : Buf (Elt F) ((tV).view.loc (thr d L)))
    (fs : Buf (Elt F) ((sI).view.loc (thr d L))) (b j : ℕ) :
    (GD d L q fi ft fs b j : sProp 𝕄)
      = iprop(((∃ g, slotPts d L b g ∗ ⌜(slotM b).view.read (Elt F) g = chunkVal fi ft L j⌝) ∗ rowPts d L fi fs j) ∗ tokLent d L q ft b) := rfl

section Deliveries

variable (q : PosShare TreeShare) (fi : Buf (Elt F) ((iRowK L).view.loc (thr d L))) (ft : Buf (Elt F) ((tV).view.loc (thr d L)))
  (fs : Buf (Elt F) ((sI).view.loc (thr d L))) (fo : Buf (Elt F) ((oV).view.loc (thr d L)))

/-- A slot whose last write is the gather of list `j` reads as chunk `j`. -/
theorem slot_val (b j : ℕ) (g : Buf (Elt F) ((sB).view.loc (thr d L))) (rest : List (View.Piece (Elt F) S128x128 .f32))
    (hn : S128.numel = S128x128.size gathers_S100000x128_S128x128.axis')
    (hin : ∀ x, ((rowM j).view.read (Elt F) (fIof d L fi fs) x).toNat < S100000x128.size gathers_S100000x128_S128x128.axis) :
    (slotM b).view.read (Elt F) ((slotM b).view.writes (Elt F) g
        (⟨Rect.whole S128x128, SparseCore.gatherPayload gathers_S100000x128_S128x128 ((tAll).view.read (Elt F) ft)
          (SparseCore.rows ((rowM j).view.read (Elt F) (fIof d L fi fs)) hn hin)⟩ :: rest))
      = chunkVal fi ft L j := by
  funext x
  have h := View.read_writes_cons_emb (slotM b).view g (Rect.whole S128x128)
    (SparseCore.gatherPayload gathers_S100000x128_S128x128 ((tAll).view.read (Elt F) ft) (SparseCore.rows ((rowM j).view.read (Elt F) (fIof d L fi fs)) hn hin)) rest x
  rw [whole_emb x] at h
  exact h.trans (congrFun (gather_val d L j fi ft fs hn hin) x)

theorem slot_valO (b j : ℕ) (offS : Fin 3 → ℕ) (hS : ∀ a, offS a + S1x128x128.size a ≤ S4x128x128.size a)
    (offR : Fin 2 → ℕ) (hR : ∀ a, offR a + S1x128.size a ≤ S200x128.size a)
    (eS : offS = ![min b 3, 0, 0]) (eR : offR = ![min j 199, 0])
    (g : Buf (Elt F) ((sB).view.loc (thr d L))) (rest : List (View.Piece (Elt F) S128x128 .f32))
    (hn : S128.numel = S128x128.size gathers_S100000x128_S128x128.axis')
    (hin : ∀ x, ((rowO offR hR).view.read (Elt F) (fIof d L fi fs) x).toNat < S100000x128.size gathers_S100000x128_S128x128.axis) :
    (slotM b).view.read (Elt F) ((slotO offS hS).view.writes (Elt F) g
        (⟨Rect.whole S128x128, SparseCore.gatherPayload gathers_S100000x128_S128x128 ((tAll).view.read (Elt F) ft)
          (SparseCore.rows ((rowO offR hR).view.read (Elt F) (fIof d L fi fs)) hn hin)⟩ :: rest))
      = chunkVal fi ft L j := by
  subst eS eR; exact slot_val d L fi ft fs b j g rest hn hin

/-- What a gather started over the program's slices delivers is what the invariant says a gather delivers. -/
theorem gd_ofO (b j : ℕ) (offS : Fin 3 → ℕ) (hS : ∀ a, offS a + S1x128x128.size a ≤ S4x128x128.size a)
    (offR : Fin 2 → ℕ) (hR : ∀ a, offR a + S1x128.size a ≤ S200x128.size a) (tq : PosShare TreeShare)
    (eS : offS = ![min b 3, 0, 0]) (eR : offR = ![min j 199, 0]) (etq : tq = Transfers.shareTokN q (4 + b))
    (g : Buf (Elt F) ((sB).view.loc (thr d L))) (rest : List (View.Piece (Elt F) S128x128 .f32))
    (hn : S128.numel = S128x128.size gathers_S100000x128_S128x128.axis')
    (hin : ∀ x, ((rowO offR hR).view.read (Elt F) (fIof d L fi fs) x).toNat < S100000x128.size gathers_S100000x128_S128x128.axis) :
    iprop((((slotO offS hS).view.loc (thr d L) ↦[(slotO offS hS).view.set]{fullShare} (slotO offS hS).view.writes (Elt F) g
          (⟨Rect.whole S128x128, SparseCore.gatherPayload gathers_S100000x128_S128x128 ((tAll).view.read (Elt F) ft)
            (SparseCore.rows ((rowO offR hR).view.read (Elt F) (fIof d L fi fs)) hn hin)⟩ :: rest))
        ∗ ((rowO offR hR).view.loc (thr d L) ↦[(rowO offR hR).view.set]{fullShare} fIof d L fi fs))
        ∗ ((tV).view.loc (thr d L) ↦[(tAll).view.set]{tq} ft))
      ⊢ GD d L q fi ft fs b j := by
  subst eS eR etq
  unfold GD
  iintro ⟨⟨Hs, Hr⟩, Ht⟩
  isplitl [Hs Hr]
  · isplitl [Hs]
    · iexists _; isplitl [Hs]; · iexact Hs
      ipureintro; exact slot_val d L fi ft fs b j g rest hn hin
    · iexact Hr
  · iexact Ht

/-- A window a slot holding chunk `j` was copied to holds the output there. -/
theorem win_doneO (b j : ℕ) (hj : j < 200) (offW : Fin 2 → ℕ) (hW : ∀ a, offW a + S128x128.size a ≤ S819200x128.size a)
    (eW : offW = ![base L + 128 * min j 199, 0])
    (fd : Buf (Elt F) ((oV).view.loc (thr d L))) (g : Buf (Elt F) ((sB).view.loc (thr d L)))
    (hg : (slotM b).view.read (Elt F) g = chunkVal fi ft L j) :
    ((winO offW hW).view.loc (thr d L) ↦[(winO offW hW).view.set]{fullShare} (winO offW hW).view.writes (Elt F) fd [⟨Rect.whole S128x128, ReadAs.same.apply ((slotM b).view.read (Elt F) g)⟩] : sProp 𝕄)
      = winPts d L j (outF fi ft) := by
  subst eW
  exact pointsTo_congr (win_write_val d L b j hj fi ft fd g hg)

/-- What a copy out started over the program's slices delivers is what the invariant says a copy out delivers. -/
theorem sd_ofO (b j : ℕ) (hj : j < 200) (offW : Fin 2 → ℕ) (hW : ∀ a, offW a + S128x128.size a ≤ S819200x128.size a)
    (offS : Fin 3 → ℕ) (hS : ∀ a, offS a + S1x128x128.size a ≤ S4x128x128.size a)
    (eW : offW = ![base L + 128 * min j 199, 0]) (eS : offS = ![min b 3, 0, 0])
    (fd : Buf (Elt F) ((oV).view.loc (thr d L))) (g : Buf (Elt F) ((sB).view.loc (thr d L)))
    (hg : (slotM b).view.read (Elt F) g = chunkVal fi ft L j) :
    iprop(((winO offW hW).view.loc (thr d L) ↦[(winO offW hW).view.set]{fullShare} (winO offW hW).view.writes (Elt F) fd [⟨Rect.whole S128x128, ReadAs.same.apply ((slotO offS hS).view.read (Elt F) g)⟩])
        ∗ ((slotO offS hS).view.loc (thr d L) ↦[(slotO offS hS).view.set]{fullShare} g))
      ⊢ SD d L fi ft b j := by
  subst eS
  unfold SD
  rw [win_doneO d L fi ft b j hj offW hW eW fd g hg]
  iintro ⟨Hw, Hs⟩
  isplitl [Hw]; · iexact Hw
  iexists g; iexact Hs

end Deliveries

/-- One more wait recorded at the tile's own index keeps the record of waits of the shape the launch asks. -/
theorem ins_ok (s : SemLoc sig) (W0 W : Waits sig (HIx 1)) (h : ∀ p ∈ W0, p ∈ W ∨ p.2 = none) :
    ∀ p ∈ insert (s, (default : HIx 1)) W0, p ∈ W ∨ p.2 = none := by
  intro p hp
  rcases Finset.mem_insert.mp hp with hp | hp
  · exact .inr (hp ▸ rfl)
  · exact h p hp

/-- Four pieces as a run of four. -/
theorem Ico_four_intro (A : ℕ → sProp 𝕄) : iprop(A 0 ∗ A 1 ∗ A 2 ∗ A 3) ⊢ bigSep (Finset.Ico 0 4) A := by
  rw [Ico_peel 0 1 4 (by omega) rfl, Ico_peel 1 2 4 (by omega) rfl, Ico_peel 2 3 4 (by omega) rfl, Ico_peel 3 4 4 (by omega) rfl, Ico_nil]
  iintro ⟨H0, H1, H2, H3⟩
  isplitl [H0]; · iexact H0
  isplitl [H1]; · iexact H1
  isplitl [H2]; · iexact H2
  isplitl [H3]; · iexact H3
  iempintro
theorem Ico_two_intro (A : ℕ → sProp 𝕄) : iprop(A 0 ∗ A 1) ⊢ bigSep (Finset.Ico 0 2) A := by
  rw [Ico_peel 0 1 2 (by omega) rfl, Ico_peel 1 2 2 (by omega) rfl, Ico_nil]
  iintro ⟨H0, H1⟩
  isplitl [H0]; · iexact H0
  isplitl [H1]; · iexact H1
  iempintro

end Cert.Proof.KI

end
-- ==== Proof.KITileClose.lean ====
/-
  The tile's closing step: once every window holds its rows of the output and every transfer has landed, the pieces the tile
  holds are put back together.  The 200 windows are the tile's block of the output; the 200 lists are the word scratch; the
  four slots, whatever they hold, are the row scratch; and the eight read tokens taken off the tile's share of the table,
  with what remained of the share, are the share again.
-/
import proofs.«217237_g17617955848579_cont_7to1_1664_16_alg».proof.Proof.KITileLemmas

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid1.Coords)

/-- The pieces put back together.  A share `q` of the table with `k` read tokens taken off it is `shareDrop q k`, and
    token `k` together with `shareDrop q (k + 1)` is `shareDrop q k`: the tokens are given back from the last, token 7,
    down to token 0, which with `shareDrop q 1` is `q` itself.  Tokens 4 to 7 are the ones the four slots' gathers held. -/
theorem tile_close (q : PosShare TreeShare) (fi : Buf (Elt F) ((iRowK L).view.loc (thr d L))) (ft : Buf (Elt F) ((tV).view.loc (thr d L)))
    (fs : Buf (Elt F) ((sI).view.loc (thr d L))) (g0 g1 g2 g3 : Buf (Elt F) ((sB).view.loc (thr d L))) :
    iprop(bigSep (Finset.Ico 0 200) (fun j => winPts d L j (outF fi ft)) ∗ bigSep (Finset.Ico 0 200) (fun j => rowPts d L fi fs j)
        ∗ slotPts d L 0 g0 ∗ slotPts d L 1 g1 ∗ slotPts d L 2 g2 ∗ slotPts d L 3 g3
        ∗ ((tV).view.loc (thr d L) ↦{Transfers.shareDrop q 8} ft)
        ∗ ((tV).view.loc (thr d L) ↦{Transfers.shareTokN q 0} ft) ∗ ((tV).view.loc (thr d L) ↦{Transfers.shareTokN q 1} ft)
        ∗ ((tV).view.loc (thr d L) ↦{Transfers.shareTokN q 2} ft) ∗ ((tV).view.loc (thr d L) ↦{Transfers.shareTokN q 3} ft)
        ∗ tokPts d L q ft 0 ∗ tokPts d L q ft 1 ∗ tokPts d L q ft 2 ∗ tokPts d L q ft 3)
      ⊢ (iprop(((oV).view.loc (thr d L) ↦[oRowSet (widL L)]{fullShare} outF fi ft) ∗ ((tV).view.loc (thr d L) ↦{q} ft)
          ∗ (∃ f, (sI).view.loc (thr d L) ↦{fullShare} f) ∗ (∃ f, (sB).view.loc (thr d L) ↦{fullShare} f)) : sProp 𝕄) := by
  rw [← wins_open d L (outF fi ft), ← rows_open d L (fIof d L fi fs)]
  iintro ⟨Hw, Hr, S0, S1, S2, S3, Hd, T0, T1, T2, T3, P0, P1, P2, P3⟩
  ihave D7 := (tok_step' q ft (4 + 3) 8 rfl).2 $$ [Hd P3]; · isplitl [Hd] <;> iassumption
  ihave D6 := (tok_step' q ft (4 + 2) (4 + 3) rfl).2 $$ [D7 P2]; · isplitl [D7] <;> iassumption
  ihave D5 := (tok_step' q ft (4 + 1) (4 + 2) rfl).2 $$ [D6 P1]; · isplitl [D6] <;> iassumption
  ihave D4 := (tok_step' q ft (4 + 0) (4 + 1) rfl).2 $$ [D5 P0]; · isplitl [D5] <;> iassumption
  ihave D3 := (tok_step' q ft 3 (4 + 0) rfl).2 $$ [D4 T3]; · isplitl [D4] <;> iassumption
  ihave D2 := (tok_step' q ft 2 3 rfl).2 $$ [D3 T2]; · isplitl [D3] <;> iassumption
  ihave D1 := (tok_step' q ft 1 2 rfl).2 $$ [D2 T1]; · isplitl [D2] <;> iassumption
  ihave Dq := (tok_step0 q ft).2 $$ [D1 T0]; · isplitl [D1] <;> iassumption
  ihave Hb := (slots_join d L g0 g1 g2 g3) $$ [S0 S1 S2 S3]
  · isplitl [S0]; · iexact S0
    isplitl [S1]; · iexact S1
    isplitl [S2]; · iexact S2
    iexact S3
  isplitl [Hw]; · iexact Hw
  isplitl [Dq]; · iexact Dq
  isplitl [Hr]; · iexists (fIof d L fi fs); iexact Hr
  iexact Hb

end Cert.Proof.KI

end
-- ==== Proof.KITileCore.lean ====
/-
  One tile's run of the gather body, from its pieces held outright to its output block holding its rows of the output.
-/
import proofs.«217237_g17617955848579_cont_7to1_1664_16_alg».proof.Proof.KITileLemmas
import proofs.«217237_g17617955848579_cont_7to1_1664_16_alg».proof.Proof.KITileClose

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid1.Coords)

/-- The tile's first output row, as the program computes it. -/
abbrev v2of (L : grid1.Coords) : BitVec 32 :=
  Scalar.muli (Scalar.addi (Scalar.muli (BitVec.ofNat 32 (L 1).val) 2#32) (BitVec.ofNat 32 (L 0).val)) 25600#32

set_option maxHeartbeats 4000000 in
/-- One trip of the loop: from what the tile holds before trip `k` to what it holds before trip `k + 1`. Four times over
    (slot `r = 0 … 3`): the copy out of slot `r + 2` lands, so window `4k + r + 2` holds its rows of the output; list
    `4k + r + 6` is gathered into that slot; the gather into slot `r` lands, so the slot holds chunk `4k + r + 4`; the slot is
    copied to window `4k + r + 4`. -/
theorem trip (q : PosShare TreeShare) (fi : Buf (Elt F) ((iRowK L).view.loc (thr d L))) (ft : Buf (Elt F) ((tV).view.loc (thr d L)))
    (fo : Buf (Elt F) ((oV).view.loc (thr d L))) (fs : Buf (Elt F) ((sI).view.loc (thr d L)))
    (hpre : ∀ x, (fi x).toNat < 100000) (O : CellTallies nD τ sig (HIx 1)) (W : Waits sig (HIx 1))
    (k : Fin k1_t1_loop.trips) (acc : Unit) :
    Inv d L q fi ft fs fo O W k.val acc
      ⊢ wp frame (wpE (defs₀ (F := F)) 𝒱₀ (thr d L) none) Set.univ
          (k1_t1_body L iV (Memref.isWhole_whole _) tV (Memref.isWhole_whole _) oV (Memref.isWhole_whole _)
            sI (Memref.isWhole_whole _) sB (Memref.isWhole_whole _) cc1_scratch2 cc1_scratch3 cc1_scoped0 (v2of L) 1#32 1#32 k acc)
          (Inv d L q fi ft fs fo O W (k.val + 1)) := by
  have hin := lists_inb d L fi hpre
  have hk := trip_lt k
  unfold Inv
  iintro ⟨#Hmw, Hi, HG0, HG1, HS2, HS3, Ht2, Ht3, Hrd, Hrt, Hwd, Hwt, H6, H7, H8, H9, H12, ⟨%W', %hW', HO⟩⟩
  unfold k1_t1_body
  rw [k1_part5_eq_skeleton]; unfold k1_part5_skel
  rw [k1_part1_eq_skeleton, k1_part2_eq_skeleton, k1_part3_eq_skeleton, k1_part4_eq_skeleton]
  unfold k1_part1_skel k1_part2_skel k1_part3_skel k1_part4_skel
  sl_exec

  -- sub-step 0: the copy out of slot 2 has landed (window 4k+2 holds its rows of the output)
  ihave Hfl := (Entails.of_eq (show SF d L fi ft 2 (4 * k.val + 2) = Transfers.Flight countersEmb (thr d L) (.dma s2) (default : HIx 1) NC (SD d L fi ft 2 (4 * k.val + 2)) from rfl)) $$ HS2
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s2)) $$ Hmw
  iintro ⟨HD, H10, HO⟩
  ihave HD := (Entails.of_eq (show SD d L fi ft 2 (4 * k.val + 2) = iprop(winPts d L (4 * k.val + 2) (outF fi ft) ∗ ∃ g, slotPts d L 2 g) from rfl)) $$ HD
  icases HD with ⟨Hwn0, %gb0, Hsl2⟩
  -- list 4k+6 is gathered into slot 2
  ihave X := (Entails.of_eq (Ico_peel (4 * k.val + 6) (4 * k.val + 7) 200 (by omega) rfl _)) $$ Hrt; icases X with ⟨Hrow, Hrt⟩
  ihave Hrow := (Entails.of_eq (row_prog d L fi fs (4 * k.val + 6) (k1_off5 k 0#32) (k1_off5_inb k 0) (off5_eq' k 0))) $$ Hrow
  ihave Hsl2 := (Entails.of_eq (slot_prog d L 2 ![2, 0, 0] inb_S4x128x128_S1x128x128_2_0_0 rfl gb0)) $$ Hsl2
  sl_exec
  sl_unfold_run_names
  ihave HG2 : (GF d L q fi ft fs 2 (4 * k.val + 6)) $$ [H6]
  · unfold GF
    iapply (Transfers.Flight_mono (Lvl := ℕ) countersEmb (thr d L) (gd_ofO d L q fi ft fs 2 (4 * k.val + 6) ![2, 0, 0] inb_S4x128x128_S1x128x128_2_0_0 (k1_off5 k 0#32) (k1_off5_inb k 0) (Transfers.shareTokN q (4 + 2)) rfl (off5_eq' k 0) rfl _ _ _ _))
    iexact H6
  iclear Ht2
  -- the gather into slot 0 has landed: the slot holds chunk 4k+4
  ihave Hfl := (Entails.of_eq (show GF d L q fi ft fs 0 (4 * k.val + 4) = Transfers.Flight countersEmb (thr d L) (.dma g0) (default : HIx 1) NC (GD d L q fi ft fs 0 (4 * k.val + 4)) from rfl)) $$ HG0
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g0)) $$ Hmw
  iintro ⟨HD, H4, HO⟩
  ihave HD := (Entails.of_eq (show GD d L q fi ft fs 0 (4 * k.val + 4) = iprop(((∃ g, slotPts d L 0 g ∗ ⌜(slotM 0).view.read (Elt F) g = chunkVal fi ft L (4 * k.val + 4)⌝) ∗ rowPts d L fi fs (4 * k.val + 4)) ∗ tokLent d L q ft 0) from rfl)) $$ HD
  icases HD with ⟨⟨⟨%gv0, Hsl0, %hv0⟩, Hrb0⟩, Htl0⟩
  ihave Ht0 := (Entails.of_eq (show (tokLent d L q ft 0 : sProp 𝕄) = tokPts d L q ft 0 from by unfold tokLent tokPts; rw [tAll_set])) $$ Htl0
  -- slot 0 is copied to window 4k+4
  ihave X := (Entails.of_eq (Ico_peel (4 * k.val + 4) (4 * k.val + 5) 200 (by omega) rfl _)) $$ Hwt; icases X with ⟨Hwin, Hwt⟩
  ihave Hwin := (Entails.of_eq (win_prog d L (4 * k.val + 4) (k1_off6 L k 0#32) (k1_off6_inb L k 0) (off6_eq' L k 0) fo)) $$ Hwin
  ihave Hsl0 := (Entails.of_eq (slot_prog d L 0 ![0, 0, 0] inb_S4x128x128_S1x128x128_0_0_0 rfl gv0)) $$ Hsl0
  sl_exec
  sl_unfold_run_names
  ihave HS0 : (SF d L fi ft 0 (4 * k.val + 4)) $$ [H8]
  · unfold SF
    iapply (Transfers.Flight_mono (Lvl := ℕ) countersEmb (thr d L) (sd_ofO d L fi ft 0 (4 * k.val + 4) (by omega) (k1_off6 L k 0#32) (k1_off6_inb L k 0) ![0, 0, 0] inb_S4x128x128_S1x128x128_0_0_0 (off6_eq' L k 0) rfl _ _ hv0))
    iexact H8

  -- sub-step 1: the copy out of slot 3 has landed (window 4k+3 holds its rows of the output)
  ihave Hfl := (Entails.of_eq (show SF d L fi ft 3 (4 * k.val + 3) = Transfers.Flight countersEmb (thr d L) (.dma s3) (default : HIx 1) NC (SD d L fi ft 3 (4 * k.val + 3)) from rfl)) $$ HS3
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s3)) $$ Hmw
  iintro ⟨HD, H11, HO⟩
  ihave HD := (Entails.of_eq (show SD d L fi ft 3 (4 * k.val + 3) = iprop(winPts d L (4 * k.val + 3) (outF fi ft) ∗ ∃ g, slotPts d L 3 g) from rfl)) $$ HD
  icases HD with ⟨Hwn1, %gb1, Hsl3⟩
  -- list 4k+7 is gathered into slot 3
  ihave X := (Entails.of_eq (Ico_peel (4 * k.val + 7) (4 * k.val + 8) 200 (by omega) rfl _)) $$ Hrt; icases X with ⟨Hrow, Hrt⟩
  ihave Hrow := (Entails.of_eq (row_prog d L fi fs (4 * k.val + 7) (k1_off5 k 1#32) (k1_off5_inb k 1) (off5_eq' k 1))) $$ Hrow
  ihave Hsl3 := (Entails.of_eq (slot_prog d L 3 ![3, 0, 0] inb_S4x128x128_S1x128x128_3_0_0 rfl gb1)) $$ Hsl3
  sl_exec
  sl_unfold_run_names
  ihave HG3 : (GF d L q fi ft fs 3 (4 * k.val + 7)) $$ [H7]
  · unfold GF
    iapply (Transfers.Flight_mono (Lvl := ℕ) countersEmb (thr d L) (gd_ofO d L q fi ft fs 3 (4 * k.val + 7) ![3, 0, 0] inb_S4x128x128_S1x128x128_3_0_0 (k1_off5 k 1#32) (k1_off5_inb k 1) (Transfers.shareTokN q (4 + 3)) rfl (off5_eq' k 1) rfl _ _ _ _))
    iexact H7
  iclear Ht3
  -- the gather into slot 1 has landed: the slot holds chunk 4k+5
  ihave Hfl := (Entails.of_eq (show GF d L q fi ft fs 1 (4 * k.val + 5) = Transfers.Flight countersEmb (thr d L) (.dma g1) (default : HIx 1) NC (GD d L q fi ft fs 1 (4 * k.val + 5)) from rfl)) $$ HG1
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g1)) $$ Hmw
  iintro ⟨HD, H5, HO⟩
  ihave HD := (Entails.of_eq (show GD d L q fi ft fs 1 (4 * k.val + 5) = iprop(((∃ g, slotPts d L 1 g ∗ ⌜(slotM 1).view.read (Elt F) g = chunkVal fi ft L (4 * k.val + 5)⌝) ∗ rowPts d L fi fs (4 * k.val + 5)) ∗ tokLent d L q ft 1) from rfl)) $$ HD
  icases HD with ⟨⟨⟨%gv1, Hsl1, %hv1⟩, Hrb1⟩, Htl1⟩
  ihave Ht1 := (Entails.of_eq (show (tokLent d L q ft 1 : sProp 𝕄) = tokPts d L q ft 1 from by unfold tokLent tokPts; rw [tAll_set])) $$ Htl1
  -- slot 1 is copied to window 4k+5
  ihave X := (Entails.of_eq (Ico_peel (4 * k.val + 5) (4 * k.val + 6) 200 (by omega) rfl _)) $$ Hwt; icases X with ⟨Hwin, Hwt⟩
  ihave Hwin := (Entails.of_eq (win_prog d L (4 * k.val + 5) (k1_off6 L k 1#32) (k1_off6_inb L k 1) (off6_eq' L k 1) fo)) $$ Hwin
  ihave Hsl1 := (Entails.of_eq (slot_prog d L 1 ![1, 0, 0] inb_S4x128x128_S1x128x128_1_0_0 rfl gv1)) $$ Hsl1
  sl_exec
  sl_unfold_run_names
  ihave HS1 : (SF d L fi ft 1 (4 * k.val + 5)) $$ [H9]
  · unfold SF
    iapply (Transfers.Flight_mono (Lvl := ℕ) countersEmb (thr d L) (sd_ofO d L fi ft 1 (4 * k.val + 5) (by omega) (k1_off6 L k 1#32) (k1_off6_inb L k 1) ![1, 0, 0] inb_S4x128x128_S1x128x128_1_0_0 (off6_eq' L k 1) rfl _ _ hv1))
    iexact H9

  -- sub-step 2: the copy out of slot 0 has landed (window 4k+4 holds its rows of the output)
  ihave Hfl := (Entails.of_eq (show SF d L fi ft 0 (4 * k.val + 4) = Transfers.Flight countersEmb (thr d L) (.dma s0) (default : HIx 1) NC (SD d L fi ft 0 (4 * k.val + 4)) from rfl)) $$ HS0
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s0)) $$ Hmw
  iintro ⟨HD, H8, HO⟩
  ihave HD := (Entails.of_eq (show SD d L fi ft 0 (4 * k.val + 4) = iprop(winPts d L (4 * k.val + 4) (outF fi ft) ∗ ∃ g, slotPts d L 0 g) from rfl)) $$ HD
  icases HD with ⟨Hwn2, %gb2, Hsl0⟩
  -- list 4k+8 is gathered into slot 0
  ihave X := (Entails.of_eq (Ico_peel (4 * k.val + 8) (4 * k.val + 9) 200 (by omega) rfl _)) $$ Hrt; icases X with ⟨Hrow, Hrt⟩
  ihave Hrow := (Entails.of_eq (row_prog d L fi fs (4 * k.val + 8) (k1_off5 k 2#32) (k1_off5_inb k 2) (off5_eq' k 2))) $$ Hrow
  ihave Hsl0 := (Entails.of_eq (slot_prog d L 0 ![0, 0, 0] inb_S4x128x128_S1x128x128_0_0_0 rfl gb2)) $$ Hsl0
  sl_exec
  sl_unfold_run_names
  ihave HG0 : (GF d L q fi ft fs 0 (4 * k.val + 8)) $$ [H4]
  · unfold GF
    iapply (Transfers.Flight_mono (Lvl := ℕ) countersEmb (thr d L) (gd_ofO d L q fi ft fs 0 (4 * k.val + 8) ![0, 0, 0] inb_S4x128x128_S1x128x128_0_0_0 (k1_off5 k 2#32) (k1_off5_inb k 2) (Transfers.shareTokN q (4 + 0)) rfl (off5_eq' k 2) rfl _ _ _ _))
    iexact H4
  iclear Ht0
  -- the gather into slot 2 has landed: the slot holds chunk 4k+6
  ihave Hfl := (Entails.of_eq (show GF d L q fi ft fs 2 (4 * k.val + 6) = Transfers.Flight countersEmb (thr d L) (.dma g2) (default : HIx 1) NC (GD d L q fi ft fs 2 (4 * k.val + 6)) from rfl)) $$ HG2
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g2)) $$ Hmw
  iintro ⟨HD, H6, HO⟩
  ihave HD := (Entails.of_eq (show GD d L q fi ft fs 2 (4 * k.val + 6) = iprop(((∃ g, slotPts d L 2 g ∗ ⌜(slotM 2).view.read (Elt F) g = chunkVal fi ft L (4 * k.val + 6)⌝) ∗ rowPts d L fi fs (4 * k.val + 6)) ∗ tokLent d L q ft 2) from rfl)) $$ HD
  icases HD with ⟨⟨⟨%gv2, Hsl2, %hv2⟩, Hrb2⟩, Htl2⟩
  ihave Ht2 := (Entails.of_eq (show (tokLent d L q ft 2 : sProp 𝕄) = tokPts d L q ft 2 from by unfold tokLent tokPts; rw [tAll_set])) $$ Htl2
  -- slot 2 is copied to window 4k+6
  ihave X := (Entails.of_eq (Ico_peel (4 * k.val + 6) (4 * k.val + 7) 200 (by omega) rfl _)) $$ Hwt; icases X with ⟨Hwin, Hwt⟩
  ihave Hwin := (Entails.of_eq (win_prog d L (4 * k.val + 6) (k1_off6 L k 2#32) (k1_off6_inb L k 2) (off6_eq' L k 2) fo)) $$ Hwin
  ihave Hsl2 := (Entails.of_eq (slot_prog d L 2 ![2, 0, 0] inb_S4x128x128_S1x128x128_2_0_0 rfl gv2)) $$ Hsl2
  sl_exec
  sl_unfold_run_names
  ihave HS2 : (SF d L fi ft 2 (4 * k.val + 6)) $$ [H10]
  · unfold SF
    iapply (Transfers.Flight_mono (Lvl := ℕ) countersEmb (thr d L) (sd_ofO d L fi ft 2 (4 * k.val + 6) (by omega) (k1_off6 L k 2#32) (k1_off6_inb L k 2) ![2, 0, 0] inb_S4x128x128_S1x128x128_2_0_0 (off6_eq' L k 2) rfl _ _ hv2))
    iexact H10

  -- sub-step 3: the copy out of slot 1 has landed (window 4k+5 holds its rows of the output)
  ihave Hfl := (Entails.of_eq (show SF d L fi ft 1 (4 * k.val + 5) = Transfers.Flight countersEmb (thr d L) (.dma s1) (default : HIx 1) NC (SD d L fi ft 1 (4 * k.val + 5)) from rfl)) $$ HS1
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s1)) $$ Hmw
  iintro ⟨HD, H9, HO⟩
  ihave HD := (Entails.of_eq (show SD d L fi ft 1 (4 * k.val + 5) = iprop(winPts d L (4 * k.val + 5) (outF fi ft) ∗ ∃ g, slotPts d L 1 g) from rfl)) $$ HD
  icases HD with ⟨Hwn3, %gb3, Hsl1⟩
  -- list 4k+9 is gathered into slot 1
  ihave X := (Entails.of_eq (Ico_peel (4 * k.val + 9) (4 * k.val + 10) 200 (by omega) rfl _)) $$ Hrt; icases X with ⟨Hrow, Hrt⟩
  ihave Hrow := (Entails.of_eq (row_prog d L fi fs (4 * k.val + 9) (k1_off5 k 3#32) (k1_off5_inb k 3) (off5_eq' k 3))) $$ Hrow
  ihave Hsl1 := (Entails.of_eq (slot_prog d L 1 ![1, 0, 0] inb_S4x128x128_S1x128x128_1_0_0 rfl gb3)) $$ Hsl1
  sl_exec
  sl_unfold_run_names
  ihave HG1 : (GF d L q fi ft fs 1 (4 * k.val + 9)) $$ [H5]
  · unfold GF
    iapply (Transfers.Flight_mono (Lvl := ℕ) countersEmb (thr d L) (gd_ofO d L q fi ft fs 1 (4 * k.val + 9) ![1, 0, 0] inb_S4x128x128_S1x128x128_1_0_0 (k1_off5 k 3#32) (k1_off5_inb k 3) (Transfers.shareTokN q (4 + 1)) rfl (off5_eq' k 3) rfl _ _ _ _))
    iexact H5
  iclear Ht1
  -- the gather into slot 3 has landed: the slot holds chunk 4k+7
  ihave Hfl := (Entails.of_eq (show GF d L q fi ft fs 3 (4 * k.val + 7) = Transfers.Flight countersEmb (thr d L) (.dma g3) (default : HIx 1) NC (GD d L q fi ft fs 3 (4 * k.val + 7)) from rfl)) $$ HG3
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g3)) $$ Hmw
  iintro ⟨HD, H7, HO⟩
  ihave HD := (Entails.of_eq (show GD d L q fi ft fs 3 (4 * k.val + 7) = iprop(((∃ g, slotPts d L 3 g ∗ ⌜(slotM 3).view.read (Elt F) g = chunkVal fi ft L (4 * k.val + 7)⌝) ∗ rowPts d L fi fs (4 * k.val + 7)) ∗ tokLent d L q ft 3) from rfl)) $$ HD
  icases HD with ⟨⟨⟨%gv3, Hsl3, %hv3⟩, Hrb3⟩, Htl3⟩
  ihave Ht3 := (Entails.of_eq (show (tokLent d L q ft 3 : sProp 𝕄) = tokPts d L q ft 3 from by unfold tokLent tokPts; rw [tAll_set])) $$ Htl3
  -- slot 3 is copied to window 4k+7
  ihave X := (Entails.of_eq (Ico_peel (4 * k.val + 7) (4 * k.val + 8) 200 (by omega) rfl _)) $$ Hwt; icases X with ⟨Hwin, Hwt⟩
  ihave Hwin := (Entails.of_eq (win_prog d L (4 * k.val + 7) (k1_off6 L k 3#32) (k1_off6_inb L k 3) (off6_eq' L k 3) fo)) $$ Hwin
  ihave Hsl3 := (Entails.of_eq (slot_prog d L 3 ![3, 0, 0] inb_S4x128x128_S1x128x128_3_0_0 rfl gv3)) $$ Hsl3
  sl_exec
  sl_unfold_run_names
  ihave HS3 : (SF d L fi ft 3 (4 * k.val + 7)) $$ [H11]
  · unfold SF
    iapply (Transfers.Flight_mono (Lvl := ℕ) countersEmb (thr d L) (sd_ofO d L fi ft 3 (4 * k.val + 7) (by omega) (k1_off6 L k 3#32) (k1_off6_inb L k 3) ![3, 0, 0] inb_S4x128x128_S1x128x128_3_0_0 (off6_eq' L k 3) rfl _ _ hv3))
    iexact H11

  -- the trip is over: what is held is the invariant before trip k + 1
  rw [wp_ret]; imodintro
  rw [show 4 * (k.val + 1) + 4 = 4 * k.val + 8 from by omega, show 4 * (k.val + 1) + 5 = 4 * k.val + 9 from by omega,
    show 4 * (k.val + 1) + 2 = 4 * k.val + 6 from by omega, show 4 * (k.val + 1) + 3 = 4 * k.val + 7 from by omega,
    show 4 * (k.val + 1) + 6 = 4 * k.val + 10 from by omega]
  ihave Hrd : (bigSep (Finset.Ico 0 (4 * k.val + 8)) (fun j => rowPts d L fi fs j)) $$ [Hrd Hrb0 Hrb1 Hrb2 Hrb3]
  · rw [Ico_push 0 (4 * k.val + 7) (4 * k.val + 8) (by omega) rfl, Ico_push 0 (4 * k.val + 6) (4 * k.val + 7) (by omega) rfl,
      Ico_push 0 (4 * k.val + 5) (4 * k.val + 6) (by omega) rfl, Ico_push 0 (4 * k.val + 4) (4 * k.val + 5) (by omega) rfl]
    isplitl [Hrb3]; · iexact Hrb3
    isplitl [Hrb2]; · iexact Hrb2
    isplitl [Hrb1]; · iexact Hrb1
    isplitl [Hrb0]; · iexact Hrb0
    iexact Hrd
  ihave Hwd : (bigSep (Finset.Ico 0 (4 * k.val + 6)) (fun j => winPts d L j (outF fi ft))) $$ [Hwd Hwn0 Hwn1 Hwn2 Hwn3]
  · rw [Ico_push 0 (4 * k.val + 5) (4 * k.val + 6) (by omega) rfl, Ico_push 0 (4 * k.val + 4) (4 * k.val + 5) (by omega) rfl,
      Ico_push 0 (4 * k.val + 3) (4 * k.val + 4) (by omega) rfl, Ico_push 0 (4 * k.val + 2) (4 * k.val + 3) (by omega) rfl]
    isplitl [Hwn3]; · iexact Hwn3
    isplitl [Hwn2]; · iexact Hwn2
    isplitl [Hwn1]; · iexact Hwn1
    isplitl [Hwn0]; · iexact Hwn0
    iexact Hwd
  isplitr; · iexact Hmw
  isplitl [Hi]; · iexact Hi
  isplitl [HG0]; · iexact HG0
  isplitl [HG1]; · iexact HG1
  isplitl [HS2]; · iexact HS2
  isplitl [HS3]; · iexact HS3
  isplitl [Ht2]; · iexact Ht2
  isplitl [Ht3]; · iexact Ht3
  isplitl [Hrd]; · iexact Hrd
  isplitl [Hrt]; · iexact Hrt
  isplitl [Hwd]; · iexact Hwd
  isplitl [Hwt]; · iexact Hwt
  isplitl [H6]; · iexact H6
  isplitl [H7]; · iexact H7
  isplitl [H8]; · iexact H8
  isplitl [H9]; · iexact H9
  isplitl [H12]; · iexact H12
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- The tile's body: from row `wid` of the reshaped tokens (every word below 100000), a read share of the table, the tile's
    block of the output, its two scratch buffers and its nine DMA semaphores at zero, to the block holding `outF`, everything
    else back. -/
theorem tile_core (q : PosShare TreeShare) (fi : Buf (Elt F) ((iRowK L).view.loc (thr d L))) (ft : Buf (Elt F) ((tV).view.loc (thr d L)))
    (fo : Buf (Elt F) ((oV).view.loc (thr d L))) (fs : Buf (Elt F) ((sI).view.loc (thr d L))) (fb : Buf (Elt F) ((sB).view.loc (thr d L)))
    (hpre : ∀ x, (fi x).toNat < 100000) (O : CellTallies nD τ sig (HIx 1)) (W : Waits sig (HIx 1)) :
    iprop((Transfers.MayWaits (thr d L) (default : HIx 1) O : sProp 𝕄)
        ∗ ((iRowK L).view.loc (thr d L) ↦[(iRowK L).view.set]{fullShare} fi)
        ∗ ((tV).view.loc (thr d L) ↦{q} ft)
        ∗ ((oV).view.loc (thr d L) ↦[oRowSet (widL L)]{fullShare} fo)
        ∗ ((sI).view.loc (thr d L) ↦{fullShare} fs)
        ∗ ((sB).view.loc (thr d L) ↦{fullShare} fb)
        ∗ semVal (cell d L g0) 0 ∗ semVal (cell d L g1) 0 ∗ semVal (cell d L g2) 0 ∗ semVal (cell d L g3) 0
        ∗ semVal (cell d L s0) 0 ∗ semVal (cell d L s1) 0 ∗ semVal (cell d L s2) 0 ∗ semVal (cell d L s3) 0 ∗ semVal (cell d L z0) 0
        ∗ owes (thr d L) O W)
      ⊢ wp frame (wpE (defs₀ (F := F)) 𝒱₀ (thr d L) none) Set.univ
          (cc1__gather_body L iV (Memref.isWhole_whole _) tV (Memref.isWhole_whole _) oV (Memref.isWhole_whole _)
            sI (Memref.isWhole_whole _) sB (Memref.isWhole_whole _) cc1_scratch2 cc1_scratch3 cc1_scoped0)
          fun _ => iprop(((iRowK L).view.loc (thr d L) ↦[(iRowK L).view.set]{fullShare} fi)
            ∗ ((tV).view.loc (thr d L) ↦{q} ft)
            ∗ ((oV).view.loc (thr d L) ↦[oRowSet (widL L)]{fullShare} outF fi ft)
            ∗ (∃ f, (sI).view.loc (thr d L) ↦{fullShare} f) ∗ (∃ f, (sB).view.loc (thr d L) ↦{fullShare} f)
            ∗ semVal (cell d L g0) 0 ∗ semVal (cell d L g1) 0 ∗ semVal (cell d L g2) 0 ∗ semVal (cell d L g3) 0
            ∗ semVal (cell d L s0) 0 ∗ semVal (cell d L s1) 0 ∗ semVal (cell d L s2) 0 ∗ semVal (cell d L s3) 0 ∗ semVal (cell d L z0) 0
            ∗ ∃ W', ⌜∀ p ∈ W', p ∈ W ∨ p.2 = none⌝ ∗ owes (thr d L) O W') := by
  have hin := lists_inb d L fi hpre
  iintro ⟨#Hmw, Hi, Ht, Ho, Hs, Hb, H4, H5, H6, H7, H8, H9, H10, H11, H12, HO⟩
  rw [cc1__gather_body_eq_skeleton]; unfold cc1__gather_body_skel
  -- the first copy and its wait: the word scratch filled with the tile's token row (the slots set aside)
  ihave Hb' := (Entails.of_eq (keep_eq _).symm) $$ Hb
  sl_exec
  sl_unfold_run_names
  -- the word scratch as its lists, the row scratch as its slots, the block as its windows, the share as read tokens
  ihave Hb := (Entails.of_eq (keep_eq _)) $$ Hb'
  ihave Hs' := (Entails.of_eq (rows_open d L _)) $$ Hs
  ihave Hsl := (Entails.of_eq (slots_open d L _)) $$ Hb
  ihave Hw := (Entails.of_eq (wins_open d L _)) $$ Ho
  ihave X := (Entails.of_eq (Ico_peel 0 1 200 (by omega) rfl _)) $$ Hs'; icases X with ⟨Hr0, Hs'⟩
  ihave X := (Entails.of_eq (Ico_peel 1 2 200 (by omega) rfl _)) $$ Hs'; icases X with ⟨Hr1, Hs'⟩
  ihave X := (Entails.of_eq (Ico_peel 2 3 200 (by omega) rfl _)) $$ Hs'; icases X with ⟨Hr2, Hs'⟩
  ihave X := (Entails.of_eq (Ico_peel 3 4 200 (by omega) rfl _)) $$ Hs'; icases X with ⟨Hr3, Hs'⟩
  ihave X := (Entails.of_eq (Ico_peel 4 5 200 (by omega) rfl _)) $$ Hs'; icases X with ⟨Hr4, Hs'⟩
  ihave X := (Entails.of_eq (Ico_peel 5 6 200 (by omega) rfl _)) $$ Hs'; icases X with ⟨Hr5, Hs'⟩
  ihave X := (Entails.of_eq (Ico_peel 0 1 4 (by omega) rfl _)) $$ Hsl; icases X with ⟨Hb0, Hsl⟩
  ihave X := (Entails.of_eq (Ico_peel 1 2 4 (by omega) rfl _)) $$ Hsl; icases X with ⟨Hb1, Hsl⟩
  ihave X := (Entails.of_eq (Ico_peel 2 3 4 (by omega) rfl _)) $$ Hsl; icases X with ⟨Hb2, Hsl⟩
  ihave X := (Entails.of_eq (Ico_peel 3 4 4 (by omega) rfl _)) $$ Hsl; icases X with ⟨Hb3, -⟩
  ihave X := (Entails.of_eq (Ico_peel 0 1 200 (by omega) rfl _)) $$ Hw; icases X with ⟨Hw0, Hw⟩
  ihave X := (Entails.of_eq (Ico_peel 1 2 200 (by omega) rfl _)) $$ Hw; icases X with ⟨Hw1, Hw⟩
  ihave X := (Entails.of_eq (Ico_peel 2 3 200 (by omega) rfl _)) $$ Hw; icases X with ⟨Hw2, Hw⟩
  ihave X := (Entails.of_eq (Ico_peel 3 4 200 (by omega) rfl _)) $$ Hw; icases X with ⟨Hw3, Hw⟩
  ihave X := ((tok_step0 q ft).1) $$ Ht; icases X with ⟨Ht, Hk0⟩
  ihave X := ((tok_step' q ft 1 2 rfl).1) $$ Ht; icases X with ⟨Ht, Hk1⟩
  ihave X := ((tok_step' q ft 2 3 rfl).1) $$ Ht; icases X with ⟨Ht, Hk2⟩
  ihave X := ((tok_step' q ft 3 4 rfl).1) $$ Ht; icases X with ⟨Ht, Hk3⟩
  ihave X := ((tok_step' q ft 4 5 rfl).1) $$ Ht; icases X with ⟨Ht, Ht4⟩
  ihave X := ((tok_step' q ft 5 6 rfl).1) $$ Ht; icases X with ⟨Ht, Ht5⟩
  ihave X := ((tok_step' q ft 6 7 rfl).1) $$ Ht; icases X with ⟨Ht, Ht6⟩
  ihave X := ((tok_step' q ft 7 8 rfl).1) $$ Ht; icases X with ⟨Ht, Ht7⟩
  -- the pieces in the program's own spelling
  ihave Hb0 := (Entails.of_eq (show (slotPts d L 0 fb : sProp 𝕄) = ((slotP0).view.loc (thr d L) ↦[(slotP0).view.set]{fullShare} fb) from rfl)) $$ Hb0
  ihave Hb1 := (Entails.of_eq (show (slotPts d L 1 fb : sProp 𝕄) = ((slotP1).view.loc (thr d L) ↦[(slotP1).view.set]{fullShare} fb) from rfl)) $$ Hb1
  ihave Hb2 := (Entails.of_eq (show (slotPts d L 2 fb : sProp 𝕄) = ((slotP2).view.loc (thr d L) ↦[(slotP2).view.set]{fullShare} fb) from rfl)) $$ Hb2
  ihave Hb3 := (Entails.of_eq (show (slotPts d L 3 fb : sProp 𝕄) = ((slotP3).view.loc (thr d L) ↦[(slotP3).view.set]{fullShare} fb) from rfl)) $$ Hb3
  ihave Hr0 := (Entails.of_eq (show (rowPts d L fi fs 0 : sProp 𝕄) = ((rowP 0 inb_S200x128_S1x128_0_0).view.loc (thr d L) ↦[(rowP 0 inb_S200x128_S1x128_0_0).view.set]{fullShare} fIof d L fi fs) from rfl)) $$ Hr0
  ihave Hr1 := (Entails.of_eq (show (rowPts d L fi fs 1 : sProp 𝕄) = ((rowP 1 inb_S200x128_S1x128_1_0).view.loc (thr d L) ↦[(rowP 1 inb_S200x128_S1x128_1_0).view.set]{fullShare} fIof d L fi fs) from rfl)) $$ Hr1
  ihave Hr2 := (Entails.of_eq (show (rowPts d L fi fs 2 : sProp 𝕄) = ((rowP 2 inb_S200x128_S1x128_2_0).view.loc (thr d L) ↦[(rowP 2 inb_S200x128_S1x128_2_0).view.set]{fullShare} fIof d L fi fs) from rfl)) $$ Hr2
  ihave Hr3 := (Entails.of_eq (show (rowPts d L fi fs 3 : sProp 𝕄) = ((rowP 3 inb_S200x128_S1x128_3_0).view.loc (thr d L) ↦[(rowP 3 inb_S200x128_S1x128_3_0).view.set]{fullShare} fIof d L fi fs) from rfl)) $$ Hr3
  ihave Hr4 := (Entails.of_eq (show (rowPts d L fi fs 4 : sProp 𝕄) = ((rowP 4 inb_S200x128_S1x128_4_0).view.loc (thr d L) ↦[(rowP 4 inb_S200x128_S1x128_4_0).view.set]{fullShare} fIof d L fi fs) from rfl)) $$ Hr4
  ihave Hr5 := (Entails.of_eq (show (rowPts d L fi fs 5 : sProp 𝕄) = ((rowP 5 inb_S200x128_S1x128_5_0).view.loc (thr d L) ↦[(rowP 5 inb_S200x128_S1x128_5_0).view.set]{fullShare} fIof d L fi fs) from rfl)) $$ Hr5
  ihave Hw0 := (Entails.of_eq (show (winPts d L 0 fo : sProp 𝕄) = ((winP2 L 0).view.loc (thr d L) ↦[(winP2 L 0).view.set]{fullShare} fo) from (pts_set_congr (winP2_set L 0) fo).symm)) $$ Hw0
  ihave Hw1 := (Entails.of_eq (show (winPts d L 1 fo : sProp 𝕄) = ((winP2 L 1).view.loc (thr d L) ↦[(winP2 L 1).view.set]{fullShare} fo) from (pts_set_congr (winP2_set L 1) fo).symm)) $$ Hw1
  ihave Hw2 := (Entails.of_eq (show (winPts d L 2 fo : sProp 𝕄) = ((winP2 L 2).view.loc (thr d L) ↦[(winP2 L 2).view.set]{fullShare} fo) from (pts_set_congr (winP2_set L 2) fo).symm)) $$ Hw2
  ihave Hw3 := (Entails.of_eq (show (winPts d L 3 fo : sProp 𝕄) = ((winP2 L 3).view.loc (thr d L) ↦[(winP2 L 3).view.set]{fullShare} fo) from (pts_set_congr (winP2_set L 3) fo).symm)) $$ Hw3
  -- what is left of the share stays out of the run
  ihave Ht := (Entails.of_eq (keep_eq _).symm) $$ Ht
  ihave Hk0 := (Entails.of_eq (keep_eq _).symm) $$ Hk0
  ihave Hk1 := (Entails.of_eq (keep_eq _).symm) $$ Hk1
  ihave Hk2 := (Entails.of_eq (keep_eq _).symm) $$ Hk2
  ihave Hk3 := (Entails.of_eq (keep_eq _).symm) $$ Hk3
  sl_exec
  sl_unfold_run_names
  -- the four transfers in flight, as the invariant states them
  ihave HG0 : (GF d L q fi ft fs 0 4) $$ [H4]
  · unfold GF
    iapply (Transfers.Flight_mono (Lvl := ℕ) countersEmb (thr d L) (gd_ofO d L q fi ft fs 0 4 ![0, 0, 0] inb_S4x128x128_S1x128x128_0_0_0 ![4, 0] inb_S200x128_S1x128_4_0 (Transfers.shareTokN q 4) rfl rfl rfl _ _ _ _))
    iexact H4
  ihave HG1 : (GF d L q fi ft fs 1 5) $$ [H5]
  · unfold GF
    iapply (Transfers.Flight_mono (Lvl := ℕ) countersEmb (thr d L) (gd_ofO d L q fi ft fs 1 5 ![1, 0, 0] inb_S4x128x128_S1x128x128_1_0_0 ![5, 0] inb_S200x128_S1x128_5_0 (Transfers.shareTokN q 5) rfl rfl rfl _ _ _ _))
    iexact H5
  ihave HS2 : (SF d L fi ft 2 2) $$ [H10]
  · unfold SF
    iapply (Transfers.Flight_mono (Lvl := ℕ) countersEmb (thr d L) (sd_ofO d L fi ft 2 2 (by omega) (k1_off2 L (k1_off2_at 2)) (k1_off2_inb L 2) ![2, 0, 0] inb_S4x128x128_S1x128x128_2_0_0 (off2_eq' L 2) rfl _ _
      (slot_valO d L fi ft fs 2 2 ![2, 0, 0] inb_S4x128x128_S1x128x128_2_0_0 ![2, 0] inb_S200x128_S1x128_2_0 rfl rfl _ _ _ _)))
    iexact H10
  ihave HS3 : (SF d L fi ft 3 3) $$ [H11]
  · unfold SF
    iapply (Transfers.Flight_mono (Lvl := ℕ) countersEmb (thr d L) (sd_ofO d L fi ft 3 3 (by omega) (k1_off2 L (k1_off2_at 3)) (k1_off2_inb L 3) ![3, 0, 0] inb_S4x128x128_S1x128x128_3_0_0 (off2_eq' L 3) rfl _ _
      (slot_valO d L fi ft fs 3 3 ![3, 0, 0] inb_S4x128x128_S1x128x128_3_0_0 ![3, 0] inb_S200x128_S1x128_3_0 rfl rfl _ _ _ _)))
    iexact H11
  -- the two windows already copied hold the output; the four lists already read
  ihave Hwd : (bigSep (Finset.Ico 0 2) (fun j => winPts d L j (outF fi ft))) $$ [Hw0 Hw1]
  · iapply (Ico_two_intro (fun j => winPts d L j (outF fi ft)))
    isplitl [Hw0]
    · iapply (Entails.of_eq (win_doneO d L fi ft 0 0 (by omega) (k1_off2 L (k1_off2_at 0)) (k1_off2_inb L 0) (off2_eq' L 0) _ _
        (slot_valO d L fi ft fs 0 0 ![0, 0, 0] inb_S4x128x128_S1x128x128_0_0_0 ![0, 0] inb_S200x128_S1x128_0_0 rfl rfl _ _ _ _)))
      iexact Hw0
    · iapply (Entails.of_eq (win_doneO d L fi ft 1 1 (by omega) (k1_off2 L (k1_off2_at 1)) (k1_off2_inb L 1) (off2_eq' L 1) _ _
        (slot_valO d L fi ft fs 1 1 ![1, 0, 0] inb_S4x128x128_S1x128x128_1_0_0 ![1, 0] inb_S200x128_S1x128_1_0 rfl rfl _ _ _ _)))
      iexact Hw1
  ihave Hrd : (bigSep (Finset.Ico 0 4) (fun j => rowPts d L fi fs j)) $$ [Hr0 Hr1 Hr2 Hr3]
  · iapply (Ico_four_intro (fun j => rowPts d L fi fs j))
    isplitl [Hr0]; · iexact Hr0
    isplitl [Hr1]; · iexact Hr1
    isplitl [Hr2]; · iexact Hr2
    iexact Hr3
  sl_for (Inv d L q fi ft fs fo O W) $$ [Hmw Hi HG0 HG1 HS2 HS3 Ht6 Ht7 Hrd Hs' Hwd Hw H6 H7 H8 H9 H12 HO]
  case region =>
    intro k acc
    exact trip d L q fi ft fo fs hpre O W k acc
  · unfold Inv
    isplitr; · iexact Hmw
    isplitl [Hi]; · iexact Hi
    isplitl [HG0]; · iexact HG0
    isplitl [HG1]; · iexact HG1
    isplitl [HS2]; · iexact HS2
    isplitl [HS3]; · iexact HS3
    isplitl [Ht6]; · iexact Ht6
    isplitl [Ht7]; · iexact Ht7
    isplitl [Hrd]; · iexact Hrd
    isplitl [Hs']; · iexact Hs'
    isplitl [Hwd]; · iexact Hwd
    isplitl [Hw]; · iexact Hw
    isplitl [H6]; · iexact H6
    isplitl [H7]; · iexact H7
    isplitl [H8]; · iexact H8
    isplitl [H9]; · iexact H9
    isplitl [H12]; · iexact H12
    iexists _; isplitr
    swap; · iexact HO
    ipureintro
    exact ins_ok _ _ _ (ins_ok _ _ _ (ins_ok _ _ _ (ins_ok _ _ _ (ins_ok _ _ _ (ins_ok _ _ _ (ins_ok _ _ _ (fun p hp => .inl hp)))))))
  -- after the last trip: the invariant at trip 48
  iintro %acc HI
  have h48 : Scf.trips k1_t1_loop.lb k1_t1_loop.ub k1_t1_loop.st = 48 := by decide
  rw [h48]
  unfold Inv
  rw [show (4 * 48 + 4 : ℕ) = 196 from rfl, show (4 * 48 + 5 : ℕ) = 197 from rfl, show (4 * 48 + 2 : ℕ) = 194 from rfl,
    show (4 * 48 + 3 : ℕ) = 195 from rfl, show (4 * 48 + 6 : ℕ) = 198 from rfl]
  icases HI with ⟨-, Hi, HG0, HG1, HS2, HS3, Hq2, Hq3, Hrd, Hrt, Hwd, Hwt, H6, H7, H8, H9, H12, %W', %hW', HO⟩
  sl_unfold_run_names
  sl_exec
  -- the copy of slot 2 to window 194 has landed: the window holds its rows of the output, the slot is free
  ihave Hfl := (Entails.of_eq (show (SF d L fi ft 2 194 : sProp 𝕄) = Transfers.Flight countersEmb (thr d L) (.dma s2) (default : HIx 1) NC (SD d L fi ft 2 194) from rfl)) $$ HS2
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s2)) $$ Hmw
  iintro ⟨HD, H10, HO⟩
  ihave HD := (Entails.of_eq (show (SD d L fi ft 2 194 : sProp 𝕄) = iprop(winPts d L 194 (outF fi ft) ∗ ∃ g, slotPts d L 2 g) from rfl)) $$ HD
  icases HD with ⟨Hw194, %gb2, Hb2⟩
  -- the gather of list 198 into the freed slot 2
  ihave X := (Entails.of_eq (Ico_peel 198 199 200 (by omega) rfl _)) $$ Hrt; icases X with ⟨Hr198, Hrt⟩
  ihave Hb2 := (Entails.of_eq (slot_prog d L 2 ![2, 0, 0] inb_S4x128x128_S1x128x128_2_0_0 rfl gb2)) $$ Hb2
  ihave Hr198 := (Entails.of_eq (row_prog d L fi fs 198 ![198, 0] inb_S200x128_S1x128_198_0 rfl)) $$ Hr198
  sl_exec
  sl_unfold_run_names
  iclear Hq2
  ihave HG2 : (GF d L q fi ft fs 2 198) $$ [H6]
  · unfold GF
    iapply (Transfers.Flight_mono (Lvl := ℕ) countersEmb (thr d L) (gd_ofO d L q fi ft fs 2 198 ![2, 0, 0] inb_S4x128x128_S1x128x128_2_0_0 ![198, 0] inb_S200x128_S1x128_198_0 (Transfers.shareTokN q (4 + 2)) rfl rfl rfl _ _ _ _))
    iexact H6
  -- the gather of list 196 has landed in slot 0: the slot holds chunk 196
  ihave Hfl := (Entails.of_eq (show (GF d L q fi ft fs 0 196 : sProp 𝕄) = Transfers.Flight countersEmb (thr d L) (.dma g0) (default : HIx 1) NC (GD d L q fi ft fs 0 196) from rfl)) $$ HG0
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g0)) $$ Hmw
  iintro ⟨HD, H4, HO⟩
  ihave HD := (Entails.of_eq (show (GD d L q fi ft fs 0 196 : sProp 𝕄) = iprop(((∃ g, slotPts d L 0 g ∗ ⌜(slotM 0).view.read (Elt F) g = chunkVal fi ft L 196⌝) ∗ rowPts d L fi fs 196) ∗ tokLent d L q ft 0) from rfl)) $$ HD
  icases HD with ⟨⟨⟨%gb0, Hb0, %hg0⟩, Hr196⟩, Hl0⟩
  -- the copy of slot 0 to window 196
  ihave X := (Entails.of_eq (Ico_peel 196 197 200 (by omega) rfl _)) $$ Hwt; icases X with ⟨Hw196, Hwt⟩
  ihave Hb0 := (Entails.of_eq (slot_prog d L 0 ![0, 0, 0] inb_S4x128x128_S1x128x128_0_0_0 rfl gb0)) $$ Hb0
  ihave Hw196 := (Entails.of_eq (win_prog d L 196 (k1_off2 L (k1_off2_at 4)) (k1_off2_inb L 4) (off2_eq' L 4) fo)) $$ Hw196
  sl_exec
  sl_unfold_run_names
  ihave HS0 : (SF d L fi ft 0 196) $$ [H8]
  · unfold SF
    iapply (Transfers.Flight_mono (Lvl := ℕ) countersEmb (thr d L) (sd_ofO d L fi ft 0 196 (by omega) (k1_off2 L (k1_off2_at 4)) (k1_off2_inb L 4) ![0, 0, 0] inb_S4x128x128_S1x128x128_0_0_0 (off2_eq' L 4) rfl fo gb0 hg0))
    iexact H8
  -- the copy of slot 3 to window 195 has landed
  ihave Hfl := (Entails.of_eq (show (SF d L fi ft 3 195 : sProp 𝕄) = Transfers.Flight countersEmb (thr d L) (.dma s3) (default : HIx 1) NC (SD d L fi ft 3 195) from rfl)) $$ HS3
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s3)) $$ Hmw
  iintro ⟨HD, H11, HO⟩
  ihave HD := (Entails.of_eq (show (SD d L fi ft 3 195 : sProp 𝕄) = iprop(winPts d L 195 (outF fi ft) ∗ ∃ g, slotPts d L 3 g) from rfl)) $$ HD
  icases HD with ⟨Hw195, %gb3, Hb3⟩
  -- the gather of list 199, the last, into the freed slot 3
  ihave X := (Entails.of_eq (Ico_peel 199 200 200 (by omega) rfl _)) $$ Hrt; icases X with ⟨Hr199, -⟩
  ihave Hb3 := (Entails.of_eq (slot_prog d L 3 ![3, 0, 0] inb_S4x128x128_S1x128x128_3_0_0 rfl gb3)) $$ Hb3
  ihave Hr199 := (Entails.of_eq (row_prog d L fi fs 199 ![199, 0] inb_S200x128_S1x128_199_0 rfl)) $$ Hr199
  sl_exec
  sl_unfold_run_names
  iclear Hq3
  ihave HG3 : (GF d L q fi ft fs 3 199) $$ [H7]
  · unfold GF
    iapply (Transfers.Flight_mono (Lvl := ℕ) countersEmb (thr d L) (gd_ofO d L q fi ft fs 3 199 ![3, 0, 0] inb_S4x128x128_S1x128x128_3_0_0 ![199, 0] inb_S200x128_S1x128_199_0 (Transfers.shareTokN q (4 + 3)) rfl rfl rfl _ _ _ _))
    iexact H7
  -- the gather of list 197 has landed in slot 1: the slot holds chunk 197
  ihave Hfl := (Entails.of_eq (show (GF d L q fi ft fs 1 197 : sProp 𝕄) = Transfers.Flight countersEmb (thr d L) (.dma g1) (default : HIx 1) NC (GD d L q fi ft fs 1 197) from rfl)) $$ HG1
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g1)) $$ Hmw
  iintro ⟨HD, H5, HO⟩
  ihave HD := (Entails.of_eq (show (GD d L q fi ft fs 1 197 : sProp 𝕄) = iprop(((∃ g, slotPts d L 1 g ∗ ⌜(slotM 1).view.read (Elt F) g = chunkVal fi ft L 197⌝) ∗ rowPts d L fi fs 197) ∗ tokLent d L q ft 1) from rfl)) $$ HD
  icases HD with ⟨⟨⟨%gb1, Hb1, %hg1⟩, Hr197⟩, Hl1⟩
  -- the copy of slot 1 to window 197
  ihave X := (Entails.of_eq (Ico_peel 197 198 200 (by omega) rfl _)) $$ Hwt; icases X with ⟨Hw197, Hwt⟩
  ihave Hb1 := (Entails.of_eq (slot_prog d L 1 ![1, 0, 0] inb_S4x128x128_S1x128x128_1_0_0 rfl gb1)) $$ Hb1
  ihave Hw197 := (Entails.of_eq (win_prog d L 197 (k1_off2 L (k1_off2_at 5)) (k1_off2_inb L 5) (off2_eq' L 5) fo)) $$ Hw197
  sl_exec
  sl_unfold_run_names
  ihave HS1 : (SF d L fi ft 1 197) $$ [H9]
  · unfold SF
    iapply (Transfers.Flight_mono (Lvl := ℕ) countersEmb (thr d L) (sd_ofO d L fi ft 1 197 (by omega) (k1_off2 L (k1_off2_at 5)) (k1_off2_inb L 5) ![1, 0, 0] inb_S4x128x128_S1x128x128_1_0_0 (off2_eq' L 5) rfl fo gb1 hg1))
    iexact H9
  -- the gather of list 198 has landed in slot 2: the slot holds chunk 198
  ihave Hfl := (Entails.of_eq (show (GF d L q fi ft fs 2 198 : sProp 𝕄) = Transfers.Flight countersEmb (thr d L) (.dma g2) (default : HIx 1) NC (GD d L q fi ft fs 2 198) from rfl)) $$ HG2
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g2)) $$ Hmw
  iintro ⟨HD, H6, HO⟩
  ihave HD := (Entails.of_eq (show (GD d L q fi ft fs 2 198 : sProp 𝕄) = iprop(((∃ g, slotPts d L 2 g ∗ ⌜(slotM 2).view.read (Elt F) g = chunkVal fi ft L 198⌝) ∗ rowPts d L fi fs 198) ∗ tokLent d L q ft 2) from rfl)) $$ HD
  icases HD with ⟨⟨⟨%gc2, Hb2, %hg2⟩, Hr198⟩, Hl2⟩
  -- the copy of slot 2 to window 198
  ihave X := (Entails.of_eq (Ico_peel 198 199 200 (by omega) rfl _)) $$ Hwt; icases X with ⟨Hw198, Hwt⟩
  ihave Hb2 := (Entails.of_eq (slot_prog d L 2 ![2, 0, 0] inb_S4x128x128_S1x128x128_2_0_0 rfl gc2)) $$ Hb2
  ihave Hw198 := (Entails.of_eq (win_prog d L 198 (k1_off2 L (k1_off2_at 6)) (k1_off2_inb L 6) (off2_eq' L 6) fo)) $$ Hw198
  sl_exec
  sl_unfold_run_names
  ihave HS2 : (SF d L fi ft 2 198) $$ [H10]
  · unfold SF
    iapply (Transfers.Flight_mono (Lvl := ℕ) countersEmb (thr d L) (sd_ofO d L fi ft 2 198 (by omega) (k1_off2 L (k1_off2_at 6)) (k1_off2_inb L 6) ![2, 0, 0] inb_S4x128x128_S1x128x128_2_0_0 (off2_eq' L 6) rfl fo gc2 hg2))
    iexact H10
  -- the gather of list 199 has landed in slot 3: the slot holds chunk 199
  ihave Hfl := (Entails.of_eq (show (GF d L q fi ft fs 3 199 : sProp 𝕄) = Transfers.Flight countersEmb (thr d L) (.dma g3) (default : HIx 1) NC (GD d L q fi ft fs 3 199) from rfl)) $$ HG3
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g3)) $$ Hmw
  iintro ⟨HD, H7, HO⟩
  ihave HD := (Entails.of_eq (show (GD d L q fi ft fs 3 199 : sProp 𝕄) = iprop(((∃ g, slotPts d L 3 g ∗ ⌜(slotM 3).view.read (Elt F) g = chunkVal fi ft L 199⌝) ∗ rowPts d L fi fs 199) ∗ tokLent d L q ft 3) from rfl)) $$ HD
  icases HD with ⟨⟨⟨%gc3, Hb3, %hg3⟩, Hr199⟩, Hl3⟩
  -- the copy of slot 3 to window 199, the last
  ihave X := (Entails.of_eq (Ico_peel 199 200 200 (by omega) rfl _)) $$ Hwt; icases X with ⟨Hw199, -⟩
  ihave Hb3 := (Entails.of_eq (slot_prog d L 3 ![3, 0, 0] inb_S4x128x128_S1x128x128_3_0_0 rfl gc3)) $$ Hb3
  ihave Hw199 := (Entails.of_eq (win_prog d L 199 (k1_off2 L (k1_off2_at 7)) (k1_off2_inb L 7) (off2_eq' L 7) fo)) $$ Hw199
  sl_exec
  sl_unfold_run_names
  ihave HS3 : (SF d L fi ft 3 199) $$ [H11]
  · unfold SF
    iapply (Transfers.Flight_mono (Lvl := ℕ) countersEmb (thr d L) (sd_ofO d L fi ft 3 199 (by omega) (k1_off2 L (k1_off2_at 7)) (k1_off2_inb L 7) ![3, 0, 0] inb_S4x128x128_S1x128x128_3_0_0 (off2_eq' L 7) rfl fo gc3 hg3))
    iexact H11
  -- the last four copies land: windows 196 to 199 hold their rows of the output, the slots are free
  ihave Hfl := (Entails.of_eq (show (SF d L fi ft 0 196 : sProp 𝕄) = Transfers.Flight countersEmb (thr d L) (.dma s0) (default : HIx 1) NC (SD d L fi ft 0 196) from rfl)) $$ HS0
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s0)) $$ Hmw
  iintro ⟨HD, H8, HO⟩
  ihave HD := (Entails.of_eq (show (SD d L fi ft 0 196 : sProp 𝕄) = iprop(winPts d L 196 (outF fi ft) ∗ ∃ g, slotPts d L 0 g) from rfl)) $$ HD
  icases HD with ⟨Hw196, %gd0, Hb0⟩
  sl_exec
  -- window 197
  ihave Hfl := (Entails.of_eq (show (SF d L fi ft 1 197 : sProp 𝕄) = Transfers.Flight countersEmb (thr d L) (.dma s1) (default : HIx 1) NC (SD d L fi ft 1 197) from rfl)) $$ HS1
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s1)) $$ Hmw
  iintro ⟨HD, H9, HO⟩
  ihave HD := (Entails.of_eq (show (SD d L fi ft 1 197 : sProp 𝕄) = iprop(winPts d L 197 (outF fi ft) ∗ ∃ g, slotPts d L 1 g) from rfl)) $$ HD
  icases HD with ⟨Hw197, %gd1, Hb1⟩
  sl_exec
  -- window 198
  ihave Hfl := (Entails.of_eq (show (SF d L fi ft 2 198 : sProp 𝕄) = Transfers.Flight countersEmb (thr d L) (.dma s2) (default : HIx 1) NC (SD d L fi ft 2 198) from rfl)) $$ HS2
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s2)) $$ Hmw
  iintro ⟨HD, H10, HO⟩
  ihave HD := (Entails.of_eq (show (SD d L fi ft 2 198 : sProp 𝕄) = iprop(winPts d L 198 (outF fi ft) ∗ ∃ g, slotPts d L 2 g) from rfl)) $$ HD
  icases HD with ⟨Hw198, %gd2, Hb2⟩
  sl_exec
  -- window 199
  ihave Hfl := (Entails.of_eq (show (SF d L fi ft 3 199 : sProp 𝕄) = Transfers.Flight countersEmb (thr d L) (.dma s3) (default : HIx 1) NC (SD d L fi ft 3 199) from rfl)) $$ HS3
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s3)) $$ Hmw
  iintro ⟨HD, H11, HO⟩
  ihave HD := (Entails.of_eq (show (SD d L fi ft 3 199 : sProp 𝕄) = iprop(winPts d L 199 (outF fi ft) ∗ ∃ g, slotPts d L 3 g) from rfl)) $$ HD
  icases HD with ⟨Hw199, %gd3, Hb3⟩
  sl_exec
  -- everything back together: the 200 windows, all holding the output, are the tile's block; the 200 lists are the word
  -- scratch; the four slots are the row scratch; the eight read tokens and what was never split off are the table share
  ihave Hwd := (Entails.of_eq (Ico_push 0 194 195 (by omega) rfl (fun j => winPts d L j (outF fi ft))).symm) $$ [Hw194 Hwd]; · isplitl [Hw194] <;> iassumption
  ihave Hwd := (Entails.of_eq (Ico_push 0 195 196 (by omega) rfl (fun j => winPts d L j (outF fi ft))).symm) $$ [Hw195 Hwd]; · isplitl [Hw195] <;> iassumption
  ihave Hwd := (Entails.of_eq (Ico_push 0 196 197 (by omega) rfl (fun j => winPts d L j (outF fi ft))).symm) $$ [Hw196 Hwd]; · isplitl [Hw196] <;> iassumption
  ihave Hwd := (Entails.of_eq (Ico_push 0 197 198 (by omega) rfl (fun j => winPts d L j (outF fi ft))).symm) $$ [Hw197 Hwd]; · isplitl [Hw197] <;> iassumption
  ihave Hwd := (Entails.of_eq (Ico_push 0 198 199 (by omega) rfl (fun j => winPts d L j (outF fi ft))).symm) $$ [Hw198 Hwd]; · isplitl [Hw198] <;> iassumption
  ihave Hwd := (Entails.of_eq (Ico_push 0 199 200 (by omega) rfl (fun j => winPts d L j (outF fi ft))).symm) $$ [Hw199 Hwd]; · isplitl [Hw199] <;> iassumption
  ihave Hrd := (Entails.of_eq (Ico_push 0 196 197 (by omega) rfl (fun j => rowPts d L fi fs j)).symm) $$ [Hr196 Hrd]; · isplitl [Hr196] <;> iassumption
  ihave Hrd := (Entails.of_eq (Ico_push 0 197 198 (by omega) rfl (fun j => rowPts d L fi fs j)).symm) $$ [Hr197 Hrd]; · isplitl [Hr197] <;> iassumption
  ihave Hrd := (Entails.of_eq (Ico_push 0 198 199 (by omega) rfl (fun j => rowPts d L fi fs j)).symm) $$ [Hr198 Hrd]; · isplitl [Hr198] <;> iassumption
  ihave Hrd := (Entails.of_eq (Ico_push 0 199 200 (by omega) rfl (fun j => rowPts d L fi fs j)).symm) $$ [Hr199 Hrd]; · isplitl [Hr199] <;> iassumption
  iclear Ht4
  iclear Ht5
  have etok : ∀ b, (tokLent d L q ft b : sProp 𝕄) = tokPts d L q ft b := fun b => by
    show ((tV).view.loc (thr d L) ↦[(tAll).view.set]{Transfers.shareTokN q (4 + b)} ft : sProp 𝕄) = _
    rw [tAll_set]
  ihave Hc := (tile_close d L q fi ft fs gd0 gd1 gd2 gd3) $$ [Hwd Hrd Hb0 Hb1 Hb2 Hb3 Ht Hk0 Hk1 Hk2 Hk3 Hl0 Hl1 Hl2 Hl3]
  · isplitl [Hwd]; · iexact Hwd
    isplitl [Hrd]; · iexact Hrd
    isplitl [Hb0]; · iexact Hb0
    isplitl [Hb1]; · iexact Hb1
    isplitl [Hb2]; · iexact Hb2
    isplitl [Hb3]; · iexact Hb3
    isplitl [Ht]; · iapply (Entails.of_eq (keep_eq _)); iexact Ht
    isplitl [Hk0]; · iapply (Entails.of_eq (keep_eq _)); iexact Hk0
    isplitl [Hk1]; · iapply (Entails.of_eq (keep_eq _)); iexact Hk1
    isplitl [Hk2]; · iapply (Entails.of_eq (keep_eq _)); iexact Hk2
    isplitl [Hk3]; · iapply (Entails.of_eq (keep_eq _)); iexact Hk3
    isplitl [Hl0]; · iapply (Entails.of_eq (etok 0)); iexact Hl0
    isplitl [Hl1]; · iapply (Entails.of_eq (etok 1)); iexact Hl1
    isplitl [Hl2]; · iapply (Entails.of_eq (etok 2)); iexact Hl2
    iapply (Entails.of_eq (etok 3)); iexact Hl3
  icases Hc with ⟨Hout, Htab, Hsi, Hsb⟩
  sl_step
  isplitl [Hi]; · iexact Hi
  isplitl [Htab]; · iexact Htab
  isplitl [Hout]; · iexact Hout
  isplitl [Hsi]; · iexact Hsi
  isplitl [Hsb]; · iexact Hsb
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  -- every wait recorded since the invariant is a wait at the index of no handshake
  iexists _; isplitr
  swap; · iexact HO
  ipureintro; intro p hp
  repeat (rcases Finset.mem_insert.mp hp with hp | hp; · exact .inr (hp ▸ rfl))
  exact hW' p hp

end Cert.Proof.KI

end
-- ==== Proof.KITileWrap.lean ====
/-
  One tile's run, as the launch asks for it.

  The launch hands a tile its row of the reshaped tokens, a read share of the scaled table, its block of the output, and
  everything scoped to its thread: its two scratch buffers among its own buffers, and its thirteen DMA semaphores at zero —
  on a vector subcore every DMA semaphore is scoped.  The body uses nine of the thirteen (four for the gathers, four for the
  copies out, one for the first copy); they are taken out of the thirteen one at a time, the other four staying together,
  and likewise the two scratch buffers out of the thread's own.  With those in hand the tile's run is `tile_core`; what it
  gives back is put together again in the launch's shape, the untouched remainder carried around the run.

  The launch asks the same of the kernel's label on each vector subcore of the call's grid: there the label is the gather
  body at the subcore's grid coordinates, the tile's number `2 s + c` is the one its share of the handshake is indexed by,
  and every word of its token row is below 100000 because every token is.
-/
import proofs.«217237_g17617955848579_cont_7to1_1664_16_alg».proof.Proof.KITileCore
import proofs.«217237_g17617955848579_cont_7to1_1664_16_alg».proof.Proof.KILaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-! ## The tile's own semaphores: nine named, four more -/

omit [FloatOps F] in
/-- Every DMA semaphore of a vector subcore's thread is one of the thread's own scoped cells. -/
theorem cell_mem (sm : DmaSem sig) : cell d L sm ∈ ownCells (thr d L) := mem_ownCells.mpr ⟨rfl, rfl⟩

omit [FloatOps F] in
/-- Different semaphores are different cells. -/
theorem cell_ne {x y : DmaSem sig} (h : x ≠ y) : cell d L x ≠ cell d L y :=
  fun e => h (SemLoc.dma.inj (Prod.mk.inj e).2)

/-- The thread's own cells, and what is left as the nine are taken out in order. -/
abbrev C0 : Finset (GSem nD τ sig) := ownCells (thr d L)
abbrev C1 : Finset (GSem nD τ sig) := (C0 d L).erase (cell d L g0)
abbrev C2 : Finset (GSem nD τ sig) := (C1 d L).erase (cell d L g1)
abbrev C3 : Finset (GSem nD τ sig) := (C2 d L).erase (cell d L g2)
abbrev C4 : Finset (GSem nD τ sig) := (C3 d L).erase (cell d L g3)
abbrev C5 : Finset (GSem nD τ sig) := (C4 d L).erase (cell d L s0)
abbrev C6 : Finset (GSem nD τ sig) := (C5 d L).erase (cell d L s1)
abbrev C7 : Finset (GSem nD τ sig) := (C6 d L).erase (cell d L s2)
abbrev C8 : Finset (GSem nD τ sig) := (C7 d L).erase (cell d L s3)
abbrev C9 : Finset (GSem nD τ sig) := (C8 d L).erase (cell d L z0)

omit [FloatOps F] in
/-- A cell is still there after a different one was taken out. -/
theorem mem_step {s : Finset (GSem nD τ sig)} {x y : DmaSem sig} (h : x ≠ y) (hm : cell d L x ∈ s) :
    cell d L x ∈ s.erase (cell d L y) := Finset.mem_erase.mpr ⟨cell_ne d L h, hm⟩

omit [FloatOps F] in
/-- A cell is still there after any list of cells was taken out, if it differs from each of them. -/
theorem mem_foldl_erase (x : DmaSem sig) :
    ∀ (l : List (DmaSem sig)) (s : Finset (GSem nD τ sig)), cell d L x ∈ s → (∀ y ∈ l, x ≠ y) →
      cell d L x ∈ l.foldl (fun s y => s.erase (cell d L y)) s
  | [], _, hs, _ => hs
  | y :: l, _, hs, h =>
    mem_foldl_erase x l _ (mem_step d L (h y (List.mem_cons_self ..)) hs) fun z hz => h z (List.mem_cons_of_mem _ hz)

omit [FloatOps F] in
/-- A semaphore is among the thread's own cells less a list of others it differs from. -/
theorem mem_less (x : DmaSem sig) (l : List (DmaSem sig)) (h : ∀ y ∈ l, x ≠ y) :
    cell d L x ∈ l.foldl (fun s y => s.erase (cell d L y)) (ownCells (thr d L)) :=
  mem_foldl_erase d L x l _ (cell_mem d L x) h

omit [FloatOps F] in
theorem ownSems0_V :
    (ownSems0 (thr d L) : sProp 𝕄)
      = iprop(semVal (cell d L g0) 0 ∗ semVal (cell d L g1) 0 ∗ semVal (cell d L g2) 0 ∗ semVal (cell d L g3) 0
          ∗ semVal (cell d L s0) 0 ∗ semVal (cell d L s1) 0 ∗ semVal (cell d L s2) 0 ∗ semVal (cell d L s3) 0 ∗ semVal (cell d L z0) 0
          ∗ bigSep (C9 d L) fun g => semVal g 0) := by
  have h0 : cell d L g0 ∈ C0 d L := cell_mem d L g0
  have h1 : cell d L g1 ∈ C1 d L := mem_less d L g1 [g0] (by decide)
  have h2 : cell d L g2 ∈ C2 d L := mem_less d L g2 [g0, g1] (by decide)
  have h3 : cell d L g3 ∈ C3 d L := mem_less d L g3 [g0, g1, g2] (by decide)
  have h4 : cell d L s0 ∈ C4 d L := mem_less d L s0 [g0, g1, g2, g3] (by decide)
  have h5 : cell d L s1 ∈ C5 d L := mem_less d L s1 [g0, g1, g2, g3, s0] (by decide)
  have h6 : cell d L s2 ∈ C6 d L := mem_less d L s2 [g0, g1, g2, g3, s0, s1] (by decide)
  have h7 : cell d L s3 ∈ C7 d L := mem_less d L s3 [g0, g1, g2, g3, s0, s1, s2] (by decide)
  have h8 : cell d L z0 ∈ C8 d L := mem_less d L z0 [g0, g1, g2, g3, s0, s1, s2, s3] (by decide)
  unfold SparseCore.Cfg.ownSems0
  rw [SparseCore.bigSep_erase' h0, SparseCore.bigSep_erase' h1, SparseCore.bigSep_erase' h2, SparseCore.bigSep_erase' h3,
    SparseCore.bigSep_erase' h4, SparseCore.bigSep_erase' h5, SparseCore.bigSep_erase' h6, SparseCore.bigSep_erase' h7,
    SparseCore.bigSep_erase' h8]

/-! ## The tile's own buffers: the two scratch buffers, and the rest -/

omit [FloatOps F] in
theorem ownBufs_V :
    (ownBufs (thr d L) : sProp 𝕄)
      = iprop((∃ f, (sI).view.loc (thr d L) ↦{fullShare} f) ∗ (∃ f, (sB).view.loc (thr d L) ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The tile's row of the tokens, as the tile slices it and as the launch names it -/

omit [FloatOps F] in
theorem pts_iRowK (f : Buf (Elt F) (idxLoc d)) :
    ((iRowK L).view.loc (thr d L) ↦[(iRowK L).view.set]{fullShare} f : sProp 𝕄) = idxLoc d ↦[iRowSet (widL L)]{fullShare} f := by
  rw [iRowK_set]

/-! ## The tile's run in the launch's shape -/

set_option maxHeartbeats 1000000 in
/-- The tile on vector subcore `L` of device `d`: from its row of the tokens (every word below 100000), a read share of the
    table, its block of the output and everything scoped to its thread, to the block holding its rows of the output and
    everything else back. -/
theorem tile_body (hF : (K (F := F)).Facts) (q : PosShare TreeShare) (fi : Buf (Elt F) (idxLoc d)) (ft : Buf (Elt F) (tabLoc d))
    (fo : Buf (Elt F) (outLoc d)) (hpre : ∀ x, (fi x).toNat < 100000)
    (O : CellTallies nD τ sig (HIx 1)) (W : Waits sig (HIx 1)) (hO : ∀ g, O g none = 0) :
    iprop((levAts (K (F := F)).L (K (F := F)).lev : sProp 𝕄) ∗ emp
        ∗ ((idxLoc d ↦[iRowSet (widL L)]{fullShare} fi) ∗ (tabLoc d ↦{q} ft) ∗ (outLoc d ↦[oRowSet (widL L)]{fullShare} fo))
        ∗ scopedBufs (thr d L) ∗ scopedSems0 (thr d L) ∗ owes (thr d L) O W)
      ⊢ wp frame (wpE (defs₀ (F := F)) 𝒱₀ (thr d L) none) Set.univ
          (cc1__gather_body L iV (Memref.isWhole_whole _) tV (Memref.isWhole_whole _) oV (Memref.isWhole_whole _)
            sI (Memref.isWhole_whole _) sB (Memref.isWhole_whole _) cc1_scratch2 cc1_scratch3 cc1_scoped0)
          fun _ => iprop(((idxLoc d ↦[iRowSet (widL L)]{fullShare} fi) ∗ (tabLoc d ↦{q} ft) ∗ (outLoc d ↦[oRowSet (widL L)]{fullShare} outF fi ft))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fb, Hb⟩, Hbufs⟩, ⟨Hg0, Hg1, Hg2, Hg3, Hs0, Hs1, Hs2, Hs3, Hz0, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iRowK (F := F) d L fi).symm) $$ Hi
  iapply (wp_wand_r frame _ Set.univ)
  isplitl [Hmw Hi' Ht Ho Hs Hb Hg0 Hg1 Hg2 Hg3 Hs0 Hs1 Hs2 Hs3 Hz0 HO]
  · iapply (tile_core d L q fi ft fo fs fb hpre O W)
    isplitl [Hmw]; · iexact Hmw
    isplitl [Hi']; · iexact Hi'
    isplitl [Ht]; · iexact Ht
    isplitl [Ho]; · iexact Ho
    isplitl [Hs]; · iexact Hs
    isplitl [Hb]; · iexact Hb
    isplitl [Hg0]; · iexact Hg0
    isplitl [Hg1]; · iexact Hg1
    isplitl [Hg2]; · iexact Hg2
    isplitl [Hg3]; · iexact Hg3
    isplitl [Hs0]; · iexact Hs0
    isplitl [Hs1]; · iexact Hs1
    isplitl [Hs2]; · iexact Hs2
    isplitl [Hs3]; · iexact Hs3
    isplitl [Hz0]; · iexact Hz0
    iexact HO
  · iintro %_ ⟨Hi, Ht, Ho, Hs, Hb, Hg0, Hg1, Hg2, Hg3, Hs0, Hs1, Hs2, Hs3, Hz0, HW⟩
    isplitl [Hi Ht Ho]
    · isplitl [Hi]; · iapply (Entails.of_eq (pts_iRowK (F := F) d L fi)); iexact Hi
      isplitl [Ht]; · iexact Ht
      iexact Ho
    isplitl [Hs Hb Hbufs]
    · isplitl [Hs]; · iexact Hs
      isplitl [Hb]; · iexact Hb
      iexact Hbufs
    isplitl [Hg0 Hg1 Hg2 Hg3 Hs0 Hs1 Hs2 Hs3 Hz0 Hsems]
    · isplitl [Hg0]; · iexact Hg0
      isplitl [Hg1]; · iexact Hg1
      isplitl [Hg2]; · iexact Hg2
      isplitl [Hg3]; · iexact Hg3
      isplitl [Hs0]; · iexact Hs0
      isplitl [Hs1]; · iexact Hs1
      isplitl [Hs2]; · iexact Hs2
      isplitl [Hs3]; · iexact Hs3
      isplitl [Hz0]; · iexact Hz0
      iexact Hsems
    iexact HW

variable (m : (ℓ : Loc nD τ sig) → Buf (Elt F) ℓ)

/-! ## The obligation the launch asks of a tile -/

/-- The grid coordinates of the tile on SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- On a vector subcore the kernel's label runs the gather body at the subcore's coordinates, on the whole arrays and the
    subcore's scratch. -/
theorem defs₀_vector (c : Fin τ.nSC) (s : Fin τ.nSub) :
    defs₀ (F := F) (.scVector c s) 1 ()
      = SparseCore.onTile hcore1 hsub1 (fun c s => cc1__gather_body (coordsV c s)
          iV (Memref.isWhole_whole _) tV (Memref.isWhole_whole _) oV (Memref.isWhole_whole _)
          sI (Memref.isWhole_whole _) sB (Memref.isWhole_whole _) cc1_scratch2 cc1_scratch3 cc1_scoped0) ⟨⟩ c s := rfl

omit [FloatOps F] in
/-- The tile's number read off its grid coordinates is the one the launch counts it by: `2 s + c`. -/
theorem widL_coordsV (c : Fin ((K (F := F)).nCore 0)) (i : Fin ((K (F := F)).nSub 0))
    (h0 : ((K (F := F)).core 0 c).val < grid1.bound 0) (h1 : ((K (F := F)).sub 0 i).val < grid1.bound 1) :
    widL (coordsV ⟨_, h0⟩ ⟨_, h1⟩) = wid (Fin.cast nCore_zero c) (Fin.cast nSub_zero i) := rfl

omit [FloatOps F] in
/-- The waits a tile leaves are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call meets the launch's obligation: handed its row of the tokens, its share of the table and its block
    of the output, it hands them back with the block holding its rows of the result. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tileQ (Fin.cast nCore_zero c) (Fin.cast nSub_zero i)) (idxF m d) (tabF m d) (m (outLoc d))
    (idxF_lt m hpre d) O W hO).trans (wp_mono frame _ _ fun _ => obl_post)

end Cert.Proof.KI

end
-- ==== Proof.KIRun.lean ====
/-
  The kernel program's run under the certificate's precondition, the tile's task supplied.

  Every weakly fair execution of the TensorCore's @main beside the SparseCores' threads terminates, nothing faulting;
  the result is the specification's function of the arguments and the arguments are unchanged.
-/
import proofs.«217237_g17617955848579_cont_7to1_1664_16_alg».proof.Proof.KIAssemble
import proofs.«217237_g17617955848579_cont_7to1_1664_16_alg».proof.Proof.KITileWrap

noncomputable section

namespace Cert.Proof.KI

open Cert.KernelIdeal Cert.KernelIdeal.Gen
open Idealize.ShloMosaic Idealize.SL.Sem

variable {F : FTy → Type} [FloatOps F]

theorem run_pre [∀ e, Nonempty (Elt F e)] (m : (ℓ : Loc nD τ sig) → Buf (Elt F) ℓ) (ρ : Dev nD → PrngReg)
    (h : ∀ c : Dev nD, Cert.Pre_input_domain.fn (F := F)
      (m ((c.tc : Thread nD τ).loc main_arg0)) (m ((c.tc : Thread nD τ).loc main_arg1)) = fun _ => 1#1) :
    θ_run (Cert.KernelIdeal.defs (F := F)) (Cert.KernelIdeal.threads (F := F)) ⟨m, fun _ => 0, ρ⟩ (QC m) :=
  run_of_pre m ρ (fun hp => tileObl m facts hp) h

end Cert.Proof.KI

end
-- ==== Proof.KBCommon.lean ====
/-
  The gather kernel's program as the launch theorem sees it, and the names the tile's proof and the launch share.

  The device's TensorCore scales the table (`main_v0 = lut · c`), reshapes the tokens to one row of 200 × 128 words per tile
  (`main_v1`) and calls the SparseCores; tile `(c, s)` of the call has number `wid = 2 s + c`, reads row `wid` of
  `main_v1` and every row of `main_v0` its words name, and writes rows `[25600 · wid, 25600 · wid + 25600)` of `main_v2`:
  row `25600 · wid + 128 · j + k` of `main_v2` is row `main_v1[wid, j, k]` of `main_v0` (`outF`).
-/
import proofs.«217237_g17617955848579_cont_7to1_1664_16_alg».proof.Kernel
import proofs.«217237_g17617955848579_cont_7to1_1664_16_alg».proof.Proof.Gen.Kernel
import proofs.«217237_g17617955848579_cont_7to1_1664_16_alg».proof.Proof.Gen.Kernel.Skeleton
import proofs.«217237_g17617955848579_cont_7to1_1664_16_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the region's staging cells' rounds, the transfers' counters -/

abbrev UH : Type := URounds (GSem nD τ sig) ℕ
/-- The TensorCore region's staging cells have rounds of their own. -/
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev tokLoc (d : Dev nD) : Loc nD τ sig := (SparseCore.T d).loc main_arg0
abbrev lutLoc (d : Dev nD) : Loc nD τ sig := (SparseCore.T d).loc main_arg1
abbrev tabLoc (d : Dev nD) : Loc nD τ sig := (SparseCore.T d).loc main_v0
abbrev idxLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

/-- The arrays as a tile names them, and a tile's two scratch buffers: the fetched words, the four row slots. -/
abbrev iV : Memref sig .scVector .hbm S32x200x128 .i32 := Memref.whole main_v1_scv
abbrev tV : Memref sig .scVector .hbm S100000x128 .f32 := Memref.whole main_v0_scv
abbrev oV : Memref sig .scVector .hbm S819200x128 .f32 := Memref.whole main_v2_scv
abbrev sI : Memref sig .scVector .vmem S200x128 .i32 := Memref.whole cc1_scratch0
abbrev sB : Memref sig .scVector .vmem S4x128x128 .f32 := Memref.whole cc1_scratch1

/-- Tile `(c, s)` has number `2 s + c`. -/
def wid (c : Fin 2) (s : Fin 16) : Fin 32 := ⟨2 * s.val + c.val, by omega⟩

theorem idiv : 32 ∣ S32x200x128.size 0 := ⟨1, rfl⟩
theorem odiv : 32 ∣ S819200x128.size 0 := ⟨25600, rfl⟩
/-- Row `w` of the reshaped tokens; the 25600 rows of the output tile `w` writes. -/
abbrev irow (w : Fin 32) : Rect S32x200x128 := Rect.part (s := S32x200x128) (a₀ := 0) idiv w
abbrev orow (w : Fin 32) : Rect S819200x128 := Rect.part (s := S819200x128) (a₀ := 0) odiv w
abbrev iRowSet (w : Fin 32) : Finset S32x200x128.Idx := ((iV).view.slice (irow w)).set
abbrev oRowSet (w : Fin 32) : Finset S819200x128.Idx := ((oV).view.slice (orow w)).set

/-- What the tiles leave in the output: row `p` is the table row that word `p` of the reshaped tokens (read row-major) names. -/
def outF (fi : IVec S32x200x128 32) (ft : FVec F S100000x128 .f32) : FVec F S819200x128 .f32 :=
  fun y => ft (ix2 (Spec.rowOf (fi (ix3 (⟨(y 0).val / 25600, by have h : (y 0).val < 819200 := (y 0).isLt; omega⟩ : Fin 32)
    (⟨(y 0).val % 25600 / 128, by omega⟩ : Fin 200) (⟨(y 0).val % 128, by omega⟩ : Fin 128)))) (y 1))

end Cert.Proof.KB

end
-- ==== Proof.KBLaunchPay.lean ====
/-
  What the SparseCore call's handshakes carry.

  The call reads the reshaped tokens `main_v1` (32 rows of 200 × 128 words, one per tile), the scaled table `main_v0`
  and writes `main_v2` (32 blocks of 25600 rows, one per tile). Tile `(c, i)` — SparseCore `c`, subcore `i`, number
  `w = 2 i + c` — is handed row `w` of the tokens and block `w` of the output outright, and a READ SHARE of the whole
  table: the full share is halved once per SparseCore and each half four more times, one leaf per tile, so that all 32
  tiles read the table at once. A tile hands the same back with its block filled: row `25600 w + p` of the output is
  the table row that word `p` of the tile's token row names (`outF`). A SparseCore is handed its sixteen tiles' rows
  and blocks and its half of the table, and hands them back likewise.
-/
import proofs.«217237_g17617955848579_cont_7to1_1664_16_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## Read shares: a share halved `n` times -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The two halves of the leaves of depth `n + 1`. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its leaves' at once. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s share of the table: a half. Tile `i` of it: a sixteenth of that half. -/
abbrev coreQ (c : Fin 2) : PosShare TreeShare := leaf 1 fullShare c
abbrev tileQ (c : Fin 2) (i : Fin 16) : PosShare TreeShare := leaf 4 (coreQ c) i

variable [FloatOps F]

variable (m : (ℓ : Loc nD τ sig) → Buf (Elt F) ℓ)

/-! ## The arrays' contents as functions of the launch memory -/

/-- The tokens as the call reads them: the same words in row-major order, a row of 200 × 128 per tile. -/
def idxF (d : Dev nD) : IVec S32x200x128 32 := shapeCast S32x200x128 (m (tokLoc d)) shapeCasts_S4096x200_S32x200x128
/-- The scaled table. -/
def tabF (d : Dev nD) : FVec F S100000x128 .f32 := Spec.scaled (F := F) (m (lutLoc d))
/-- What the tiles leave in the output. -/
def resF (d : Dev nD) : FVec F S819200x128 .f32 := outF (idxF m d) (tabF m d)

/-- What the proof asks of the launch memory: every token names a row of the table. -/
def PreOK : Prop := ∀ (d : Dev nD) (j : S4096x200.Idx), (m (tokLoc d) j).toNat < 100000

/-- Then so does every word of the reshaped tokens: a reshape only re-addresses. -/
theorem idxF_lt (hpre : PreOK m) (d : Dev nD) (j : S32x200x128.Idx) : (idxF m d j).toNat < 100000 := hpre d _

/-! ## What the handshakes carry -/

abbrev idxRow (d : Dev nD) (w : Fin 32) : sProp 𝕄 := idxLoc d ↦[iRowSet w]{fullShare} idxF m d
abbrev tabSh (d : Dev nD) (q : PosShare TreeShare) : sProp 𝕄 := tabLoc d ↦{q} tabF m d
abbrev outRow (d : Dev nD) (w : Fin 32) (f : Buf (Elt F) (outLoc d)) : sProp 𝕄 := outLoc d ↦[oRowSet w]{fullShare} f

/-- A tile's task takes its row of the tokens, its share of the table, its block of the output as launched; -/
def goA (d : Dev nD) (c : Fin 2) (i : Fin 16) : sProp 𝕄 :=
  iprop(idxRow m d (wid c i) ∗ tabSh m d (tileQ c i) ∗ outRow d (wid c i) (m (outLoc d)))
/-- and brings them back, the block filled. -/
def tdA (d : Dev nD) (c : Fin 2) (i : Fin 16) : sProp 𝕄 :=
  iprop(idxRow m d (wid c i) ∗ tabSh m d (tileQ c i) ∗ outRow d (wid c i) (resF m d))
/-- A SparseCore takes its sixteen tiles' rows and blocks and its half of the table; -/
def stA (d : Dev nD) (c : Fin 2) : sProp 𝕄 :=
  iprop((bigSep Finset.univ fun i : Fin 16 => idxRow m d (wid c i)) ∗ tabSh m d (coreQ c)
    ∗ bigSep Finset.univ fun i : Fin 16 => outRow d (wid c i) (m (outLoc d)))
/-- and brings them back, the blocks filled. -/
def dnA (d : Dev nD) (c : Fin 2) : sProp 𝕄 :=
  iprop((bigSep Finset.univ fun i : Fin 16 => idxRow m d (wid c i)) ∗ tabSh m d (coreQ c)
    ∗ bigSep Finset.univ fun i : Fin 16 => outRow d (wid c i) (resF m d))

instance goA_storable (d : Dev nD) (c : Fin 2) (i : Fin 16) : BI.Storable (upEmb : UEmb _ 𝕄) (goA m d c i) := by unfold goA; infer_instance
instance tdA_storable (d : Dev nD) (c : Fin 2) (i : Fin 16) : BI.Storable (upEmb : UEmb _ 𝕄) (tdA m d c i) := by unfold tdA; infer_instance
instance stA_storable (d : Dev nD) (c : Fin 2) : BI.Storable (upEmb : UEmb _ 𝕄) (stA m d c) := by unfold stA; infer_instance
instance dnA_storable (d : Dev nD) (c : Fin 2) : BI.Storable (upEmb : UEmb _ 𝕄) (dnA m d c) := by unfold dnA; infer_instance

def P : (K (F := F)).Pay (nD := nD) (Val := Elt F) (Name := ℕ) (U := UU) where
  st := fun q d c => match q with | 0 => stA m d (Fin.cast nCore_zero c)
  dn := fun q d c => match q with | 0 => dnA m d (Fin.cast nCore_zero c)
  go := fun q d c i => match q with | 0 => goA m d (Fin.cast nCore_zero c) (Fin.cast nSub_zero i)
  td := fun q d c i => match q with | 0 => tdA m d (Fin.cast nCore_zero c) (Fin.cast nSub_zero i)
  x := fun _ _ => iprop(emp)

instance P_storable : (P (F := F) m).IsStorable where
  st q d c := match q with | 0 => (inferInstance : BI.Storable (upEmb : UEmb _ 𝕄) (stA m d (Fin.cast nCore_zero c)))
  dn q d c := match q with | 0 => (inferInstance : BI.Storable (upEmb : UEmb _ 𝕄) (dnA m d (Fin.cast nCore_zero c)))
  go q d c i := match q with | 0 => (inferInstance : BI.Storable (upEmb : UEmb _ 𝕄) (goA m d (Fin.cast nCore_zero c) (Fin.cast nSub_zero i)))
  td q d c i := match q with | 0 => (inferInstance : BI.Storable (upEmb : UEmb _ 𝕄) (tdA m d (Fin.cast nCore_zero c) (Fin.cast nSub_zero i)))

theorem P_st (d : Dev nD) (c : Fin ((K (F := F)).nCore 0)) : (P m).st 0 d c = stA m d (Fin.cast nCore_zero c) := rfl
theorem P_dn (d : Dev nD) (c : Fin ((K (F := F)).nCore 0)) : (P m).dn 0 d c = dnA m d (Fin.cast nCore_zero c) := rfl
theorem P_go (d : Dev nD) (c : Fin ((K (F := F)).nCore 0)) (i : Fin ((K (F := F)).nSub 0)) :
    (P m).go 0 d c i = goA m d (Fin.cast nCore_zero c) (Fin.cast nSub_zero i) := rfl
theorem P_td (d : Dev nD) (c : Fin ((K (F := F)).nCore 0)) (i : Fin ((K (F := F)).nSub 0)) :
    (P m).td 0 d c i = tdA m d (Fin.cast nCore_zero c) (Fin.cast nSub_zero i) := rfl
theorem P_x (q : Fin 1) (thr : Thread nD τ) : (P m).x q thr = iprop(emp) := rfl
theorem P_ox : (P m).ox = fun _ _ => 0 := rfl

end Cert.Proof.KB

end
-- ==== Proof.KBLaunchRegion.lean ====
/-
  The scale region: @main's first line on the TensorCore.

  The TensorCore walks the table `lut` (100000 rows of 128 floats) in ten blocks of 10000 rows. At each block it
  loads the block, multiplies every entry by the constant `c` (the f32 word `0x413504F3`) and stores the product
  into the same block of `main_v0`. The blocks tile the table — row `r` lies in block `r / 10000` — so when the
  region ends `main_v0` holds the scaled table, entry by entry `lut[r, k] · c` (`Spec.scaled`), and `lut` is as it
  was. While the region runs the TensorCore still owes the SparseCores their start signals; those debts sit at the
  call's index, strictly above the level of the region's own waits on its staging semaphores, so every such wait is
  allowed, and the debts come out of the region unchanged.
-/
import proofs.«217237_g17617955848579_cont_7to1_1664_16_alg».proof.Proof.KBCommon
import proofs.«217237_g17617955848579_cont_7to1_1664_16_alg».proof.Proof.Gen.Kernel.Launch
import proofs.«217237_g17617955848579_cont_7to1_1664_16_alg».proof.Proof.Gen.Kernel.Points
import Idealize.ShloMosaic.Lib.Pipeline.Regions
import Idealize.ShloMosaic.Lib.Pipeline.FrameBody
import Idealize.ShloMosaic.Lib.Pipeline.Value
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type}

local notation "𝕄" => MT nD τ sig (HIx 1) (Elt F) ℕ UU ℕ

/-- The staging cells' rounds sit in the middle component of the certificate's algebra. -/
abbrev EP : Emb UP (MT nD τ sig (HIx 1) (Elt F) ℕ UU ℕ) := (Emb.inl : Emb UP (UP × Counters)).trans embR
instance EP_landsIn : (EP (F := F)).LandsIn (upEmb : UEmb _ (MT nD τ sig (HIx 1) (Elt F) ℕ UU ℕ)) := by unfold EP embR; infer_instance

variable [FloatOps F]

abbrev adm : (p : Fin 1) → (pcfgs (F := F) p).Adm := fun p => (cfgs p).toPCfg_adm

variable (m : (ℓ : Loc nD τ sig) → Buf (Elt F) ℓ)

/-- The TensorCore's buffers when the scale region is entered: as launched. -/
abbrev Vm (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vm m c (Pipeline.arrRef spec0 w))

abbrev r0 : Rect S10000x128 := Rect.unit (s := S10000x128) ![0, 0] S10000x128.size inb_S10000x128_S10000x128_0_0

/-- What the body leaves in the output window's buffer: its one store, of the scaled input block. -/
def out1 (x0 : Vec F S10000x128 .f32) : Vec F S10000x128 .f32 :=
  View.canon [⟨r0, k0_pay1 (View.ld x0 r0)⟩]

theorem cover1 (p0 : Vec F S10000x128 .f32) (y : S10000x128.Idx) :
    ∃ pc ∈ ([⟨r0, p0⟩] : List (View.Piece (Elt F) S10000x128 .f32)), y ∈ pc.1.set :=
  View.cover_of_tiled [⟨r0, p0⟩] S10000x128.size (by rfl) y

set_option maxHeartbeats 1000000 in
theorem sound_kernel (c : Dev nD) (E : Set ℕ) (i : grid0.Coords) (arg1 : Memref sig .tc .vmem S10000x128 .f32) (harg1 : arg1.IsWhole) (arg2 : Memref sig .tc .vmem S10000x128 .f32) (harg2 : arg2.IsWhole)
    (x0 : Vec F S10000x128 .f32) (Kc : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ Kc ⟨⟩))
      ⊢ wp frame (wpE (defs₀ (F := F)) Variants.none c none) E (cc0__scale_body i arg1 harg1 arg2 harg2) Kc := by
  simp only [cc0__scale_body_eq_skeleton]; unfold cc0__scale_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover1 _)

/-! ## The scale region's proof data -/

/-- The pairs the TensorCore's waits may have recorded before the SparseCore call: those at level zero. -/
def rec0 (c : Dev nD) : Set (SemLoc sig × HIx 1) := {p | (K (F := F)).lev ((T c : Thread nD τ), p.1) p.2 ≤ 0}

/-- The proof data of the scale region on core `c`: the arrays as launched; after the body at point `t` the input's
    buffer at its block and the output's at the scaled block; nothing of the body's own between points; what the
    TensorCore owes the SparseCores (their start signals) owed throughout. -/
def dat0 (_ : Fin 1) (c : Dev nD) : Dat τ (Elt F) (HIx 1) ℕ UU ℕ cfg0 c where
  A w := Vm m c (Pipeline.arrRef spec0 w)
  after w t := match w with
    | ⟨0, _⟩ => iblk m c 0 t
    | ⟨1, _⟩ => out1 (iblk m c 0 t)
  Φ _ := Pipeline.scopedRest (Ix := HIx 1) (Name := ℕ) (U := UU) (Lvl := ℕ) (Val := Elt F) spec0 c
  q _ := fullShare
  owed _ := (K (F := F)).Otc c 0
  recorded _ := rec0 (F := F) c

theorem A_eq (c : Dev nD) (w : Fin cfg0.W) : (dat0 m 0 c).A w = Vm m c (Pipeline.arrRef spec0 w) := by
  dsimp only [dat0]
theorem after0_0 (c : Dev nD) (t : Fin cfg0.N) : (dat0 m 0 c).after 0 t = iblk m c 0 t := by dsimp only [dat0]
theorem after0_1 (c : Dev nD) (t : Fin cfg0.N) : (dat0 m 0 c).after 1 t = out1 (iblk m c 0 t) := by dsimp only [dat0]

/-- The input's current staging buffer holds its block at every point. -/
theorem before0_0 (c : Dev nD) (t : Fin cfg0.N) (d) : (dat0 m 0 c).before 0 t d = iblk m c 0 t :=
  ((dat0 m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dat0 m 0 c).Φ t.castSucc ∗ (dat0 m 0 c).owesAt none t.castSucc
    ∗ (∃ d, owns (c : Thread nD τ) (st0_0 t) fullShare ((dat0 m 0 c).before 0 t d))
    ∗ (∃ d, owns (c : Thread nD τ) (st0_1 t) fullShare ((dat0 m 0 c).before 1 t d)))

def bodyPost (c : Dev nD) (t : Fin cfg0.N) : sProp 𝕄 :=
  iprop((dat0 m 0 c).Φ t.succ ∗ (dat0 m 0 c).owesAt none t.succ
    ∗ owns (c : Thread nD τ) (st0_0 t) fullShare ((dat0 m 0 c).after 0 t)
    ∗ owns (c : Thread nD τ) (st0_1 t) fullShare ((dat0 m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dat0 m 0 c).Φ t.succ = (dat0 m 0 c).Φ t.castSucc from rfl,
    show (dat0 m 0 c).owesAt none t.succ = (dat0 m 0 c).owesAt none t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dat0 (F := F) m 0 c) (defs₀ (F := F)) Variants.none none Set.univ := fun t => by
  rw [bigSep_W0, bigSep_W0]
  exact sound_body m c t

/-- Before the call the TensorCore owes nothing at a kernel's own index. -/
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

/-- The region's waits on its staging cells sit below everything the TensorCore owes: its debts are the start
    signals, at the call's index. -/
theorem hwaits0 (c : Dev nD) :
    (levAts (K (F := F)).L (K (F := F)).lev : sProp 𝕄) ⊢ Pipeline.cellsWaits (Pipeline.pin (pcfgs (F := F)) adm) (dat0 m) none 0 c :=
  Pipeline.cellsWaits_intro (Pipeline.pin (pcfgs (F := F)) adm) (dat0 m) none 0 c fun w s t =>
    (K (F := F)).mayWait_none (thr := (T c : Thread nD τ)) _ (fun g => Otc_none c 0 g)

/-! ## What the region leaves in `main_v0`: the scaled table -/

theorem hz : (![0, 0] : Fin 2 → Nat) = fun _ => 0 := funext fun a => by fin_cases a <;> rfl

theorem pay_eq (x0 : Vec F S10000x128 .f32) : k0_pay1 x0 = mulf x0 (broadcast S10000x128 (Scalar.ofBits .f32 0x413504F3#32)) := rfl

/-- The two windows move together, one block of 10000 rows per point, and the points are the ten blocks. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 9 ∧ win0_1.index t (1 : Fin 2) = 0 :=
  (by decide +kernel : ∀ t : Fin grid0.N, _)

theorem idx_onto : ∀ (q0 : Fin 10), ∃ t : Fin cfg0.N, win0_1.index t = ![q0.val, 0] :=
  (by decide +kernel : ∀ (q0 : Fin 10), ∃ t : Fin grid0.N, win0_1.index t = ![q0.val, 0])

/-- What point `t` writes back is block `t` of the scaled table. -/
theorem flushed1_eq (c : Dev nD) (t : Fin cfg0.N) :
    (dat0 m 0 c).flushed 1 t = ((cfg0.win 1).blk t).view.read (Elt F) (Spec.scaled (F := F) (Vm m c main_arg1)) := by
  show (cfg0.win 1).cut (grid0.coords t) ((dat0 m 0 c).after 1 t) = _
  rw [after0_1]
  unfold out1
  rw [View.canon_unit_zero hz]
  simp only [View.ld_unit_zero (S := S10000x128) hz]
  rw [pay_eq]
  obtain ⟨e0, e1, e2, e3⟩ := idx_facts t
  funext j
  show FloatOps.mulf (Vm m c main_arg1 (((cfg0.win 0).blk t).view.emb j)) _ = FloatOps.mulf (Vm m c main_arg1 (((cfg0.win 1).blk t).view.emb j)) Spec.scaleC
  have h0 : ((cfg0.win 0).blk t).view.emb j = ((cfg0.win 1).blk t).view.emb j := by
    funext a; apply Fin.ext
    match a with
    | ⟨0, _⟩ => show win0_0.index t (0 : Fin 2) * 10000 + 1 * (j 0).val = win0_1.index t (0 : Fin 2) * 10000 + 1 * (j 0).val; omega
    | ⟨1, _⟩ => show win0_0.index t (1 : Fin 2) * 128 + 1 * (j 1).val = win0_1.index t (1 : Fin 2) * 128 + 1 * (j 1).val; omega
  rw [h0]
  rfl

theorem mem_blk1 (t : Fin cfg0.N) (i : S100000x128.Idx) :
    i ∈ ((cfg0.win 1).blk t).view.set ↔ ∀ a : Fin 2, win0_1.index t a * S10000x128.size a ≤ (i a).val ∧ (i a).val < win0_1.index t a * S10000x128.size a + S10000x128.size a := by
  show i ∈ ((View.whole main_v0).slice (win0_1.rect t)).set ↔ _
  rw [View.set_slice_whole, Rect.mem_set_unit]
  exact Iff.rfl

/-- The ten blocks of 10000 rows tile the table: row `r` is in block `r / 10000`. -/
theorem cover1_arr (i : S100000x128.Idx) : ∃ t : Fin cfg0.N, (cfg0.win 1).flush t = true ∧ i ∈ ((cfg0.win 1).blk t).view.set := by
  have hi0 : (i 0).val < 100000 := (i 0).isLt
  have hi1 : (i 1).val < 128 := (i 1).isLt
  obtain ⟨t, ht⟩ := idx_onto ⟨(i 0).val / 10000, by omega⟩
  have q0 : win0_1.index t (0 : Fin 2) = (i 0).val / 10000 := congrFun ht 0
  have q1 : win0_1.index t (1 : Fin 2) = 0 := congrFun ht 1
  refine ⟨t, flush0_1 t, ?_⟩
  rw [mem_blk1]
  intro a
  match a with
  | ⟨0, _⟩ => show win0_1.index t (0 : Fin 2) * 10000 ≤ (i 0).val ∧ (i 0).val < win0_1.index t (0 : Fin 2) * 10000 + 10000; omega
  | ⟨1, _⟩ => show win0_1.index t (1 : Fin 2) * 128 ≤ (i 1).val ∧ (i 1).val < win0_1.index t (1 : Fin 2) * 128 + 128; omega

/-- After the region `main_v0` holds the scaled table, -/
theorem final1 (c : Dev nD) : (dat0 m 0 c).arrAt 1 cfg0.N = Spec.scaled (F := F) (m ((c : Thread nD τ).loc main_arg1)) :=
  (dat0 m 0 c).arrAt_eq_of_cover 1 (Spec.scaled (F := F) (Vm m c main_arg1)) (fun t _ => flushed1_eq m c t) cover1_arr

/-- and the table itself is as it was. -/
theorem final0 (c : Dev nD) : (dat0 m 0 c).arrAt 0 cfg0.N = m ((c : Thread nD τ).loc main_arg1) :=
  ((dat0 m 0 c).arrAt_in 0 rfl _).trans (A_eq m c 0)

/-! ## The region as a segment of @main on the TensorCore -/

/-- What the TensorCore owes before the SparseCore call, with its recorded pairs at level zero. -/
abbrev owesTc (c : Dev nD) : sProp 𝕄 :=
  iprop(∃ W, ⌜(K (F := F)).WBelow (T c) W (8 * 0)⌝ ∗ owes (T c : Thread nD τ) ((K (F := F)).Otc c 0) W)

/-- The buffers the region does not touch. -/
abbrev restBufs (c : Dev nD) : sProp 𝕄 :=
  Pipeline.unscopedRest (Ix := HIx 1) (Name := ℕ) (U := UU) (Lvl := ℕ) spec0 c (Vm m c)

/-- What the region leaves: the table as it was, the scaled table in `main_v0`, the rest untouched, the same debts. -/
abbrev regPost (c : Dev nD) : sProp 𝕄 :=
  iprop((lutLoc c ↦{fullShare} m (lutLoc c)) ∗ (tabLoc c ↦{fullShare} Spec.scaled (F := F) (m (lutLoc c))) ∗ restBufs m c ∗ owesTc (F := F) c)

set_option backward.isDefEq.respectTransparency.types false in
def reg0 : Pipeline.RegionSeg (pcfgs (F := F)) adm (dat0 m) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := (body_obligation m c).loose
  hwaits c := hwaits0 m c
  pre c := iprop(unscopedBufs c (Vm m c) ∗ owesTc (F := F) c)
  post c := regPost m c
  X c := iprop(emp)
  Y c := iprop(emp)
  Z c := restBufs m c
  hentry c := by
    have hsplit := Pipeline.arrays_of_unscopedBufs (pcfgs (F := F)) adm (dat0 m) launch0.win launch0.arr_whole c
      ((dat0 m 0 c).share_full fun _ => rfl) (Vm m c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (show _ ≤ 0 from hW p (Finset.mem_coe.mp hp))
      iexact HO
    isplitr; · iempintro
    iexact Hr
  hin c := by
    rw [show (dat0 m 0 c).Φ 0 = Pipeline.scopedRest (Ix := HIx 1) (Name := ℕ) (U := UU) (Lvl := ℕ) (Val := Elt F) spec0 c from rfl]
    iintro ⟨-, -, Hr⟩
    iexact Hr
  hout c := by
    rw [show (dat0 m 0 c).Φ (Fin.last cfg0.N) = Pipeline.scopedRest (Ix := HIx 1) (Name := ℕ) (U := UU) (Lvl := ℕ) (Val := Elt F) spec0 c from rfl,
      Pipeline.ownSems0_none]
    iintro Hr
    isplitr; · iempintro
    isplitr; · iempintro
    iexact Hr
  hexit c := by
    rw [Pipeline.arrays_eq (Pipeline.pin (pcfgs (F := F)) adm) (dat0 m) 0 c launch0.arr_whole ((dat0 m 0 c).share_full fun _ => rfl), bigSep_W0]
    iintro ⟨⟨H0, H1⟩, HO, -, HZ⟩
    imodintro
    isplitl [H0]; · iapply (Entails.of_eq (congrArg (fun f => (lutLoc c ↦{fullShare} f : sProp 𝕄)) (final0 m c))); iexact H0
    isplitl [H1]; · iapply (Entails.of_eq (congrArg (fun f => (tabLoc c ↦{fullShare} f : sProp 𝕄)) (final1 m c))); iexact H1
    isplitl [HZ]; · iexact HZ
    unfold Pipeline.Dat.owesAt Pipeline.owesWithin
    icases HO with ⟨%W, %hW, HO⟩; iexists W; isplitr
    · ipureintro; intro p hp
      rcases hW (Finset.mem_coe.mpr hp) with h | ⟨w, s, rfl⟩
      · exact h
      · exact le_of_eq (SparseCore.Cfg.lev_none _ _)
    iexact HO

/-- The scale region on device `d`'s TensorCore under the program's own body table: from the region boundary, the
    arrays as launched, the TensorCore's debts, and the staging cells' rounds as the launch funded them, to the boundary
    and what the region leaves. -/
theorem wp_scale₀ [∀ e, Nonempty (Elt F e)] (d : Dev nD) (Φ : PUnit → sProp 𝕄) :
    iprop(levAts (K (F := F)).L (K (F := F)).lev ∗ boundary (T d : Thread nD τ) ∗ unscopedBufs d (Vm m d) ∗ owesTc (F := F) d
        ∗ Pipeline.cellsGhost (Pipeline.pin (pcfgs (F := F)) adm) EP 0 d ∗ Pipeline.toksInit (Pipeline.pin (pcfgs (F := F)) adm) EP 0 d
        ∗ (iprop(boundary (T d : Thread nD τ) ∗ regPost m d) -∗ Φ ⟨⟩))
      ⊢ wp frame (wpE (D (F := F)) 𝒱 (T d) none) Set.univ
          (Prog.op (.customCall (Pipeline.entry (0 : Fin 1)) ()) .ret) Φ := by
  iintro ⟨#Hlev, Hb, Hub, HO, Hg, Ht, Hk⟩
  iapply (Pipeline.RegionSeg.wp (pcfgs (F := F)) adm (dat0 m) none cellOf_inj EP defs₀ 𝒱₀ (K (F := F)).L (K (F := F)).lev (reg0 m) d none
    (fun _ h => nomatch h) (fun _ => .ret ⟨⟩) Φ)
  isplitl [Hk]
  · iintro H
    rw [wp_ret]
    imodintro
    iapply Hk; iexact H
  isplitl [Hb]; · iexact Hb
  isplitl [Hub HO]
  · iapply (Entails.of_eq (show (iprop(unscopedBufs d (Vm m d) ∗ owesTc (F := F) d) : sProp 𝕄) = (reg0 m).pre d from rfl))
    isplitl [Hub]; · iexact Hub
    iexact HO
  isplitr; · iexact Hlev
  isplitl [Hg]; · iexact Hg
  iexact Ht

/-- The same as @main's first line states it, under the launch's extended body table. -/
theorem wp_scale [∀ e, Nonempty (Elt F e)] (d : Dev nD) (Φ : PUnit → sProp 𝕄) :
    iprop(levAts (K (F := F)).L (K (F := F)).lev ∗ boundary (T d : Thread nD τ) ∗ unscopedBufs d (Vm m d) ∗ owesTc (F := F) d
        ∗ Pipeline.cellsGhost (Pipeline.pin (pcfgs (F := F)) adm) EP 0 d ∗ Pipeline.toksInit (Pipeline.pin (pcfgs (F := F)) adm) EP 0 d
        ∗ (iprop(boundary (T d : Thread nD τ) ∗ regPost m d) -∗ Φ ⟨⟩))
      ⊢ wp frame (wpE ((K (F := F)).defs (D (F := F))) 𝒱 (T d) none) Set.univ
          (Prog.lift (.customCall (SparseCore.inner (Pipeline.entry 0)) ())) Φ :=
  (wp_scale₀ m d Φ).trans ((K (F := F)).wp_liftProg (D (F := F)) 𝒱 (T d) Set.univ none
    (Prog.op (.customCall (Pipeline.entry (0 : Fin 1)) ()) .ret) Φ)

end Cert.Proof.KB

end
-- ==== Proof.KBLaunchValue.lean ====
/-
  Reshapes read at an index, and the result as the specification.

  A reshape keeps the row-major order of the elements. The tokens `[4096, 200]` read as `[32, 200, 128]` put token
  `(p, q)` at `(a, b, c)` with `25600 a + 128 b + c = 200 p + q`; the output `[819200, 128]` read as `[4096, 200, 128]`
  puts row `200 a + b` at `(a, b, ·)`. Row `r` of the output is the scaled-table row that word `r` of the reshaped tokens
  names, and word `r = 200 a + b` of the reshaped tokens is token `(a, b)`: so entry `(a, b, k)` of the result is the scaled
  table at (row `tokens[a, b]`, `k`), which is the specification `G`.
-/
import proofs.«217237_g17617955848579_cont_7to1_1664_16_alg».proof.Proof.KBCommon
import Idealize.ShloMosaic.Lib.Pipeline.Value

noncomputable section

namespace Cert.Proof.KB

open Cert.Kernel
open Idealize.ShloMosaic
open Idealize.ShloMosaic.ValueIdx

variable {F : FTy → Type} [FloatOps F]

/-- A reshape only re-addresses: every word of the reshaped tokens is a word of the tokens. -/
theorem reshaped_word (tok : IVec S4096x200 32) (h : S4096x200.ShapeCasts S32x200x128) (j : S32x200x128.Idx) :
    shapeCast S32x200x128 tok h j = tok (Shape.reshapeEquiv h j) := rfl

theorem reshaped_lt (tok : IVec S4096x200 32) (h : S4096x200.ShapeCasts S32x200x128) (hpre : ∀ k, (tok k).toNat < 100000)
    (j : S32x200x128.Idx) : (shapeCast S32x200x128 tok h j).toNat < 100000 := hpre _

/-- Word `(a, b, c)` of the reshaped tokens, where `a · 25600 + b · 128 + c = p · 200 + q`, is token `(p, q)`. -/
theorem reshaped_at (tok : IVec S4096x200 32) (h : S4096x200.ShapeCasts S32x200x128)
    (a : Fin 32) (b : Fin 200) (c : Fin 128) (p : Fin 4096) (q : Fin 200) (e : a.val * 25600 + b.val * 128 + c.val = p.val * 200 + q.val) :
    shapeCast S32x200x128 tok h (ix3 a b c) = tok (ix2 p q) := by
  refine shapeCast_apply tok h (ix3 a b c) (ix2 p q) ?_
  rw [Shape.rowMajor_val_two, Shape.rowMajor_val_three]
  show p.val * 200 + q.val = (a.val * 200 + b.val) * 128 + c.val
  omega

/-- The result: the rows the tiles wrote, read as `[4096, 200, 128]`, are the specification's. -/
theorem res_eq (tok : IVec S4096x200 32) (lut : FVec F S100000x128 .f32)
    (h1 : S4096x200.ShapeCasts S32x200x128) (h2 : S819200x128.ShapeCasts S4096x200x128) :
    shapeCast S4096x200x128 (outF (shapeCast S32x200x128 tok h1) (Spec.scaled (F := F) lut)) h2 = Spec.G (F := F) tok lut := by
  funext i
  have hi0 : (i 0).val < 4096 := (i 0).isLt
  have hi1 : (i 1).val < 200 := (i 1).isLt
  have hi2 : (i 2).val < 128 := (i 2).isLt
  let r : Fin 819200 := ⟨(i 0).val * 200 + (i 1).val, by omega⟩
  let k2 : Fin 128 := ⟨(i 2).val, hi2⟩
  have hk : shapeCast S4096x200x128 (outF (shapeCast S32x200x128 tok h1) (Spec.scaled (F := F) lut)) h2 i
      = outF (shapeCast S32x200x128 tok h1) (Spec.scaled (F := F) lut) (ix2 r k2) := by
    refine shapeCast_apply _ h2 i (ix2 r k2) ?_
    rw [Shape.rowMajor_val_two, Shape.rowMajor_val_three]
    show ((i 0).val * 200 + (i 1).val) * 128 + (i 2).val = ((i 0).val * 200 + (i 1).val) * 128 + (i 2).val
    rfl
  rw [hk]
  unfold outF
  have hw : shapeCast S32x200x128 tok h1 (ix3 (⟨r.val / 25600, by have := r.isLt; omega⟩ : Fin 32) (⟨r.val % 25600 / 128, by omega⟩ : Fin 200) (⟨r.val % 128, by omega⟩ : Fin 128))
      = tok (ix2 (⟨(i 0).val, hi0⟩ : Fin 4096) (⟨(i 1).val, hi1⟩ : Fin 200)) :=
    reshaped_at tok h1 _ _ _ _ _ (by show r.val / 25600 * 25600 + r.val % 25600 / 128 * 128 + r.val % 128 = (i 0).val * 200 + (i 1).val; show ((i 0).val * 200 + (i 1).val) / 25600 * 25600 + ((i 0).val * 200 + (i 1).val) % 25600 / 128 * 128 + ((i 0).val * 200 + (i 1).val) % 128 = (i 0).val * 200 + (i 1).val; omega)
  show Spec.scaled (F := F) lut (ix2 (Spec.rowOf (shapeCast S32x200x128 tok h1 (ix3 (⟨r.val / 25600, _⟩ : Fin 32) (⟨r.val % 25600 / 128, _⟩ : Fin 200) (⟨r.val % 128, _⟩ : Fin 128)))) k2) = _
  rw [hw]
  rfl

end Cert.Proof.KB

end
-- ==== Proof.KBLaunch.lean ====
/-
  The launch side of the gather program.

  @main on the TensorCore is four lines. The scale region leaves `main_v0 = lut · c`. A reshape reads the tokens as
  32 rows of 200 × 128 words (`main_v1`). The SparseCore call hands each of the two SparseCores its sixteen tiles'
  token rows and output blocks and half of the scaled table; a SparseCore deals each tile its row, its block and a
  sixteenth of that half, and gathers them back with the blocks filled, so the call returns `main_v2` at `outF`: row `r`
  is the scaled-table row that word `r` of the reshaped tokens names. A last reshape reads `main_v2` as
  `[4096, 200, 128]`: the result, which is the specification's `G` of the arguments. The arguments are never written.
  The launch funds two families of rounds: the handshakes between the TensorCore, the sequencers and the tiles, and
  the scale region's staging cells.
-/
import proofs.«217237_g17617955848579_cont_7to1_1664_16_alg».proof.Proof.KBLaunchPay
import proofs.«217237_g17617955848579_cont_7to1_1664_16_alg».proof.Proof.KBLaunchRegion
import proofs.«217237_g17617955848579_cont_7to1_1664_16_alg».proof.Proof.KBLaunchValue

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)

variable {F : FTy → Type}

local notation "𝕄" => MT nD τ sig (HIx 1) (Elt F) ℕ UU ℕ

/-! ## Rows and blocks: the 32 tiles' parts, grouped by SparseCore -/

/-- Tile numbers: SparseCore `c`, subcore `i` ↦ `2 i + c`, a bijection onto the 32 tiles. -/
def widE : Fin 2 × Fin 16 ≃ Fin 32 where
  toFun p := wid p.1 p.2
  invFun w := (⟨w.val % 2, by omega⟩, ⟨w.val / 2, by omega⟩)
  left_inv := by
    rintro ⟨c, s⟩
    refine Prod.ext (Fin.ext ?_) (Fin.ext ?_)
    · show (2 * s.val + c.val) % 2 = c.val; omega
    · show (2 * s.val + c.val) / 2 = s.val; omega
  right_inv := by
    intro w
    refine Fin.ext ?_
    show 2 * (w.val / 2) + w.val % 2 = w.val; omega

theorem rows_regroup (Φ : Fin 32 → sProp 𝕄) :
    bigSep Finset.univ Φ = bigSep Finset.univ fun c : Fin 2 => bigSep Finset.univ fun i : Fin 16 => Φ (wid c i) := by
  rw [bigSep_univ_equiv widE Φ, bigSep_univ_prod]; rfl

theorem iRowSet_eq (w : Fin 32) : iRowSet w = (irow w).set := by
  show ((View.whole (main_v1_scv : Ref sig .scVector)).slice (irow w)).set = _
  rw [View.set_slice]; exact Finset.map_refl
theorem oRowSet_eq (w : Fin 32) : oRowSet w = (orow w).set := by
  show ((View.whole (main_v2_scv : Ref sig .scVector)).slice (orow w)).set = _
  rw [View.set_slice]; exact Finset.map_refl
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem irows_cover : (Finset.univ : Finset (Fin 32)).biUnion iRowSet = Finset.univ :=
  (Finset.biUnion_congr rfl fun i _ => iRowSet_eq i).trans (Rect.biUnion_part idiv)
theorem orows_cover : (Finset.univ : Finset (Fin 32)).biUnion oRowSet = Finset.univ :=
  (Finset.biUnion_congr rfl fun i _ => oRowSet_eq i).trans (Rect.biUnion_part odiv)

/-- The reshaped tokens whole are their 32 rows; the output whole is its 32 blocks. -/
theorem idx_rows (d : Dev nD) (f : Buf (Elt F) (idxLoc d)) :
    (idxLoc d ↦{fullShare} f : sProp 𝕄) = bigSep Finset.univ fun w : Fin 32 => idxLoc d ↦[iRowSet w]{fullShare} f := by
  rw [← pointsTo_biUnion Finset.univ (ℓ := idxLoc d) iRowSet irows_disjoint, irows_cover]; try rfl
theorem out_rows (d : Dev nD) (f : Buf (Elt F) (outLoc d)) :
    (outLoc d ↦{fullShare} f : sProp 𝕄) = bigSep Finset.univ fun w : Fin 32 => outLoc d ↦[oRowSet w]{fullShare} f := by
  rw [← pointsTo_biUnion Finset.univ (ℓ := outLoc d) oRowSet orows_disjoint, orows_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]
variable (m : (ℓ : Loc nD τ sig) → Buf (Elt F) ℓ)

/-- The three arrays whole, the output at `f`, are what the two SparseCores are handed (`f` as launched) and hand
    back (`f` the filled output). -/
theorem cores_eq (d : Dev nD) (f : Buf (Elt F) (outLoc d)) :
    (iprop((idxLoc d ↦{fullShare} idxF m d) ∗ (tabLoc d ↦{fullShare} tabF m d) ∗ (outLoc d ↦{fullShare} f)) : sProp 𝕄)
      = bigSep Finset.univ fun c : Fin 2 => iprop((bigSep Finset.univ fun i : Fin 16 => idxRow m d (wid c i)) ∗ tabSh m d (coreQ c)
          ∗ bigSep Finset.univ fun i : Fin 16 => outRow d (wid c i) f) := by
  rw [idx_rows, out_rows, pointsTo_leaves (ℓ := tabLoc d) Finset.univ (tabF m d) 1 fullShare,
    rows_regroup (fun w => (idxLoc d ↦[iRowSet w]{fullShare} idxF m d : sProp 𝕄)),
    rows_regroup (fun w => (outLoc d ↦[oRowSet w]{fullShare} f : sProp 𝕄)), bigSep_sep', bigSep_sep']
  rfl

theorem st_eq (d : Dev nD) : (bigSep Finset.univ fun c : Fin ((K (F := F)).nCore 0) => (P m).st 0 d c)
    = iprop((idxLoc d ↦{fullShare} idxF m d) ∗ (tabLoc d ↦{fullShare} tabF m d) ∗ (outLoc d ↦{fullShare} m (outLoc d))) := by
  rw [cores_eq m d (m (outLoc d))]
  exact bigSep_cores (F := F) (fun c => stA m d c)

theorem dn_eq (d : Dev nD) : (bigSep Finset.univ fun c : Fin ((K (F := F)).nCore 0) => (P m).dn 0 d c)
    = iprop((idxLoc d ↦{fullShare} idxF m d) ∗ (tabLoc d ↦{fullShare} tabF m d) ∗ (outLoc d ↦{fullShare} resF m d)) := by
  rw [cores_eq m d (resF m d)]
  exact bigSep_cores (F := F) (fun c => dnA m d c)

/-- A SparseCore's operands split into its sixteen tiles' and gather from theirs: rows and blocks one each, the
    table's half by halving it four more times. -/
theorem vecSplit : (K (F := F)).VecSplit' (P m) 0 := by
  intro d c
  show stA m d (Fin.cast nCore_zero c) ⊢ |={Set.univ}=> iprop(
      (bigSep Finset.univ fun i : Fin ((K (F := F)).nSub 0) => goA m d (Fin.cast nCore_zero c) (Fin.cast nSub_zero i))
      ∗ ((bigSep Finset.univ fun i : Fin ((K (F := F)).nSub 0) => tdA m d (Fin.cast nCore_zero c) (Fin.cast nSub_zero i))
          -∗ dnA m d (Fin.cast nCore_zero c)))
  generalize (Fin.cast nCore_zero c : Fin 2) = c'
  rw [bigSep_tasks (F := F) (fun i => goA m d c' i), bigSep_tasks (F := F) (fun i => tdA m d c' i)]
  unfold stA dnA goA tdA
  rw [bigSep_sep', bigSep_sep', bigSep_sep', bigSep_sep']
  unfold tabSh
  rw [pointsTo_leaves (ℓ := tabLoc d) Finset.univ (tabF m d) 4 (coreQ c')]
  iintro H; imodintro
  isplitl [H]; · iexact H
  iintro H; iexact H

/-! ## The launch element of the certificate's ghost state -/

/-- The handshakes' rounds, the scale region's staging cells' rounds, no counter yet. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof starts from beside what the launch deals the TensorCore: the region's staging cells' rounds. -/
abbrev Gd (d : Dev nD) : sProp 𝕄 :=
  iprop(Pipeline.cellsGhost (Pipeline.pin (pcfgs (F := F)) adm) EP 0 d ∗ Pipeline.toksInit (Pipeline.pin (pcfgs (F := F)) adm) EP 0 d)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (nD := nD) (τ := τ) cfgs (EP (F := F)) cellOf_inj) $$ HP with ⟨Hg, Ht⟩
  imodintro
  isplitl [HH]; · iexact HH
  isplitl [Hg Ht]
  · rw [bigSep_sep']
    isplitl [Hg]
    · iapply (Entails.of_eq (show (bigSep Finset.univ fun c : Dev nD => bigSep Finset.univ fun p : Fin 1 => Pipeline.cellsGhost (nD := nD) (τ := τ) cfgs (EP (F := F)) p c)
          = bigSep Finset.univ fun c : Dev nD => Pipeline.cellsGhost (Pipeline.pin (pcfgs (F := F)) adm) (EP (F := F)) 0 c from
        bigSep_congr fun c _ => bigSep_univ_of_subsingleton (0 : Fin 1)))
      iexact Hg
    · iapply (Entails.of_eq (show (bigSep Finset.univ fun c : Dev nD => bigSep Finset.univ fun p : Fin 1 => Pipeline.toksInit (nD := nD) (τ := τ) cfgs (EP (F := F)) p c)
          = bigSep Finset.univ fun c : Dev nD => Pipeline.toksInit (Pipeline.pin (pcfgs (F := F)) adm) (EP (F := F)) 0 c from
        bigSep_congr fun c _ => bigSep_univ_of_subsingleton (0 : Fin 1)))
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- Before the call the TensorCore's handshake state is its debts (the start signals, its recorded pairs at level zero)
    beside the rest. -/
theorem tcSt_zero (d : Dev nD) : ∃ R : sProp 𝕄, (K (F := F)).tcSt EH d 0 = iprop(owesTc (F := F) d ∗ R) := by
  unfold SparseCore.Cfg.tcSt
  exact ⟨_, rfl⟩

/-! ## @main on the TensorCore -/

variable (ρ : Dev nD → PrngReg)

abbrev a0' : DevRef τ sig := Proc.devRef .tc (main_arg0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The two reshapes of @main. -/
abbrev op1 : HloOp τ sig (Elt F) := StableHlo.reshape main_arg0 main_v1 rfl shapeCasts_S4096x200_S32x200x128
abbrev op2 : HloOp τ sig (Elt F) := StableHlo.reshape main_v2 main_v3 rfl shapeCasts_S819200x128_S4096x200x128

theorem held_pair (d : Dev nD) (a b : DevRef τ sig) (hab : a ≠ b) (W : Valuation τ sig (Elt F)) :
    (held (T d) {a, b} W : sProp 𝕄) = iprop((((d, a) : Loc nD τ sig) ↦{fullShare} W a) ∗ ((d, b) : Loc nD τ sig) ↦{fullShare} W b) := by
  unfold held
  rw [SparseCore.bigSep_insert' (by rw [Finset.mem_singleton]; exact hab), bigSep_singleton]

/-- The launch valuation; and, after the call, with the output at what the tiles left. -/
def W1 (d : Dev nD) : Valuation τ sig (Elt F) := fun b => m (d, b)
def W2 (d : Dev nD) : Valuation τ sig (Elt F) := Function.update (W1 m d) v2' (resF m d)

theorem op1_a0 (d : Dev nD) : (op1 (F := F)).result (W1 m d) a0' = m (tokLoc d) :=
  StableHlo.reshape_result_ne' _ _ _ _ (W1 m d) (r := main_arg0) (by decide)
theorem op1_v1 (d : Dev nD) : (op1 (F := F)).result (W1 m d) v1' = idxF m d :=
  StableHlo.reshape_result' _ _ _ _ (W1 m d)

/-- The result array: the output's rows read as `[4096, 200, 128]`. -/
def finF (d : Dev nD) : FVec F S4096x200x128 .f32 := shapeCast S4096x200x128 (resF m d) shapeCasts_S819200x128_S4096x200x128

theorem W2_v2 (d : Dev nD) : W2 m d v2' = resF m d := Function.update_self _ _ _
theorem W2_v3 (d : Dev nD) : W2 m d v3' = m (resLoc d) := Function.update_of_ne (show v3' ≠ v2' by decide) _ _
theorem op2_v2 (d : Dev nD) : (op2 (F := F)).result (W2 m d) v2' = resF m d :=
  (StableHlo.reshape_result_ne' _ _ _ _ (W2 m d) (r := main_v2) (by decide)).trans (W2_v2 m d)
theorem op2_v3 (d : Dev nD) : (op2 (F := F)).result (W2 m d) v3' = finF m d := by
  rw [StableHlo.reshape_result' _ _ _ _ (W2 m d)]
  show (fun i => shapeCast S4096x200x128 (W2 m d v2') shapeCasts_S819200x128_S4096x200x128 i) = _
  rw [W2_v2]; rfl

/-- What @main leaves the claim: the arguments as launched, the result at the reshaped output. -/
abbrev FIN (d : Dev nD) : sProp 𝕄 :=
  iprop((tokLoc d ↦{fullShare} m (tokLoc d)) ∗ (lutLoc d ↦{fullShare} m (lutLoc d)) ∗ (resLoc d ↦{fullShare} finF m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_zero (F := F) d
  rw [hR]
  unfold SparseCore.Cfg.tcRes
  simp only [main, wp_bind, wp_pure]
  iintro ⟨#Hctx, ⟨HO, HR⟩, ⟨Hb, Hub, -, -⟩, ⟨Hg, Ht⟩⟩
  ihave #Hlev := (SparseCore.Cfg.ctx_levAts κ) $$ Hctx
  -- the scale region
  iapply (wp_scale m d _)
  isplitr; · iexact Hlev
  isplitl [Hb]; · iexact Hb
  isplitl [Hub]; · iexact Hub
  isplitl [HO]; · iexact HO
  isplitl [Hg]; · iexact Hg
  isplitl [Ht]; · iexact Ht
  iintro ⟨Hb, Hlut, Htab, Hrest, HO⟩
  ihave Hrest' := (Entails.of_eq (unscopedRest0_eq (Ix := HIx 1) (Name := ℕ) (U := UU) (Lvl := ℕ) d (Vm m d))) $$ Hrest
  icases Hrest' with ⟨Htok, Hv1, Hv2, Hv3⟩
  -- the tokens reshaped to one row per tile
  iapply (wp_hlo_within 𝒱 (SparseCore.T d) none Set.univ (op := op1 (F := F)) (S := {a0', v1'}) (fun _ h => h) (V := W1 m d)) $$ [Hb Htok Hv1]
  · isplitl [Hb]; · iexact Hb
    rw [held_pair d a0' v1' (by decide)]
    isplitl [Htok]; · iexact Htok
    iexact Hv1
  iintro ⟨Hb, Hheld⟩
  ihave Hh := (Entails.of_eq (held_pair (F := F) d a0' v1' (by decide) _)) $$ Hheld
  rw [op1_a0, op1_v1]
  icases Hh with ⟨Htok, Hidx⟩
  rw [wp_ret]; imodintro
  -- the call: the reshaped tokens, the scaled table and the output to the two SparseCores and back
  iapply ((K (F := F)).wp_run (D (F := F)) 𝒱 (EH := EH) (P := P m) κ d 0) $$ [HO HR Hidx Htab Hv2 Hb Hlut Htok Hv3]
  isplitr; · iexact Hctx
  isplitl [HO HR]
  · iapply (Entails.of_eq hR.symm)
    isplitl [HO]; · iexact HO
    iexact HR
  isplitl [Hidx Htab Hv2]
  · rw [st_eq]
    isplitl [Hidx]; · iexact Hidx
    isplitl [Htab]; · iexact Htab
    iexact Hv2
  iintro ⟨Hst, Hdn⟩
  ihave Hdn' := (Entails.of_eq (dn_eq m d)) $$ Hdn
  icases Hdn' with ⟨-, -, Hres⟩
  -- the output's rows read as the result
  iapply (wp_hlo_within 𝒱 (SparseCore.T d) none Set.univ (op := op2 (F := F)) (S := {v2', v3'}) (fun _ h => h) (V := W2 m d)) $$ [Hb Hres Hv3]
  · isplitl [Hb]; · iexact Hb
    rw [held_pair d v2' v3' (by decide), W2_v2, W2_v3]
    isplitl [Hres]; · iexact Hres
    iexact Hv3
  iintro ⟨Hb, Hheld⟩
  ihave Hh := (Entails.of_eq (held_pair (F := F) d v2' v3' (by decide) _)) $$ Hheld
  rw [op2_v2, op2_v3]
  icases Hh with ⟨-, Hfin⟩
  rw [wp_ret]; imodintro; imodintro
  isplitl [Hst]; · iexact Hst
  isplitl [Htok]; · iexact Htok
  isplitl [Hlut]; · iexact Hlut
  iexact Hfin

/-! ## The final memory, read; the program's run -/

/-- The result array is the specification's function of the arguments. -/
theorem finF_eq (d : Dev nD) : finF m d = Spec.G (F := F) (m (tokLoc d)) (m (lutLoc d)) := by
  unfold finF resF idxF tabF
  exact res_eq (F := F) (m (tokLoc d)) (m (lutLoc d)) _ _

def fq (d : Dev nD) (s' : Phys nD τ sig (Elt F)) : Prop :=
  s'.mem.mem (resLoc d) = finF m d ∧ s'.mem.mem (tokLoc d) = m (tokLoc d) ∧ s'.mem.mem (lutLoc d) = m (lutLoc d)

set_option maxRecDepth 16384 in
theorem hfin (d : Dev nD) (s' : Phys nD τ sig (Elt F)) : iprop(FIN m d ∗ SI s') ⊢ (⌜fq m d s'⌝ : sProp 𝕄) := by
  iintro ⟨⟨Ht, Hl, Hr⟩, HSI⟩
  ihave H := (persistent_entails_right (SI_pointsTo_agree (st := s') (ℓ := tokLoc d) (I := Finset.univ) (q := fullShare) (f := m (tokLoc d)))) $$ [HSI Ht]
  · isplitl [HSI] <;> iassumption
  icases H with ⟨%h1, HSI, -⟩
  ihave H := (persistent_entails_right (SI_pointsTo_agree (st := s') (ℓ := lutLoc d) (I := Finset.univ) (q := fullShare) (f := m (lutLoc d)))) $$ [HSI Hl]
  · isplitl [HSI] <;> iassumption
  icases H with ⟨%h2, HSI, -⟩
  ihave H := (SI_pointsTo_agree (st := s') (ℓ := resLoc d) (I := Finset.univ) (q := fullShare) (f := finF m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- The run's post: on every device the result is the specification's function of the arguments, and the arguments
    are as launched. -/
def QC : PUnit × MemSt nD τ sig (Elt F) → Prop := fun r => ∀ c : Dev nD,
  r.2.mem ((c.tc : Thread nD τ).loc main_v3) = Spec.G (F := F) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)

theorem hQ (s' : Phys nD τ sig (Elt F)) (h : ∀ d, fq m d s') : QC m (⟨⟩, s'.mem) :=
  fun c => ⟨(h c).1.trans (finF_eq m c), (h c).2.1, (h c).2.2⟩

/-- The whole program's run, given the tile's task: every weakly fair execution of the TensorCore's @main beside the
    SparseCores' threads terminates, nothing faulting, the result the specification's and the arguments unchanged. -/
theorem run_main_of [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (hQ m)

end Cert.Proof.KB

end
-- ==== Proof.KBAssemble.lean ====
/-
  The kernel program's run under the certificate's precondition.

  The precondition bounds every token by 0 and 99999 as a signed word, so every token read unsigned names a row of the
  table: that is what the run asks of the launch memory. The run's post names the result as the specification's
  function of the arguments and keeps the arguments, so a frame is this run with the value dropped.
-/
import proofs.«217237_g17617955848579_cont_7to1_1664_16_alg».proof.Proof.KBLaunch
import proofs.«217237_g17617955848579_cont_7to1_1664_16_alg».proof.Proof.PreRange
import proofs.«217237_g17617955848579_cont_7to1_1664_16_alg».proof.Proof.Gen.Pre_input_domain

noncomputable section

namespace Cert.Proof.KB

open Cert.Kernel Cert.Kernel.Gen
open Idealize.ShloMosaic Idealize.SL.Sem

variable {F : FTy → Type} [FloatOps F]

/-- The precondition, all ones on every device, gives what the run asks of the launch memory. -/
theorem ok_of_fn (m : (ℓ : Loc nD τ sig) → Buf (Elt F) ℓ)
    (h : ∀ c : Dev nD, Cert.Pre_input_domain.fn (F := F)
      (m ((c.tc : Thread nD τ).loc main_arg0)) (m ((c.tc : Thread nD τ).loc main_arg1)) = fun _ => 1#1) : PreOK m :=
  fun d j => Cert.Proof.Ref.tok_lt _ _ (h d) j

/-- The run under the precondition, given the tile's task. -/
theorem run_of_pre [∀ e, Nonempty (Elt F e)] (m : (ℓ : Loc nD τ sig) → Buf (Elt F) ℓ) (ρ : Dev nD → PrngReg)
    (htile : PreOK m → (K (F := F)).TileObl (D (F := F)) 𝒱 (P m) v₀ 0)
    (h : ∀ c : Dev nD, Cert.Pre_input_domain.fn (F := F)
      (m ((c.tc : Thread nD τ).loc main_arg0)) (m ((c.tc : Thread nD τ).loc main_arg1)) = fun _ => 1#1) :
    θ_run (Cert.Kernel.defs (F := F)) (Cert.Kernel.threads (F := F)) ⟨m, fun _ => 0, ρ⟩ (QC m) :=
  run_main_of m ρ (htile (ok_of_fn m h))

end Cert.Proof.KB

end
-- ==== Proof.KBTileDefs.lean ====
/-
  One tile of the gather: its thread, its pieces of the arrays, and what each piece holds.

  Tile `L = (c, s)` has number `wid = 2 s + c`.  It copies row `wid` of the reshaped tokens into its word scratch (200 lists
  of 128 words), and for chunk `j < 200` gathers the table rows list `j` names into one of four row slots and copies the
  slot to rows `[25600 · wid + 128 j, 25600 · wid + 128 j + 128)` of the output.  Everything is held piece by piece: list
  `j` of the word scratch (`rowM j`), slot `b` of the row scratch (`slotM b`), window `j` of the tile's output block
  (`winM L j`).  Chunk `j` of the tile is `chunkVal`: entry `(x, k)` is the table at `(row of word (wid, j, x), k)`.
-/
import proofs.«217237_g17617955848579_cont_7to1_1664_16_alg».proof.Proof.KBCommon

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.ShloMosaic.ValueIdx

variable {F : FTy → Type}

abbrev cV (L : grid1.Coords) : Fin τ.nSC := (L 0).castLE hcore1
abbrev jV (L : grid1.Coords) : Fin τ.nSub := (L 1).castLE hsub1
/-- The tile's thread. -/
abbrev thr (d : Dev nD) (L : grid1.Coords) : Thread nD τ := V d (cV L) (jV L)

theorem L0_lt (L : grid1.Coords) : (L 0).val < 2 := (L 0).isLt
theorem L1_lt (L : grid1.Coords) : (L 1).val < 16 := (L 1).isLt

/-- The tile's number. -/
def widL (L : grid1.Coords) : Fin 32 := ⟨2 * (L 1).val + (L 0).val, by have := L0_lt L; have := L1_lt L; omega⟩
/-- The first output row of the tile. -/
def base (L : grid1.Coords) : ℕ := 25600 * (widL L).val

theorem base_eq (L : grid1.Coords) : base L = 51200 * (L 1).val + 25600 * (L 0).val := by
  show 25600 * (2 * (L 1).val + (L 0).val) = _
  omega

/-- Row `wid` of the reshaped tokens, squeezed, as the tile slices it. -/
abbrev iRowK (L : grid1.Coords) : Memref sig .scVector .hbm S200x128 .i32 :=
  ((iV).slice (Rect.unit (s := S32x200x128) (k1_off1 L) S1x200x128.size (k1_off1_inb L)) (fun _ => rfl)).squeeze S200x128 squeezes_S1x200x128_S200x128
/-- The whole table as the tile slices it. -/
abbrev tAll : Memref sig .scVector .hbm S100000x128 .f32 :=
  (tV).slice (Rect.unit (s := S100000x128) ![0, 0] S100000x128.size inb_S100000x128_S100000x128_0_0) (fun _ => rfl)

theorem rowM_inb (j : ℕ) : ∀ a, (![min j 199, 0] : Fin 2 → Nat) a + S1x128.size a ≤ S200x128.size a := by
  intro a; fin_cases a <;> simp <;> omega
theorem slotM_inb (b : ℕ) : ∀ a, (![min b 3, 0, 0] : Fin 3 → Nat) a + S1x128x128.size a ≤ S4x128x128.size a := by
  intro a; fin_cases a <;> simp <;> omega
theorem winM_inb (L : grid1.Coords) (j : ℕ) : ∀ a, (![base L + 128 * min j 199, 0] : Fin 2 → Nat) a + S128x128.size a ≤ S819200x128.size a := by
  have h := (widL L).isLt
  intro a; fin_cases a <;> simp [base] <;> omega

/-- List `j` of the word scratch (clamped to the last list, so that it is defined for every number). -/
abbrev rowM (j : ℕ) : Memref sig .scVector .vmem S128 .i32 :=
  ((sI).slice (Rect.unit (s := S200x128) ![min j 199, 0] S1x128.size (rowM_inb j)) (fun _ => rfl)).squeeze S128 squeezes_S1x128_S128
/-- Slot `b` of the row scratch. -/
abbrev slotM (b : ℕ) : Memref sig .scVector .vmem S128x128 .f32 :=
  ((sB).slice (Rect.unit (s := S4x128x128) ![min b 3, 0, 0] S1x128x128.size (slotM_inb b)) (fun _ => rfl)).squeeze S128x128 squeezes_S1x128x128_S128x128
/-- Window `j` of the tile's output block. -/
abbrev winM (L : grid1.Coords) (j : ℕ) : Memref sig .scVector .hbm S128x128 .f32 :=
  (oV).slice (Rect.unit (s := S819200x128) ![base L + 128 * min j 199, 0] S128x128.size (winM_inb L j)) (fun _ => rfl)

/-- Two spellings of one offset give one rectangle, hence one slice. -/
theorem slice_unit_congr {κ : Kind} {sp : Space} {s : Shape} {e : EltTy} (M : Memref sig κ sp s e) {off off' : Fin s.rank → ℕ} {sz : Fin s.rank → ℕ}
    (h : ∀ a, off a + sz a ≤ s.size a) (h' : ∀ a, off' a + sz a ≤ s.size a)
    (p : ∀ a, (Rect.unit (s := s) off sz h).stride a = 1) (p' : ∀ a, (Rect.unit (s := s) off' sz h').stride a = 1) (e₀ : off = off') :
    M.slice (Rect.unit (s := s) off sz h) p = M.slice (Rect.unit (s := s) off' sz h') p' := by
  subst e₀; rfl

variable [FloatOps F]

/-- Chunk `j` of tile `L`: the table rows that list `j` of the tile's token row names. -/
def chunkVal (fi : IVec S32x200x128 32) (ft : FVec F S100000x128 .f32) (L : grid1.Coords) (j : ℕ) : FVec F S128x128 .f32 :=
  fun x => ft (ix2 (Spec.rowOf (fi (ix3 (widL L) (⟨min j 199, by omega⟩ : Fin 200) (x 0)))) (x 1))

end Cert.Proof.KB

end
-- ==== Proof.KBTilePure.lean ====
/-
  The pure facts about one tile's pieces: how the scratch buffers and the tile's output block split into their pieces, which
  piece each of the program's slices is, and what a gathered slot and a copied window hold.
-/
import proofs.«217237_g17617955848579_cont_7to1_1664_16_alg».proof.Proof.KBTileDefs

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

variable (d : Dev nD) (L : grid1.Coords)

/-! ## Two spellings of one rectangle

A unit-stride rectangle is its offsets and its sizes: equal offsets and equal sizes give the same rectangle, whatever the
evidence that it lies inside the shape. -/

theorem unit_congr {s : Shape} {off off' sz sz' : Fin s.rank → ℕ} (h : ∀ a, off a + sz a ≤ s.size a)
    (h' : ∀ a, off' a + sz' a ≤ s.size a) (e₀ : off = off') (e₁ : sz = sz') :
    Rect.unit (s := s) off sz h = Rect.unit (s := s) off' sz' h' := by
  subst e₀; subst e₁; rfl

/-- A trip of the loop is one of 48. -/
theorem trip_lt (k : Fin k1_t1_loop.trips) : k.val < 48 := Nat.lt_of_lt_of_eq k.isLt (by decide)

/-- The rectangle the tile slices out of the reshaped tokens is the `wid`-th of the 32 parts along the first axis: its
    offset is `(wid, 0, 0)` and its sizes are `(1, 200, 128)`. -/
theorem iRect_eq : Rect.unit (s := S32x200x128) (k1_off1 L) S1x200x128.size (k1_off1_inb L) = irow (widL L) := by
  refine unit_congr _ _ ?_ ?_
  · rw [k1_off1_eq]
    funext a
    fin_cases a <;> simp [Shape.partIx, Shape.partSize, widL]
  · funext a
    fin_cases a <;> simp [Shape.partSize]

/-- The offsets of the windows of the first and the last four chunks, in closed form: window `r` for `r < 4`, window
    `192 + r` for `4 ≤ r < 8`, each 128 rows, from the tile's first row `51200 s + 25600 c`.  A statement about 32
    tiles and 8 rows of 32-bit arithmetic, checked case by case. -/
theorem off2_eq : ∀ (i : grid1.Coords) (r : Fin 8),
    k1_off2 i (k1_off2_at r) = ![51200 * (i 1).val + 25600 * (i 0).val + 128 * (if r.val < 4 then r.val else 192 + r.val), 0] := by
  decide +kernel

/-! ## The pieces' element sets -/

/-- List `j` is row `min j 199` of the word scratch. -/
theorem rowM_set (j : ℕ) :
    ((rowM j).view.set : Finset S200x128.Idx) = (Rect.unit (s := S200x128) ![min j 199, 0] S1x128.size (rowM_inb j)).set := by
  show (((sI).view.slice (Rect.unit (s := S200x128) ![min j 199, 0] S1x128.size (rowM_inb j))).reshape S128
    squeezes_S1x128_S128.numel_eq).set = _
  rw [View.set_reshape]
  exact View.set_slice_whole _ _

/-- Slot `b` is plane `min b 3` of the row scratch. -/
theorem slotM_set (b : ℕ) :
    ((slotM b).view.set : Finset S4x128x128.Idx) = (Rect.unit (s := S4x128x128) ![min b 3, 0, 0] S1x128x128.size (slotM_inb b)).set := by
  show (((sB).view.slice (Rect.unit (s := S4x128x128) ![min b 3, 0, 0] S1x128x128.size (slotM_inb b))).reshape S128x128
    squeezes_S1x128x128_S128x128.numel_eq).set = _
  rw [View.set_reshape]
  exact View.set_slice_whole _ _

/-- Window `j` is the 128 rows from `base + 128 · min j 199` of the output. -/
theorem winM_set (j : ℕ) :
    ((winM L j).view.set : Finset S819200x128.Idx)
      = (Rect.unit (s := S819200x128) ![base L + 128 * min j 199, 0] S128x128.size (winM_inb L j)).set :=
  View.set_slice_whole _ _

/-! ## Different pieces are disjoint, and together they are the buffer -/

theorem rows_disj : ∀ j ∈ Finset.range 200, ∀ j' ∈ Finset.range 200, j ≠ j' →
    Disjoint ((rowM j).view.set : Finset S200x128.Idx) (rowM j').view.set := by
  intro j hj j' hj' hne
  have h1 := Finset.mem_range.mp hj
  have h2 := Finset.mem_range.mp hj'
  rw [rowM_set, rowM_set]
  refine Rect.unit_disjoint (0 : Fin 2) ?_
  show min j 199 + 1 ≤ min j' 199 ∨ min j' 199 + 1 ≤ min j 199
  omega

theorem rows_cover : (Finset.range 200).biUnion (β := S200x128.Idx) (fun j => (rowM j).view.set) = Finset.univ := by
  refine Finset.eq_univ_iff_forall.mpr fun i => Finset.mem_biUnion.mpr ⟨(i 0).val, Finset.mem_range.mpr (idx2_lt0 i), ?_⟩
  have h0 := idx2_lt0 i
  have h1 := idx2_lt1 i
  rw [rowM_set, Rect.mem_set_unit]
  intro a
  match a with
  | ⟨0, _⟩ => show min (i 0).val 199 ≤ (i 0).val ∧ (i 0).val < min (i 0).val 199 + 1; omega
  | ⟨1, _⟩ => show 0 ≤ (i 1).val ∧ (i 1).val < 0 + 128; omega

theorem slots_disj : ∀ b ∈ Finset.range 4, ∀ b' ∈ Finset.range 4, b ≠ b' →
    Disjoint ((slotM b).view.set : Finset S4x128x128.Idx) (slotM b').view.set := by
  intro b hb b' hb' hne
  have h1 := Finset.mem_range.mp hb
  have h2 := Finset.mem_range.mp hb'
  rw [slotM_set, slotM_set]
  refine Rect.unit_disjoint (0 : Fin 3) ?_
  show min b 3 + 1 ≤ min b' 3 ∨ min b' 3 + 1 ≤ min b 3
  omega

theorem slots_cover : (Finset.range 4).biUnion (β := S4x128x128.Idx) (fun b => (slotM b).view.set) = Finset.univ := by
  refine Finset.eq_univ_iff_forall.mpr fun i => ?_
  have h0 : (i 0).val < 4 := (i 0).isLt
  have h1 : (i 1).val < 128 := (i 1).isLt
  have h2 : (i 2).val < 128 := (i 2).isLt
  refine Finset.mem_biUnion.mpr ⟨(i 0).val, Finset.mem_range.mpr h0, ?_⟩
  rw [slotM_set, Rect.mem_set_unit]
  intro a
  match a with
  | ⟨0, _⟩ => show min (i 0).val 3 ≤ (i 0).val ∧ (i 0).val < min (i 0).val 3 + 1; omega
  | ⟨1, _⟩ => show 0 ≤ (i 1).val ∧ (i 1).val < 0 + 128; omega
  | ⟨2, _⟩ => show 0 ≤ (i 2).val ∧ (i 2).val < 0 + 128; omega

theorem wins_disj : ∀ j ∈ Finset.range 200, ∀ j' ∈ Finset.range 200, j ≠ j' →
    Disjoint ((winM L j).view.set : Finset S819200x128.Idx) (winM L j').view.set := by
  intro j hj j' hj' hne
  have h1 := Finset.mem_range.mp hj
  have h2 := Finset.mem_range.mp hj'
  rw [winM_set, winM_set]
  refine Rect.unit_disjoint (0 : Fin 2) ?_
  show base L + 128 * min j 199 + 128 ≤ base L + 128 * min j' 199 ∨ base L + 128 * min j' 199 + 128 ≤ base L + 128 * min j 199
  omega

/-- The tile's block of the output: the 25600 rows from `base`. -/
theorem oRowSet_mem (i : S819200x128.Idx) : i ∈ oRowSet (widL L) ↔ base L ≤ (i 0).val ∧ (i 0).val < base L + 25600 := by
  have h1 := idx2_lt1 i
  rw [show oRowSet (widL L) = (orow (widL L)).set from View.set_slice_whole _ _, Rect.mem_set_unit]
  constructor
  · intro h
    have h0 := h 0
    simp [Shape.partIx, Shape.partSize] at h0
    unfold base; omega
  · intro h a
    unfold base at h
    match a with
    | ⟨0, _⟩ => simp [Shape.partIx, Shape.partSize]; omega
    | ⟨1, _⟩ => simp [Shape.partIx, Shape.partSize]; omega

theorem wins_cover : (Finset.range 200).biUnion (β := S819200x128.Idx) (fun j => (winM L j).view.set) = oRowSet (widL L) := by
  ext i
  have h1 := idx2_lt1 i
  rw [oRowSet_mem, Finset.mem_biUnion]
  constructor
  · rintro ⟨j, hj, hi⟩
    have hj' := Finset.mem_range.mp hj
    rw [winM_set, Rect.mem_set_unit] at hi
    have h0 : base L + 128 * min j 199 ≤ (i 0).val ∧ (i 0).val < base L + 128 * min j 199 + 128 := hi 0
    omega
  · intro h
    refine ⟨((i 0).val - base L) / 128, Finset.mem_range.mpr (by omega), ?_⟩
    rw [winM_set, Rect.mem_set_unit]
    intro a
    match a with
    | ⟨0, _⟩ =>
      show base L + 128 * min (((i 0).val - base L) / 128) 199 ≤ (i 0).val
        ∧ (i 0).val < base L + 128 * min (((i 0).val - base L) / 128) 199 + 128
      omega
    | ⟨1, _⟩ => show 0 ≤ (i 1).val ∧ (i 1).val < 0 + 128; omega

/-! ## The pieces cover their buffers -/

/-- The word scratch is its 200 lists. -/
theorem rows_split (f : Buf (Elt F) ((sI).view.loc (thr d L))) :
    ((sI).view.loc (thr d L) ↦{fullShare} f : sProp 𝕄)
      = bigSep (Finset.range 200) fun j => ((sI).view.loc (thr d L) ↦[(rowM j).view.set]{fullShare} f : sProp 𝕄) := by
  have hc : ((Finset.range 200).biUnion fun j => (rowM j).view.set) = (Finset.univ : Finset (Idx ((sI).view.loc (thr d L)))) := rows_cover
  rw [← pointsTo_biUnion (Finset.range 200) (ℓ := (sI).view.loc (thr d L)) (fun j => (rowM j).view.set) rows_disj, hc]

/-- The row scratch is its four slots. -/
theorem slots_split (f : Buf (Elt F) ((sB).view.loc (thr d L))) :
    ((sB).view.loc (thr d L) ↦{fullShare} f : sProp 𝕄)
      = bigSep (Finset.range 4) fun b => ((sB).view.loc (thr d L) ↦[(slotM b).view.set]{fullShare} f : sProp 𝕄) := by
  have hc : ((Finset.range 4).biUnion fun b => (slotM b).view.set) = (Finset.univ : Finset (Idx ((sB).view.loc (thr d L)))) := slots_cover
  rw [← pointsTo_biUnion (Finset.range 4) (ℓ := (sB).view.loc (thr d L)) (fun b => (slotM b).view.set) slots_disj, hc]

/-- The tile's output block is its 200 windows. -/
theorem wins_split (f : Buf (Elt F) ((oV).view.loc (thr d L))) :
    ((oV).view.loc (thr d L) ↦[oRowSet (widL L)]{fullShare} f : sProp 𝕄)
      = bigSep (Finset.range 200) fun j => ((oV).view.loc (thr d L) ↦[(winM L j).view.set]{fullShare} f : sProp 𝕄) := by
  rw [← pointsTo_biUnion (Finset.range 200) (ℓ := (oV).view.loc (thr d L)) (fun j => (winM L j).view.set) (wins_disj L), wins_cover]

/-- The tile's slice of the reshaped tokens is row `wid`. -/
theorem iRowK_set : (iRowK L).view.set = iRowSet (widL L) := by
  show (((iV).view.slice (Rect.unit (s := S32x200x128) (k1_off1 L) S1x200x128.size (k1_off1_inb L))).reshape S200x128
    squeezes_S1x200x128_S200x128.numel_eq).set = ((iV).view.slice (irow (widL L))).set
  rw [View.set_reshape]
  exact iRect_eq L ▸ rfl

/-- The tile's slice of the table is the whole table. -/
theorem tAll_set : (tAll).view.set = Finset.univ := by
  show ((View.whole (main_v0_scv : Ref sig .scVector)).slice
    (Rect.unit (s := S100000x128) ![0, 0] S100000x128.size inb_S100000x128_S100000x128_0_0)).set = _
  rw [View.set_slice_whole]
  refine Finset.eq_univ_iff_forall.mpr fun y => Rect.mem_set_unit.mpr fun a => ?_
  have h0 : (![0, 0] : Fin 2 → ℕ) a = 0 := by fin_cases a <;> rfl
  rw [h0, Nat.zero_add]
  exact ⟨Nat.zero_le _, (y a).isLt⟩

/-! ## The program's slices are the pieces -/

theorem k1_trips : k1_t1_loop.trips = 48 := by decide

/-- The window trip `k` copies slot `r` to: window `4 k + r + 4`. -/
theorem winP6_eq (k : Fin k1_t1_loop.trips) (r : Fin 4) :
    (oV).slice (Rect.unit (s := S819200x128) (k1_off6 L k (BitVec.ofNat 32 r.val)) S128x128.size (k1_off6_inb L k r)) (fun _ => rfl)
      = winM L (4 * k.val + r.val + 4) := by
  have hk := trip_lt k
  have hr := r.isLt
  refine slice_unit_congr (oV) _ _ _ _ ?_
  rw [k1_off6_eq]
  exact congrArg (fun x => (![x, 0] : Fin 2 → ℕ)) (by rw [base_eq]; omega)

/-- The list trip `k` starts its `r`-th gather from: list `4 k + r + 6`. -/
theorem rowP5_eq (k : Fin k1_t1_loop.trips) (r : Fin 4) :
    ((sI).slice (Rect.unit (s := S200x128) (k1_off5 k (BitVec.ofNat 32 r.val)) S1x128.size (k1_off5_inb k r)) (fun _ => rfl)).squeeze S128 squeezes_S1x128_S128
      = rowM (4 * k.val + r.val + 6) := by
  have hk := trip_lt k
  have hr := r.isLt
  have e₀ : k1_off5 k (BitVec.ofNat 32 r.val) = ![min (4 * k.val + r.val + 6) 199, 0] := by
    rw [k1_off5_eq]
    exact congrArg (fun x => (![x, 0] : Fin 2 → ℕ)) (by omega)
  rw [slice_unit_congr (sI) (k1_off5_inb k r) (rowM_inb (4 * k.val + r.val + 6)) (fun _ => rfl) (fun _ => rfl) e₀]

/-- The windows of the first and the last four chunks. -/
theorem winP2_eq (r : Fin 8) :
    (oV).slice (Rect.unit (s := S819200x128) (k1_off2 L (k1_off2_at r)) S128x128.size (k1_off2_inb L r)) (fun _ => rfl)
      = winM L (if r.val < 4 then r.val else 192 + r.val) := by
  have hr := r.isLt
  refine slice_unit_congr (oV) _ _ _ _ ?_
  rw [off2_eq]
  refine congrArg (fun x => (![x, 0] : Fin 2 → ℕ)) ?_
  rw [base_eq]
  split <;> omega

variable [FloatOps F]

/-! ## What the pieces hold -/

/-- The word scratch after the tile's first copy: row `wid` of the reshaped tokens. -/
abbrev fIof (fi : Buf (Elt F) ((iRowK L).view.loc (thr d L))) (fs : Buf (Elt F) ((sI).view.loc (thr d L))) : Buf (Elt F) ((sI).view.loc (thr d L)) :=
  View.write (Elt F) (sI).view fs (ReadAs.same.apply ((iRowK L).view.read (Elt F) fi)) Finset.univ

/-! ### Where the pieces' indices sit in their buffers -/

omit [FloatOps F] in
/-- Index `y` of list `j` is word `(min j 199, y 0)` of the word scratch. -/
theorem rowM_emb (j : ℕ) (y : S128.Idx) :
    ((rowM j).view.emb y : S200x128.Idx) = ix2 (n0 := 200) (n1 := 128) ⟨min j 199, by omega⟩ (y 0) := by
  funext a
  apply Fin.ext
  show (![min j 199, 0] : Fin 2 → ℕ) a + 1 * ((Shape.reshapeEquiv squeezes_S1x128_S128.numel_eq y : S1x128.Idx) a).val = _
  rw [show (Shape.reshapeEquiv squeezes_S1x128_S128.numel_eq y : S1x128.Idx) = Fin.cons ⟨0, Nat.one_pos⟩ y from
    Shape.reshapeEquiv_cons_one _ y]
  match a with
  | ⟨0, _⟩ => show min j 199 + 1 * 0 = min j 199; omega
  | ⟨1, _⟩ => show 0 + 1 * (y 0).val = (y 0).val; omega

omit [FloatOps F] in
/-- Index `z` of the tile's token row is word `(wid, z 0, z 1)` of the reshaped tokens. -/
theorem iRowK_emb (z : S200x128.Idx) :
    ((iRowK L).view.emb z : S32x200x128.Idx) = ix3 (n0 := 32) (n1 := 200) (n2 := 128) (widL L) (z 0) (z 1) := by
  funext a
  apply Fin.ext
  show (k1_off1 L) a + 1 * ((Shape.reshapeEquiv squeezes_S1x200x128_S200x128.numel_eq z : S1x200x128.Idx) a).val = _
  rw [show (Shape.reshapeEquiv squeezes_S1x200x128_S200x128.numel_eq z : S1x200x128.Idx) = Fin.cons ⟨0, Nat.one_pos⟩ z from
    Shape.reshapeEquiv_cons_one _ z, k1_off1_eq]
  match a with
  | ⟨0, _⟩ => show 2 * (L 1).val + (L 0).val + 1 * 0 = 2 * (L 1).val + (L 0).val; omega
  | ⟨1, _⟩ => show 0 + 1 * (z 0).val = (z 0).val; omega
  | ⟨2, _⟩ => show 0 + 1 * (z 1).val = (z 1).val; omega

/-- A word of list `j`, once the tile's token row has been copied into the word scratch, is the token at
    `(wid, min j 199, y 0)`. -/
theorem rowM_read (j : ℕ) (fi : Buf (Elt F) ((iRowK L).view.loc (thr d L))) (fs : Buf (Elt F) ((sI).view.loc (thr d L))) (y : S128.Idx) :
    (rowM j).view.read (Elt F) (fIof d L fi fs) y = fi (ix3 (n0 := 32) (n1 := 200) (n2 := 128) (widL L) ⟨min j 199, by omega⟩ (y 0)) := by
  unfold fIof
  rw [View.write_whole_univ]
  refine ((View.read_apply _ _).trans (cast_eq _ _)).trans ?_
  refine ((View.read_apply _ _).trans (cast_eq _ _)).trans ?_
  refine congrArg fi ?_
  rw [rowM_emb, iRowK_emb]

omit [FloatOps F] in
/-- The tile's slice of the table starts at the origin: an index of it is the same index of the table. -/
theorem tAll_emb (i : S100000x128.Idx) : ((tAll).view.emb i : S100000x128.Idx) = i := by
  funext a
  apply Fin.ext
  show (![0, 0] : Fin 2 → ℕ) a + 1 * (i a).val = (i a).val
  match a with
  | ⟨0, _⟩ => show 0 + 1 * (i 0).val = (i 0).val; omega
  | ⟨1, _⟩ => show 0 + 1 * (i 1).val = (i 1).val; omega

omit [FloatOps F] in
/-- The table index a gathered entry comes from: the row its list word names, its own column. -/
theorem gidx_eq (r : Fin (S128x128.size gathers_S100000x128_S128x128.axis') → Fin (S100000x128.size gathers_S100000x128_S128x128.axis))
    (x : S128x128.Idx) :
    gathers_S100000x128_S128x128.idx r x = ix2 (n0 := 100000) (n1 := 128) (r (x 0)) (x 1) := by
  funext a
  match a with
  | ⟨0, _⟩ => exact Shape.Gathers.idx_axis gathers_S100000x128_S128x128 r x
  | ⟨1, _⟩ => exact Fin.ext (Shape.Gathers.idx_of_ne gathers_S100000x128_S128x128 r x ⟨1, by decide⟩ (by decide))

omit [FloatOps F] in
/-- In a list of 128 words the `k`-th word in row-major order is word `k`. -/
theorem rm_symm_zero (k : Fin S128.numel) : ((S128.rowMajor.symm k) 0).val = k.val := by
  have h := Shape.rowMajor_val_one (d := ![128]) (S128.rowMajor.symm k)
  rw [Equiv.apply_symm_apply] at h
  exact h.symm

/-- Every word of a list is a word of the tile's token row, so names a table row when every token does. -/
theorem lists_inb (fi : Buf (Elt F) ((iRowK L).view.loc (thr d L))) (hpre : ∀ x, (fi x).toNat < 100000)
    (fs : Buf (Elt F) ((sI).view.loc (thr d L))) (off : Fin 2 → Nat) (h : ∀ a, off a + S1x128.size a ≤ S200x128.size a) (x : S128.Idx) :
    ((((sI).slice (Rect.unit (s := S200x128) off S1x128.size h) (fun _ => rfl)).squeeze S128 squeezes_S1x128_S128).view.read (Elt F)
      (View.write (Elt F) (sI).view fs (ReadAs.same.apply ((iRowK L).view.read (Elt F) fi)) Finset.univ) x).toNat < S100000x128.size gathers_S100000x128_S128x128.axis := by
  rw [View.write_whole_univ]
  exact hpre _

/-- The gather of list `j` delivers chunk `j`. -/
theorem gather_val (j : ℕ) (fi : Buf (Elt F) ((iRowK L).view.loc (thr d L))) (ft : Buf (Elt F) ((tV).view.loc (thr d L)))
    (fs : Buf (Elt F) ((sI).view.loc (thr d L)))
    (hn : S128.numel = S128x128.size gathers_S100000x128_S128x128.axis')
    (hin : ∀ x, ((rowM j).view.read (Elt F) (fIof d L fi fs) x).toNat < S100000x128.size gathers_S100000x128_S128x128.axis) :
    SparseCore.gatherPayload gathers_S100000x128_S128x128 ((tAll).view.read (Elt F) ft) (SparseCore.rows ((rowM j).view.read (Elt F) (fIof d L fi fs)) hn hin)
      = chunkVal fi ft L j := by
  funext x
  show (tAll).view.read (Elt F) ft (gathers_S100000x128_S128x128.idx (SparseCore.rows ((rowM j).view.read (Elt F) (fIof d L fi fs)) hn hin) x)
    = ft (ix2 (Spec.rowOf (fi (ix3 (widL L) (⟨min j 199, by omega⟩ : Fin 200) (x 0)))) (x 1))
  refine ((View.read_apply _ _).trans (cast_eq _ _)).trans (congrArg ft ?_)
  rw [tAll_emb, gidx_eq]
  refine congrArg (fun q => ix2 (n0 := 100000) (n1 := 128) q (x 1)) (Fin.ext ?_)
  have hb := hin (S128.rowMajor.symm ((x 0).cast hn.symm))
  show ((rowM j).view.read (Elt F) (fIof d L fi fs) (S128.rowMajor.symm ((x 0).cast hn.symm))).toNat
    = min (fi (ix3 (widL L) (⟨min j 199, by omega⟩ : Fin 200) (x 0))).toNat 99999
  have hx : ((S128.rowMajor.symm ((x 0).cast hn.symm)) 0 : Fin 128) = x 0 := Fin.ext (rm_symm_zero _)
  rw [rowM_read, hx] at hb ⊢
  have hb' : (fi (ix3 (n0 := 32) (n1 := 200) (n2 := 128) (widL L) ⟨min j 199, by omega⟩ (x 0))).toNat < 100000 := hb
  omega

/-- A slot the gather of list `j` has landed in holds chunk `j`. -/
theorem slot_read_gather (b j : ℕ) (fi : Buf (Elt F) ((iRowK L).view.loc (thr d L))) (ft : Buf (Elt F) ((tV).view.loc (thr d L)))
    (fs : Buf (Elt F) ((sI).view.loc (thr d L))) (g : Buf (Elt F) ((sB).view.loc (thr d L)))
    (hn : S128.numel = S128x128.size gathers_S100000x128_S128x128.axis')
    (hin : ∀ x, ((rowM j).view.read (Elt F) (fIof d L fi fs) x).toNat < S100000x128.size gathers_S100000x128_S128x128.axis) :
    (slotM b).view.read (Elt F) (View.write (Elt F) (slotM b).view g
        (SparseCore.gatherPayload gathers_S100000x128_S128x128 ((tAll).view.read (Elt F) ft) (SparseCore.rows ((rowM j).view.read (Elt F) (fIof d L fi fs)) hn hin)) Finset.univ)
      = chunkVal fi ft L j := by
  rw [View.read_write_univ]
  exact gather_val d L j fi ft fs hn hin

omit [FloatOps F] in
/-- The whole rectangle places every index at itself. -/
theorem whole_emb (x : S128x128.Idx) : (Rect.whole S128x128).emb x = x := by
  exact Rect.emb_whole_apply S128x128 x

omit [FloatOps F] in
/-- Index `x` of window `j` is entry `(base + 128 · min j 199 + x 0, x 1)` of the output. -/
theorem winM_emb (j : ℕ) (x : S128x128.Idx) :
    ((winM L j).view.emb x : S819200x128.Idx)
      = ix2 (n0 := 819200) (n1 := 128) ⟨base L + 128 * min j 199 + (x 0).val, by
          have h := (widL L).isLt; have hx := idx2_lt0 x; unfold base; omega⟩ (x 1) := by
  funext a
  apply Fin.ext
  show (![base L + 128 * min j 199, 0] : Fin 2 → ℕ) a + 1 * (x a).val = _
  match a with
  | ⟨0, _⟩ => show base L + 128 * min j 199 + 1 * (x 0).val = base L + 128 * min j 199 + (x 0).val; omega
  | ⟨1, _⟩ => show 0 + 1 * (x 1).val = (x 1).val; omega

/-- A window a slot holding chunk `j` was copied to holds its rows of the output. -/
theorem win_write_val (b j : ℕ) (hj : j < 200) (fi : Buf (Elt F) ((iRowK L).view.loc (thr d L))) (ft : Buf (Elt F) ((tV).view.loc (thr d L)))
    (fd : Buf (Elt F) ((oV).view.loc (thr d L))) (g : Buf (Elt F) ((sB).view.loc (thr d L)))
    (hg : (slotM b).view.read (Elt F) g = chunkVal fi ft L j) :
    ∀ y ∈ (winM L j).view.set, (winM L j).view.writes (Elt F) fd [⟨Rect.whole S128x128, ReadAs.same.apply ((slotM b).view.read (Elt F) g)⟩] y = outF fi ft y := by
  intro y hy
  rw [show (winM L j).view.set = (Rect.unit (s := S819200x128) ![base L + 128 * min j 199, 0] S128x128.size (winM_inb L j)).set from
    View.set_slice_whole _ _, Rect.mem_set_unit] at hy
  have h0 : base L + 128 * min j 199 ≤ (y 0).val ∧ (y 0).val < base L + 128 * min j 199 + 128 := hy 0
  have h1 : (y 1).val < 128 := (y 1).isLt
  have hw := (widL L).isLt
  have hmin : min j 199 = j := by omega
  obtain ⟨x, hx0, hx1⟩ : ∃ x : S128x128.Idx, (x 0).val = (y 0).val - (base L + 128 * min j 199) ∧ (x 1).val = (y 1).val :=
    ⟨ix2 (n0 := 128) (n1 := 128) ⟨(y 0).val - (base L + 128 * min j 199), by omega⟩ ⟨(y 1).val, h1⟩, rfl, rfl⟩
  have hyx : y = ((winM L j).view.slice (Rect.whole S128x128)).emb x := by
    show y = (winM L j).view.emb ((Rect.whole S128x128).emb x)
    rw [Rect.emb_whole_apply, winM_emb]
    funext a
    match a with
    | ⟨0, _⟩ => exact Fin.ext (by show (y 0).val = base L + 128 * min j 199 + (x 0).val; omega)
    | ⟨1, _⟩ => exact Fin.ext hx1.symm
  have hL : (winM L j).view.writes (Elt F) fd [⟨Rect.whole S128x128, ReadAs.same.apply ((slotM b).view.read (Elt F) g)⟩] y = chunkVal fi ft L j x := by
    rw [View.writes_singleton, hyx]
    exact (View.write_emb_of_mem _ _ (Finset.mem_univ x)).trans ((cast_eq _ _).trans (congrFun hg x))
  rw [hL]
  unfold chunkVal outF base at *
  refine congrArg ft ?_
  have hA : (ix3 (n0 := 32) (n1 := 200) (n2 := 128) (widL L) ⟨min j 199, by omega⟩ (x 0))
      = ix3 (n0 := 32) (n1 := 200) (n2 := 128) ⟨(y 0).val / 25600, by omega⟩ ⟨(y 0).val % 25600 / 128, by omega⟩ ⟨(y 0).val % 128, by omega⟩ := by
    funext a
    match a with
    | ⟨0, _⟩ => exact Fin.ext (by show (widL L).val = (y 0).val / 25600; omega)
    | ⟨1, _⟩ => exact Fin.ext (by show min j 199 = (y 0).val % 25600 / 128; omega)
    | ⟨2, _⟩ => exact Fin.ext (by show (x 0).val = (y 0).val % 128; omega)
  have hB : (x 1 : Fin 128) = y 1 := Fin.ext hx1
  rw [hA, hB]

/-- The four slots, at any contents, are the row scratch at some contents. -/
theorem slots_join (g0 g1 g2 g3 : Buf (Elt F) ((sB).view.loc (thr d L))) :
    iprop(((sB).view.loc (thr d L) ↦[(slotM 0).view.set]{fullShare} g0) ∗ ((sB).view.loc (thr d L) ↦[(slotM 1).view.set]{fullShare} g1)
        ∗ ((sB).view.loc (thr d L) ↦[(slotM 2).view.set]{fullShare} g2) ∗ ((sB).view.loc (thr d L) ↦[(slotM 3).view.set]{fullShare} g3))
      ⊢ (iprop(∃ f, (sB).view.loc (thr d L) ↦{fullShare} f) : sProp 𝕄) := by
  have r0 : 0 ∈ Finset.range 4 := Finset.mem_range.mpr (by omega)
  have r1 : 1 ∈ Finset.range 4 := Finset.mem_range.mpr (by omega)
  have r2 : 2 ∈ Finset.range 4 := Finset.mem_range.mpr (by omega)
  have r3 : 3 ∈ Finset.range 4 := Finset.mem_range.mpr (by omega)
  have d23 : Disjoint ((slotM 2).view.set : Finset (Idx ((sB).view.loc (thr d L)))) (slotM 3).view.set :=
    slots_disj 2 r2 3 r3 (by omega)
  have d1 : Disjoint ((slotM 1).view.set : Finset (Idx ((sB).view.loc (thr d L)))) ((slotM 2).view.set ∪ (slotM 3).view.set) :=
    Finset.disjoint_union_right.mpr ⟨slots_disj 1 r1 2 r2 (by omega), slots_disj 1 r1 3 r3 (by omega)⟩
  have d0 : Disjoint ((slotM 0).view.set : Finset (Idx ((sB).view.loc (thr d L))))
      ((slotM 1).view.set ∪ ((slotM 2).view.set ∪ (slotM 3).view.set)) :=
    Finset.disjoint_union_right.mpr ⟨slots_disj 0 r0 1 r1 (by omega),
      Finset.disjoint_union_right.mpr ⟨slots_disj 0 r0 2 r2 (by omega), slots_disj 0 r0 3 r3 (by omega)⟩⟩
  have hcov : ((slotM 0).view.set ∪ ((slotM 1).view.set ∪ ((slotM 2).view.set ∪ (slotM 3).view.set))
      : Finset (Idx ((sB).view.loc (thr d L)))) = Finset.univ := by
    refine Finset.eq_univ_iff_forall.mpr fun i => ?_
    have hi : i ∈ (Finset.range 4).biUnion (β := S4x128x128.Idx) (fun b => (slotM b).view.set) := slots_cover ▸ Finset.mem_univ i
    obtain ⟨b, hb, hib⟩ := Finset.mem_biUnion.mp hi
    have hb' := Finset.mem_range.mp hb
    simp only [Finset.mem_union]
    interval_cases b
    · exact .inl hib
    · exact .inr (.inl hib)
    · exact .inr (.inr (.inl hib))
    · exact .inr (.inr (.inr hib))
  iintro ⟨H0, H1, H2, H3⟩
  ihave H23 := (pointsTo_join (ℓ := (sB).view.loc (thr d L)) (q := fullShare) (f := g2) (g := g3) d23) $$ [H2 H3]; · isplitl [H2] <;> iassumption
  ihave H123 := (pointsTo_join (ℓ := (sB).view.loc (thr d L)) (q := fullShare) (f := g1) d1) $$ [H1 H23]; · isplitl [H1] <;> iassumption
  ihave H := (pointsTo_join (ℓ := (sB).view.loc (thr d L)) (q := fullShare) (f := g0) d0) $$ [H0 H123]; · isplitl [H0] <;> iassumption
  rw [hcov]
  iexists _
  iexact H

end Cert.Proof.KB

end
-- ==== Proof.KBTileInv.lean ====
/-
  What a tile holds between the trips of its loop.

  At the head of trip `k` (chunks `4k+4 … 4k+7` are copied out during it) two gathers are in flight — list `4k+4` into slot 0,
  list `4k+5` into slot 1 — and two copies out — slot 2 to window `4k+2`, slot 3 to window `4k+3`.  A gather's landing hands
  back its slot holding the chunk, its list and its read share of the table; a copy's landing hands back its window holding
  its rows of the output and its slot.  Windows below `4k+2` hold the output, windows from `4k+4` on their launch contents.
-/
import proofs.«217237_g17617955848579_cont_7to1_1664_16_alg».proof.Proof.KBTilePure
import Idealize.ShloMosaic.Lib.Ring

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

/-- The tile's nine DMA semaphores, by their numbers in the pool: 4-7 one per slot for the gathers, 8-11 one per slot for the
    copies out, 12 for the first copy. -/
abbrev g0 : DmaSem sig := ⟨4, by decide⟩
abbrev g1 : DmaSem sig := ⟨5, by decide⟩
abbrev g2 : DmaSem sig := ⟨6, by decide⟩
abbrev g3 : DmaSem sig := ⟨7, by decide⟩
abbrev s0 : DmaSem sig := ⟨8, by decide⟩
abbrev s1 : DmaSem sig := ⟨9, by decide⟩
abbrev s2 : DmaSem sig := ⟨10, by decide⟩
abbrev s3 : DmaSem sig := ⟨11, by decide⟩
abbrev z0 : DmaSem sig := ⟨12, by decide⟩
abbrev gS : ℕ → DmaSem sig | 0 => g0 | 1 => g1 | 2 => g2 | _ => g3
abbrev sS : ℕ → DmaSem sig | 0 => s0 | 1 => s1 | 2 => s2 | _ => s3

/-- The slices as the program spells them: the slots, the lists at literal rows, the lists and windows of a trip, the first
    and last windows. -/
abbrev slotP0 : Memref sig .scVector .vmem S128x128 .f32 := ((sB).slice (Rect.unit (s := S4x128x128) ![0, 0, 0] S1x128x128.size inb_S4x128x128_S1x128x128_0_0_0) (fun _ => rfl)).squeeze S128x128 squeezes_S1x128x128_S128x128
abbrev slotP1 : Memref sig .scVector .vmem S128x128 .f32 := ((sB).slice (Rect.unit (s := S4x128x128) ![1, 0, 0] S1x128x128.size inb_S4x128x128_S1x128x128_1_0_0) (fun _ => rfl)).squeeze S128x128 squeezes_S1x128x128_S128x128
abbrev slotP2 : Memref sig .scVector .vmem S128x128 .f32 := ((sB).slice (Rect.unit (s := S4x128x128) ![2, 0, 0] S1x128x128.size inb_S4x128x128_S1x128x128_2_0_0) (fun _ => rfl)).squeeze S128x128 squeezes_S1x128x128_S128x128
abbrev slotP3 : Memref sig .scVector .vmem S128x128 .f32 := ((sB).slice (Rect.unit (s := S4x128x128) ![3, 0, 0] S1x128x128.size inb_S4x128x128_S1x128x128_3_0_0) (fun _ => rfl)).squeeze S128x128 squeezes_S1x128x128_S128x128
abbrev rowP (n : ℕ) (h : ∀ a, (![n, 0] : Fin 2 → Nat) a + S1x128.size a ≤ S200x128.size a) : Memref sig .scVector .vmem S128 .i32 :=
  ((sI).slice (Rect.unit (s := S200x128) ![n, 0] S1x128.size h) (fun _ => rfl)).squeeze S128 squeezes_S1x128_S128
abbrev rowP5 (k : Fin k1_t1_loop.trips) (r : Fin 4) : Memref sig .scVector .vmem S128 .i32 :=
  ((sI).slice (Rect.unit (s := S200x128) (k1_off5 k (BitVec.ofNat 32 r.val)) S1x128.size (k1_off5_inb k r)) (fun _ => rfl)).squeeze S128 squeezes_S1x128_S128
abbrev winP6 (L : grid1.Coords) (k : Fin k1_t1_loop.trips) (r : Fin 4) : Memref sig .scVector .hbm S128x128 .f32 :=
  (oV).slice (Rect.unit (s := S819200x128) (k1_off6 L k (BitVec.ofNat 32 r.val)) S128x128.size (k1_off6_inb L k r)) (fun _ => rfl)
abbrev winP2 (L : grid1.Coords) (r : Fin 8) : Memref sig .scVector .hbm S128x128 .f32 :=
  (oV).slice (Rect.unit (s := S819200x128) (k1_off2 L (k1_off2_at r)) S128x128.size (k1_off2_inb L r)) (fun _ => rfl)

variable (d : Dev nD) (L : grid1.Coords)

abbrev cell (sm : DmaSem sig) : GSem nD τ sig := (thr d L, .dma sm)

variable (q : PosShare TreeShare) (fi : Buf (Elt F) ((iRowK L).view.loc (thr d L))) (ft : Buf (Elt F) ((tV).view.loc (thr d L)))
  (fs : Buf (Elt F) ((sI).view.loc (thr d L))) (fo : Buf (Elt F) ((oV).view.loc (thr d L)))

/-- The pieces, held. -/
abbrev rowPts (j : ℕ) : sProp 𝕄 := (sI).view.loc (thr d L) ↦[(rowM j).view.set]{fullShare} fIof d L fi fs
abbrev slotPts (b : ℕ) (g : Buf (Elt F) ((sB).view.loc (thr d L))) : sProp 𝕄 := (sB).view.loc (thr d L) ↦[(slotM b).view.set]{fullShare} g
abbrev winPts (j : ℕ) (f : Buf (Elt F) ((oV).view.loc (thr d L))) : sProp 𝕄 := (oV).view.loc (thr d L) ↦[(winM L j).view.set]{fullShare} f
abbrev tokPts (b : ℕ) : sProp 𝕄 := (tV).view.loc (thr d L) ↦{Transfers.shareTokN q (4 + b)} ft
abbrev tokLent (b : ℕ) : sProp 𝕄 := (tV).view.loc (thr d L) ↦[(tAll).view.set]{Transfers.shareTokN q (4 + b)} ft

/-- What the gather of list `j` into slot `b` hands back. -/
def GD (b j : ℕ) : sProp 𝕄 :=
  iprop(((∃ g, slotPts d L b g ∗ ⌜(slotM b).view.read (Elt F) g = chunkVal fi ft L j⌝) ∗ rowPts d L fi fs j) ∗ tokLent d L q ft b)
/-- What the copy of slot `b` to window `j` hands back. -/
def SD (b j : ℕ) : sProp 𝕄 :=
  iprop(winPts d L j (outF fi ft) ∗ ∃ g, slotPts d L b g)

abbrev NC : ℕ := 524288

def GF (b j : ℕ) : sProp 𝕄 := Transfers.Flight countersEmb (thr d L) (.dma (gS b)) (default : HIx 1) NC (GD d L q fi ft fs b j)
def SF (b j : ℕ) : sProp 𝕄 := Transfers.Flight countersEmb (thr d L) (.dma (sS b)) (default : HIx 1) NC (SD d L fi ft b j)

/-- Between trips (see the head of this file): before trip `k`. -/
def Inv (O : CellTallies nD τ sig (HIx 1)) (W : Waits sig (HIx 1)) (k : ℕ) (_ : PUnit) : sProp 𝕄 :=
  iprop((Transfers.MayWaits (thr d L) (default : HIx 1) O : sProp 𝕄)
    ∗ ((iRowK L).view.loc (thr d L) ↦[(iRowK L).view.set]{fullShare} fi)
    ∗ GF d L q fi ft fs 0 (4 * k + 4) ∗ GF d L q fi ft fs 1 (4 * k + 5) ∗ SF d L fi ft 2 (4 * k + 2) ∗ SF d L fi ft 3 (4 * k + 3)
    ∗ tokPts d L q ft 2 ∗ tokPts d L q ft 3
    ∗ bigSep (Finset.Ico 0 (4 * k + 4)) (fun j => rowPts d L fi fs j) ∗ bigSep (Finset.Ico (4 * k + 6) 200) (fun j => rowPts d L fi fs j)
    ∗ bigSep (Finset.Ico 0 (4 * k + 2)) (fun j => winPts d L j (outF fi ft)) ∗ bigSep (Finset.Ico (4 * k + 4) 200) (fun j => winPts d L j fo)
    ∗ semVal (cell d L g2) 0 ∗ semVal (cell d L g3) 0 ∗ semVal (cell d L s0) 0 ∗ semVal (cell d L s1) 0 ∗ semVal (cell d L z0) 0
    ∗ ∃ W', ⌜∀ p ∈ W', p ∈ W ∨ p.2 = none⌝ ∗ owes (thr d L) O W')

/-- A resource set aside from a run. -/
def keep (P : sProp 𝕄) : sProp 𝕄 := P
theorem keep_eq (P : sProp 𝕄) : keep P = P := rfl

end Cert.Proof.KB

end
-- ==== Proof.KBTileLemmas.lean ====
/-
  Small facts the tile's run uses: runs of numbers taken apart, a share as read tokens, the scratch buffers and the block as
  their pieces, the program's slices by their offsets, and that what a landed gather or copy hands back is what the
  invariant says it hands back.
-/
import proofs.«217237_g17617955848579_cont_7to1_1664_16_alg».proof.Proof.KBTileInv

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid1.Coords)

/-- The first number of a run of numbers set apart, and the last. -/
theorem Ico_peel (a a' b : ℕ) (h : a < b) (ha : a' = a + 1) (A : ℕ → sProp 𝕄) :
    bigSep (Finset.Ico a b) A = iprop(A a ∗ bigSep (Finset.Ico a' b) A) := by
  subst ha; exact Idealize.ShloMosaic.Ring.bigSep_Ico_succ h A
theorem Ico_push (a b b' : ℕ) (h : a ≤ b) (hb : b' = b + 1) (A : ℕ → sProp 𝕄) :
    bigSep (Finset.Ico a b') A = iprop(A b ∗ bigSep (Finset.Ico a b) A) := by
  subst hb
  rw [Nat.Ico_succ_right_eq_insert_Ico h, bigSep_insert Finset.right_notMem_Ico]; rfl
theorem Ico_nil (a : ℕ) (A : ℕ → sProp 𝕄) : bigSep (Finset.Ico a a) A = iprop(emp) := by
  rw [Finset.Ico_self, bigSep_empty]; rfl

/-- One read token off what remains of a share. -/
theorem tok_step' (q : PosShare TreeShare) {ℓ : Loc nD τ sig} (f : Buf (Elt F) ℓ) (k k' : ℕ) (hk : k' = k + 1) :
    (ℓ ↦{Transfers.shareDrop q k} f : sProp 𝕄) ⊣⊢ iprop((ℓ ↦{Transfers.shareDrop q k'} f) ∗ ℓ ↦{Transfers.shareTokN q k} f) := by
  subst hk; exact pointsTo_share (PosShare.mem_left_op_right _)
theorem tok_step0 (q : PosShare TreeShare) {ℓ : Loc nD τ sig} (f : Buf (Elt F) ℓ) :
    (ℓ ↦{q} f : sProp 𝕄) ⊣⊢ iprop((ℓ ↦{Transfers.shareDrop q 1} f) ∗ ℓ ↦{Transfers.shareTokN q 0} f) :=
  pointsTo_share (PosShare.mem_left_op_right _)

theorem rows_open (f : Buf (Elt F) ((sI).view.loc (thr d L))) :
    ((sI).view.loc (thr d L) ↦{fullShare} f : sProp 𝕄)
      = bigSep (Finset.Ico 0 200) fun j => ((sI).view.loc (thr d L) ↦[(rowM j).view.set]{fullShare} f : sProp 𝕄) := by
  rw [rows_split d L f, Finset.range_eq_Ico]
theorem slots_open (f : Buf (Elt F) ((sB).view.loc (thr d L))) :
    ((sB).view.loc (thr d L) ↦{fullShare} f : sProp 𝕄)
      = bigSep (Finset.Ico 0 4) fun b => ((sB).view.loc (thr d L) ↦[(slotM b).view.set]{fullShare} f : sProp 𝕄) := by
  rw [slots_split d L f, Finset.range_eq_Ico]
theorem wins_open (f : Buf (Elt F) ((oV).view.loc (thr d L))) :
    ((oV).view.loc (thr d L) ↦[oRowSet (widL L)]{fullShare} f : sProp 𝕄)
      = bigSep (Finset.Ico 0 200) fun j => ((oV).view.loc (thr d L) ↦[(winM L j).view.set]{fullShare} f : sProp 𝕄) := by
  rw [wins_split d L f, Finset.range_eq_Ico]

/-- A points-to over two spellings of one set of elements. -/
theorem pts_set_congr {ℓ : Loc nD τ sig} {S S' : Finset (Idx ℓ)} (h : S = S') (f : Buf (Elt F) ℓ) :
    (ℓ ↦[S]{fullShare} f : sProp 𝕄) = ℓ ↦[S']{fullShare} f := by rw [h]
/-- The first and last windows' elements, in the two spellings. -/
theorem winP2_set (r : Fin 8) : (winP2 L r).view.set = (winM L (if r.val < 4 then r.val else 192 + r.val)).view.set :=
  eq_of_heq (congr_arg_heq (fun M : Memref sig .scVector .hbm S128x128 .f32 => M.view.set) (winP2_eq L r))
theorem winP6_set (k : Fin k1_t1_loop.trips) (r : Fin 4) : (winP6 L k r).view.set = (winM L (4 * k.val + r.val + 4)).view.set :=
  eq_of_heq (congr_arg_heq (fun M : Memref sig .scVector .hbm S128x128 .f32 => M.view.set) (winP6_eq L k r))
theorem rowP5_set (k : Fin k1_t1_loop.trips) (r : Fin 4) : (rowP5 k r).view.set = (rowM (4 * k.val + r.val + 6)).view.set :=
  eq_of_heq (congr_arg_heq (fun M : Memref sig .scVector .vmem S128 .i32 => M.view.set) (rowP5_eq k r))

/-! ## The program's slices, by their offsets -/

abbrev rowO (off : Fin 2 → ℕ) (h : ∀ a, off a + S1x128.size a ≤ S200x128.size a) : Memref sig .scVector .vmem S128 .i32 :=
  ((sI).slice (Rect.unit (s := S200x128) off S1x128.size h) (fun _ => rfl)).squeeze S128 squeezes_S1x128_S128
abbrev slotO (off : Fin 3 → ℕ) (h : ∀ a, off a + S1x128x128.size a ≤ S4x128x128.size a) : Memref sig .scVector .vmem S128x128 .f32 :=
  ((sB).slice (Rect.unit (s := S4x128x128) off S1x128x128.size h) (fun _ => rfl)).squeeze S128x128 squeezes_S1x128x128_S128x128
abbrev winO (off : Fin 2 → ℕ) (h : ∀ a, off a + S128x128.size a ≤ S819200x128.size a) : Memref sig .scVector .hbm S128x128 .f32 :=
  (oV).slice (Rect.unit (s := S819200x128) off S128x128.size h) (fun _ => rfl)

theorem off2_eq' (r : Fin 8) :
    k1_off2 L (k1_off2_at r) = ![base L + 128 * min (if r.val < 4 then r.val else 192 + r.val) 199, 0] := by
  have h : (if r.val < 4 then r.val else 192 + r.val) ≤ 199 := by have := r.isLt; split <;> omega
  rw [off2_eq, base_eq, Nat.min_eq_left h]
theorem off6_eq' (k : Fin k1_t1_loop.trips) (r : Fin 4) :
    k1_off6 L k (BitVec.ofNat 32 r.val) = ![base L + 128 * min (4 * k.val + r.val + 4) 199, 0] := by
  have hk := trip_lt k
  have hr := r.isLt
  rw [k1_off6_eq L k r, base_eq, Nat.min_eq_left (by omega)]
  rw [show 51200 * (L 1).val + 25600 * (L 0).val + 512 * k.val + 128 * r.val + 512 = 51200 * (L 1).val + 25600 * (L 0).val + 128 * (4 * k.val + r.val + 4) by omega]
theorem off5_eq' (k : Fin k1_t1_loop.trips) (r : Fin 4) :
    k1_off5 k (BitVec.ofNat 32 r.val) = ![min (4 * k.val + r.val + 6) 199, 0] := by
  have hk := trip_lt k
  have hr := r.isLt
  rw [k1_off5_eq k r, Nat.min_eq_left (by omega)]

/-- A slice at an offset that is a piece's offset has the piece's elements. -/
theorem rowO_set (j : ℕ) (off : Fin 2 → ℕ) (h : ∀ a, off a + S1x128.size a ≤ S200x128.size a) (e : off = ![min j 199, 0]) :
    (rowO off h).view.set = (rowM j).view.set := by subst e; rfl
theorem slotO_set (b : ℕ) (off : Fin 3 → ℕ) (h : ∀ a, off a + S1x128x128.size a ≤ S4x128x128.size a) (e : off = ![min b 3, 0, 0]) :
    (slotO off h).view.set = (slotM b).view.set := by subst e; rfl
theorem winO_set (j : ℕ) (off : Fin 2 → ℕ) (h : ∀ a, off a + S128x128.size a ≤ S819200x128.size a) (e : off = ![base L + 128 * min j 199, 0]) :
    (winO off h).view.set = (winM L j).view.set := by subst e; rfl

/-- A piece, held, in the program's spelling of it (location and elements both through the program's slice). -/
theorem slot_prog (b : ℕ) (off : Fin 3 → ℕ) (h : ∀ a, off a + S1x128x128.size a ≤ S4x128x128.size a) (e : off = ![min b 3, 0, 0])
    (g : Buf (Elt F) ((sB).view.loc (thr d L))) :
    (slotPts d L b g : sProp 𝕄) = ((slotO off h).view.loc (thr d L) ↦[(slotO off h).view.set]{fullShare} g) := by subst e; rfl
theorem row_prog (fi : Buf (Elt F) ((iRowK L).view.loc (thr d L))) (fs : Buf (Elt F) ((sI).view.loc (thr d L)))
    (j : ℕ) (off : Fin 2 → ℕ) (h : ∀ a, off a + S1x128.size a ≤ S200x128.size a) (e : off = ![min j 199, 0]) :
    (rowPts d L fi fs j : sProp 𝕄) = ((rowO off h).view.loc (thr d L) ↦[(rowO off h).view.set]{fullShare} fIof d L fi fs) := by subst e; rfl
theorem win_prog (j : ℕ) (off : Fin 2 → ℕ) (h : ∀ a, off a + S128x128.size a ≤ S819200x128.size a) (e : off = ![base L + 128 * min j 199, 0])
    (f : Buf (Elt F) ((oV).view.loc (thr d L))) :
    (winPts d L j f : sProp 𝕄) = ((winO off h).view.loc (thr d L) ↦[(winO off h).view.set]{fullShare} f) := by subst e; rfl

/-- A read token's lent piece is the whole token: the tile's slice of the table is the whole table. -/
theorem tok_back (q : PosShare TreeShare) (ft : Buf (Elt F) ((tV).view.loc (thr d L))) (b : ℕ) :
    (tokLent d L q ft b : sProp 𝕄) = tokPts d L q ft b := by
  unfold tokLent tokPts; rw [tAll_set]

/-- The two deliveries, unfolded. -/
theorem SD_def (fi : Buf (Elt F) ((iRowK L).view.loc (thr d L))) (ft : Buf (Elt F) ((tV).view.loc (thr d L))) (b j : ℕ) :
    (SD d L fi ft b j : sProp 𝕄) = iprop(winPts d L j (outF fi ft) ∗ ∃ g, slotPts d L b g) := rfl
theorem GD_def (q : PosShare TreeShare) (fi : Buf (Elt F) ((iRowK L).view.loc (thr d L))) (ft : Buf (Elt F) ((tV).view.loc (thr d L)))
    (fs : Buf (Elt F) ((sI).view.loc (thr d L))) (b j : ℕ) :
    (GD d L q fi ft fs b j : sProp 𝕄)
      = iprop(((∃ g, slotPts d L b g ∗ ⌜(slotM b).view.read (Elt F) g = chunkVal fi ft L j⌝) ∗ rowPts d L fi fs j) ∗ tokLent d L q ft b) := rfl

section Deliveries

variable (q : PosShare TreeShare) (fi : Buf (Elt F) ((iRowK L).view.loc (thr d L))) (ft : Buf (Elt F) ((tV).view.loc (thr d L)))
  (fs : Buf (Elt F) ((sI).view.loc (thr d L))) (fo : Buf (Elt F) ((oV).view.loc (thr d L)))

/-- A slot whose last write is the gather of list `j` reads as chunk `j`. -/
theorem slot_val (b j : ℕ) (g : Buf (Elt F) ((sB).view.loc (thr d L))) (rest : List (View.Piece (Elt F) S128x128 .f32))
    (hn : S128.numel = S128x128.size gathers_S100000x128_S128x128.axis')
    (hin : ∀ x, ((rowM j).view.read (Elt F) (fIof d L fi fs) x).toNat < S100000x128.size gathers_S100000x128_S128x128.axis) :
    (slotM b).view.read (Elt F) ((slotM b).view.writes (Elt F) g
        (⟨Rect.whole S128x128, SparseCore.gatherPayload gathers_S100000x128_S128x128 ((tAll).view.read (Elt F) ft)
          (SparseCore.rows ((rowM j).view.read (Elt F) (fIof d L fi fs)) hn hin)⟩ :: rest))
      = chunkVal fi ft L j := by
  funext x
  have h := View.read_writes_cons_emb (slotM b).view g (Rect.whole S128x128)
    (SparseCore.gatherPayload gathers_S100000x128_S128x128 ((tAll).view.read (Elt F) ft) (SparseCore.rows ((rowM j).view.read (Elt F) (fIof d L fi fs)) hn hin)) rest x
  rw [whole_emb x] at h
  exact h.trans (congrFun (gather_val d L j fi ft fs hn hin) x)

theorem slot_valO (b j : ℕ) (offS : Fin 3 → ℕ) (hS : ∀ a, offS a + S1x128x128.size a ≤ S4x128x128.size a)
    (offR : Fin 2 → ℕ) (hR : ∀ a, offR a + S1x128.size a ≤ S200x128.size a)
    (eS : offS = ![min b 3, 0, 0]) (eR : offR = ![min j 199, 0])
    (g : Buf (Elt F) ((sB).view.loc (thr d L))) (rest : List (View.Piece (Elt F) S128x128 .f32))
    (hn : S128.numel = S128x128.size gathers_S100000x128_S128x128.axis')
    (hin : ∀ x, ((rowO offR hR).view.read (Elt F) (fIof d L fi fs) x).toNat < S100000x128.size gathers_S100000x128_S128x128.axis) :
    (slotM b).view.read (Elt F) ((slotO offS hS).view.writes (Elt F) g
        (⟨Rect.whole S128x128, SparseCore.gatherPayload gathers_S100000x128_S128x128 ((tAll).view.read (Elt F) ft)
          (SparseCore.rows ((rowO offR hR).view.read (Elt F) (fIof d L fi fs)) hn hin)⟩ :: rest))
      = chunkVal fi ft L j := by
  subst eS eR; exact slot_val d L fi ft fs b j g rest hn hin

/-- What a gather started over the program's slices delivers is what the invariant says a gather delivers. -/
theorem gd_ofO (b j : ℕ) (offS : Fin 3 → ℕ) (hS : ∀ a, offS a + S1x128x128.size a ≤ S4x128x128.size a)
    (offR : Fin 2 → ℕ) (hR : ∀ a, offR a + S1x128.size a ≤ S200x128.size a) (tq : PosShare TreeShare)
    (eS : offS = ![min b 3, 0, 0]) (eR : offR = ![min j 199, 0]) (etq : tq = Transfers.shareTokN q (4 + b))
    (g : Buf (Elt F) ((sB).view.loc (thr d L))) (rest : List (View.Piece (Elt F) S128x128 .f32))
    (hn : S128.numel = S128x128.size gathers_S100000x128_S128x128.axis')
    (hin : ∀ x, ((rowO offR hR).view.read (Elt F) (fIof d L fi fs) x).toNat < S100000x128.size gathers_S100000x128_S128x128.axis) :
    iprop((((slotO offS hS).view.loc (thr d L) ↦[(slotO offS hS).view.set]{fullShare} (slotO offS hS).view.writes (Elt F) g
          (⟨Rect.whole S128x128, SparseCore.gatherPayload gathers_S100000x128_S128x128 ((tAll).view.read (Elt F) ft)
            (SparseCore.rows ((rowO offR hR).view.read (Elt F) (fIof d L fi fs)) hn hin)⟩ :: rest))
        ∗ ((rowO offR hR).view.loc (thr d L) ↦[(rowO offR hR).view.set]{fullShare} fIof d L fi fs))
        ∗ ((tV).view.loc (thr d L) ↦[(tAll).view.set]{tq} ft))
      ⊢ GD d L q fi ft fs b j := by
  subst eS eR etq
  unfold GD
  iintro ⟨⟨Hs, Hr⟩, Ht⟩
  isplitl [Hs Hr]
  · isplitl [Hs]
    · iexists _; isplitl [Hs]; · iexact Hs
      ipureintro; exact slot_val d L fi ft fs b j g rest hn hin
    · iexact Hr
  · iexact Ht

/-- A window a slot holding chunk `j` was copied to holds the output there. -/
theorem win_doneO (b j : ℕ) (hj : j < 200) (offW : Fin 2 → ℕ) (hW : ∀ a, offW a + S128x128.size a ≤ S819200x128.size a)
    (eW : offW = ![base L + 128 * min j 199, 0])
    (fd : Buf (Elt F) ((oV).view.loc (thr d L))) (g : Buf (Elt F) ((sB).view.loc (thr d L)))
    (hg : (slotM b).view.read (Elt F) g = chunkVal fi ft L j) :
    ((winO offW hW).view.loc (thr d L) ↦[(winO offW hW).view.set]{fullShare} (winO offW hW).view.writes (Elt F) fd [⟨Rect.whole S128x128, ReadAs.same.apply ((slotM b).view.read (Elt F) g)⟩] : sProp 𝕄)
      = winPts d L j (outF fi ft) := by
  subst eW
  exact pointsTo_congr (win_write_val d L b j hj fi ft fd g hg)

/-- What a copy out started over the program's slices delivers is what the invariant says a copy out delivers. -/
theorem sd_ofO (b j : ℕ) (hj : j < 200) (offW : Fin 2 → ℕ) (hW : ∀ a, offW a + S128x128.size a ≤ S819200x128.size a)
    (offS : Fin 3 → ℕ) (hS : ∀ a, offS a + S1x128x128.size a ≤ S4x128x128.size a)
    (eW : offW = ![base L + 128 * min j 199, 0]) (eS : offS = ![min b 3, 0, 0])
    (fd : Buf (Elt F) ((oV).view.loc (thr d L))) (g : Buf (Elt F) ((sB).view.loc (thr d L)))
    (hg : (slotM b).view.read (Elt F) g = chunkVal fi ft L j) :
    iprop(((winO offW hW).view.loc (thr d L) ↦[(winO offW hW).view.set]{fullShare} (winO offW hW).view.writes (Elt F) fd [⟨Rect.whole S128x128, ReadAs.same.apply ((slotO offS hS).view.read (Elt F) g)⟩])
        ∗ ((slotO offS hS).view.loc (thr d L) ↦[(slotO offS hS).view.set]{fullShare} g))
      ⊢ SD d L fi ft b j := by
  subst eS
  unfold SD
  rw [win_doneO d L fi ft b j hj offW hW eW fd g hg]
  iintro ⟨Hw, Hs⟩
  isplitl [Hw]; · iexact Hw
  iexists g; iexact Hs

end Deliveries

/-- One more wait recorded at the tile's own index keeps the record of waits of the shape the launch asks. -/
theorem ins_ok (s : SemLoc sig) (W0 W : Waits sig (HIx 1)) (h : ∀ p ∈ W0, p ∈ W ∨ p.2 = none) :
    ∀ p ∈ insert (s, (default : HIx 1)) W0, p ∈ W ∨ p.2 = none := by
  intro p hp
  rcases Finset.mem_insert.mp hp with hp | hp
  · exact .inr (hp ▸ rfl)
  · exact h p hp

/-- Four pieces as a run of four. -/
theorem Ico_four_intro (A : ℕ → sProp 𝕄) : iprop(A 0 ∗ A 1 ∗ A 2 ∗ A 3) ⊢ bigSep (Finset.Ico 0 4) A := by
  rw [Ico_peel 0 1 4 (by omega) rfl, Ico_peel 1 2 4 (by omega) rfl, Ico_peel 2 3 4 (by omega) rfl, Ico_peel 3 4 4 (by omega) rfl, Ico_nil]
  iintro ⟨H0, H1, H2, H3⟩
  isplitl [H0]; · iexact H0
  isplitl [H1]; · iexact H1
  isplitl [H2]; · iexact H2
  isplitl [H3]; · iexact H3
  iempintro
theorem Ico_two_intro (A : ℕ → sProp 𝕄) : iprop(A 0 ∗ A 1) ⊢ bigSep (Finset.Ico 0 2) A := by
  rw [Ico_peel 0 1 2 (by omega) rfl, Ico_peel 1 2 2 (by omega) rfl, Ico_nil]
  iintro ⟨H0, H1⟩
  isplitl [H0]; · iexact H0
  isplitl [H1]; · iexact H1
  iempintro

end Cert.Proof.KB

end
-- ==== Proof.KBTileClose.lean ====
/-
  The tile's closing step: once every window holds its rows of the output and every transfer has landed, the pieces the tile
  holds are put back together.  The 200 windows are the tile's block of the output; the 200 lists are the word scratch; the
  four slots, whatever they hold, are the row scratch; and the eight read tokens taken off the tile's share of the table,
  with what remained of the share, are the share again.
-/
import proofs.«217237_g17617955848579_cont_7to1_1664_16_alg».proof.Proof.KBTileLemmas

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid1.Coords)

/-- The pieces put back together.  A share `q` of the table with `k` read tokens taken off it is `shareDrop q k`, and
    token `k` together with `shareDrop q (k + 1)` is `shareDrop q k`: the tokens are given back from the last, token 7,
    down to token 0, which with `shareDrop q 1` is `q` itself.  Tokens 4 to 7 are the ones the four slots' gathers held. -/
theorem tile_close (q : PosShare TreeShare) (fi : Buf (Elt F) ((iRowK L).view.loc (thr d L))) (ft : Buf (Elt F) ((tV).view.loc (thr d L)))
    (fs : Buf (Elt F) ((sI).view.loc (thr d L))) (g0 g1 g2 g3 : Buf (Elt F) ((sB).view.loc (thr d L))) :
    iprop(bigSep (Finset.Ico 0 200) (fun j => winPts d L j (outF fi ft)) ∗ bigSep (Finset.Ico 0 200) (fun j => rowPts d L fi fs j)
        ∗ slotPts d L 0 g0 ∗ slotPts d L 1 g1 ∗ slotPts d L 2 g2 ∗ slotPts d L 3 g3
        ∗ ((tV).view.loc (thr d L) ↦{Transfers.shareDrop q 8} ft)
        ∗ ((tV).view.loc (thr d L) ↦{Transfers.shareTokN q 0} ft) ∗ ((tV).view.loc (thr d L) ↦{Transfers.shareTokN q 1} ft)
        ∗ ((tV).view.loc (thr d L) ↦{Transfers.shareTokN q 2} ft) ∗ ((tV).view.loc (thr d L) ↦{Transfers.shareTokN q 3} ft)
        ∗ tokPts d L q ft 0 ∗ tokPts d L q ft 1 ∗ tokPts d L q ft 2 ∗ tokPts d L q ft 3)
      ⊢ (iprop(((oV).view.loc (thr d L) ↦[oRowSet (widL L)]{fullShare} outF fi ft) ∗ ((tV).view.loc (thr d L) ↦{q} ft)
          ∗ (∃ f, (sI).view.loc (thr d L) ↦{fullShare} f) ∗ (∃ f, (sB).view.loc (thr d L) ↦{fullShare} f)) : sProp 𝕄) := by
  rw [← wins_open d L (outF fi ft), ← rows_open d L (fIof d L fi fs)]
  iintro ⟨Hw, Hr, S0, S1, S2, S3, Hd, T0, T1, T2, T3, P0, P1, P2, P3⟩
  ihave D7 := (tok_step' q ft (4 + 3) 8 rfl).2 $$ [Hd P3]; · isplitl [Hd] <;> iassumption
  ihave D6 := (tok_step' q ft (4 + 2) (4 + 3) rfl).2 $$ [D7 P2]; · isplitl [D7] <;> iassumption
  ihave D5 := (tok_step' q ft (4 + 1) (4 + 2) rfl).2 $$ [D6 P1]; · isplitl [D6] <;> iassumption
  ihave D4 := (tok_step' q ft (4 + 0) (4 + 1) rfl).2 $$ [D5 P0]; · isplitl [D5] <;> iassumption
  ihave D3 := (tok_step' q ft 3 (4 + 0) rfl).2 $$ [D4 T3]; · isplitl [D4] <;> iassumption
  ihave D2 := (tok_step' q ft 2 3 rfl).2 $$ [D3 T2]; · isplitl [D3] <;> iassumption
  ihave D1 := (tok_step' q ft 1 2 rfl).2 $$ [D2 T1]; · isplitl [D2] <;> iassumption
  ihave Dq := (tok_step0 q ft).2 $$ [D1 T0]; · isplitl [D1] <;> iassumption
  ihave Hb := (slots_join d L g0 g1 g2 g3) $$ [S0 S1 S2 S3]
  · isplitl [S0]; · iexact S0
    isplitl [S1]; · iexact S1
    isplitl [S2]; · iexact S2
    iexact S3
  isplitl [Hw]; · iexact Hw
  isplitl [Dq]; · iexact Dq
  isplitl [Hr]; · iexists (fIof d L fi fs); iexact Hr
  iexact Hb

end Cert.Proof.KB

end
-- ==== Proof.KBTileCore.lean ====
/-
  One tile's run of the gather body, from its pieces held outright to its output block holding its rows of the output.
-/
import proofs.«217237_g17617955848579_cont_7to1_1664_16_alg».proof.Proof.KBTileLemmas
import proofs.«217237_g17617955848579_cont_7to1_1664_16_alg».proof.Proof.KBTileClose

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid1.Coords)

/-- The tile's first output row, as the program computes it. -/
abbrev v2of (L : grid1.Coords) : BitVec 32 :=
  Scalar.muli (Scalar.addi (Scalar.muli (BitVec.ofNat 32 (L 1).val) 2#32) (BitVec.ofNat 32 (L 0).val)) 25600#32

set_option maxHeartbeats 4000000 in
/-- One trip of the loop: from what the tile holds before trip `k` to what it holds before trip `k + 1`. Four times over
    (slot `r = 0 … 3`): the copy out of slot `r + 2` lands, so window `4k + r + 2` holds its rows of the output; list
    `4k + r + 6` is gathered into that slot; the gather into slot `r` lands, so the slot holds chunk `4k + r + 4`; the slot is
    copied to window `4k + r + 4`. -/
theorem trip (q : PosShare TreeShare) (fi : Buf (Elt F) ((iRowK L).view.loc (thr d L))) (ft : Buf (Elt F) ((tV).view.loc (thr d L)))
    (fo : Buf (Elt F) ((oV).view.loc (thr d L))) (fs : Buf (Elt F) ((sI).view.loc (thr d L)))
    (hpre : ∀ x, (fi x).toNat < 100000) (O : CellTallies nD τ sig (HIx 1)) (W : Waits sig (HIx 1))
    (k : Fin k1_t1_loop.trips) (acc : Unit) :
    Inv d L q fi ft fs fo O W k.val acc
      ⊢ wp frame (wpE (defs₀ (F := F)) 𝒱₀ (thr d L) none) Set.univ
          (k1_t1_body L iV (Memref.isWhole_whole _) tV (Memref.isWhole_whole _) oV (Memref.isWhole_whole _)
            sI (Memref.isWhole_whole _) sB (Memref.isWhole_whole _) cc1_scratch2 cc1_scratch3 cc1_scoped0 (v2of L) 1#32 1#32 k acc)
          (Inv d L q fi ft fs fo O W (k.val + 1)) := by
  have hin := lists_inb d L fi hpre
  have hk := trip_lt k
  unfold Inv
  iintro ⟨#Hmw, Hi, HG0, HG1, HS2, HS3, Ht2, Ht3, Hrd, Hrt, Hwd, Hwt, H6, H7, H8, H9, H12, ⟨%W', %hW', HO⟩⟩
  unfold k1_t1_body
  rw [k1_part5_eq_skeleton]; unfold k1_part5_skel
  rw [k1_part1_eq_skeleton, k1_part2_eq_skeleton, k1_part3_eq_skeleton, k1_part4_eq_skeleton]
  unfold k1_part1_skel k1_part2_skel k1_part3_skel k1_part4_skel
  sl_exec

  -- sub-step 0: the copy out of slot 2 has landed (window 4k+2 holds its rows of the output)
  ihave Hfl := (Entails.of_eq (show SF d L fi ft 2 (4 * k.val + 2) = Transfers.Flight countersEmb (thr d L) (.dma s2) (default : HIx 1) NC (SD d L fi ft 2 (4 * k.val + 2)) from rfl)) $$ HS2
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s2)) $$ Hmw
  iintro ⟨HD, H10, HO⟩
  ihave HD := (Entails.of_eq (show SD d L fi ft 2 (4 * k.val + 2) = iprop(winPts d L (4 * k.val + 2) (outF fi ft) ∗ ∃ g, slotPts d L 2 g) from rfl)) $$ HD
  icases HD with ⟨Hwn0, %gb0, Hsl2⟩
  -- list 4k+6 is gathered into slot 2
  ihave X := (Entails.of_eq (Ico_peel (4 * k.val + 6) (4 * k.val + 7) 200 (by omega) rfl _)) $$ Hrt; icases X with ⟨Hrow, Hrt⟩
  ihave Hrow := (Entails.of_eq (row_prog d L fi fs (4 * k.val + 6) (k1_off5 k 0#32) (k1_off5_inb k 0) (off5_eq' k 0))) $$ Hrow
  ihave Hsl2 := (Entails.of_eq (slot_prog d L 2 ![2, 0, 0] inb_S4x128x128_S1x128x128_2_0_0 rfl gb0)) $$ Hsl2
  sl_exec
  sl_unfold_run_names
  ihave HG2 : (GF d L q fi ft fs 2 (4 * k.val + 6)) $$ [H6]
  · unfold GF
    iapply (Transfers.Flight_mono (Lvl := ℕ) countersEmb (thr d L) (gd_ofO d L q fi ft fs 2 (4 * k.val + 6) ![2, 0, 0] inb_S4x128x128_S1x128x128_2_0_0 (k1_off5 k 0#32) (k1_off5_inb k 0) (Transfers.shareTokN q (4 + 2)) rfl (off5_eq' k 0) rfl _ _ _ _))
    iexact H6
  iclear Ht2
  -- the gather into slot 0 has landed: the slot holds chunk 4k+4
  ihave Hfl := (Entails.of_eq (show GF d L q fi ft fs 0 (4 * k.val + 4) = Transfers.Flight countersEmb (thr d L) (.dma g0) (default : HIx 1) NC (GD d L q fi ft fs 0 (4 * k.val + 4)) from rfl)) $$ HG0
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g0)) $$ Hmw
  iintro ⟨HD, H4, HO⟩
  ihave HD := (Entails.of_eq (show GD d L q fi ft fs 0 (4 * k.val + 4) = iprop(((∃ g, slotPts d L 0 g ∗ ⌜(slotM 0).view.read (Elt F) g = chunkVal fi ft L (4 * k.val + 4)⌝) ∗ rowPts d L fi fs (4 * k.val + 4)) ∗ tokLent d L q ft 0) from rfl)) $$ HD
  icases HD with ⟨⟨⟨%gv0, Hsl0, %hv0⟩, Hrb0⟩, Htl0⟩
  ihave Ht0 := (Entails.of_eq (show (tokLent d L q ft 0 : sProp 𝕄) = tokPts d L q ft 0 from by unfold tokLent tokPts; rw [tAll_set])) $$ Htl0
  -- slot 0 is copied to window 4k+4
  ihave X := (Entails.of_eq (Ico_peel (4 * k.val + 4) (4 * k.val + 5) 200 (by omega) rfl _)) $$ Hwt; icases X with ⟨Hwin, Hwt⟩
  ihave Hwin := (Entails.of_eq (win_prog d L (4 * k.val + 4) (k1_off6 L k 0#32) (k1_off6_inb L k 0) (off6_eq' L k 0) fo)) $$ Hwin
  ihave Hsl0 := (Entails.of_eq (slot_prog d L 0 ![0, 0, 0] inb_S4x128x128_S1x128x128_0_0_0 rfl gv0)) $$ Hsl0
  sl_exec
  sl_unfold_run_names
  ihave HS0 : (SF d L fi ft 0 (4 * k.val + 4)) $$ [H8]
  · unfold SF
    iapply (Transfers.Flight_mono (Lvl := ℕ) countersEmb (thr d L) (sd_ofO d L fi ft 0 (4 * k.val + 4) (by omega) (k1_off6 L k 0#32) (k1_off6_inb L k 0) ![0, 0, 0] inb_S4x128x128_S1x128x128_0_0_0 (off6_eq' L k 0) rfl _ _ hv0))
    iexact H8

  -- sub-step 1: the copy out of slot 3 has landed (window 4k+3 holds its rows of the output)
  ihave Hfl := (Entails.of_eq (show SF d L fi ft 3 (4 * k.val + 3) = Transfers.Flight countersEmb (thr d L) (.dma s3) (default : HIx 1) NC (SD d L fi ft 3 (4 * k.val + 3)) from rfl)) $$ HS3
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s3)) $$ Hmw
  iintro ⟨HD, H11, HO⟩
  ihave HD := (Entails.of_eq (show SD d L fi ft 3 (4 * k.val + 3) = iprop(winPts d L (4 * k.val + 3) (outF fi ft) ∗ ∃ g, slotPts d L 3 g) from rfl)) $$ HD
  icases HD with ⟨Hwn1, %gb1, Hsl3⟩
  -- list 4k+7 is gathered into slot 3
  ihave X := (Entails.of_eq (Ico_peel (4 * k.val + 7) (4 * k.val + 8) 200 (by omega) rfl _)) $$ Hrt; icases X with ⟨Hrow, Hrt⟩
  ihave Hrow := (Entails.of_eq (row_prog d L fi fs (4 * k.val + 7) (k1_off5 k 1#32) (k1_off5_inb k 1) (off5_eq' k 1))) $$ Hrow
  ihave Hsl3 := (Entails.of_eq (slot_prog d L 3 ![3, 0, 0] inb_S4x128x128_S1x128x128_3_0_0 rfl gb1)) $$ Hsl3
  sl_exec
  sl_unfold_run_names
  ihave HG3 : (GF d L q fi ft fs 3 (4 * k.val + 7)) $$ [H7]
  · unfold GF
    iapply (Transfers.Flight_mono (Lvl := ℕ) countersEmb (thr d L) (gd_ofO d L q fi ft fs 3 (4 * k.val + 7) ![3, 0, 0] inb_S4x128x128_S1x128x128_3_0_0 (k1_off5 k 1#32) (k1_off5_inb k 1) (Transfers.shareTokN q (4 + 3)) rfl (off5_eq' k 1) rfl _ _ _ _))
    iexact H7
  iclear Ht3
  -- the gather into slot 1 has landed: the slot holds chunk 4k+5
  ihave Hfl := (Entails.of_eq (show GF d L q fi ft fs 1 (4 * k.val + 5) = Transfers.Flight countersEmb (thr d L) (.dma g1) (default : HIx 1) NC (GD d L q fi ft fs 1 (4 * k.val + 5)) from rfl)) $$ HG1
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g1)) $$ Hmw
  iintro ⟨HD, H5, HO⟩
  ihave HD := (Entails.of_eq (show GD d L q fi ft fs 1 (4 * k.val + 5) = iprop(((∃ g, slotPts d L 1 g ∗ ⌜(slotM 1).view.read (Elt F) g = chunkVal fi ft L (4 * k.val + 5)⌝) ∗ rowPts d L fi fs (4 * k.val + 5)) ∗ tokLent d L q ft 1) from rfl)) $$ HD
  icases HD with ⟨⟨⟨%gv1, Hsl1, %hv1⟩, Hrb1⟩, Htl1⟩
  ihave Ht1 := (Entails.of_eq (show (tokLent d L q ft 1 : sProp 𝕄) = tokPts d L q ft 1 from by unfold tokLent tokPts; rw [tAll_set])) $$ Htl1
  -- slot 1 is copied to window 4k+5
  ihave X := (Entails.of_eq (Ico_peel (4 * k.val + 5) (4 * k.val + 6) 200 (by omega) rfl _)) $$ Hwt; icases X with ⟨Hwin, Hwt⟩
  ihave Hwin := (Entails.of_eq (win_prog d L (4 * k.val + 5) (k1_off6 L k 1#32) (k1_off6_inb L k 1) (off6_eq' L k 1) fo)) $$ Hwin
  ihave Hsl1 := (Entails.of_eq (slot_prog d L 1 ![1, 0, 0] inb_S4x128x128_S1x128x128_1_0_0 rfl gv1)) $$ Hsl1
  sl_exec
  sl_unfold_run_names
  ihave HS1 : (SF d L fi ft 1 (4 * k.val + 5)) $$ [H9]
  · unfold SF
    iapply (Transfers.Flight_mono (Lvl := ℕ) countersEmb (thr d L) (sd_ofO d L fi ft 1 (4 * k.val + 5) (by omega) (k1_off6 L k 1#32) (k1_off6_inb L k 1) ![1, 0, 0] inb_S4x128x128_S1x128x128_1_0_0 (off6_eq' L k 1) rfl _ _ hv1))
    iexact H9

  -- sub-step 2: the copy out of slot 0 has landed (window 4k+4 holds its rows of the output)
  ihave Hfl := (Entails.of_eq (show SF d L fi ft 0 (4 * k.val + 4) = Transfers.Flight countersEmb (thr d L) (.dma s0) (default : HIx 1) NC (SD d L fi ft 0 (4 * k.val + 4)) from rfl)) $$ HS0
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s0)) $$ Hmw
  iintro ⟨HD, H8, HO⟩
  ihave HD := (Entails.of_eq (show SD d L fi ft 0 (4 * k.val + 4) = iprop(winPts d L (4 * k.val + 4) (outF fi ft) ∗ ∃ g, slotPts d L 0 g) from rfl)) $$ HD
  icases HD with ⟨Hwn2, %gb2, Hsl0⟩
  -- list 4k+8 is gathered into slot 0
  ihave X := (Entails.of_eq (Ico_peel (4 * k.val + 8) (4 * k.val + 9) 200 (by omega) rfl _)) $$ Hrt; icases X with ⟨Hrow, Hrt⟩
  ihave Hrow := (Entails.of_eq (row_prog d L fi fs (4 * k.val + 8) (k1_off5 k 2#32) (k1_off5_inb k 2) (off5_eq' k 2))) $$ Hrow
  ihave Hsl0 := (Entails.of_eq (slot_prog d L 0 ![0, 0, 0] inb_S4x128x128_S1x128x128_0_0_0 rfl gb2)) $$ Hsl0
  sl_exec
  sl_unfold_run_names
  ihave HG0 : (GF d L q fi ft fs 0 (4 * k.val + 8)) $$ [H4]
  · unfold GF
    iapply (Transfers.Flight_mono (Lvl := ℕ) countersEmb (thr d L) (gd_ofO d L q fi ft fs 0 (4 * k.val + 8) ![0, 0, 0] inb_S4x128x128_S1x128x128_0_0_0 (k1_off5 k 2#32) (k1_off5_inb k 2) (Transfers.shareTokN q (4 + 0)) rfl (off5_eq' k 2) rfl _ _ _ _))
    iexact H4
  iclear Ht0
  -- the gather into slot 2 has landed: the slot holds chunk 4k+6
  ihave Hfl := (Entails.of_eq (show GF d L q fi ft fs 2 (4 * k.val + 6) = Transfers.Flight countersEmb (thr d L) (.dma g2) (default : HIx 1) NC (GD d L q fi ft fs 2 (4 * k.val + 6)) from rfl)) $$ HG2
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g2)) $$ Hmw
  iintro ⟨HD, H6, HO⟩
  ihave HD := (Entails.of_eq (show GD d L q fi ft fs 2 (4 * k.val + 6) = iprop(((∃ g, slotPts d L 2 g ∗ ⌜(slotM 2).view.read (Elt F) g = chunkVal fi ft L (4 * k.val + 6)⌝) ∗ rowPts d L fi fs (4 * k.val + 6)) ∗ tokLent d L q ft 2) from rfl)) $$ HD
  icases HD with ⟨⟨⟨%gv2, Hsl2, %hv2⟩, Hrb2⟩, Htl2⟩
  ihave Ht2 := (Entails.of_eq (show (tokLent d L q ft 2 : sProp 𝕄) = tokPts d L q ft 2 from by unfold tokLent tokPts; rw [tAll_set])) $$ Htl2
  -- slot 2 is copied to window 4k+6
  ihave X := (Entails.of_eq (Ico_peel (4 * k.val + 6) (4 * k.val + 7) 200 (by omega) rfl _)) $$ Hwt; icases X with ⟨Hwin, Hwt⟩
  ihave Hwin := (Entails.of_eq (win_prog d L (4 * k.val + 6) (k1_off6 L k 2#32) (k1_off6_inb L k 2) (off6_eq' L k 2) fo)) $$ Hwin
  ihave Hsl2 := (Entails.of_eq (slot_prog d L 2 ![2, 0, 0] inb_S4x128x128_S1x128x128_2_0_0 rfl gv2)) $$ Hsl2
  sl_exec
  sl_unfold_run_names
  ihave HS2 : (SF d L fi ft 2 (4 * k.val + 6)) $$ [H10]
  · unfold SF
    iapply (Transfers.Flight_mono (Lvl := ℕ) countersEmb (thr d L) (sd_ofO d L fi ft 2 (4 * k.val + 6) (by omega) (k1_off6 L k 2#32) (k1_off6_inb L k 2) ![2, 0, 0] inb_S4x128x128_S1x128x128_2_0_0 (off6_eq' L k 2) rfl _ _ hv2))
    iexact H10

  -- sub-step 3: the copy out of slot 1 has landed (window 4k+5 holds its rows of the output)
  ihave Hfl := (Entails.of_eq (show SF d L fi ft 1 (4 * k.val + 5) = Transfers.Flight countersEmb (thr d L) (.dma s1) (default : HIx 1) NC (SD d L fi ft 1 (4 * k.val + 5)) from rfl)) $$ HS1
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s1)) $$ Hmw
  iintro ⟨HD, H9, HO⟩
  ihave HD := (Entails.of_eq (show SD d L fi ft 1 (4 * k.val + 5) = iprop(winPts d L (4 * k.val + 5) (outF fi ft) ∗ ∃ g, slotPts d L 1 g) from rfl)) $$ HD
  icases HD with ⟨Hwn3, %gb3, Hsl1⟩
  -- list 4k+9 is gathered into slot 1
  ihave X := (Entails.of_eq (Ico_peel (4 * k.val + 9) (4 * k.val + 10) 200 (by omega) rfl _)) $$ Hrt; icases X with ⟨Hrow, Hrt⟩
  ihave Hrow := (Entails.of_eq (row_prog d L fi fs (4 * k.val + 9) (k1_off5 k 3#32) (k1_off5_inb k 3) (off5_eq' k 3))) $$ Hrow
  ihave Hsl1 := (Entails.of_eq (slot_prog d L 1 ![1, 0, 0] inb_S4x128x128_S1x128x128_1_0_0 rfl gb3)) $$ Hsl1
  sl_exec
  sl_unfold_run_names
  ihave HG1 : (GF d L q fi ft fs 1 (4 * k.val + 9)) $$ [H5]
  · unfold GF
    iapply (Transfers.Flight_mono (Lvl := ℕ) countersEmb (thr d L) (gd_ofO d L q fi ft fs 1 (4 * k.val + 9) ![1, 0, 0] inb_S4x128x128_S1x128x128_1_0_0 (k1_off5 k 3#32) (k1_off5_inb k 3) (Transfers.shareTokN q (4 + 1)) rfl (off5_eq' k 3) rfl _ _ _ _))
    iexact H5
  iclear Ht1
  -- the gather into slot 3 has landed: the slot holds chunk 4k+7
  ihave Hfl := (Entails.of_eq (show GF d L q fi ft fs 3 (4 * k.val + 7) = Transfers.Flight countersEmb (thr d L) (.dma g3) (default : HIx 1) NC (GD d L q fi ft fs 3 (4 * k.val + 7)) from rfl)) $$ HG3
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g3)) $$ Hmw
  iintro ⟨HD, H7, HO⟩
  ihave HD := (Entails.of_eq (show GD d L q fi ft fs 3 (4 * k.val + 7) = iprop(((∃ g, slotPts d L 3 g ∗ ⌜(slotM 3).view.read (Elt F) g = chunkVal fi ft L (4 * k.val + 7)⌝) ∗ rowPts d L fi fs (4 * k.val + 7)) ∗ tokLent d L q ft 3) from rfl)) $$ HD
  icases HD with ⟨⟨⟨%gv3, Hsl3, %hv3⟩, Hrb3⟩, Htl3⟩
  ihave Ht3 := (Entails.of_eq (show (tokLent d L q ft 3 : sProp 𝕄) = tokPts d L q ft 3 from by unfold tokLent tokPts; rw [tAll_set])) $$ Htl3
  -- slot 3 is copied to window 4k+7
  ihave X := (Entails.of_eq (Ico_peel (4 * k.val + 7) (4 * k.val + 8) 200 (by omega) rfl _)) $$ Hwt; icases X with ⟨Hwin, Hwt⟩
  ihave Hwin := (Entails.of_eq (win_prog d L (4 * k.val + 7) (k1_off6 L k 3#32) (k1_off6_inb L k 3) (off6_eq' L k 3) fo)) $$ Hwin
  ihave Hsl3 := (Entails.of_eq (slot_prog d L 3 ![3, 0, 0] inb_S4x128x128_S1x128x128_3_0_0 rfl gv3)) $$ Hsl3
  sl_exec
  sl_unfold_run_names
  ihave HS3 : (SF d L fi ft 3 (4 * k.val + 7)) $$ [H11]
  · unfold SF
    iapply (Transfers.Flight_mono (Lvl := ℕ) countersEmb (thr d L) (sd_ofO d L fi ft 3 (4 * k.val + 7) (by omega) (k1_off6 L k 3#32) (k1_off6_inb L k 3) ![3, 0, 0] inb_S4x128x128_S1x128x128_3_0_0 (off6_eq' L k 3) rfl _ _ hv3))
    iexact H11

  -- the trip is over: what is held is the invariant before trip k + 1
  rw [wp_ret]; imodintro
  rw [show 4 * (k.val + 1) + 4 = 4 * k.val + 8 from by omega, show 4 * (k.val + 1) + 5 = 4 * k.val + 9 from by omega,
    show 4 * (k.val + 1) + 2 = 4 * k.val + 6 from by omega, show 4 * (k.val + 1) + 3 = 4 * k.val + 7 from by omega,
    show 4 * (k.val + 1) + 6 = 4 * k.val + 10 from by omega]
  ihave Hrd : (bigSep (Finset.Ico 0 (4 * k.val + 8)) (fun j => rowPts d L fi fs j)) $$ [Hrd Hrb0 Hrb1 Hrb2 Hrb3]
  · rw [Ico_push 0 (4 * k.val + 7) (4 * k.val + 8) (by omega) rfl, Ico_push 0 (4 * k.val + 6) (4 * k.val + 7) (by omega) rfl,
      Ico_push 0 (4 * k.val + 5) (4 * k.val + 6) (by omega) rfl, Ico_push 0 (4 * k.val + 4) (4 * k.val + 5) (by omega) rfl]
    isplitl [Hrb3]; · iexact Hrb3
    isplitl [Hrb2]; · iexact Hrb2
    isplitl [Hrb1]; · iexact Hrb1
    isplitl [Hrb0]; · iexact Hrb0
    iexact Hrd
  ihave Hwd : (bigSep (Finset.Ico 0 (4 * k.val + 6)) (fun j => winPts d L j (outF fi ft))) $$ [Hwd Hwn0 Hwn1 Hwn2 Hwn3]
  · rw [Ico_push 0 (4 * k.val + 5) (4 * k.val + 6) (by omega) rfl, Ico_push 0 (4 * k.val + 4) (4 * k.val + 5) (by omega) rfl,
      Ico_push 0 (4 * k.val + 3) (4 * k.val + 4) (by omega) rfl, Ico_push 0 (4 * k.val + 2) (4 * k.val + 3) (by omega) rfl]
    isplitl [Hwn3]; · iexact Hwn3
    isplitl [Hwn2]; · iexact Hwn2
    isplitl [Hwn1]; · iexact Hwn1
    isplitl [Hwn0]; · iexact Hwn0
    iexact Hwd
  isplitr; · iexact Hmw
  isplitl [Hi]; · iexact Hi
  isplitl [HG0]; · iexact HG0
  isplitl [HG1]; · iexact HG1
  isplitl [HS2]; · iexact HS2
  isplitl [HS3]; · iexact HS3
  isplitl [Ht2]; · iexact Ht2
  isplitl [Ht3]; · iexact Ht3
  isplitl [Hrd]; · iexact Hrd
  isplitl [Hrt]; · iexact Hrt
  isplitl [Hwd]; · iexact Hwd
  isplitl [Hwt]; · iexact Hwt
  isplitl [H6]; · iexact H6
  isplitl [H7]; · iexact H7
  isplitl [H8]; · iexact H8
  isplitl [H9]; · iexact H9
  isplitl [H12]; · iexact H12
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-- The tile's body: from row `wid` of the reshaped tokens (every word below 100000), a read share of the table, the tile's
    block of the output, its two scratch buffers and its nine DMA semaphores at zero, to the block holding `outF`, everything
    else back. -/
theorem tile_core (q : PosShare TreeShare) (fi : Buf (Elt F) ((iRowK L).view.loc (thr d L))) (ft : Buf (Elt F) ((tV).view.loc (thr d L)))
    (fo : Buf (Elt F) ((oV).view.loc (thr d L))) (fs : Buf (Elt F) ((sI).view.loc (thr d L))) (fb : Buf (Elt F) ((sB).view.loc (thr d L)))
    (hpre : ∀ x, (fi x).toNat < 100000) (O : CellTallies nD τ sig (HIx 1)) (W : Waits sig (HIx 1)) :
    iprop((Transfers.MayWaits (thr d L) (default : HIx 1) O : sProp 𝕄)
        ∗ ((iRowK L).view.loc (thr d L) ↦[(iRowK L).view.set]{fullShare} fi)
        ∗ ((tV).view.loc (thr d L) ↦{q} ft)
        ∗ ((oV).view.loc (thr d L) ↦[oRowSet (widL L)]{fullShare} fo)
        ∗ ((sI).view.loc (thr d L) ↦{fullShare} fs)
        ∗ ((sB).view.loc (thr d L) ↦{fullShare} fb)
        ∗ semVal (cell d L g0) 0 ∗ semVal (cell d L g1) 0 ∗ semVal (cell d L g2) 0 ∗ semVal (cell d L g3) 0
        ∗ semVal (cell d L s0) 0 ∗ semVal (cell d L s1) 0 ∗ semVal (cell d L s2) 0 ∗ semVal (cell d L s3) 0 ∗ semVal (cell d L z0) 0
        ∗ owes (thr d L) O W)
      ⊢ wp frame (wpE (defs₀ (F := F)) 𝒱₀ (thr d L) none) Set.univ
          (cc1__gather_body L iV (Memref.isWhole_whole _) tV (Memref.isWhole_whole _) oV (Memref.isWhole_whole _)
            sI (Memref.isWhole_whole _) sB (Memref.isWhole_whole _) cc1_scratch2 cc1_scratch3 cc1_scoped0)
          fun _ => iprop(((iRowK L).view.loc (thr d L) ↦[(iRowK L).view.set]{fullShare} fi)
            ∗ ((tV).view.loc (thr d L) ↦{q} ft)
            ∗ ((oV).view.loc (thr d L) ↦[oRowSet (widL L)]{fullShare} outF fi ft)
            ∗ (∃ f, (sI).view.loc (thr d L) ↦{fullShare} f) ∗ (∃ f, (sB).view.loc (thr d L) ↦{fullShare} f)
            ∗ semVal (cell d L g0) 0 ∗ semVal (cell d L g1) 0 ∗ semVal (cell d L g2) 0 ∗ semVal (cell d L g3) 0
            ∗ semVal (cell d L s0) 0 ∗ semVal (cell d L s1) 0 ∗ semVal (cell d L s2) 0 ∗ semVal (cell d L s3) 0 ∗ semVal (cell d L z0) 0
            ∗ ∃ W', ⌜∀ p ∈ W', p ∈ W ∨ p.2 = none⌝ ∗ owes (thr d L) O W') := by
  have hin := lists_inb d L fi hpre
  iintro ⟨#Hmw, Hi, Ht, Ho, Hs, Hb, H4, H5, H6, H7, H8, H9, H10, H11, H12, HO⟩
  rw [cc1__gather_body_eq_skeleton]; unfold cc1__gather_body_skel
  -- the first copy and its wait: the word scratch filled with the tile's token row (the slots set aside)
  ihave Hb' := (Entails.of_eq (keep_eq _).symm) $$ Hb
  sl_exec
  sl_unfold_run_names
  -- the word scratch as its lists, the row scratch as its slots, the block as its windows, the share as read tokens
  ihave Hb := (Entails.of_eq (keep_eq _)) $$ Hb'
  ihave Hs' := (Entails.of_eq (rows_open d L _)) $$ Hs
  ihave Hsl := (Entails.of_eq (slots_open d L _)) $$ Hb
  ihave Hw := (Entails.of_eq (wins_open d L _)) $$ Ho
  ihave X := (Entails.of_eq (Ico_peel 0 1 200 (by omega) rfl _)) $$ Hs'; icases X with ⟨Hr0, Hs'⟩
  ihave X := (Entails.of_eq (Ico_peel 1 2 200 (by omega) rfl _)) $$ Hs'; icases X with ⟨Hr1, Hs'⟩
  ihave X := (Entails.of_eq (Ico_peel 2 3 200 (by omega) rfl _)) $$ Hs'; icases X with ⟨Hr2, Hs'⟩
  ihave X := (Entails.of_eq (Ico_peel 3 4 200 (by omega) rfl _)) $$ Hs'; icases X with ⟨Hr3, Hs'⟩
  ihave X := (Entails.of_eq (Ico_peel 4 5 200 (by omega) rfl _)) $$ Hs'; icases X with ⟨Hr4, Hs'⟩
  ihave X := (Entails.of_eq (Ico_peel 5 6 200 (by omega) rfl _)) $$ Hs'; icases X with ⟨Hr5, Hs'⟩
  ihave X := (Entails.of_eq (Ico_peel 0 1 4 (by omega) rfl _)) $$ Hsl; icases X with ⟨Hb0, Hsl⟩
  ihave X := (Entails.of_eq (Ico_peel 1 2 4 (by omega) rfl _)) $$ Hsl; icases X with ⟨Hb1, Hsl⟩
  ihave X := (Entails.of_eq (Ico_peel 2 3 4 (by omega) rfl _)) $$ Hsl; icases X with ⟨Hb2, Hsl⟩
  ihave X := (Entails.of_eq (Ico_peel 3 4 4 (by omega) rfl _)) $$ Hsl; icases X with ⟨Hb3, -⟩
  ihave X := (Entails.of_eq (Ico_peel 0 1 200 (by omega) rfl _)) $$ Hw; icases X with ⟨Hw0, Hw⟩
  ihave X := (Entails.of_eq (Ico_peel 1 2 200 (by omega) rfl _)) $$ Hw; icases X with ⟨Hw1, Hw⟩
  ihave X := (Entails.of_eq (Ico_peel 2 3 200 (by omega) rfl _)) $$ Hw; icases X with ⟨Hw2, Hw⟩
  ihave X := (Entails.of_eq (Ico_peel 3 4 200 (by omega) rfl _)) $$ Hw; icases X with ⟨Hw3, Hw⟩
  ihave X := ((tok_step0 q ft).1) $$ Ht; icases X with ⟨Ht, Hk0⟩
  ihave X := ((tok_step' q ft 1 2 rfl).1) $$ Ht; icases X with ⟨Ht, Hk1⟩
  ihave X := ((tok_step' q ft 2 3 rfl).1) $$ Ht; icases X with ⟨Ht, Hk2⟩
  ihave X := ((tok_step' q ft 3 4 rfl).1) $$ Ht; icases X with ⟨Ht, Hk3⟩
  ihave X := ((tok_step' q ft 4 5 rfl).1) $$ Ht; icases X with ⟨Ht, Ht4⟩
  ihave X := ((tok_step' q ft 5 6 rfl).1) $$ Ht; icases X with ⟨Ht, Ht5⟩
  ihave X := ((tok_step' q ft 6 7 rfl).1) $$ Ht; icases X with ⟨Ht, Ht6⟩
  ihave X := ((tok_step' q ft 7 8 rfl).1) $$ Ht; icases X with ⟨Ht, Ht7⟩
  -- the pieces in the program's own spelling
  ihave Hb0 := (Entails.of_eq (show (slotPts d L 0 fb : sProp 𝕄) = ((slotP0).view.loc (thr d L) ↦[(slotP0).view.set]{fullShare} fb) from rfl)) $$ Hb0
  ihave Hb1 := (Entails.of_eq (show (slotPts d L 1 fb : sProp 𝕄) = ((slotP1).view.loc (thr d L) ↦[(slotP1).view.set]{fullShare} fb) from rfl)) $$ Hb1
  ihave Hb2 := (Entails.of_eq (show (slotPts d L 2 fb : sProp 𝕄) = ((slotP2).view.loc (thr d L) ↦[(slotP2).view.set]{fullShare} fb) from rfl)) $$ Hb2
  ihave Hb3 := (Entails.of_eq (show (slotPts d L 3 fb : sProp 𝕄) = ((slotP3).view.loc (thr d L) ↦[(slotP3).view.set]{fullShare} fb) from rfl)) $$ Hb3
  ihave Hr0 := (Entails.of_eq (show (rowPts d L fi fs 0 : sProp 𝕄) = ((rowP 0 inb_S200x128_S1x128_0_0).view.loc (thr d L) ↦[(rowP 0 inb_S200x128_S1x128_0_0).view.set]{fullShare} fIof d L fi fs) from rfl)) $$ Hr0
  ihave Hr1 := (Entails.of_eq (show (rowPts d L fi fs 1 : sProp 𝕄) = ((rowP 1 inb_S200x128_S1x128_1_0).view.loc (thr d L) ↦[(rowP 1 inb_S200x128_S1x128_1_0).view.set]{fullShare} fIof d L fi fs) from rfl)) $$ Hr1
  ihave Hr2 := (Entails.of_eq (show (rowPts d L fi fs 2 : sProp 𝕄) = ((rowP 2 inb_S200x128_S1x128_2_0).view.loc (thr d L) ↦[(rowP 2 inb_S200x128_S1x128_2_0).view.set]{fullShare} fIof d L fi fs) from rfl)) $$ Hr2
  ihave Hr3 := (Entails.of_eq (show (rowPts d L fi fs 3 : sProp 𝕄) = ((rowP 3 inb_S200x128_S1x128_3_0).view.loc (thr d L) ↦[(rowP 3 inb_S200x128_S1x128_3_0).view.set]{fullShare} fIof d L fi fs) from rfl)) $$ Hr3
  ihave Hr4 := (Entails.of_eq (show (rowPts d L fi fs 4 : sProp 𝕄) = ((rowP 4 inb_S200x128_S1x128_4_0).view.loc (thr d L) ↦[(rowP 4 inb_S200x128_S1x128_4_0).view.set]{fullShare} fIof d L fi fs) from rfl)) $$ Hr4
  ihave Hr5 := (Entails.of_eq (show (rowPts d L fi fs 5 : sProp 𝕄) = ((rowP 5 inb_S200x128_S1x128_5_0).view.loc (thr d L) ↦[(rowP 5 inb_S200x128_S1x128_5_0).view.set]{fullShare} fIof d L fi fs) from rfl)) $$ Hr5
  ihave Hw0 := (Entails.of_eq (show (winPts d L 0 fo : sProp 𝕄) = ((winP2 L 0).view.loc (thr d L) ↦[(winP2 L 0).view.set]{fullShare} fo) from (pts_set_congr (winP2_set L 0) fo).symm)) $$ Hw0
  ihave Hw1 := (Entails.of_eq (show (winPts d L 1 fo : sProp 𝕄) = ((winP2 L 1).view.loc (thr d L) ↦[(winP2 L 1).view.set]{fullShare} fo) from (pts_set_congr (winP2_set L 1) fo).symm)) $$ Hw1
  ihave Hw2 := (Entails.of_eq (show (winPts d L 2 fo : sProp 𝕄) = ((winP2 L 2).view.loc (thr d L) ↦[(winP2 L 2).view.set]{fullShare} fo) from (pts_set_congr (winP2_set L 2) fo).symm)) $$ Hw2
  ihave Hw3 := (Entails.of_eq (show (winPts d L 3 fo : sProp 𝕄) = ((winP2 L 3).view.loc (thr d L) ↦[(winP2 L 3).view.set]{fullShare} fo) from (pts_set_congr (winP2_set L 3) fo).symm)) $$ Hw3
  -- what is left of the share stays out of the run
  ihave Ht := (Entails.of_eq (keep_eq _).symm) $$ Ht
  ihave Hk0 := (Entails.of_eq (keep_eq _).symm) $$ Hk0
  ihave Hk1 := (Entails.of_eq (keep_eq _).symm) $$ Hk1
  ihave Hk2 := (Entails.of_eq (keep_eq _).symm) $$ Hk2
  ihave Hk3 := (Entails.of_eq (keep_eq _).symm) $$ Hk3
  sl_exec
  sl_unfold_run_names
  -- the four transfers in flight, as the invariant states them
  ihave HG0 : (GF d L q fi ft fs 0 4) $$ [H4]
  · unfold GF
    iapply (Transfers.Flight_mono (Lvl := ℕ) countersEmb (thr d L) (gd_ofO d L q fi ft fs 0 4 ![0, 0, 0] inb_S4x128x128_S1x128x128_0_0_0 ![4, 0] inb_S200x128_S1x128_4_0 (Transfers.shareTokN q 4) rfl rfl rfl _ _ _ _))
    iexact H4
  ihave HG1 : (GF d L q fi ft fs 1 5) $$ [H5]
  · unfold GF
    iapply (Transfers.Flight_mono (Lvl := ℕ) countersEmb (thr d L) (gd_ofO d L q fi ft fs 1 5 ![1, 0, 0] inb_S4x128x128_S1x128x128_1_0_0 ![5, 0] inb_S200x128_S1x128_5_0 (Transfers.shareTokN q 5) rfl rfl rfl _ _ _ _))
    iexact H5
  ihave HS2 : (SF d L fi ft 2 2) $$ [H10]
  · unfold SF
    iapply (Transfers.Flight_mono (Lvl := ℕ) countersEmb (thr d L) (sd_ofO d L fi ft 2 2 (by omega) (k1_off2 L (k1_off2_at 2)) (k1_off2_inb L 2) ![2, 0, 0] inb_S4x128x128_S1x128x128_2_0_0 (off2_eq' L 2) rfl _ _
      (slot_valO d L fi ft fs 2 2 ![2, 0, 0] inb_S4x128x128_S1x128x128_2_0_0 ![2, 0] inb_S200x128_S1x128_2_0 rfl rfl _ _ _ _)))
    iexact H10
  ihave HS3 : (SF d L fi ft 3 3) $$ [H11]
  · unfold SF
    iapply (Transfers.Flight_mono (Lvl := ℕ) countersEmb (thr d L) (sd_ofO d L fi ft 3 3 (by omega) (k1_off2 L (k1_off2_at 3)) (k1_off2_inb L 3) ![3, 0, 0] inb_S4x128x128_S1x128x128_3_0_0 (off2_eq' L 3) rfl _ _
      (slot_valO d L fi ft fs 3 3 ![3, 0, 0] inb_S4x128x128_S1x128x128_3_0_0 ![3, 0] inb_S200x128_S1x128_3_0 rfl rfl _ _ _ _)))
    iexact H11
  -- the two windows already copied hold the output; the four lists already read
  ihave Hwd : (bigSep (Finset.Ico 0 2) (fun j => winPts d L j (outF fi ft))) $$ [Hw0 Hw1]
  · iapply (Ico_two_intro (fun j => winPts d L j (outF fi ft)))
    isplitl [Hw0]
    · iapply (Entails.of_eq (win_doneO d L fi ft 0 0 (by omega) (k1_off2 L (k1_off2_at 0)) (k1_off2_inb L 0) (off2_eq' L 0) _ _
        (slot_valO d L fi ft fs 0 0 ![0, 0, 0] inb_S4x128x128_S1x128x128_0_0_0 ![0, 0] inb_S200x128_S1x128_0_0 rfl rfl _ _ _ _)))
      iexact Hw0
    · iapply (Entails.of_eq (win_doneO d L fi ft 1 1 (by omega) (k1_off2 L (k1_off2_at 1)) (k1_off2_inb L 1) (off2_eq' L 1) _ _
        (slot_valO d L fi ft fs 1 1 ![1, 0, 0] inb_S4x128x128_S1x128x128_1_0_0 ![1, 0] inb_S200x128_S1x128_1_0 rfl rfl _ _ _ _)))
      iexact Hw1
  ihave Hrd : (bigSep (Finset.Ico 0 4) (fun j => rowPts d L fi fs j)) $$ [Hr0 Hr1 Hr2 Hr3]
  · iapply (Ico_four_intro (fun j => rowPts d L fi fs j))
    isplitl [Hr0]; · iexact Hr0
    isplitl [Hr1]; · iexact Hr1
    isplitl [Hr2]; · iexact Hr2
    iexact Hr3
  sl_for (Inv d L q fi ft fs fo O W) $$ [Hmw Hi HG0 HG1 HS2 HS3 Ht6 Ht7 Hrd Hs' Hwd Hw H6 H7 H8 H9 H12 HO]
  case region =>
    intro k acc
    exact trip d L q fi ft fo fs hpre O W k acc
  · unfold Inv
    isplitr; · iexact Hmw
    isplitl [Hi]; · iexact Hi
    isplitl [HG0]; · iexact HG0
    isplitl [HG1]; · iexact HG1
    isplitl [HS2]; · iexact HS2
    isplitl [HS3]; · iexact HS3
    isplitl [Ht6]; · iexact Ht6
    isplitl [Ht7]; · iexact Ht7
    isplitl [Hrd]; · iexact Hrd
    isplitl [Hs']; · iexact Hs'
    isplitl [Hwd]; · iexact Hwd
    isplitl [Hw]; · iexact Hw
    isplitl [H6]; · iexact H6
    isplitl [H7]; · iexact H7
    isplitl [H8]; · iexact H8
    isplitl [H9]; · iexact H9
    isplitl [H12]; · iexact H12
    iexists _; isplitr
    swap; · iexact HO
    ipureintro
    exact ins_ok _ _ _ (ins_ok _ _ _ (ins_ok _ _ _ (ins_ok _ _ _ (ins_ok _ _ _ (ins_ok _ _ _ (ins_ok _ _ _ (fun p hp => .inl hp)))))))
  -- after the last trip: the invariant at trip 48
  iintro %acc HI
  have h48 : Scf.trips k1_t1_loop.lb k1_t1_loop.ub k1_t1_loop.st = 48 := by decide
  rw [h48]
  unfold Inv
  rw [show (4 * 48 + 4 : ℕ) = 196 from rfl, show (4 * 48 + 5 : ℕ) = 197 from rfl, show (4 * 48 + 2 : ℕ) = 194 from rfl,
    show (4 * 48 + 3 : ℕ) = 195 from rfl, show (4 * 48 + 6 : ℕ) = 198 from rfl]
  icases HI with ⟨-, Hi, HG0, HG1, HS2, HS3, Hq2, Hq3, Hrd, Hrt, Hwd, Hwt, H6, H7, H8, H9, H12, %W', %hW', HO⟩
  sl_unfold_run_names
  sl_exec
  -- the copy of slot 2 to window 194 has landed: the window holds its rows of the output, the slot is free
  ihave Hfl := (Entails.of_eq (show (SF d L fi ft 2 194 : sProp 𝕄) = Transfers.Flight countersEmb (thr d L) (.dma s2) (default : HIx 1) NC (SD d L fi ft 2 194) from rfl)) $$ HS2
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s2)) $$ Hmw
  iintro ⟨HD, H10, HO⟩
  ihave HD := (Entails.of_eq (show (SD d L fi ft 2 194 : sProp 𝕄) = iprop(winPts d L 194 (outF fi ft) ∗ ∃ g, slotPts d L 2 g) from rfl)) $$ HD
  icases HD with ⟨Hw194, %gb2, Hb2⟩
  -- the gather of list 198 into the freed slot 2
  ihave X := (Entails.of_eq (Ico_peel 198 199 200 (by omega) rfl _)) $$ Hrt; icases X with ⟨Hr198, Hrt⟩
  ihave Hb2 := (Entails.of_eq (slot_prog d L 2 ![2, 0, 0] inb_S4x128x128_S1x128x128_2_0_0 rfl gb2)) $$ Hb2
  ihave Hr198 := (Entails.of_eq (row_prog d L fi fs 198 ![198, 0] inb_S200x128_S1x128_198_0 rfl)) $$ Hr198
  sl_exec
  sl_unfold_run_names
  iclear Hq2
  ihave HG2 : (GF d L q fi ft fs 2 198) $$ [H6]
  · unfold GF
    iapply (Transfers.Flight_mono (Lvl := ℕ) countersEmb (thr d L) (gd_ofO d L q fi ft fs 2 198 ![2, 0, 0] inb_S4x128x128_S1x128x128_2_0_0 ![198, 0] inb_S200x128_S1x128_198_0 (Transfers.shareTokN q (4 + 2)) rfl rfl rfl _ _ _ _))
    iexact H6
  -- the gather of list 196 has landed in slot 0: the slot holds chunk 196
  ihave Hfl := (Entails.of_eq (show (GF d L q fi ft fs 0 196 : sProp 𝕄) = Transfers.Flight countersEmb (thr d L) (.dma g0) (default : HIx 1) NC (GD d L q fi ft fs 0 196) from rfl)) $$ HG0
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g0)) $$ Hmw
  iintro ⟨HD, H4, HO⟩
  ihave HD := (Entails.of_eq (show (GD d L q fi ft fs 0 196 : sProp 𝕄) = iprop(((∃ g, slotPts d L 0 g ∗ ⌜(slotM 0).view.read (Elt F) g = chunkVal fi ft L 196⌝) ∗ rowPts d L fi fs 196) ∗ tokLent d L q ft 0) from rfl)) $$ HD
  icases HD with ⟨⟨⟨%gb0, Hb0, %hg0⟩, Hr196⟩, Hl0⟩
  -- the copy of slot 0 to window 196
  ihave X := (Entails.of_eq (Ico_peel 196 197 200 (by omega) rfl _)) $$ Hwt; icases X with ⟨Hw196, Hwt⟩
  ihave Hb0 := (Entails.of_eq (slot_prog d L 0 ![0, 0, 0] inb_S4x128x128_S1x128x128_0_0_0 rfl gb0)) $$ Hb0
  ihave Hw196 := (Entails.of_eq (win_prog d L 196 (k1_off2 L (k1_off2_at 4)) (k1_off2_inb L 4) (off2_eq' L 4) fo)) $$ Hw196
  sl_exec
  sl_unfold_run_names
  ihave HS0 : (SF d L fi ft 0 196) $$ [H8]
  · unfold SF
    iapply (Transfers.Flight_mono (Lvl := ℕ) countersEmb (thr d L) (sd_ofO d L fi ft 0 196 (by omega) (k1_off2 L (k1_off2_at 4)) (k1_off2_inb L 4) ![0, 0, 0] inb_S4x128x128_S1x128x128_0_0_0 (off2_eq' L 4) rfl fo gb0 hg0))
    iexact H8
  -- the copy of slot 3 to window 195 has landed
  ihave Hfl := (Entails.of_eq (show (SF d L fi ft 3 195 : sProp 𝕄) = Transfers.Flight countersEmb (thr d L) (.dma s3) (default : HIx 1) NC (SD d L fi ft 3 195) from rfl)) $$ HS3
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s3)) $$ Hmw
  iintro ⟨HD, H11, HO⟩
  ihave HD := (Entails.of_eq (show (SD d L fi ft 3 195 : sProp 𝕄) = iprop(winPts d L 195 (outF fi ft) ∗ ∃ g, slotPts d L 3 g) from rfl)) $$ HD
  icases HD with ⟨Hw195, %gb3, Hb3⟩
  -- the gather of list 199, the last, into the freed slot 3
  ihave X := (Entails.of_eq (Ico_peel 199 200 200 (by omega) rfl _)) $$ Hrt; icases X with ⟨Hr199, -⟩
  ihave Hb3 := (Entails.of_eq (slot_prog d L 3 ![3, 0, 0] inb_S4x128x128_S1x128x128_3_0_0 rfl gb3)) $$ Hb3
  ihave Hr199 := (Entails.of_eq (row_prog d L fi fs 199 ![199, 0] inb_S200x128_S1x128_199_0 rfl)) $$ Hr199
  sl_exec
  sl_unfold_run_names
  iclear Hq3
  ihave HG3 : (GF d L q fi ft fs 3 199) $$ [H7]
  · unfold GF
    iapply (Transfers.Flight_mono (Lvl := ℕ) countersEmb (thr d L) (gd_ofO d L q fi ft fs 3 199 ![3, 0, 0] inb_S4x128x128_S1x128x128_3_0_0 ![199, 0] inb_S200x128_S1x128_199_0 (Transfers.shareTokN q (4 + 3)) rfl rfl rfl _ _ _ _))
    iexact H7
  -- the gather of list 197 has landed in slot 1: the slot holds chunk 197
  ihave Hfl := (Entails.of_eq (show (GF d L q fi ft fs 1 197 : sProp 𝕄) = Transfers.Flight countersEmb (thr d L) (.dma g1) (default : HIx 1) NC (GD d L q fi ft fs 1 197) from rfl)) $$ HG1
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g1)) $$ Hmw
  iintro ⟨HD, H5, HO⟩
  ihave HD := (Entails.of_eq (show (GD d L q fi ft fs 1 197 : sProp 𝕄) = iprop(((∃ g, slotPts d L 1 g ∗ ⌜(slotM 1).view.read (Elt F) g = chunkVal fi ft L 197⌝) ∗ rowPts d L fi fs 197) ∗ tokLent d L q ft 1) from rfl)) $$ HD
  icases HD with ⟨⟨⟨%gb1, Hb1, %hg1⟩, Hr197⟩, Hl1⟩
  -- the copy of slot 1 to window 197
  ihave X := (Entails.of_eq (Ico_peel 197 198 200 (by omega) rfl _)) $$ Hwt; icases X with ⟨Hw197, Hwt⟩
  ihave Hb1 := (Entails.of_eq (slot_prog d L 1 ![1, 0, 0] inb_S4x128x128_S1x128x128_1_0_0 rfl gb1)) $$ Hb1
  ihave Hw197 := (Entails.of_eq (win_prog d L 197 (k1_off2 L (k1_off2_at 5)) (k1_off2_inb L 5) (off2_eq' L 5) fo)) $$ Hw197
  sl_exec
  sl_unfold_run_names
  ihave HS1 : (SF d L fi ft 1 197) $$ [H9]
  · unfold SF
    iapply (Transfers.Flight_mono (Lvl := ℕ) countersEmb (thr d L) (sd_ofO d L fi ft 1 197 (by omega) (k1_off2 L (k1_off2_at 5)) (k1_off2_inb L 5) ![1, 0, 0] inb_S4x128x128_S1x128x128_1_0_0 (off2_eq' L 5) rfl fo gb1 hg1))
    iexact H9
  -- the gather of list 198 has landed in slot 2: the slot holds chunk 198
  ihave Hfl := (Entails.of_eq (show (GF d L q fi ft fs 2 198 : sProp 𝕄) = Transfers.Flight countersEmb (thr d L) (.dma g2) (default : HIx 1) NC (GD d L q fi ft fs 2 198) from rfl)) $$ HG2
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g2)) $$ Hmw
  iintro ⟨HD, H6, HO⟩
  ihave HD := (Entails.of_eq (show (GD d L q fi ft fs 2 198 : sProp 𝕄) = iprop(((∃ g, slotPts d L 2 g ∗ ⌜(slotM 2).view.read (Elt F) g = chunkVal fi ft L 198⌝) ∗ rowPts d L fi fs 198) ∗ tokLent d L q ft 2) from rfl)) $$ HD
  icases HD with ⟨⟨⟨%gc2, Hb2, %hg2⟩, Hr198⟩, Hl2⟩
  -- the copy of slot 2 to window 198
  ihave X := (Entails.of_eq (Ico_peel 198 199 200 (by omega) rfl _)) $$ Hwt; icases X with ⟨Hw198, Hwt⟩
  ihave Hb2 := (Entails.of_eq (slot_prog d L 2 ![2, 0, 0] inb_S4x128x128_S1x128x128_2_0_0 rfl gc2)) $$ Hb2
  ihave Hw198 := (Entails.of_eq (win_prog d L 198 (k1_off2 L (k1_off2_at 6)) (k1_off2_inb L 6) (off2_eq' L 6) fo)) $$ Hw198
  sl_exec
  sl_unfold_run_names
  ihave HS2 : (SF d L fi ft 2 198) $$ [H10]
  · unfold SF
    iapply (Transfers.Flight_mono (Lvl := ℕ) countersEmb (thr d L) (sd_ofO d L fi ft 2 198 (by omega) (k1_off2 L (k1_off2_at 6)) (k1_off2_inb L 6) ![2, 0, 0] inb_S4x128x128_S1x128x128_2_0_0 (off2_eq' L 6) rfl fo gc2 hg2))
    iexact H10
  -- the gather of list 199 has landed in slot 3: the slot holds chunk 199
  ihave Hfl := (Entails.of_eq (show (GF d L q fi ft fs 3 199 : sProp 𝕄) = Transfers.Flight countersEmb (thr d L) (.dma g3) (default : HIx 1) NC (GD d L q fi ft fs 3 199) from rfl)) $$ HG3
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma g3)) $$ Hmw
  iintro ⟨HD, H7, HO⟩
  ihave HD := (Entails.of_eq (show (GD d L q fi ft fs 3 199 : sProp 𝕄) = iprop(((∃ g, slotPts d L 3 g ∗ ⌜(slotM 3).view.read (Elt F) g = chunkVal fi ft L 199⌝) ∗ rowPts d L fi fs 199) ∗ tokLent d L q ft 3) from rfl)) $$ HD
  icases HD with ⟨⟨⟨%gc3, Hb3, %hg3⟩, Hr199⟩, Hl3⟩
  -- the copy of slot 3 to window 199, the last
  ihave X := (Entails.of_eq (Ico_peel 199 200 200 (by omega) rfl _)) $$ Hwt; icases X with ⟨Hw199, -⟩
  ihave Hb3 := (Entails.of_eq (slot_prog d L 3 ![3, 0, 0] inb_S4x128x128_S1x128x128_3_0_0 rfl gc3)) $$ Hb3
  ihave Hw199 := (Entails.of_eq (win_prog d L 199 (k1_off2 L (k1_off2_at 7)) (k1_off2_inb L 7) (off2_eq' L 7) fo)) $$ Hw199
  sl_exec
  sl_unfold_run_names
  ihave HS3 : (SF d L fi ft 3 199) $$ [H11]
  · unfold SF
    iapply (Transfers.Flight_mono (Lvl := ℕ) countersEmb (thr d L) (sd_ofO d L fi ft 3 199 (by omega) (k1_off2 L (k1_off2_at 7)) (k1_off2_inb L 7) ![3, 0, 0] inb_S4x128x128_S1x128x128_3_0_0 (off2_eq' L 7) rfl fo gc3 hg3))
    iexact H11
  -- the last four copies land: windows 196 to 199 hold their rows of the output, the slots are free
  ihave Hfl := (Entails.of_eq (show (SF d L fi ft 0 196 : sProp 𝕄) = Transfers.Flight countersEmb (thr d L) (.dma s0) (default : HIx 1) NC (SD d L fi ft 0 196) from rfl)) $$ HS0
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s0)) $$ Hmw
  iintro ⟨HD, H8, HO⟩
  ihave HD := (Entails.of_eq (show (SD d L fi ft 0 196 : sProp 𝕄) = iprop(winPts d L 196 (outF fi ft) ∗ ∃ g, slotPts d L 0 g) from rfl)) $$ HD
  icases HD with ⟨Hw196, %gd0, Hb0⟩
  sl_exec
  -- window 197
  ihave Hfl := (Entails.of_eq (show (SF d L fi ft 1 197 : sProp 𝕄) = Transfers.Flight countersEmb (thr d L) (.dma s1) (default : HIx 1) NC (SD d L fi ft 1 197) from rfl)) $$ HS1
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s1)) $$ Hmw
  iintro ⟨HD, H9, HO⟩
  ihave HD := (Entails.of_eq (show (SD d L fi ft 1 197 : sProp 𝕄) = iprop(winPts d L 197 (outF fi ft) ∗ ∃ g, slotPts d L 1 g) from rfl)) $$ HD
  icases HD with ⟨Hw197, %gd1, Hb1⟩
  sl_exec
  -- window 198
  ihave Hfl := (Entails.of_eq (show (SF d L fi ft 2 198 : sProp 𝕄) = Transfers.Flight countersEmb (thr d L) (.dma s2) (default : HIx 1) NC (SD d L fi ft 2 198) from rfl)) $$ HS2
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s2)) $$ Hmw
  iintro ⟨HD, H10, HO⟩
  ihave HD := (Entails.of_eq (show (SD d L fi ft 2 198 : sProp 𝕄) = iprop(winPts d L 198 (outF fi ft) ∗ ∃ g, slotPts d L 2 g) from rfl)) $$ HD
  icases HD with ⟨Hw198, %gd2, Hb2⟩
  sl_exec
  -- window 199
  ihave Hfl := (Entails.of_eq (show (SF d L fi ft 3 199 : sProp 𝕄) = Transfers.Flight countersEmb (thr d L) (.dma s3) (default : HIx 1) NC (SD d L fi ft 3 199) from rfl)) $$ HS3
  iapply (Transfers.wp_waitLocalO countersEmb 𝒱₀ (thr d L) none (default : HIx 1) (rfl : _ = NC)) $$ [Hfl HO]
  · isplitl [Hfl]; · iexact Hfl
    isplitl [HO]; · iexact HO
    iapply (Transfers.MayWaits.elim (SemLoc.dma s3)) $$ Hmw
  iintro ⟨HD, H11, HO⟩
  ihave HD := (Entails.of_eq (show (SD d L fi ft 3 199 : sProp 𝕄) = iprop(winPts d L 199 (outF fi ft) ∗ ∃ g, slotPts d L 3 g) from rfl)) $$ HD
  icases HD with ⟨Hw199, %gd3, Hb3⟩
  sl_exec
  -- everything back together: the 200 windows, all holding the output, are the tile's block; the 200 lists are the word
  -- scratch; the four slots are the row scratch; the eight read tokens and what was never split off are the table share
  ihave Hwd := (Entails.of_eq (Ico_push 0 194 195 (by omega) rfl (fun j => winPts d L j (outF fi ft))).symm) $$ [Hw194 Hwd]; · isplitl [Hw194] <;> iassumption
  ihave Hwd := (Entails.of_eq (Ico_push 0 195 196 (by omega) rfl (fun j => winPts d L j (outF fi ft))).symm) $$ [Hw195 Hwd]; · isplitl [Hw195] <;> iassumption
  ihave Hwd := (Entails.of_eq (Ico_push 0 196 197 (by omega) rfl (fun j => winPts d L j (outF fi ft))).symm) $$ [Hw196 Hwd]; · isplitl [Hw196] <;> iassumption
  ihave Hwd := (Entails.of_eq (Ico_push 0 197 198 (by omega) rfl (fun j => winPts d L j (outF fi ft))).symm) $$ [Hw197 Hwd]; · isplitl [Hw197] <;> iassumption
  ihave Hwd := (Entails.of_eq (Ico_push 0 198 199 (by omega) rfl (fun j => winPts d L j (outF fi ft))).symm) $$ [Hw198 Hwd]; · isplitl [Hw198] <;> iassumption
  ihave Hwd := (Entails.of_eq (Ico_push 0 199 200 (by omega) rfl (fun j => winPts d L j (outF fi ft))).symm) $$ [Hw199 Hwd]; · isplitl [Hw199] <;> iassumption
  ihave Hrd := (Entails.of_eq (Ico_push 0 196 197 (by omega) rfl (fun j => rowPts d L fi fs j)).symm) $$ [Hr196 Hrd]; · isplitl [Hr196] <;> iassumption
  ihave Hrd := (Entails.of_eq (Ico_push 0 197 198 (by omega) rfl (fun j => rowPts d L fi fs j)).symm) $$ [Hr197 Hrd]; · isplitl [Hr197] <;> iassumption
  ihave Hrd := (Entails.of_eq (Ico_push 0 198 199 (by omega) rfl (fun j => rowPts d L fi fs j)).symm) $$ [Hr198 Hrd]; · isplitl [Hr198] <;> iassumption
  ihave Hrd := (Entails.of_eq (Ico_push 0 199 200 (by omega) rfl (fun j => rowPts d L fi fs j)).symm) $$ [Hr199 Hrd]; · isplitl [Hr199] <;> iassumption
  iclear Ht4
  iclear Ht5
  have etok : ∀ b, (tokLent d L q ft b : sProp 𝕄) = tokPts d L q ft b := fun b => by
    show ((tV).view.loc (thr d L) ↦[(tAll).view.set]{Transfers.shareTokN q (4 + b)} ft : sProp 𝕄) = _
    rw [tAll_set]
  ihave Hc := (tile_close d L q fi ft fs gd0 gd1 gd2 gd3) $$ [Hwd Hrd Hb0 Hb1 Hb2 Hb3 Ht Hk0 Hk1 Hk2 Hk3 Hl0 Hl1 Hl2 Hl3]
  · isplitl [Hwd]; · iexact Hwd
    isplitl [Hrd]; · iexact Hrd
    isplitl [Hb0]; · iexact Hb0
    isplitl [Hb1]; · iexact Hb1
    isplitl [Hb2]; · iexact Hb2
    isplitl [Hb3]; · iexact Hb3
    isplitl [Ht]; · iapply (Entails.of_eq (keep_eq _)); iexact Ht
    isplitl [Hk0]; · iapply (Entails.of_eq (keep_eq _)); iexact Hk0
    isplitl [Hk1]; · iapply (Entails.of_eq (keep_eq _)); iexact Hk1
    isplitl [Hk2]; · iapply (Entails.of_eq (keep_eq _)); iexact Hk2
    isplitl [Hk3]; · iapply (Entails.of_eq (keep_eq _)); iexact Hk3
    isplitl [Hl0]; · iapply (Entails.of_eq (etok 0)); iexact Hl0
    isplitl [Hl1]; · iapply (Entails.of_eq (etok 1)); iexact Hl1
    isplitl [Hl2]; · iapply (Entails.of_eq (etok 2)); iexact Hl2
    iapply (Entails.of_eq (etok 3)); iexact Hl3
  icases Hc with ⟨Hout, Htab, Hsi, Hsb⟩
  sl_step
  isplitl [Hi]; · iexact Hi
  isplitl [Htab]; · iexact Htab
  isplitl [Hout]; · iexact Hout
  isplitl [Hsi]; · iexact Hsi
  isplitl [Hsb]; · iexact Hsb
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  -- every wait recorded since the invariant is a wait at the index of no handshake
  iexists _; isplitr
  swap; · iexact HO
  ipureintro; intro p hp
  repeat (rcases Finset.mem_insert.mp hp with hp | hp; · exact .inr (hp ▸ rfl))
  exact hW' p hp

end Cert.Proof.KB

end
-- ==== Proof.KBTileWrap.lean ====
/-
  One tile's run, as the launch asks for it.

  The launch hands a tile its row of the reshaped tokens, a read share of the scaled table, its block of the output, and
  everything scoped to its thread: its two scratch buffers among its own buffers, and its thirteen DMA semaphores at zero —
  on a vector subcore every DMA semaphore is scoped.  The body uses nine of the thirteen (four for the gathers, four for the
  copies out, one for the first copy); they are taken out of the thirteen one at a time, the other four staying together,
  and likewise the two scratch buffers out of the thread's own.  With those in hand the tile's run is `tile_core`; what it
  gives back is put together again in the launch's shape, the untouched remainder carried around the run.

  The launch asks the same of the kernel's label on each vector subcore of the call's grid: there the label is the gather
  body at the subcore's grid coordinates, the tile's number `2 s + c` is the one its share of the handshake is indexed by,
  and every word of its token row is below 100000 because every token is.
-/
import proofs.«217237_g17617955848579_cont_7to1_1664_16_alg».proof.Proof.KBTileCore
import proofs.«217237_g17617955848579_cont_7to1_1664_16_alg».proof.Proof.KBLaunchPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

/-! ## The tile's own semaphores: nine named, four more -/

omit [FloatOps F] in
/-- Every DMA semaphore of a vector subcore's thread is one of the thread's own scoped cells. -/
theorem cell_mem (sm : DmaSem sig) : cell d L sm ∈ ownCells (thr d L) := mem_ownCells.mpr ⟨rfl, rfl⟩

omit [FloatOps F] in
/-- Different semaphores are different cells. -/
theorem cell_ne {x y : DmaSem sig} (h : x ≠ y) : cell d L x ≠ cell d L y :=
  fun e => h (SemLoc.dma.inj (Prod.mk.inj e).2)

/-- The thread's own cells, and what is left as the nine are taken out in order. -/
abbrev C0 : Finset (GSem nD τ sig) := ownCells (thr d L)
abbrev C1 : Finset (GSem nD τ sig) := (C0 d L).erase (cell d L g0)
abbrev C2 : Finset (GSem nD τ sig) := (C1 d L).erase (cell d L g1)
abbrev C3 : Finset (GSem nD τ sig) := (C2 d L).erase (cell d L g2)
abbrev C4 : Finset (GSem nD τ sig) := (C3 d L).erase (cell d L g3)
abbrev C5 : Finset (GSem nD τ sig) := (C4 d L).erase (cell d L s0)
abbrev C6 : Finset (GSem nD τ sig) := (C5 d L).erase (cell d L s1)
abbrev C7 : Finset (GSem nD τ sig) := (C6 d L).erase (cell d L s2)
abbrev C8 : Finset (GSem nD τ sig) := (C7 d L).erase (cell d L s3)
abbrev C9 : Finset (GSem nD τ sig) := (C8 d L).erase (cell d L z0)

omit [FloatOps F] in
/-- A cell is still there after a different one was taken out. -/
theorem mem_step {s : Finset (GSem nD τ sig)} {x y : DmaSem sig} (h : x ≠ y) (hm : cell d L x ∈ s) :
    cell d L x ∈ s.erase (cell d L y) := Finset.mem_erase.mpr ⟨cell_ne d L h, hm⟩

omit [FloatOps F] in
/-- A cell is still there after any list of cells was taken out, if it differs from each of them. -/
theorem mem_foldl_erase (x : DmaSem sig) :
    ∀ (l : List (DmaSem sig)) (s : Finset (GSem nD τ sig)), cell d L x ∈ s → (∀ y ∈ l, x ≠ y) →
      cell d L x ∈ l.foldl (fun s y => s.erase (cell d L y)) s
  | [], _, hs, _ => hs
  | y :: l, _, hs, h =>
    mem_foldl_erase x l _ (mem_step d L (h y (List.mem_cons_self ..)) hs) fun z hz => h z (List.mem_cons_of_mem _ hz)

omit [FloatOps F] in
/-- A semaphore is among the thread's own cells less a list of others it differs from. -/
theorem mem_less (x : DmaSem sig) (l : List (DmaSem sig)) (h : ∀ y ∈ l, x ≠ y) :
    cell d L x ∈ l.foldl (fun s y => s.erase (cell d L y)) (ownCells (thr d L)) :=
  mem_foldl_erase d L x l _ (cell_mem d L x) h

omit [FloatOps F] in
theorem ownSems0_V :
    (ownSems0 (thr d L) : sProp 𝕄)
      = iprop(semVal (cell d L g0) 0 ∗ semVal (cell d L g1) 0 ∗ semVal (cell d L g2) 0 ∗ semVal (cell d L g3) 0
          ∗ semVal (cell d L s0) 0 ∗ semVal (cell d L s1) 0 ∗ semVal (cell d L s2) 0 ∗ semVal (cell d L s3) 0 ∗ semVal (cell d L z0) 0
          ∗ bigSep (C9 d L) fun g => semVal g 0) := by
  have h0 : cell d L g0 ∈ C0 d L := cell_mem d L g0
  have h1 : cell d L g1 ∈ C1 d L := mem_less d L g1 [g0] (by decide)
  have h2 : cell d L g2 ∈ C2 d L := mem_less d L g2 [g0, g1] (by decide)
  have h3 : cell d L g3 ∈ C3 d L := mem_less d L g3 [g0, g1, g2] (by decide)
  have h4 : cell d L s0 ∈ C4 d L := mem_less d L s0 [g0, g1, g2, g3] (by decide)
  have h5 : cell d L s1 ∈ C5 d L := mem_less d L s1 [g0, g1, g2, g3, s0] (by decide)
  have h6 : cell d L s2 ∈ C6 d L := mem_less d L s2 [g0, g1, g2, g3, s0, s1] (by decide)
  have h7 : cell d L s3 ∈ C7 d L := mem_less d L s3 [g0, g1, g2, g3, s0, s1, s2] (by decide)
  have h8 : cell d L z0 ∈ C8 d L := mem_less d L z0 [g0, g1, g2, g3, s0, s1, s2, s3] (by decide)
  unfold SparseCore.Cfg.ownSems0
  rw [SparseCore.bigSep_erase' h0, SparseCore.bigSep_erase' h1, SparseCore.bigSep_erase' h2, SparseCore.bigSep_erase' h3,
    SparseCore.bigSep_erase' h4, SparseCore.bigSep_erase' h5, SparseCore.bigSep_erase' h6, SparseCore.bigSep_erase' h7,
    SparseCore.bigSep_erase' h8]

/-! ## The tile's own buffers: the two scratch buffers, and the rest -/

omit [FloatOps F] in
theorem ownBufs_V :
    (ownBufs (thr d L) : sProp 𝕄)
      = iprop((∃ f, (sI).view.loc (thr d L) ↦{fullShare} f) ∗ (∃ f, (sB).view.loc (thr d L) ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The tile's row of the tokens, as the tile slices it and as the launch names it -/

omit [FloatOps F] in
theorem pts_iRowK (f : Buf (Elt F) (idxLoc d)) :
    ((iRowK L).view.loc (thr d L) ↦[(iRowK L).view.set]{fullShare} f : sProp 𝕄) = idxLoc d ↦[iRowSet (widL L)]{fullShare} f := by
  rw [iRowK_set]

/-! ## The tile's run in the launch's shape -/

set_option maxHeartbeats 1000000 in
/-- The tile on vector subcore `L` of device `d`: from its row of the tokens (every word below 100000), a read share of the
    table, its block of the output and everything scoped to its thread, to the block holding its rows of the output and
    everything else back. -/
theorem tile_body (hF : (K (F := F)).Facts) (q : PosShare TreeShare) (fi : Buf (Elt F) (idxLoc d)) (ft : Buf (Elt F) (tabLoc d))
    (fo : Buf (Elt F) (outLoc d)) (hpre : ∀ x, (fi x).toNat < 100000)
    (O : CellTallies nD τ sig (HIx 1)) (W : Waits sig (HIx 1)) (hO : ∀ g, O g none = 0) :
    iprop((levAts (K (F := F)).L (K (F := F)).lev : sProp 𝕄) ∗ emp
        ∗ ((idxLoc d ↦[iRowSet (widL L)]{fullShare} fi) ∗ (tabLoc d ↦{q} ft) ∗ (outLoc d ↦[oRowSet (widL L)]{fullShare} fo))
        ∗ scopedBufs (thr d L) ∗ scopedSems0 (thr d L) ∗ owes (thr d L) O W)
      ⊢ wp frame (wpE (defs₀ (F := F)) 𝒱₀ (thr d L) none) Set.univ
          (cc1__gather_body L iV (Memref.isWhole_whole _) tV (Memref.isWhole_whole _) oV (Memref.isWhole_whole _)
            sI (Memref.isWhole_whole _) sB (Memref.isWhole_whole _) cc1_scratch2 cc1_scratch3 cc1_scoped0)
          fun _ => iprop(((idxLoc d ↦[iRowSet (widL L)]{fullShare} fi) ∗ (tabLoc d ↦{q} ft) ∗ (outLoc d ↦[oRowSet (widL L)]{fullShare} outF fi ft))
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fb, Hb⟩, Hbufs⟩, ⟨Hg0, Hg1, Hg2, Hg3, Hs0, Hs1, Hs2, Hs3, Hz0, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iRowK (F := F) d L fi).symm) $$ Hi
  iapply (wp_wand_r frame _ Set.univ)
  isplitl [Hmw Hi' Ht Ho Hs Hb Hg0 Hg1 Hg2 Hg3 Hs0 Hs1 Hs2 Hs3 Hz0 HO]
  · iapply (tile_core d L q fi ft fo fs fb hpre O W)
    isplitl [Hmw]; · iexact Hmw
    isplitl [Hi']; · iexact Hi'
    isplitl [Ht]; · iexact Ht
    isplitl [Ho]; · iexact Ho
    isplitl [Hs]; · iexact Hs
    isplitl [Hb]; · iexact Hb
    isplitl [Hg0]; · iexact Hg0
    isplitl [Hg1]; · iexact Hg1
    isplitl [Hg2]; · iexact Hg2
    isplitl [Hg3]; · iexact Hg3
    isplitl [Hs0]; · iexact Hs0
    isplitl [Hs1]; · iexact Hs1
    isplitl [Hs2]; · iexact Hs2
    isplitl [Hs3]; · iexact Hs3
    isplitl [Hz0]; · iexact Hz0
    iexact HO
  · iintro %_ ⟨Hi, Ht, Ho, Hs, Hb, Hg0, Hg1, Hg2, Hg3, Hs0, Hs1, Hs2, Hs3, Hz0, HW⟩
    isplitl [Hi Ht Ho]
    · isplitl [Hi]; · iapply (Entails.of_eq (pts_iRowK (F := F) d L fi)); iexact Hi
      isplitl [Ht]; · iexact Ht
      iexact Ho
    isplitl [Hs Hb Hbufs]
    · isplitl [Hs]; · iexact Hs
      isplitl [Hb]; · iexact Hb
      iexact Hbufs
    isplitl [Hg0 Hg1 Hg2 Hg3 Hs0 Hs1 Hs2 Hs3 Hz0 Hsems]
    · isplitl [Hg0]; · iexact Hg0
      isplitl [Hg1]; · iexact Hg1
      isplitl [Hg2]; · iexact Hg2
      isplitl [Hg3]; · iexact Hg3
      isplitl [Hs0]; · iexact Hs0
      isplitl [Hs1]; · iexact Hs1
      isplitl [Hs2]; · iexact Hs2
      isplitl [Hs3]; · iexact Hs3
      isplitl [Hz0]; · iexact Hz0
      iexact Hsems
    iexact HW

variable (m : (ℓ : Loc nD τ sig) → Buf (Elt F) ℓ)

/-! ## The obligation the launch asks of a tile -/

/-- The grid coordinates of the tile on SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- On a vector subcore the kernel's label runs the gather body at the subcore's coordinates, on the whole arrays and the
    subcore's scratch. -/
theorem defs₀_vector (c : Fin τ.nSC) (s : Fin τ.nSub) :
    defs₀ (F := F) (.scVector c s) 1 ()
      = SparseCore.onTile hcore1 hsub1 (fun c s => cc1__gather_body (coordsV c s)
          iV (Memref.isWhole_whole _) tV (Memref.isWhole_whole _) oV (Memref.isWhole_whole _)
          sI (Memref.isWhole_whole _) sB (Memref.isWhole_whole _) cc1_scratch2 cc1_scratch3 cc1_scoped0) ⟨⟩ c s := rfl

omit [FloatOps F] in
/-- The tile's number read off its grid coordinates is the one the launch counts it by: `2 s + c`. -/
theorem widL_coordsV (c : Fin ((K (F := F)).nCore 0)) (i : Fin ((K (F := F)).nSub 0))
    (h0 : ((K (F := F)).core 0 c).val < grid1.bound 0) (h1 : ((K (F := F)).sub 0 i).val < grid1.bound 1) :
    widL (coordsV ⟨_, h0⟩ ⟨_, h1⟩) = wid (Fin.cast nCore_zero c) (Fin.cast nSub_zero i) := rfl

omit [FloatOps F] in
/-- The waits a tile leaves are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call meets the launch's obligation: handed its row of the tokens, its share of the table and its block
    of the output, it hands them back with the block holding its rows of the result. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tileQ (Fin.cast nCore_zero c) (Fin.cast nSub_zero i)) (idxF m d) (tabF m d) (m (outLoc d))
    (idxF_lt m hpre d) O W hO).trans (wp_mono frame _ _ fun _ => obl_post)

end Cert.Proof.KB

end
-- ==== Proof.KBRun.lean ====
/-
  The kernel program's run under the certificate's precondition, the tile's task supplied.

  Every weakly fair execution of the TensorCore's @main beside the SparseCores' threads terminates, nothing faulting;
  the result is the specification's function of the arguments and the arguments are unchanged.
-/
import proofs.«217237_g17617955848579_cont_7to1_1664_16_alg».proof.Proof.KBAssemble
import proofs.«217237_g17617955848579_cont_7to1_1664_16_alg».proof.Proof.KBTileWrap

noncomputable section

namespace Cert.Proof.KB

open Cert.Kernel Cert.Kernel.Gen
open Idealize.ShloMosaic Idealize.SL.Sem

variable {F : FTy → Type} [FloatOps F]

theorem run_pre [∀ e, Nonempty (Elt F e)] (m : (ℓ : Loc nD τ sig) → Buf (Elt F) ℓ) (ρ : Dev nD → PrngReg)
    (h : ∀ c : Dev nD, Cert.Pre_input_domain.fn (F := F)
      (m ((c.tc : Thread nD τ).loc main_arg0)) (m ((c.tc : Thread nD τ).loc main_arg1)) = fun _ => 1#1) :
    θ_run (Cert.Kernel.defs (F := F)) (Cert.Kernel.threads (F := F)) ⟨m, fun _ => 0, ρ⟩ (QC m) :=
  run_of_pre m ρ (fun hp => tileObl m facts hp) h

end Cert.Proof.KB

end
-- ==== Proof.lean ====
/-
  The certificate's claim for the embedding gather with a scale.

  Both programs compute one function of the two arguments, the specification `Spec.G`: entry (a, b, k) of the result is
  entry (row, k) of the table times the f32 word of √128, where `row` is the table row the token at (a, b) names.  The
  precondition bounds every token by 0 and 99999 as a signed word, so every token, read unsigned, names a row.

  The kernel scales the table, reads the tokens as 32 rows of 200 × 128 words, and has each of 32 tiles gather the
  scaled-table rows its words name into its block of the output; read back in the result's shape, row r of the output is
  the scaled table's row that token r names, which is `Spec.G`.  That run is proved once, for any float instance, ending
  with the result at `Spec.G` of the arguments and the arguments unchanged.  The word-level program and the idealized one
  are the same text, so each kernel frame is that run at its instance with the value forgotten, and the kernel's half of
  the comparison is the run at the ideal instance.

  The reference wraps negative tokens, masks tokens out of range and gathers; under the precondition the wrap and the
  mask do nothing, and its result is `Spec.G` of its arguments as well.  Its frame is its run with the value forgotten.

  The idealization rewrote no operation, so there is nothing to preserve.  For the comparison the two programs start from
  memories that agree on the arguments: the precondition, which speaks of the arguments only, transfers from the kernel's
  memory to the reference's, and both results are `Spec.G` of the same two arrays.
-/
import proofs.«217237_g17617955848579_cont_7to1_1664_16_alg».proof.Defs
import proofs.«217237_g17617955848579_cont_7to1_1664_16_alg».proof.Proof.Gen.Kernel
import proofs.«217237_g17617955848579_cont_7to1_1664_16_alg».proof.Proof.Gen.Kernel.Skeleton
import proofs.«217237_g17617955848579_cont_7to1_1664_16_alg».proof.Proof.Gen.Kernel.Launch
import proofs.«217237_g17617955848579_cont_7to1_1664_16_alg».proof.Proof.Gen.Kernel.Points
import proofs.«217237_g17617955848579_cont_7to1_1664_16_alg».proof.Proof.Gen.KernelIdeal
import proofs.«217237_g17617955848579_cont_7to1_1664_16_alg».proof.Proof.Gen.KernelIdeal.Skeleton
import proofs.«217237_g17617955848579_cont_7to1_1664_16_alg».proof.Proof.Gen.KernelIdeal.Launch
import proofs.«217237_g17617955848579_cont_7to1_1664_16_alg».proof.Proof.Gen.KernelIdeal.Points
import proofs.«217237_g17617955848579_cont_7to1_1664_16_alg».proof.Proof.Gen.ReferenceIdeal
import proofs.«217237_g17617955848579_cont_7to1_1664_16_alg».proof.Proof.Gen.Pre_input_domain
import proofs.«217237_g17617955848579_cont_7to1_1664_16_alg».proof.Proof.RefSpec
import proofs.«217237_g17617955848579_cont_7to1_1664_16_alg».proof.Proof.RefAgree
import proofs.«217237_g17617955848579_cont_7to1_1664_16_alg».proof.Proof.KIRun
import proofs.«217237_g17617955848579_cont_7to1_1664_16_alg».proof.Proof.KBRun
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  -- the word-level kernel's frame: its run, the value forgotten
  fun m g hpre => (θ_run (Cert.Kernel.defs (F := Bits)) _ _).mono (fun _ h c => (h c).2) (KB.run_pre (F := Bits) m g hpre),
  -- the idealized kernel's frame: the same run at the ideal instance, the value forgotten
  fun m g hpre => (θ_run (Cert.KernelIdeal.defs (F := Ideal)) _ _).mono (fun _ h c => (h c).2) (KI.run_pre (F := Ideal) m g hpre),
  -- the reference's frame
  Ref.frame,
  -- the idealization rewrote nothing
  trivial,
  -- both results are the specification's function of the kernel's arguments
  fun m g m' g' hpre hagree =>
    ⟨fun c => Spec.G (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      (θ_run (Cert.KernelIdeal.defs (F := Ideal)) _ _).mono (fun _ h c => h c) (KI.run_pre (F := Ideal) m g hpre),
      (θ_run (Cert.ReferenceIdeal.defs (F := Ideal)) _ _).mono
        (fun _ h c => ⟨by rw [(h c).1, (hagree c).1, (hagree c).2], (h c).2⟩)
        (Ref.run m' g' (Ref.pre_of_agree m m' hpre hagree))⟩⟩

end Cert.Proof

end
